-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S20000 : Shape := ⟨1, ![20000]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S3x256 .f32) (main_arg7 : FVec F S256x128 .f32) (main_arg8 : FVec F S128 .f32) (main_arg9 : FVec F S128x10 .f32) (main_arg10 : FVec F S10 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S20000x256 .f32) (main_arg1 : IVec S2x320000 32) (main_arg2 : IVec S20000 32) (main_arg3 : FVec F S3x256x256 .f32) (main_arg4 : FVec F S3x256 .f32) (main_arg5 : FVec F S3x256 .f32) (main_arg6 : FVec F S3x256 .f32) (main_arg7 : FVec F S256x128 .f32) (main_arg8 : FVec F S128 .f32) (main_arg9 : FVec F S128x10 .f32) (main_arg10 : FVec F S10 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S3x256x256 .f32 := Host.absf main_arg3
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg4
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256 .f32 := Host.absf main_arg5
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg6 main_arg7 main_arg8 main_arg9 main_arg10 main_v13 main_v16
-- ==== Kernel.lean ====
abbrev S20000x256 : Shape := ⟨2, ![20000, 256]⟩
abbrev S2x320000 : Shape := ⟨2, ![2, 320000]⟩
abbrev S20000 : Shape := ⟨1, ![20000]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x256x256 : Shape := ⟨3, ![1, 256, 256]⟩
abbrev S256x256 : Shape := ⟨2, ![256, 256]⟩
abbrev S2000x256 : Shape := ⟨2, ![2000, 256]⟩
abbrev S320000x256 : Shape := ⟨2, ![320000, 256]⟩
abbrev S20000x1 : Shape := ⟨2, ![20000, 1]⟩
abbrev S1x256 : Shape := ⟨2, ![1, 256]⟩
abbrev S256 : Shape := ⟨1, ![256]⟩
abbrev S64x256 : Shape := ⟨2, ![64, 256]⟩
abbrev S64 : Shape := ⟨1, ![64]⟩
abbrev S64x1 : Shape := ⟨2, ![64, 1]⟩
abbrev S1x128 : Shape := ⟨2, ![1, 128]⟩
abbrev S1x10 : Shape := ⟨2, ![1, 10]⟩
abbrev S64x10 : Shape := ⟨2, ![64, 10]⟩
abbrev S64x128 : Shape := ⟨2, ![64, 128]⟩

abbrev nBuf : Space → Nat
  | .hbm => 237
  | .vmem => 57
  | .smem => 0
  | _ => 0

abbrev hbmTy0_0 (i : Nat) : BufTy := match i % 128 with
  | 0 => ⟨S20000x256, .f32⟩
  | 1 => ⟨S2x320000, .i32⟩
  | 2 => ⟨S20000, .i32⟩
  | 3 => ⟨S3x256x256, .f32⟩
  | 4 => ⟨S3x256, .f32⟩
  | 5 => ⟨S3x256, .f32⟩
  | 6 => ⟨S3x256, .f32⟩
  | 7 => ⟨S256x128, .f32⟩
  | 8 => ⟨S128, .f32⟩
  | 9 => ⟨S128x10, .f32⟩
  | 10 => ⟨S10, .f32⟩
  | 11 => ⟨S1x320000, .i32⟩
  | 12 => ⟨S320000, .i32⟩
  | 13 => ⟨S1x320000, .i32⟩
  | 14 => ⟨S320000, .i32⟩
  | 15 => ⟨S_, .f32⟩
  | 16 => ⟨S320000, .f32⟩
  | 17 => ⟨S_, .f32⟩
  | 18 => ⟨S20000, .f32⟩
  | 19 => ⟨S320000x1, .i32⟩
  | 20 => ⟨S20000, .f32⟩
  | 21 => ⟨S_, .f32⟩
  | 22 => ⟨S20000, .f32⟩
  | 23 => ⟨S20000, .f32⟩
  | 24 => ⟨S20000, .f32⟩
  | 25 => ⟨S20000, .f32⟩
  | 26 => ⟨S1x256x256, .f32⟩
  | 27 => ⟨S256x256, .f32⟩
  | 28 => ⟨S20000x256, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S320000, .f32⟩
  | 48 => ⟨S320000x1, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x256, .f32⟩
  | 58 => ⟨S320000x256, .f32⟩
  | 59 => ⟨S320000x256, .f32⟩
  | 60 => ⟨S_, .f32⟩
  | 61 => ⟨S20000x256, .f32⟩
  | 62 => ⟨S320000x1, .i32⟩
  | 63 => ⟨S20000x256, .f32⟩
  | 64 => ⟨S20000x1, .f32⟩
  | 65 => ⟨S20000x256, .f32⟩
  | 66 => ⟨S20000x256, .f32⟩
  | 67 => ⟨S20000x256, .f32⟩
  | 68 => ⟨S1x256, .f32⟩
  | 69 => ⟨S256, .f32⟩
  | 70 => ⟨S1x256, .f32⟩
  | 71 => ⟨S20000x256, .f32⟩
  | 72 => ⟨S20000x256, .f32⟩
  | 73 => ⟨S1x256, .f32⟩
  | 74 => ⟨S1x256, .f32⟩
  | 75 => ⟨S_, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S1x256, .f32⟩
  | 82 => ⟨S1x256, .f32⟩
  | 83 => ⟨S1x256, .f32⟩
  | 84 => ⟨S256, .f32⟩
  | 85 => ⟨S1x256, .f32⟩
  | 86 => ⟨S256, .f32⟩
  | 87 => ⟨S1x256, .f32⟩
  | 88 => ⟨S1x256, .f32⟩
  | 89 => ⟨S20000x256, .f32⟩
  | 90 => ⟨S1x256x256, .f32⟩
  | 91 => ⟨S256x256, .f32⟩
  | 92 => ⟨S20000x256, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000, .f32⟩
  | 111 => ⟨S320000, .f32⟩
  | 112 => ⟨S320000x1, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x256, .f32⟩
  | 122 => ⟨S320000x256, .f32⟩
  | 123 => ⟨S320000x256, .f32⟩
  | 124 => ⟨S_, .f32⟩
  | 125 => ⟨S20000x256, .f32⟩
  | 126 => ⟨S320000x1, .i32⟩
  | 127 => ⟨S20000x256, .f32⟩
  | _ => ⟨S20000x256, .f32⟩

abbrev hbmTy0_1 (i : Nat) : BufTy := match i % 128 with
  | 0 => ⟨S20000x1, .f32⟩
  | 1 => ⟨S20000x256, .f32⟩
  | 2 => ⟨S20000x256, .f32⟩
  | 3 => ⟨S20000x256, .f32⟩
  | 4 => ⟨S1x256, .f32⟩
  | 5 => ⟨S256, .f32⟩
  | 6 => ⟨S1x256, .f32⟩
  | 7 => ⟨S20000x256, .f32⟩
  | 8 => ⟨S20000x256, .f32⟩
  | 9 => ⟨S1x256, .f32⟩
  | 10 => ⟨S1x256, .f32⟩
  | 11 => ⟨S_, .f32⟩
  | 12 => ⟨S1x256, .f32⟩
  | 13 => ⟨S1x256, .f32⟩
  | 14 => ⟨S_, .f32⟩
  | 15 => ⟨S1x256, .f32⟩
  | 16 => ⟨S1x256, .f32⟩
  | 17 => ⟨S1x256, .f32⟩
  | 18 => ⟨S1x256, .f32⟩
  | 19 => ⟨S1x256, .f32⟩
  | 20 => ⟨S256, .f32⟩
  | 21 => ⟨S1x256, .f32⟩
  | 22 => ⟨S256, .f32⟩
  | 23 => ⟨S1x256, .f32⟩
  | 24 => ⟨S1x256, .f32⟩
  | 25 => ⟨S20000x256, .f32⟩
  | 26 => ⟨S1x256x256, .f32⟩
  | 27 => ⟨S256x256, .f32⟩
  | 28 => ⟨S20000x256, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S320000, .f32⟩
  | 48 => ⟨S320000x1, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x256, .f32⟩
  | 58 => ⟨S320000x256, .f32⟩
  | 59 => ⟨S320000x256, .f32⟩
  | 60 => ⟨S_, .f32⟩
  | 61 => ⟨S20000x256, .f32⟩
  | 62 => ⟨S320000x1, .i32⟩
  | 63 => ⟨S20000x256, .f32⟩
  | 64 => ⟨S20000x1, .f32⟩
  | 65 => ⟨S20000x256, .f32⟩
  | 66 => ⟨S20000x256, .f32⟩
  | 67 => ⟨S20000x256, .f32⟩
  | 68 => ⟨S1x256, .f32⟩
  | 69 => ⟨S256, .f32⟩
  | 70 => ⟨S1x256, .f32⟩
  | 71 => ⟨S20000x256, .f32⟩
  | 72 => ⟨S20000x256, .f32⟩
  | 73 => ⟨S1x256, .f32⟩
  | 74 => ⟨S1x256, .f32⟩
  | 75 => ⟨S_, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S1x256, .f32⟩
  | 82 => ⟨S1x256, .f32⟩
  | 83 => ⟨S1x256, .f32⟩
  | 84 => ⟨S256, .f32⟩
  | 85 => ⟨S1x256, .f32⟩
  | 86 => ⟨S256, .f32⟩
  | 87 => ⟨S1x256, .f32⟩
  | 88 => ⟨S1x256, .f32⟩
  | 89 => ⟨S20000x256, .f32⟩
  | 90 => ⟨S_, .f32⟩
  | 91 => ⟨S64x256, .f32⟩
  | 92 => ⟨S20000x1, .i32⟩
  | 93 => ⟨S64x256, .f32⟩
  | 94 => ⟨S_, .f32⟩
  | 95 => ⟨S20000, .f32⟩
  | 96 => ⟨S_, .f32⟩
  | 97 => ⟨S64, .f32⟩
  | 98 => ⟨S20000x1, .i32⟩
  | 99 => ⟨S64, .f32⟩
  | 100 => ⟨S_, .f32⟩
  | 101 => ⟨S64, .f32⟩
  | 102 => ⟨S64, .f32⟩
  | 103 => ⟨S64x1, .f32⟩
  | 104 => ⟨S64x256, .f32⟩
  | 105 => ⟨S64x256, .f32⟩
  | 106 => ⟨S1x128, .f32⟩
  | 107 => ⟨S1x10, .f32⟩
  | 108 => ⟨S64x10, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S1x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S256x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S1x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | .local _ .vmem, ⟨51, _⟩ => ⟨S64x256, .f32⟩
  | .local _ .vmem, ⟨52, _⟩ => ⟨S256x128, .f32⟩
  | .local _ .vmem, ⟨53, _⟩ => ⟨S1x128, .f32⟩
  | .local _ .vmem, ⟨54, _⟩ => ⟨S128x10, .f32⟩
  | .local _ .vmem, ⟨55, _⟩ => ⟨S1x10, .f32⟩
  | .local _ .vmem, ⟨56, _⟩ => ⟨S64x10, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_10 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_12 : Ref sig .tc := ⟨.hbm, 102, rfl⟩
abbrev main_v76 : Ref sig .tc := ⟨.hbm, 103, rfl⟩
abbrev main_v77 : Ref sig .tc := ⟨.hbm, 104, rfl⟩
abbrev main_c_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_14 : Ref sig .tc := ⟨.hbm, 113, rfl⟩
abbrev main_v85 : Ref sig .tc := ⟨.hbm, 114, rfl⟩
abbrev main_v86 : Ref sig .tc := ⟨.hbm, 115, rfl⟩
abbrev main_c_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_16 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106_0 : Ref sig .tc := ⟨.hbm, 137, rfl⟩
abbrev main_v106_1 : Ref sig .tc := ⟨.hbm, 138, rfl⟩
abbrev main_cst_17 : Ref sig .tc := ⟨.hbm, 139, rfl⟩
abbrev main_v107 : Ref sig .tc := ⟨.hbm, 140, rfl⟩
abbrev main_v108 : Ref sig .tc := ⟨.hbm, 141, rfl⟩
abbrev main_cst_18 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_c_19 : Ref sig .tc := ⟨.hbm, 157, rfl⟩
abbrev main_v123 : Ref sig .tc := ⟨.hbm, 158, rfl⟩
abbrev main_v124 : Ref sig .tc := ⟨.hbm, 159, rfl⟩
abbrev main_c_20 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_c_21 : Ref sig .tc := ⟨.hbm, 166, rfl⟩
abbrev main_v130 : Ref sig .tc := ⟨.hbm, 167, rfl⟩
abbrev main_v131 : Ref sig .tc := ⟨.hbm, 168, rfl⟩
abbrev main_c_22 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_c_23 : Ref sig .tc := ⟨.hbm, 177, rfl⟩
abbrev main_v139 : Ref sig .tc := ⟨.hbm, 178, rfl⟩
abbrev main_v140 : Ref sig .tc := ⟨.hbm, 179, rfl⟩
abbrev main_c_24 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_25 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160_0 : Ref sig .tc := ⟨.hbm, 201, rfl⟩
abbrev main_v160_1 : Ref sig .tc := ⟨.hbm, 202, rfl⟩
abbrev main_cst_26 : Ref sig .tc := ⟨.hbm, 203, rfl⟩
abbrev main_v161 : Ref sig .tc := ⟨.hbm, 204, rfl⟩
abbrev main_v162 : Ref sig .tc := ⟨.hbm, 205, rfl⟩
abbrev main_cst_27 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_28 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_29 : Ref sig .tc := ⟨.hbm, 222, rfl⟩
abbrev main_v177 : Ref sig .tc := ⟨.hbm, 223, rfl⟩
abbrev main_cst_30 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_31 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg5_1 : Ref sig .tc := ⟨.vmem, 50, rfl⟩
abbrev cc9_stg0_0 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg4_0 : Ref sig .tc := ⟨.vmem, 55, rfl⟩
abbrev cc9_stg5_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem1_0 : DmaSem sig := 52
abbrev cc9_sem2_0 : DmaSem sig := 53
abbrev cc9_sem3_0 : DmaSem sig := 54
abbrev cc9_sem4_0 : DmaSem sig := 55
abbrev cc9_sem5_0 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S256x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x10 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  slices_S3x256x256_S1x256x256_0_0_0 : S3x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  shapeCasts_S1x256_S1x256 : S1x256.ShapeCasts S1x256
  reduces_S2000x256_S256 : S2000x256.Reduces [0] S256
  shapeCasts_S256_S1x256 : S256.ShapeCasts S1x256
  bcast_S_S1x256 : S_.BroadcastsInDim S1x256 (![] : Fin 0 → Fin S1x256.rank)
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S128_S1x128 : S128.ShapeCasts S1x128
  shapeCasts_S10_S1x10 : S10.ShapeCasts S1x10
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S20000_S320000x1_S320000_n_0_0_1_wf : ScatterDims.WF S20000 S320000x1 S320000 [] [0] [0] 1
  dot_S2000x256_S256x256_S2000x256_1_0_0_1_n_n_wf : DotDims.WF S2000x256 S256x256 S2000x256 [1] [0] [0] [1] [] []
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x128_S64x128_1_0_0_1_n_n_wf : DotDims.WF S64x256 S256x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S20000x256.size a
  hwx2_5 : ∀ i : grid2.Coords, EltTy.bits .f32 = 32 ∨ (Rect.block (s := S20000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S20000x256.size a
  hwx5_5 : ∀ i : grid5.Coords, EltTy.bits .f32 = 32 ∨ (Rect.block (s := S20000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S20000x256.size a
  hwx6_2 : ∀ i : grid6.Coords, EltTy.bits .f32 = 32 ∨ (Rect.block (s := S20000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S20000x256.size a
  hwx8_0 : ∀ i : grid8.Coords, EltTy.bits .f32 = 32 ∨ (Rect.block (s := S20000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S20000x256.size a
  hwx8_5 : ∀ i : grid8.Coords, EltTy.bits .f32 = 32 ∨ (Rect.block (s := S20000x256) S2000x256.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x256.size a ≤ S64x256.size a
  hwx9_0 : ∀ i : grid9.Coords, EltTy.bits .f32 = 32 ∨ (Rect.block (s := S64x256) S64x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x128.size a ≤ S256x128.size a
  hwx9_1 : ∀ i : grid9.Coords, EltTy.bits .f32 = 32 ∨ (Rect.block (s := S256x128) S256x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x10.size a ≤ S128x10.size a
  hwx9_3 : ∀ i : grid9.Coords, EltTy.bits .f32 = 32 ∨ (Rect.block (s := S128x10) S128x10.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x10.size a ≤ S1x10.size a
  hwx9_4 : ∀ i : grid9.Coords, EltTy.bits .f32 = 32 ∨ (Rect.block (s := S1x10) S1x10.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x10.size a ≤ S64x10.size a
  hwx9_5 : ∀ i : grid9.Coords, EltTy.bits .f32 = 32 ∨ (Rect.block (s := S64x10) S64x10.size (cc9_transform_5 i) (hinb9_5 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v105) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106_0) S1x256.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106_1) S1x256.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v105) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v118) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v119) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v119) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v122) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v159) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v160_0) S1x256.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v160_1) S1x256.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v159) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v162) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v166) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v171) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v172) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v173) S2000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v185) S64x256.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S256x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v186) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg9) S128x10.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v187) S1x10.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v188) S64x10.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S20000 : Shape := ⟨1, ![20000]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S320000x256 : Shape := ⟨2, ![320000, 256]⟩
abbrev S20000x1 : Shape := ⟨2, ![20000, 1]⟩
abbrev S64x256 : Shape := ⟨2, ![64, 256]⟩
abbrev S64 : Shape := ⟨1, ![64]⟩
abbrev S64x1 : Shape := ⟨2, ![64, 1]⟩
abbrev S64x128 : Shape := ⟨2, ![64, 128]⟩
abbrev S1x128 : Shape := ⟨2, ![1, 128]⟩
abbrev S64x10 : Shape := ⟨2, ![64, 10]⟩
abbrev S1x10 : Shape := ⟨2, ![1, 10]⟩

abbrev nBuf : Space → Nat
  | .hbm => 307
  | .vmem => 0
  | .smem => 0
  | _ => 0

abbrev hbmTy0_0 (i : Nat) : BufTy := match i % 128 with
  | 0 => ⟨S20000x256, .f32⟩
  | 1 => ⟨S2x320000, .i32⟩
  | 2 => ⟨S20000, .i32⟩
  | 3 => ⟨S3x256x256, .f32⟩
  | 4 => ⟨S3x256, .f32⟩
  | 5 => ⟨S3x256, .f32⟩
  | 6 => ⟨S3x256, .f32⟩
  | 7 => ⟨S256x128, .f32⟩
  | 8 => ⟨S128, .f32⟩
  | 9 => ⟨S128x10, .f32⟩
  | 10 => ⟨S10, .f32⟩
  | 11 => ⟨S1x320000, .i32⟩
  | 12 => ⟨S320000, .i32⟩
  | 13 => ⟨S1x320000, .i32⟩
  | 14 => ⟨S320000, .i32⟩
  | 15 => ⟨S_, .f32⟩
  | 16 => ⟨S320000, .f32⟩
  | 17 => ⟨S_, .f32⟩
  | 18 => ⟨S20000, .f32⟩
  | 19 => ⟨S320000x1, .i32⟩
  | 20 => ⟨S20000, .f32⟩
  | 21 => ⟨S_, .f32⟩
  | 22 => ⟨S20000, .f32⟩
  | 23 => ⟨S20000, .f32⟩
  | 24 => ⟨S20000, .f32⟩
  | 25 => ⟨S1x256x256, .f32⟩
  | 26 => ⟨S256x256, .f32⟩
  | 27 => ⟨S1x256, .f32⟩
  | 28 => ⟨S256, .f32⟩
  | 29 => ⟨S20000x256, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S320000, .f32⟩
  | 49 => ⟨S320000x1, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x256, .f32⟩
  | 59 => ⟨S320000x256, .f32⟩
  | 60 => ⟨S320000x256, .f32⟩
  | 61 => ⟨S_, .f32⟩
  | 62 => ⟨S20000x256, .f32⟩
  | 63 => ⟨S320000x1, .i32⟩
  | 64 => ⟨S20000x256, .f32⟩
  | 65 => ⟨S20000, .f32⟩
  | 66 => ⟨S20000x1, .f32⟩
  | 67 => ⟨S20000x256, .f32⟩
  | 68 => ⟨S20000x256, .f32⟩
  | 69 => ⟨S20000x256, .f32⟩
  | 70 => ⟨S1x256, .f32⟩
  | 71 => ⟨S20000x256, .f32⟩
  | 72 => ⟨S20000x256, .f32⟩
  | 73 => ⟨S1x256, .f32⟩
  | 74 => ⟨S256, .f32⟩
  | 75 => ⟨S1x256, .f32⟩
  | 76 => ⟨S256, .f32⟩
  | 77 => ⟨S_, .f32⟩
  | 78 => ⟨S256, .f32⟩
  | 79 => ⟨S_, .f32⟩
  | 80 => ⟨S256, .f32⟩
  | 81 => ⟨S256, .f32⟩
  | 82 => ⟨S1x256, .f32⟩
  | 83 => ⟨S20000x256, .f32⟩
  | 84 => ⟨S20000x256, .f32⟩
  | 85 => ⟨S20000x256, .f32⟩
  | 86 => ⟨S_, .f32⟩
  | 87 => ⟨S256, .f32⟩
  | 88 => ⟨S_, .f32⟩
  | 89 => ⟨S256, .f32⟩
  | 90 => ⟨S256, .f32⟩
  | 91 => ⟨S1x256, .f32⟩
  | 92 => ⟨S20000x256, .f32⟩
  | 93 => ⟨S20000x256, .f32⟩
  | 94 => ⟨S1x256, .f32⟩
  | 95 => ⟨S20000x256, .f32⟩
  | 96 => ⟨S20000x256, .f32⟩
  | 97 => ⟨S_, .f32⟩
  | 98 => ⟨S256, .f32⟩
  | 99 => ⟨S256, .f32⟩
  | 100 => ⟨S256, .f32⟩
  | 101 => ⟨S1x256, .f32⟩
  | 102 => ⟨S20000x256, .f32⟩
  | 103 => ⟨S20000x256, .f32⟩
  | 104 => ⟨S1x256, .f32⟩
  | 105 => ⟨S20000x256, .f32⟩
  | 106 => ⟨S20000x256, .f32⟩
  | 107 => ⟨S_, .f32⟩
  | 108 => ⟨S20000x256, .f32⟩
  | 109 => ⟨S20000x256, .f32⟩
  | 110 => ⟨S1x256x256, .f32⟩
  | 111 => ⟨S256x256, .f32⟩
  | 112 => ⟨S1x256, .f32⟩
  | 113 => ⟨S256, .f32⟩
  | 114 => ⟨S20000x256, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000, .f32⟩
  | 124 => ⟨S_, .i32⟩
  | 125 => ⟨S320000, .i32⟩
  | 126 => ⟨S320000, .i1⟩
  | 127 => ⟨S_, .i32⟩
  | _ => ⟨S20000x256, .f32⟩

abbrev hbmTy0_1 (i : Nat) : BufTy := match i % 128 with
  | 0 => ⟨S320000, .i32⟩
  | 1 => ⟨S320000, .i32⟩
  | 2 => ⟨S320000, .i32⟩
  | 3 => ⟨S320000x1, .i32⟩
  | 4 => ⟨S320000, .f32⟩
  | 5 => ⟨S320000, .f32⟩
  | 6 => ⟨S320000x1, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000x256, .f32⟩
  | 16 => ⟨S320000x256, .f32⟩
  | 17 => ⟨S320000x256, .f32⟩
  | 18 => ⟨S_, .f32⟩
  | 19 => ⟨S20000x256, .f32⟩
  | 20 => ⟨S320000x1, .i32⟩
  | 21 => ⟨S20000x256, .f32⟩
  | 22 => ⟨S20000, .f32⟩
  | 23 => ⟨S20000x1, .f32⟩
  | 24 => ⟨S20000x256, .f32⟩
  | 25 => ⟨S20000x256, .f32⟩
  | 26 => ⟨S20000x256, .f32⟩
  | 27 => ⟨S1x256, .f32⟩
  | 28 => ⟨S20000x256, .f32⟩
  | 29 => ⟨S20000x256, .f32⟩
  | 30 => ⟨S1x256, .f32⟩
  | 31 => ⟨S256, .f32⟩
  | 32 => ⟨S1x256, .f32⟩
  | 33 => ⟨S256, .f32⟩
  | 34 => ⟨S_, .f32⟩
  | 35 => ⟨S256, .f32⟩
  | 36 => ⟨S_, .f32⟩
  | 37 => ⟨S256, .f32⟩
  | 38 => ⟨S256, .f32⟩
  | 39 => ⟨S1x256, .f32⟩
  | 40 => ⟨S20000x256, .f32⟩
  | 41 => ⟨S20000x256, .f32⟩
  | 42 => ⟨S20000x256, .f32⟩
  | 43 => ⟨S_, .f32⟩
  | 44 => ⟨S256, .f32⟩
  | 45 => ⟨S_, .f32⟩
  | 46 => ⟨S256, .f32⟩
  | 47 => ⟨S256, .f32⟩
  | 48 => ⟨S1x256, .f32⟩
  | 49 => ⟨S20000x256, .f32⟩
  | 50 => ⟨S20000x256, .f32⟩
  | 51 => ⟨S1x256, .f32⟩
  | 52 => ⟨S20000x256, .f32⟩
  | 53 => ⟨S20000x256, .f32⟩
  | 54 => ⟨S_, .f32⟩
  | 55 => ⟨S256, .f32⟩
  | 56 => ⟨S256, .f32⟩
  | 57 => ⟨S256, .f32⟩
  | 58 => ⟨S1x256, .f32⟩
  | 59 => ⟨S20000x256, .f32⟩
  | 60 => ⟨S20000x256, .f32⟩
  | 61 => ⟨S1x256, .f32⟩
  | 62 => ⟨S20000x256, .f32⟩
  | 63 => ⟨S20000x256, .f32⟩
  | 64 => ⟨S_, .f32⟩
  | 65 => ⟨S20000x256, .f32⟩
  | 66 => ⟨S20000x256, .f32⟩
  | 67 => ⟨S1x256x256, .f32⟩
  | 68 => ⟨S256x256, .f32⟩
  | 69 => ⟨S1x256, .f32⟩
  | 70 => ⟨S256, .f32⟩
  | 71 => ⟨S20000x256, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000, .f32⟩
  | 90 => ⟨S320000, .f32⟩
  | 91 => ⟨S320000x1, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x256, .f32⟩
  | 101 => ⟨S320000x256, .f32⟩
  | 102 => ⟨S320000x256, .f32⟩
  | 103 => ⟨S_, .f32⟩
  | 104 => ⟨S20000x256, .f32⟩
  | 105 => ⟨S320000x1, .i32⟩
  | 106 => ⟨S20000x256, .f32⟩
  | 107 => ⟨S20000, .f32⟩
  | 108 => ⟨S20000x1, .f32⟩
  | 109 => ⟨S20000x256, .f32⟩
  | 110 => ⟨S20000x256, .f32⟩
  | 111 => ⟨S20000x256, .f32⟩
  | 112 => ⟨S1x256, .f32⟩
  | 113 => ⟨S20000x256, .f32⟩
  | 114 => ⟨S20000x256, .f32⟩
  | 115 => ⟨S1x256, .f32⟩
  | 116 => ⟨S256, .f32⟩
  | 117 => ⟨S1x256, .f32⟩
  | 118 => ⟨S256, .f32⟩
  | 119 => ⟨S_, .f32⟩
  | 120 => ⟨S256, .f32⟩
  | 121 => ⟨S_, .f32⟩
  | 122 => ⟨S256, .f32⟩
  | 123 => ⟨S256, .f32⟩
  | 124 => ⟨S1x256, .f32⟩
  | 125 => ⟨S20000x256, .f32⟩
  | 126 => ⟨S20000x256, .f32⟩
  | 127 => ⟨S20000x256, .f32⟩
  | _ => ⟨S20000x256, .f32⟩

abbrev hbmTy0_2 (i : Nat) : BufTy := match i % 128 with
  | 0 => ⟨S_, .f32⟩
  | 1 => ⟨S256, .f32⟩
  | 2 => ⟨S_, .f32⟩
  | 3 => ⟨S256, .f32⟩
  | 4 => ⟨S256, .f32⟩
  | 5 => ⟨S1x256, .f32⟩
  | 6 => ⟨S20000x256, .f32⟩
  | 7 => ⟨S20000x256, .f32⟩
  | 8 => ⟨S1x256, .f32⟩
  | 9 => ⟨S20000x256, .f32⟩
  | 10 => ⟨S20000x256, .f32⟩
  | 11 => ⟨S_, .f32⟩
  | 12 => ⟨S256, .f32⟩
  | 13 => ⟨S256, .f32⟩
  | 14 => ⟨S256, .f32⟩
  | 15 => ⟨S1x256, .f32⟩
  | 16 => ⟨S20000x256, .f32⟩
  | 17 => ⟨S20000x256, .f32⟩
  | 18 => ⟨S1x256, .f32⟩
  | 19 => ⟨S20000x256, .f32⟩
  | 20 => ⟨S20000x256, .f32⟩
  | 21 => ⟨S_, .f32⟩
  | 22 => ⟨S20000x256, .f32⟩
  | 23 => ⟨S20000x256, .f32⟩
  | 24 => ⟨S_, .f32⟩
  | 25 => ⟨S64x256, .f32⟩
  | 26 => ⟨S20000x1, .i32⟩
  | 27 => ⟨S64x256, .f32⟩
  | 28 => ⟨S_, .f32⟩
  | 29 => ⟨S20000, .f32⟩
  | 30 => ⟨S_, .f32⟩
  | 31 => ⟨S64, .f32⟩
  | 32 => ⟨S20000x1, .i32⟩
  | 33 => ⟨S64, .f32⟩
  | 34 => ⟨S_, .f32⟩
  | 35 => ⟨S64, .f32⟩
  | 36 => ⟨S64, .f32⟩
  | 37 => ⟨S64x1, .f32⟩
  | 38 => ⟨S64x256, .f32⟩
  | 39 => ⟨S64x256, .f32⟩
  | 40 => ⟨S64x128, .f32⟩
  | 41 => ⟨S1x128, .f32⟩
  | 42 => ⟨S64x128, .f32⟩
  | 43 => ⟨S64x128, .f32⟩
  | 44 => ⟨S_, .f32⟩
  | 45 => ⟨S64x128, .f32⟩
  | 46 => ⟨S64x128, .f32⟩
  | 47 => ⟨S64x10, .f32⟩
  | 48 => ⟨S1x10, .f32⟩
  | 49 => ⟨S64x10, .f32⟩
  | 50 => ⟨S64x10, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call0_cst : Ref sig .tc := ⟨.hbm, 107, rfl⟩
abbrev main_call0_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_13 : Ref sig .tc := ⟨.hbm, 115, rfl⟩
abbrev main_v87 : Ref sig .tc := ⟨.hbm, 116, rfl⟩
abbrev main_v88 : Ref sig .tc := ⟨.hbm, 117, rfl⟩
abbrev main_c_14 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_15 : Ref sig .tc := ⟨.hbm, 124, rfl⟩
abbrev main_v94 : Ref sig .tc := ⟨.hbm, 125, rfl⟩
abbrev main_v95 : Ref sig .tc := ⟨.hbm, 126, rfl⟩
abbrev main_c_16 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_17 : Ref sig .tc := ⟨.hbm, 135, rfl⟩
abbrev main_v103 : Ref sig .tc := ⟨.hbm, 136, rfl⟩
abbrev main_v104 : Ref sig .tc := ⟨.hbm, 137, rfl⟩
abbrev main_c_18 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_19 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_20 : Ref sig .tc := ⟨.hbm, 162, rfl⟩
abbrev main_v127 : Ref sig .tc := ⟨.hbm, 163, rfl⟩
abbrev main_cst_21 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_22 : Ref sig .tc := ⟨.hbm, 171, rfl⟩
abbrev main_v134 : Ref sig .tc := ⟨.hbm, 172, rfl⟩
abbrev main_cst_23 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_24 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_call1_cst : Ref sig .tc := ⟨.hbm, 192, rfl⟩
abbrev main_call1_v0 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_c_25 : Ref sig .tc := ⟨.hbm, 200, rfl⟩
abbrev main_v158 : Ref sig .tc := ⟨.hbm, 201, rfl⟩
abbrev main_v159 : Ref sig .tc := ⟨.hbm, 202, rfl⟩
abbrev main_c_26 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_c_27 : Ref sig .tc := ⟨.hbm, 209, rfl⟩
abbrev main_v165 : Ref sig .tc := ⟨.hbm, 210, rfl⟩
abbrev main_v166 : Ref sig .tc := ⟨.hbm, 211, rfl⟩
abbrev main_c_28 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_c_29 : Ref sig .tc := ⟨.hbm, 220, rfl⟩
abbrev main_v174 : Ref sig .tc := ⟨.hbm, 221, rfl⟩
abbrev main_v175 : Ref sig .tc := ⟨.hbm, 222, rfl⟩
abbrev main_c_30 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_31 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_cst_32 : Ref sig .tc := ⟨.hbm, 247, rfl⟩
abbrev main_v198 : Ref sig .tc := ⟨.hbm, 248, rfl⟩
abbrev main_cst_33 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_cst_34 : Ref sig .tc := ⟨.hbm, 256, rfl⟩
abbrev main_v205 : Ref sig .tc := ⟨.hbm, 257, rfl⟩
abbrev main_cst_35 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_cst_36 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_call2_cst : Ref sig .tc := ⟨.hbm, 277, rfl⟩
abbrev main_call2_v0 : Ref sig .tc := ⟨.hbm, 278, rfl⟩
abbrev main_v223 : Ref sig .tc := ⟨.hbm, 279, rfl⟩
abbrev main_cst_37 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_cst_38 : Ref sig .tc := ⟨.hbm, 284, rfl⟩
abbrev main_v227 : Ref sig .tc := ⟨.hbm, 285, rfl⟩
abbrev main_cst_39 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_cst_40 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_call3_cst : Ref sig .tc := ⟨.hbm, 300, rfl⟩
abbrev main_call3_v0 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S20000_S320000x1_S320000_n_0_0_1_wf : ScatterDims.WF S20000 S320000x1 S320000 [] [0] [0] 1
  dot_S20000x256_S256x256_S20000x256_1_0_0_1_n_n_wf : DotDims.WF S20000x256 S256x256 S20000x256 [1] [0] [0] [1] [] []
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x128_S64x128_1_0_0_1_n_n_wf : DotDims.WF S64x256 S256x128 S64x128 [1] [0] [0] [1] [] []
  dot_S64x128_S128x10_S64x10_1_0_0_1_n_n_wf : DotDims.WF S64x128 S128x10 S64x10 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run with its result named: every weakly fair execution of the ten regions and the host
  stretches between them ends with the result buffer at the last boundary's contents (the fold of the host
  stretches and of each region's write-backs from the launch memory) and with the argument arrays as launched.
-/
import proofs.«111193_j89515708383972_1_alg».proof.Proof.Gen.KernelIdeal.Frame

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main's segments from the launch, read at the result buffer and at the eleven arguments. -/
theorem run_result : θ_run defs (onTc (τ := τ) (main (F := F))) ⟨m, fun _ => 0, ρ⟩ (fun r => ∀ c : Dev nD,
      r.2.mem ((c.tc : Thread nD τ).loc main_v188) = W20 m ρ c (Proc.devRef .tc main_v188)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v188 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)

end Cert.KernelIdeal.Stages

end
-- ==== Proof.RefLayer.lean ====
/-
  The reference network, layer by layer, as functions of whole arrays.

  One graph-convolution layer of the reference is: the dense product of the node features with the layer's weight
  matrix; `agg`, the edge aggregation — every edge carries its source row scaled by the product of the two
  end nodes' inverse square-root degrees, the rows are summed at the edge's target, each node's own row scaled by
  its inverse degree is added, then the bias row —; and `norm`, the batch normalisation of each column by its
  mean `colMean` and its variance `colVar` (the mean of the squared centred entries), scaled by gamma, shifted by
  beta and clamped at zero. After three layers `pool` averages the node rows graph by graph and `head` is the
  two-layer perceptron. Each generated stage of the reference IS the corresponding function here, definitionally.
-/
import proofs.«111193_j89515708383972_1_alg».proof.Proof.RefReadP

noncomputable section

namespace Cert.ReferenceIdeal.Layer

open Idealize.ShloMosaic Cert.ReferenceIdeal Cert.ReferenceIdeal.ReadP Cert.ReferenceIdeal.Facts₀ Cert.ReferenceIdeal.Facts

variable {F : FTy → Type} [FloatOps F]

/-- A 256-vector spread over the 20000 rows. -/
def rows (v : (⟨S256, .f32⟩ : BufTy).Contents (Elt F)) : (⟨S20000x256, .f32⟩ : BufTy).Contents (Elt F) :=
  broadcastInDim S20000x256 ![0, 1] bcast_S1x256_S20000x256_0_1 (broadcastInDim S1x256 ![1] bcast_S256_S1x256_1 v)

/-- The edge aggregation of the product rows `hl`: the scaled source rows summed at each target, plus each node's
    own row scaled by its inverse degree, plus the bias row. -/
def agg (hl : (⟨S20000x256, .f32⟩ : BufTy).Contents (Elt F)) (x1 : (⟨S2x320000, .i32⟩ : BufTy).Contents (Elt F)) (bias : (⟨S256, .f32⟩ : BufTy).Contents (Elt F)) : (⟨S20000x256, .f32⟩ : BufTy).Contents (Elt F) :=
  addf (addf (Host.scatterAdd scatter_S20000x256_S320000x1_S320000x256_1_0_0_1 (val_main_v41 (F := F)) (val_main_v42 (F := F) x1)
      (mulf (Host.gather gather_S20000x256_S320000x1_S320000x256_1_0_n_n_0_1_1256 hl (val_main_v37 (F := F) x1)) (val_main_v39 (F := F) x1)))
    (mulf hl (val_main_v46 (F := F) x1))) (rows bias)

/-- The mean of each column. -/
def colMean (a : (⟨S20000x256, .f32⟩ : BufTy).Contents (Elt F)) : (⟨S256, .f32⟩ : BufTy).Contents (Elt F) :=
  Host.divf (Host.reduceAdd a (val_main_cst_8 (F := F)) reducesTo_S20000x256_S256_d0 h_S_) (val_main_v57 (F := F))

/-- Each entry minus its column's mean. -/
def centred (a : (⟨S20000x256, .f32⟩ : BufTy).Contents (Elt F)) : (⟨S20000x256, .f32⟩ : BufTy).Contents (Elt F) := subf a (rows (colMean a))

/-- The variance of each column: the mean of the squared centred entries. -/
def colVar (a : (⟨S20000x256, .f32⟩ : BufTy).Contents (Elt F)) : (⟨S256, .f32⟩ : BufTy).Contents (Elt F) :=
  Host.divf (Host.reduceAdd (mulf (centred a) (centred a)) (val_main_cst_10 (F := F)) reducesTo_S20000x256_S256_d0 h_S_) (val_main_v64 (F := F))

/-- Batch normalisation with scale `g` and shift `be`, clamped at zero. -/
def norm (a : (⟨S20000x256, .f32⟩ : BufTy).Contents (Elt F)) (g be : (⟨S256, .f32⟩ : BufTy).Contents (Elt F)) : (⟨S20000x256, .f32⟩ : BufTy).Contents (Elt F) :=
  maximumf (addf (mulf (mulf (rows g) (centred a)) (rows (Host.rsqrt (addf (colVar a) (val_main_v72 (F := F)))))) (rows be))
    (val_main_call0_v0 (F := F))

/-- The mean of the node rows of each graph (the row sums by graph over the clamped node counts). -/
def pool (h : (⟨S20000x256, .f32⟩ : BufTy).Contents (Elt F)) (x2 : (⟨S20000, .i32⟩ : BufTy).Contents (Elt F)) : (⟨S64x256, .f32⟩ : BufTy).Contents (Elt F) :=
  Host.divf (Host.scatterAdd scatter_S64x256_S20000x1_S20000x256_1_0_0_1 (val_main_v224 (F := F)) (val_main_v225 (F := F) x2) h)
    (val_main_v234 (F := F) x2)

/-- The two-layer perceptron on the pooled rows. -/
def head (p : (⟨S64x256, .f32⟩ : BufTy).Contents (Elt F)) (x7 : (⟨S256x128, .f32⟩ : BufTy).Contents (Elt F))
    (x8 : (⟨S128, .f32⟩ : BufTy).Contents (Elt F)) (x9 : (⟨S128x10, .f32⟩ : BufTy).Contents (Elt F))
    (x10 : (⟨S10, .f32⟩ : BufTy).Contents (Elt F)) : (⟨S64x10, .f32⟩ : BufTy).Contents (Elt F) :=
  addf (Host.dotGeneral dot_S64x128_S128x10_S64x10_1_0_0_1_n_n none
      (maximumf (addf (Host.dotGeneral dot_S64x256_S256x128_S64x128_1_0_0_1_n_n none p x7) (val_main_v238 (F := F) x8))
        (val_main_call3_v0 (F := F))) x9) (val_main_v243 (F := F) x10)

variable (x0 : (⟨S20000x256, .f32⟩ : BufTy).Contents (Elt F)) (x1 : (⟨S2x320000, .i32⟩ : BufTy).Contents (Elt F)) (x2 : (⟨S20000, .i32⟩ : BufTy).Contents (Elt F))
  (x3 : (⟨S3x256x256, .f32⟩ : BufTy).Contents (Elt F)) (x4 x5 x6 : (⟨S3x256, .f32⟩ : BufTy).Contents (Elt F))
  (x7 : (⟨S256x128, .f32⟩ : BufTy).Contents (Elt F)) (x8 : (⟨S128, .f32⟩ : BufTy).Contents (Elt F))
  (x9 : (⟨S128x10, .f32⟩ : BufTy).Contents (Elt F)) (x10 : (⟨S10, .f32⟩ : BufTy).Contents (Elt F))

/-! ## The generated stages are these functions -/

theorem agg1 : val_main_v51 (F := F) x0 x1 x3 x4 = agg (val_main_v15 (F := F) x0 x3) x1 (val_main_v14 (F := F) x4) := rfl
theorem out1 : val_main_v81 (F := F) x0 x1 x3 x4 x5 x6
    = norm (val_main_v51 (F := F) x0 x1 x3 x4) (val_main_v53 (F := F) x5) (val_main_v55 (F := F) x6) := rfl
theorem lin2 : val_main_v86 (F := F) x0 x1 x3 x4 x5 x6
    = Host.dotGeneral dot_S20000x256_S256x256_S20000x256_1_0_0_1_n_n none (val_main_v81 (F := F) x0 x1 x3 x4 x5 x6) (val_main_v83 (F := F) x3) := rfl
theorem agg2 : val_main_v122 (F := F) x0 x1 x3 x4 x5 x6 = agg (val_main_v86 (F := F) x0 x1 x3 x4 x5 x6) x1 (val_main_v85 (F := F) x4) := rfl
theorem out2 : val_main_v152 (F := F) x0 x1 x3 x4 x5 x6
    = norm (val_main_v122 (F := F) x0 x1 x3 x4 x5 x6) (val_main_v124 (F := F) x5) (val_main_v126 (F := F) x6) := rfl
theorem lin3 : val_main_v157 (F := F) x0 x1 x3 x4 x5 x6
    = Host.dotGeneral dot_S20000x256_S256x256_S20000x256_1_0_0_1_n_n none (val_main_v152 (F := F) x0 x1 x3 x4 x5 x6) (val_main_v154 (F := F) x3) := rfl
theorem agg3 : val_main_v193 (F := F) x0 x1 x3 x4 x5 x6 = agg (val_main_v157 (F := F) x0 x1 x3 x4 x5 x6) x1 (val_main_v156 (F := F) x4) := rfl
theorem out3 : val_main_v223 (F := F) x0 x1 x3 x4 x5 x6
    = norm (val_main_v193 (F := F) x0 x1 x3 x4 x5 x6) (val_main_v195 (F := F) x5) (val_main_v197 (F := F) x6) := rfl
theorem pooled : val_main_v235 (F := F) x0 x1 x2 x3 x4 x5 x6 = pool (val_main_v223 (F := F) x0 x1 x3 x4 x5 x6) x2 := rfl
theorem result : val_main_v244 (F := F) x0 x1 x2 x3 x4 x5 x6 x7 x8 x9 x10
    = head (val_main_v235 (F := F) x0 x1 x2 x3 x4 x5 x6) x7 x8 x9 x10 := rfl

end Cert.ReferenceIdeal.Layer

end
-- ==== Proof.Spec.lean ====
/-
  The mathematics of one graph-convolution network on the extended reals, as plain functions of whole arrays.

  A layer takes node features `h` ([20000, 256]), multiplies by a weight matrix (`lin`), aggregates over edges
  (host operations, the same on both sides), and normalises each column by its batch statistics: the column sums
  `colSum` and sums of squares `colSumSq` give the mean and the variance, and `bnRelu` is
  max(((a - mean) * rsqrt(var + eps)) * gamma + beta, 0) with the four [1, 256] rows spread over the 20000 nodes.
  The head (`mlp`) is relu(p * w1 + b1) * w2 + b2 on the 64 pooled rows.

  `IsReal x` says an extended real is a real number; `AllReal v` that every entry of an array is.
-/
import Idealize.ShloMosaic.PureOps.Ideal
import Idealize.ShloMosaic.Lib.ValueIdx

noncomputable section

open scoped BigOperators

namespace Cert.Gcn

open Idealize.ShloMosaic Idealize.ShloMosaic.ValueIdx

/-- An extended real that is a real number. -/
def IsReal (x : EReal) : Prop := ∃ r : ℝ, x = (r : EReal)

/-- Every entry of the array is a real number. -/
def AllReal {s : Shape} (v : s.Idx → EReal) : Prop := ∀ i, IsReal (v i)

/-- The stabiliser 1e-5 of the normalisation, as its f32 word. -/
abbrev eps : EReal := Ideal.ofBits .f32 0x3727C5AC#32

/-- The dense product `h * w` at (n, c): the sum over the 256 input features. -/
def lin (h : (⟨2, ![20000, 256]⟩ : Shape).Idx → EReal) (w : (⟨2, ![256, 256]⟩ : Shape).Idx → EReal) :
    (⟨2, ![20000, 256]⟩ : Shape).Idx → EReal :=
  fun i => ∑ k : Fin 256, h (ix2 (i 0) k) * w (ix2 k (i 1))

/-- The column sums of a [20000, 256] array, as a [1, 256] row. -/
def colSum (a : (⟨2, ![20000, 256]⟩ : Shape).Idx → EReal) : (⟨2, ![1, 256]⟩ : Shape).Idx → EReal :=
  fun j => ∑ r : Fin 20000, a (ix2 r (j 1))

/-- The column sums of squares of a [20000, 256] array, as a [1, 256] row. -/
def colSumSq (a : (⟨2, ![20000, 256]⟩ : Shape).Idx → EReal) : (⟨2, ![1, 256]⟩ : Shape).Idx → EReal :=
  fun j => ∑ r : Fin 20000, a (ix2 r (j 1)) * a (ix2 r (j 1))

/-- Normalise, scale, shift and clamp at zero, column by column. -/
def bnRelu (a : (⟨2, ![20000, 256]⟩ : Shape).Idx → EReal) (mean var gamma beta : (⟨2, ![1, 256]⟩ : Shape).Idx → EReal) :
    (⟨2, ![20000, 256]⟩ : Shape).Idx → EReal :=
  fun i => max ((((a i - mean (ix2 0 (i 1))) * Ideal.rsqrt (var (ix2 0 (i 1)) + eps)) * gamma (ix2 0 (i 1)))
    + beta (ix2 0 (i 1))) 0

/-- The two-layer head on the pooled rows: relu(p * w1 + b1) * w2 + b2. -/
def mlp (p : (⟨2, ![64, 256]⟩ : Shape).Idx → EReal) (w1 : (⟨2, ![256, 128]⟩ : Shape).Idx → EReal)
    (b1 : (⟨2, ![1, 128]⟩ : Shape).Idx → EReal) (w2 : (⟨2, ![128, 10]⟩ : Shape).Idx → EReal)
    (b2 : (⟨2, ![1, 10]⟩ : Shape).Idx → EReal) : (⟨2, ![64, 10]⟩ : Shape).Idx → EReal :=
  fun i => (∑ k : Fin 128, max ((∑ q : Fin 256, p (ix2 (i 0) q) * w1 (ix2 q k)) + b1 (ix2 0 k)) 0 * w2 (ix2 k (i 1)))
    + b2 (ix2 0 (i 1))

end Cert.Gcn

end
-- ==== Proof.KernelHost.lean ====
/-
  The kernel's host arithmetic between its reduce and normalise regions, read at an index.

  From the row of column sums `s` and the row of column sums of squares `q` the kernel takes the mean s / 20000
  and the variance q / 20000 - mean * mean; the scale and shift vectors are re-laid as [1, 256] rows.
-/
import proofs.«111193_j89515708383972_1_alg».proof.Proof.Gen.KernelIdeal
import proofs.«111193_j89515708383972_1_alg».proof.Proof.Spec
import Idealize.ShloMosaic.Lib.Pipeline.Value
import Idealize.ShloMosaic.Lib.ValueLayout

noncomputable section

namespace Cert.KernelIdeal.Stages

open Idealize.ShloMosaic Idealize.ShloMosaic.ValueIdx Cert.KernelIdeal Cert.KernelIdeal.Facts₀ Cert.KernelIdeal.Facts

/-- The mean row from the row of column sums: each sum over 20000. -/
def kMean (s : FVec Ideal S1x256 .f32) : FVec Ideal S1x256 .f32 :=
  Host.divf s (broadcastInDim S1x256 ![] bcast_S_S1x256 (constant (F := Ideal) S_ .f32 0x469C4000#32))

/-- The variance row: the mean of squares minus the squared mean. -/
def kVar (s q : FVec Ideal S1x256 .f32) : FVec Ideal S1x256 .f32 :=
  subf (Host.divf q (broadcastInDim S1x256 ![] bcast_S_S1x256 (constant (F := Ideal) S_ .f32 0x469C4000#32))) (mulf (kMean s) (kMean s))

/-- A 256-vector as a [1, 256] row. -/
def kRow (v : FVec Ideal S256 .f32) : FVec Ideal S1x256 .f32 :=
  shapeCast S1x256 v shapeCasts_S256_S1x256

theorem kMean_apply (s : FVec Ideal S1x256 .f32) (j : S1x256.Idx) : kMean s j = Ideal.div (s j) (Ideal.ofBits .f32 0x469C4000#32) := rfl

theorem kVar_apply (s q : FVec Ideal S1x256 .f32) (j : S1x256.Idx) :
    kVar s q j = Ideal.div (q j) (Ideal.ofBits .f32 0x469C4000#32) - kMean s j * kMean s j := rfl

theorem kRow_apply (v : FVec Ideal S256 .f32) (c : Fin 256) : kRow v (ix2 0 c) = v (ix1 c) := by
  unfold kRow
  exact shapeCast_apply v shapeCasts_S256_S1x256 (ix2 0 c) (ix1 c) (by
    rw [Shape.rowMajor_val_one, Shape.rowMajor_val_two]
    show c.val = 0 * 256 + c.val
    omega)

/-- The first bias vector of the head as a [1, 128] row: the row's entry at a column is the vector's. -/
theorem row128_eq (v : FVec Ideal S128 .f32) :
    shapeCast S1x128 v shapeCasts_S128_S1x128 = fun j => v (ix1 (j 1)) := by
  funext j
  exact shapeCast_apply v shapeCasts_S128_S1x128 j (ix1 (j 1)) (by
    rw [Shape.rowMajor_val_one, Shape.rowMajor_val_two]
    have h0 : (j 0).val < 1 := (j 0).isLt
    show (j 1).val = (j 0).val * 128 + (j 1).val
    omega)

/-- The second bias vector of the head as a [1, 10] row. -/
theorem row10_eq (v : FVec Ideal S10 .f32) :
    shapeCast S1x10 v shapeCasts_S10_S1x10 = fun j => v (ix1 (j 1)) := by
  funext j
  exact shapeCast_apply v shapeCasts_S10_S1x10 j (ix1 (j 1)) (by
    rw [Shape.rowMajor_val_one, Shape.rowMajor_val_two]
    have h0 : (j 0).val < 1 := (j 0).isLt
    show (j 1).val = (j 0).val * 10 + (j 1).val
    omega)

end Cert.KernelIdeal.Stages

end
-- ==== Proof.KeepIdx.lean ====
/-
  Buffers that no later host operation and no later region writes keep their contents across the boundaries of the
  run: each lemma walks one buffer back through the fold of boundary contents, one boundary at a time (part one: the edge indices and the degree factors).
-/
import proofs.«111193_j89515708383972_1_alg».proof.Proof.Gen.KernelIdeal.Frame

set_option maxRecDepth 16384

noncomputable section

namespace Cert.KernelIdeal.Stages

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem keep_v1_2 (c : Dev nD) : W2 m ρ c (Proc.devRef .tc main_v1) = W1 m ρ c (Proc.devRef .tc main_v1) :=
  W2_of_ne m ρ c main_v1 (by decide)

theorem at_v1_2 (c : Dev nD) : W2 m ρ c (Proc.devRef .tc main_v1) = W1 m ρ c (Proc.devRef .tc main_v1) :=
  keep_v1_2 m ρ c

theorem keep_v1_3 (c : Dev nD) : W3 m ρ c (Proc.devRef .tc main_v1) = W2 m ρ c (Proc.devRef .tc main_v1) :=
  StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v1_4 (c : Dev nD) : W4 m ρ c (Proc.devRef .tc main_v1) = W3 m ρ c (Proc.devRef .tc main_v1) :=
  W4_of_ne m ρ c main_v1 (by decide)

theorem keep_v1_5 (c : Dev nD) : W5 m ρ c (Proc.devRef .tc main_v1) = W4 m ρ c (Proc.devRef .tc main_v1) :=
  StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v1_6 (c : Dev nD) : W6 m ρ c (Proc.devRef .tc main_v1) = W5 m ρ c (Proc.devRef .tc main_v1) :=
  W6_of_ne m ρ c main_v1 (by decide)

theorem keep_v1_7 (c : Dev nD) : W7 m ρ c (Proc.devRef .tc main_v1) = W6 m ρ c (Proc.devRef .tc main_v1) :=
  StableHlo.after_of_forall_not_mem (b := Proc.devRef .tc main_v1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v1_8 (c : Dev nD) : W8 m ρ c (Proc.devRef .tc main_v1) = W7 m ρ c (Proc.devRef .tc main_v1) :=
  W8_of_ne m ρ c main_v1 (by decide)

theorem at_v1_8 (c : Dev nD) : W8 m ρ c (Proc.devRef .tc main_v1) = W1 m ρ c (Proc.devRef .tc main_v1) :=
  ((keep_v1_8 m ρ c).trans ((keep_v1_7 m ρ c).trans ((keep_v1_6 m ρ c).trans ((keep_v1_5 m ρ c).trans ((keep_v1_4 m ρ c).trans (keep_v1_3 m ρ c)))))).trans (at_v1_2 m ρ c)

theorem keep_v1_9 (c : Dev nD) : W9 m ρ c (Proc.devRef .tc main_v1) = W8 m ρ c (Proc.devRef .tc main_v1) :=
  StableHlo.after_of_forall_not_mem (b := Proc.devRef .tc main_v1) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v1_10 (c : Dev nD) : W10 m ρ c (Proc.devRef .tc main_v1) = W9 m ρ c (Proc.devRef .tc main_v1) :=
  W10_of_ne m ρ c main_v1 (by decide)

theorem keep_v1_11 (c : Dev nD) : W11 m ρ c (Proc.devRef .tc main_v1) = W10 m ρ c (Proc.devRef .tc main_v1) :=
  StableHlo.after_of_forall_not_mem (b := Proc.devRef .tc main_v1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v1_12 (c : Dev nD) : W12 m ρ c (Proc.devRef .tc main_v1) = W11 m ρ c (Proc.devRef .tc main_v1) :=
  W12_of_ne m ρ c main_v1 (by decide)

theorem keep_v1_13 (c : Dev nD) : W13 m ρ c (Proc.devRef .tc main_v1) = W12 m ρ c (Proc.devRef .tc main_v1) :=
  StableHlo.after_of_forall_not_mem (b := Proc.devRef .tc main_v1) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v1_14 (c : Dev nD) : W14 m ρ c (Proc.devRef .tc main_v1) = W13 m ρ c (Proc.devRef .tc main_v1) :=
  W14_of_ne m ρ c main_v1 (by decide)

theorem at_v1_14 (c : Dev nD) : W14 m ρ c (Proc.devRef .tc main_v1) = W1 m ρ c (Proc.devRef .tc main_v1) :=
  ((keep_v1_14 m ρ c).trans ((keep_v1_13 m ρ c).trans ((keep_v1_12 m ρ c).trans ((keep_v1_11 m ρ c).trans ((keep_v1_10 m ρ c).trans (keep_v1_9 m ρ c)))))).trans (at_v1_8 m ρ c)

theorem keep_v3_2 (c : Dev nD) : W2 m ρ c (Proc.devRef .tc main_v3) = W1 m ρ c (Proc.devRef .tc main_v3) :=
  W2_of_ne m ρ c main_v3 (by decide)

theorem at_v3_2 (c : Dev nD) : W2 m ρ c (Proc.devRef .tc main_v3) = W1 m ρ c (Proc.devRef .tc main_v3) :=
  keep_v3_2 m ρ c

theorem keep_v3_3 (c : Dev nD) : W3 m ρ c (Proc.devRef .tc main_v3) = W2 m ρ c (Proc.devRef .tc main_v3) :=
  StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v3_4 (c : Dev nD) : W4 m ρ c (Proc.devRef .tc main_v3) = W3 m ρ c (Proc.devRef .tc main_v3) :=
  W4_of_ne m ρ c main_v3 (by decide)

theorem keep_v3_5 (c : Dev nD) : W5 m ρ c (Proc.devRef .tc main_v3) = W4 m ρ c (Proc.devRef .tc main_v3) :=
  StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v3_6 (c : Dev nD) : W6 m ρ c (Proc.devRef .tc main_v3) = W5 m ρ c (Proc.devRef .tc main_v3) :=
  W6_of_ne m ρ c main_v3 (by decide)

theorem keep_v3_7 (c : Dev nD) : W7 m ρ c (Proc.devRef .tc main_v3) = W6 m ρ c (Proc.devRef .tc main_v3) :=
  StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v3_8 (c : Dev nD) : W8 m ρ c (Proc.devRef .tc main_v3) = W7 m ρ c (Proc.devRef .tc main_v3) :=
  W8_of_ne m ρ c main_v3 (by decide)

theorem at_v3_8 (c : Dev nD) : W8 m ρ c (Proc.devRef .tc main_v3) = W1 m ρ c (Proc.devRef .tc main_v3) :=
  ((keep_v3_8 m ρ c).trans ((keep_v3_7 m ρ c).trans ((keep_v3_6 m ρ c).trans ((keep_v3_5 m ρ c).trans ((keep_v3_4 m ρ c).trans (keep_v3_3 m ρ c)))))).trans (at_v3_2 m ρ c)

theorem keep_v3_9 (c : Dev nD) : W9 m ρ c (Proc.devRef .tc main_v3) = W8 m ρ c (Proc.devRef .tc main_v3) :=
  StableHlo.after_of_forall_not_mem (b := Proc.devRef .tc main_v3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v3_10 (c : Dev nD) : W10 m ρ c (Proc.devRef .tc main_v3) = W9 m ρ c (Proc.devRef .tc main_v3) :=
  W10_of_ne m ρ c main_v3 (by decide)

theorem keep_v3_11 (c : Dev nD) : W11 m ρ c (Proc.devRef .tc main_v3) = W10 m ρ c (Proc.devRef .tc main_v3) :=
  StableHlo.after_of_forall_not_mem (b := Proc.devRef .tc main_v3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v3_12 (c : Dev nD) : W12 m ρ c (Proc.devRef .tc main_v3) = W11 m ρ c (Proc.devRef .tc main_v3) :=
  W12_of_ne m ρ c main_v3 (by decide)

theorem keep_v3_13 (c : Dev nD) : W13 m ρ c (Proc.devRef .tc main_v3) = W12 m ρ c (Proc.devRef .tc main_v3) :=
  StableHlo.after_of_forall_not_mem (b := Proc.devRef .tc main_v3) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v3_14 (c : Dev nD) : W14 m ρ c (Proc.devRef .tc main_v3) = W13 m ρ c (Proc.devRef .tc main_v3) :=
  W14_of_ne m ρ c main_v3 (by decide)

theorem at_v3_14 (c : Dev nD) : W14 m ρ c (Proc.devRef .tc main_v3) = W1 m ρ c (Proc.devRef .tc main_v3) :=
  ((keep_v3_14 m ρ c).trans ((keep_v3_13 m ρ c).trans ((keep_v3_12 m ρ c).trans ((keep_v3_11 m ρ c).trans ((keep_v3_10 m ρ c).trans (keep_v3_9 m ρ c)))))).trans (at_v3_8 m ρ c)

theorem keep_v10_2 (c : Dev nD) : W2 m ρ c (Proc.devRef .tc main_v10) = W1 m ρ c (Proc.devRef .tc main_v10) :=
  W2_of_ne m ρ c main_v10 (by decide)

theorem at_v10_2 (c : Dev nD) : W2 m ρ c (Proc.devRef .tc main_v10) = W1 m ρ c (Proc.devRef .tc main_v10) :=
  keep_v10_2 m ρ c

theorem keep_v10_3 (c : Dev nD) : W3 m ρ c (Proc.devRef .tc main_v10) = W2 m ρ c (Proc.devRef .tc main_v10) :=
  StableHlo.after_of_forall_not_mem (b := Proc.devRef .tc main_v10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v10_4 (c : Dev nD) : W4 m ρ c (Proc.devRef .tc main_v10) = W3 m ρ c (Proc.devRef .tc main_v10) :=
  W4_of_ne m ρ c main_v10 (by decide)

theorem keep_v10_5 (c : Dev nD) : W5 m ρ c (Proc.devRef .tc main_v10) = W4 m ρ c (Proc.devRef .tc main_v10) :=
  StableHlo.after_of_forall_not_mem (b := Proc.devRef .tc main_v10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v10_6 (c : Dev nD) : W6 m ρ c (Proc.devRef .tc main_v10) = W5 m ρ c (Proc.devRef .tc main_v10) :=
  W6_of_ne m ρ c main_v10 (by decide)

theorem keep_v10_7 (c : Dev nD) : W7 m ρ c (Proc.devRef .tc main_v10) = W6 m ρ c (Proc.devRef .tc main_v10) :=
  StableHlo.after_of_forall_not_mem (b := Proc.devRef .tc main_v10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v10_8 (c : Dev nD) : W8 m ρ c (Proc.devRef .tc main_v10) = W7 m ρ c (Proc.devRef .tc main_v10) :=
  W8_of_ne m ρ c main_v10 (by decide)

theorem at_v10_8 (c : Dev nD) : W8 m ρ c (Proc.devRef .tc main_v10) = W1 m ρ c (Proc.devRef .tc main_v10) :=
  ((keep_v10_8 m ρ c).trans ((keep_v10_7 m ρ c).trans ((keep_v10_6 m ρ c).trans ((keep_v10_5 m ρ c).trans ((keep_v10_4 m ρ c).trans (keep_v10_3 m ρ c)))))).trans (at_v10_2 m ρ c)

theorem keep_v10_9 (c : Dev nD) : W9 m ρ c (Proc.devRef .tc main_v10) = W8 m ρ c (Proc.devRef .tc main_v10) :=
  StableHlo.after_of_forall_not_mem (b := Proc.devRef .tc main_v10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v10_10 (c : Dev nD) : W10 m ρ c (Proc.devRef .tc main_v10) = W9 m ρ c (Proc.devRef .tc main_v10) :=
  W10_of_ne m ρ c main_v10 (by decide)

theorem keep_v10_11 (c : Dev nD) : W11 m ρ c (Proc.devRef .tc main_v10) = W10 m ρ c (Proc.devRef .tc main_v10) :=
  StableHlo.after_of_forall_not_mem (b := Proc.devRef .tc main_v10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v10_12 (c : Dev nD) : W12 m ρ c (Proc.devRef .tc main_v10) = W11 m ρ c (Proc.devRef .tc main_v10) :=
  W12_of_ne m ρ c main_v10 (by decide)

theorem keep_v10_13 (c : Dev nD) : W13 m ρ c (Proc.devRef .tc main_v10) = W12 m ρ c (Proc.devRef .tc main_v10) :=
  StableHlo.after_of_forall_not_mem (b := Proc.devRef .tc main_v10) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v10_14 (c : Dev nD) : W14 m ρ c (Proc.devRef .tc main_v10) = W13 m ρ c (Proc.devRef .tc main_v10) :=
  W14_of_ne m ρ c main_v10 (by decide)

theorem at_v10_14 (c : Dev nD) : W14 m ρ c (Proc.devRef .tc main_v10) = W1 m ρ c (Proc.devRef .tc main_v10) :=
  ((keep_v10_14 m ρ c).trans ((keep_v10_13 m ρ c).trans ((keep_v10_12 m ρ c).trans ((keep_v10_11 m ρ c).trans ((keep_v10_10 m ρ c).trans (keep_v10_9 m ρ c)))))).trans (at_v10_8 m ρ c)

theorem keep_v11_2 (c : Dev nD) : W2 m ρ c (Proc.devRef .tc main_v11) = W1 m ρ c (Proc.devRef .tc main_v11) :=
  W2_of_ne m ρ c main_v11 (by decide)

theorem at_v11_2 (c : Dev nD) : W2 m ρ c (Proc.devRef .tc main_v11) = W1 m ρ c (Proc.devRef .tc main_v11) :=
  keep_v11_2 m ρ c

theorem keep_v11_3 (c : Dev nD) : W3 m ρ c (Proc.devRef .tc main_v11) = W2 m ρ c (Proc.devRef .tc main_v11) :=
  StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v11_4 (c : Dev nD) : W4 m ρ c (Proc.devRef .tc main_v11) = W3 m ρ c (Proc.devRef .tc main_v11) :=
  W4_of_ne m ρ c main_v11 (by decide)

theorem keep_v11_5 (c : Dev nD) : W5 m ρ c (Proc.devRef .tc main_v11) = W4 m ρ c (Proc.devRef .tc main_v11) :=
  StableHlo.after_of_forall_not_mem (b := Proc.devRef .tc main_v11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v11_6 (c : Dev nD) : W6 m ρ c (Proc.devRef .tc main_v11) = W5 m ρ c (Proc.devRef .tc main_v11) :=
  W6_of_ne m ρ c main_v11 (by decide)

theorem keep_v11_7 (c : Dev nD) : W7 m ρ c (Proc.devRef .tc main_v11) = W6 m ρ c (Proc.devRef .tc main_v11) :=
  StableHlo.after_of_forall_not_mem (b := Proc.devRef .tc main_v11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v11_8 (c : Dev nD) : W8 m ρ c (Proc.devRef .tc main_v11) = W7 m ρ c (Proc.devRef .tc main_v11) :=
  W8_of_ne m ρ c main_v11 (by decide)

theorem at_v11_8 (c : Dev nD) : W8 m ρ c (Proc.devRef .tc main_v11) = W1 m ρ c (Proc.devRef .tc main_v11) :=
  ((keep_v11_8 m ρ c).trans ((keep_v11_7 m ρ c).trans ((keep_v11_6 m ρ c).trans ((keep_v11_5 m ρ c).trans ((keep_v11_4 m ρ c).trans (keep_v11_3 m ρ c)))))).trans (at_v11_2 m ρ c)

theorem keep_v11_9 (c : Dev nD) : W9 m ρ c (Proc.devRef .tc main_v11) = W8 m ρ c (Proc.devRef .tc main_v11) :=
  StableHlo.after_of_forall_not_mem (b := Proc.devRef .tc main_v11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v11_10 (c : Dev nD) : W10 m ρ c (Proc.devRef .tc main_v11) = W9 m ρ c (Proc.devRef .tc main_v11) :=
  W10_of_ne m ρ c main_v11 (by decide)

theorem keep_v11_11 (c : Dev nD) : W11 m ρ c (Proc.devRef .tc main_v11) = W10 m ρ c (Proc.devRef .tc main_v11) :=
  StableHlo.after_of_forall_not_mem (b := Proc.devRef .tc main_v11) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v11_12 (c : Dev nD) : W12 m ρ c (Proc.devRef .tc main_v11) = W11 m ρ c (Proc.devRef .tc main_v11) :=
  W12_of_ne m ρ c main_v11 (by decide)

theorem keep_v11_13 (c : Dev nD) : W13 m ρ c (Proc.devRef .tc main_v11) = W12 m ρ c (Proc.devRef .tc main_v11) :=
  StableHlo.after_of_forall_not_mem (b := Proc.devRef .tc main_v11) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_v11_14 (c : Dev nD) : W14 m ρ c (Proc.devRef .tc main_v11) = W13 m ρ c (Proc.devRef .tc main_v11) :=
  W14_of_ne m ρ c main_v11 (by decide)

theorem at_v11_14 (c : Dev nD) : W14 m ρ c (Proc.devRef .tc main_v11) = W1 m ρ c (Proc.devRef .tc main_v11) :=
  ((keep_v11_14 m ρ c).trans ((keep_v11_13 m ρ c).trans ((keep_v11_12 m ρ c).trans ((keep_v11_11 m ρ c).trans ((keep_v11_10 m ρ c).trans (keep_v11_9 m ρ c)))))).trans (at_v11_8 m ρ c)

end Cert.KernelIdeal.Stages

end
-- ==== Proof.KeepArgs.lean ====
/-
  Buffers that no later host operation and no later region writes keep their contents across the boundaries of the
  run: each lemma walks one buffer back through the fold of boundary contents, one boundary at a time (part two: the argument arrays).
-/
import proofs.«111193_j89515708383972_1_alg».proof.Proof.Gen.KernelIdeal.Frame

set_option maxRecDepth 16384

noncomputable section

namespace Cert.KernelIdeal.Stages

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem keep_arg0_1 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_arg0_1 (c : Dev nD) : W1 m ρ c (Proc.devRef .tc main_arg0) = W0 m ρ c (Proc.devRef .tc main_arg0) :=
  keep_arg0_1 m ρ c

theorem keep_arg3_1 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg3_2 (c : Dev nD) : W2 m ρ c (Proc.devRef .tc main_arg3) = W1 m ρ c (Proc.devRef .tc main_arg3) :=
  W2_of_ne m ρ c main_arg3 (by decide)

theorem keep_arg3_3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg3_4 (c : Dev nD) : W4 m ρ c (Proc.devRef .tc main_arg3) = W3 m ρ c (Proc.devRef .tc main_arg3) :=
  W4_of_ne m ρ c main_arg3 (by decide)

theorem keep_arg3_5 (c : Dev nD) : W5 m ρ c (Proc.devRef .tc main_arg3) = W4 m ρ c (Proc.devRef .tc main_arg3) :=
  StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg3_6 (c : Dev nD) : W6 m ρ c (Proc.devRef .tc main_arg3) = W5 m ρ c (Proc.devRef .tc main_arg3) :=
  W6_of_ne m ρ c main_arg3 (by decide)

theorem at_arg3_6 (c : Dev nD) : W6 m ρ c (Proc.devRef .tc main_arg3) = W0 m ρ c (Proc.devRef .tc main_arg3) :=
  (keep_arg3_6 m ρ c).trans ((keep_arg3_5 m ρ c).trans ((keep_arg3_4 m ρ c).trans ((keep_arg3_3 m ρ c).trans ((keep_arg3_2 m ρ c).trans (keep_arg3_1 m ρ c)))))

theorem keep_arg3_7 (c : Dev nD) : W7 m ρ c (Proc.devRef .tc main_arg3) = W6 m ρ c (Proc.devRef .tc main_arg3) :=
  StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg3_8 (c : Dev nD) : W8 m ρ c (Proc.devRef .tc main_arg3) = W7 m ρ c (Proc.devRef .tc main_arg3) :=
  W8_of_ne m ρ c main_arg3 (by decide)

theorem keep_arg3_9 (c : Dev nD) : W9 m ρ c (Proc.devRef .tc main_arg3) = W8 m ρ c (Proc.devRef .tc main_arg3) :=
  StableHlo.after_of_forall_not_mem (b := Proc.devRef .tc main_arg3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg3_10 (c : Dev nD) : W10 m ρ c (Proc.devRef .tc main_arg3) = W9 m ρ c (Proc.devRef .tc main_arg3) :=
  W10_of_ne m ρ c main_arg3 (by decide)

theorem keep_arg3_11 (c : Dev nD) : W11 m ρ c (Proc.devRef .tc main_arg3) = W10 m ρ c (Proc.devRef .tc main_arg3) :=
  StableHlo.after_of_forall_not_mem (b := Proc.devRef .tc main_arg3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg3_12 (c : Dev nD) : W12 m ρ c (Proc.devRef .tc main_arg3) = W11 m ρ c (Proc.devRef .tc main_arg3) :=
  W12_of_ne m ρ c main_arg3 (by decide)

theorem at_arg3_12 (c : Dev nD) : W12 m ρ c (Proc.devRef .tc main_arg3) = W0 m ρ c (Proc.devRef .tc main_arg3) :=
  ((keep_arg3_12 m ρ c).trans ((keep_arg3_11 m ρ c).trans ((keep_arg3_10 m ρ c).trans ((keep_arg3_9 m ρ c).trans ((keep_arg3_8 m ρ c).trans (keep_arg3_7 m ρ c)))))).trans (at_arg3_6 m ρ c)

theorem keep_arg4_1 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg4_2 (c : Dev nD) : W2 m ρ c (Proc.devRef .tc main_arg4) = W1 m ρ c (Proc.devRef .tc main_arg4) :=
  W2_of_ne m ρ c main_arg4 (by decide)

theorem at_arg4_2 (c : Dev nD) : W2 m ρ c (Proc.devRef .tc main_arg4) = W0 m ρ c (Proc.devRef .tc main_arg4) :=
  (keep_arg4_2 m ρ c).trans (keep_arg4_1 m ρ c)

theorem keep_arg4_3 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg4_4 (c : Dev nD) : W4 m ρ c (Proc.devRef .tc main_arg4) = W3 m ρ c (Proc.devRef .tc main_arg4) :=
  W4_of_ne m ρ c main_arg4 (by decide)

theorem keep_arg4_5 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg4_6 (c : Dev nD) : W6 m ρ c (Proc.devRef .tc main_arg4) = W5 m ρ c (Proc.devRef .tc main_arg4) :=
  W6_of_ne m ρ c main_arg4 (by decide)

theorem keep_arg4_7 (c : Dev nD) : W7 m ρ c (Proc.devRef .tc main_arg4) = W6 m ρ c (Proc.devRef .tc main_arg4) :=
  StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg4_8 (c : Dev nD) : W8 m ρ c (Proc.devRef .tc main_arg4) = W7 m ρ c (Proc.devRef .tc main_arg4) :=
  W8_of_ne m ρ c main_arg4 (by decide)

theorem at_arg4_8 (c : Dev nD) : W8 m ρ c (Proc.devRef .tc main_arg4) = W0 m ρ c (Proc.devRef .tc main_arg4) :=
  ((keep_arg4_8 m ρ c).trans ((keep_arg4_7 m ρ c).trans ((keep_arg4_6 m ρ c).trans ((keep_arg4_5 m ρ c).trans ((keep_arg4_4 m ρ c).trans (keep_arg4_3 m ρ c)))))).trans (at_arg4_2 m ρ c)

theorem keep_arg4_9 (c : Dev nD) : W9 m ρ c (Proc.devRef .tc main_arg4) = W8 m ρ c (Proc.devRef .tc main_arg4) :=
  StableHlo.after_of_forall_not_mem (b := Proc.devRef .tc main_arg4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg4_10 (c : Dev nD) : W10 m ρ c (Proc.devRef .tc main_arg4) = W9 m ρ c (Proc.devRef .tc main_arg4) :=
  W10_of_ne m ρ c main_arg4 (by decide)

theorem keep_arg4_11 (c : Dev nD) : W11 m ρ c (Proc.devRef .tc main_arg4) = W10 m ρ c (Proc.devRef .tc main_arg4) :=
  StableHlo.after_of_forall_not_mem (b := Proc.devRef .tc main_arg4) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg4_12 (c : Dev nD) : W12 m ρ c (Proc.devRef .tc main_arg4) = W11 m ρ c (Proc.devRef .tc main_arg4) :=
  W12_of_ne m ρ c main_arg4 (by decide)

theorem keep_arg4_13 (c : Dev nD) : W13 m ρ c (Proc.devRef .tc main_arg4) = W12 m ρ c (Proc.devRef .tc main_arg4) :=
  StableHlo.after_of_forall_not_mem (b := Proc.devRef .tc main_arg4) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg4_14 (c : Dev nD) : W14 m ρ c (Proc.devRef .tc main_arg4) = W13 m ρ c (Proc.devRef .tc main_arg4) :=
  W14_of_ne m ρ c main_arg4 (by decide)

theorem at_arg4_14 (c : Dev nD) : W14 m ρ c (Proc.devRef .tc main_arg4) = W0 m ρ c (Proc.devRef .tc main_arg4) :=
  ((keep_arg4_14 m ρ c).trans ((keep_arg4_13 m ρ c).trans ((keep_arg4_12 m ρ c).trans ((keep_arg4_11 m ρ c).trans ((keep_arg4_10 m ρ c).trans (keep_arg4_9 m ρ c)))))).trans (at_arg4_8 m ρ c)

theorem keep_arg5_1 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_2 (c : Dev nD) : W2 m ρ c (Proc.devRef .tc main_arg5) = W1 m ρ c (Proc.devRef .tc main_arg5) :=
  W2_of_ne m ρ c main_arg5 (by decide)

theorem keep_arg5_3 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_4 (c : Dev nD) : W4 m ρ c (Proc.devRef .tc main_arg5) = W3 m ρ c (Proc.devRef .tc main_arg5) :=
  W4_of_ne m ρ c main_arg5 (by decide)

theorem at_arg5_4 (c : Dev nD) : W4 m ρ c (Proc.devRef .tc main_arg5) = W0 m ρ c (Proc.devRef .tc main_arg5) :=
  (keep_arg5_4 m ρ c).trans ((keep_arg5_3 m ρ c).trans ((keep_arg5_2 m ρ c).trans (keep_arg5_1 m ρ c)))

theorem keep_arg5_5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_6 (c : Dev nD) : W6 m ρ c (Proc.devRef .tc main_arg5) = W5 m ρ c (Proc.devRef .tc main_arg5) :=
  W6_of_ne m ρ c main_arg5 (by decide)

theorem keep_arg5_7 (c : Dev nD) : W7 m ρ c (Proc.devRef .tc main_arg5) = W6 m ρ c (Proc.devRef .tc main_arg5) :=
  StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_8 (c : Dev nD) : W8 m ρ c (Proc.devRef .tc main_arg5) = W7 m ρ c (Proc.devRef .tc main_arg5) :=
  W8_of_ne m ρ c main_arg5 (by decide)

theorem keep_arg5_9 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_10 (c : Dev nD) : W10 m ρ c (Proc.devRef .tc main_arg5) = W9 m ρ c (Proc.devRef .tc main_arg5) :=
  W10_of_ne m ρ c main_arg5 (by decide)

theorem at_arg5_10 (c : Dev nD) : W10 m ρ c (Proc.devRef .tc main_arg5) = W0 m ρ c (Proc.devRef .tc main_arg5) :=
  ((keep_arg5_10 m ρ c).trans ((keep_arg5_9 m ρ c).trans ((keep_arg5_8 m ρ c).trans ((keep_arg5_7 m ρ c).trans ((keep_arg5_6 m ρ c).trans (keep_arg5_5 m ρ c)))))).trans (at_arg5_4 m ρ c)

theorem keep_arg5_11 (c : Dev nD) : W11 m ρ c (Proc.devRef .tc main_arg5) = W10 m ρ c (Proc.devRef .tc main_arg5) :=
  StableHlo.after_of_forall_not_mem (b := Proc.devRef .tc main_arg5) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_12 (c : Dev nD) : W12 m ρ c (Proc.devRef .tc main_arg5) = W11 m ρ c (Proc.devRef .tc main_arg5) :=
  W12_of_ne m ρ c main_arg5 (by decide)

theorem keep_arg5_13 (c : Dev nD) : W13 m ρ c (Proc.devRef .tc main_arg5) = W12 m ρ c (Proc.devRef .tc main_arg5) :=
  StableHlo.after_of_forall_not_mem (b := Proc.devRef .tc main_arg5) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_14 (c : Dev nD) : W14 m ρ c (Proc.devRef .tc main_arg5) = W13 m ρ c (Proc.devRef .tc main_arg5) :=
  W14_of_ne m ρ c main_arg5 (by decide)

theorem keep_arg5_15 (c : Dev nD) : W15 m ρ c (Proc.devRef .tc main_arg5) = W14 m ρ c (Proc.devRef .tc main_arg5) :=
  StableHlo.after_of_forall_not_mem (b := Proc.devRef .tc main_arg5) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg5_16 (c : Dev nD) : W16 m ρ c (Proc.devRef .tc main_arg5) = W15 m ρ c (Proc.devRef .tc main_arg5) :=
  W16_of_ne m ρ c main_arg5 (by decide)

theorem at_arg5_16 (c : Dev nD) : W16 m ρ c (Proc.devRef .tc main_arg5) = W0 m ρ c (Proc.devRef .tc main_arg5) :=
  ((keep_arg5_16 m ρ c).trans ((keep_arg5_15 m ρ c).trans ((keep_arg5_14 m ρ c).trans ((keep_arg5_13 m ρ c).trans ((keep_arg5_12 m ρ c).trans (keep_arg5_11 m ρ c)))))).trans (at_arg5_10 m ρ c)

theorem keep_arg6_1 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_2 (c : Dev nD) : W2 m ρ c (Proc.devRef .tc main_arg6) = W1 m ρ c (Proc.devRef .tc main_arg6) :=
  W2_of_ne m ρ c main_arg6 (by decide)

theorem keep_arg6_3 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_4 (c : Dev nD) : W4 m ρ c (Proc.devRef .tc main_arg6) = W3 m ρ c (Proc.devRef .tc main_arg6) :=
  W4_of_ne m ρ c main_arg6 (by decide)

theorem at_arg6_4 (c : Dev nD) : W4 m ρ c (Proc.devRef .tc main_arg6) = W0 m ρ c (Proc.devRef .tc main_arg6) :=
  (keep_arg6_4 m ρ c).trans ((keep_arg6_3 m ρ c).trans ((keep_arg6_2 m ρ c).trans (keep_arg6_1 m ρ c)))

theorem keep_arg6_5 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_6 (c : Dev nD) : W6 m ρ c (Proc.devRef .tc main_arg6) = W5 m ρ c (Proc.devRef .tc main_arg6) :=
  W6_of_ne m ρ c main_arg6 (by decide)

theorem keep_arg6_7 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_8 (c : Dev nD) : W8 m ρ c (Proc.devRef .tc main_arg6) = W7 m ρ c (Proc.devRef .tc main_arg6) :=
  W8_of_ne m ρ c main_arg6 (by decide)

theorem keep_arg6_9 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_10 (c : Dev nD) : W10 m ρ c (Proc.devRef .tc main_arg6) = W9 m ρ c (Proc.devRef .tc main_arg6) :=
  W10_of_ne m ρ c main_arg6 (by decide)

theorem at_arg6_10 (c : Dev nD) : W10 m ρ c (Proc.devRef .tc main_arg6) = W0 m ρ c (Proc.devRef .tc main_arg6) :=
  ((keep_arg6_10 m ρ c).trans ((keep_arg6_9 m ρ c).trans ((keep_arg6_8 m ρ c).trans ((keep_arg6_7 m ρ c).trans ((keep_arg6_6 m ρ c).trans (keep_arg6_5 m ρ c)))))).trans (at_arg6_4 m ρ c)

theorem keep_arg6_11 (c : Dev nD) : W11 m ρ c (Proc.devRef .tc main_arg6) = W10 m ρ c (Proc.devRef .tc main_arg6) :=
  StableHlo.after_of_forall_not_mem (b := Proc.devRef .tc main_arg6) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_12 (c : Dev nD) : W12 m ρ c (Proc.devRef .tc main_arg6) = W11 m ρ c (Proc.devRef .tc main_arg6) :=
  W12_of_ne m ρ c main_arg6 (by decide)

theorem keep_arg6_13 (c : Dev nD) : W13 m ρ c (Proc.devRef .tc main_arg6) = W12 m ρ c (Proc.devRef .tc main_arg6) :=
  StableHlo.after_of_forall_not_mem (b := Proc.devRef .tc main_arg6) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_14 (c : Dev nD) : W14 m ρ c (Proc.devRef .tc main_arg6) = W13 m ρ c (Proc.devRef .tc main_arg6) :=
  W14_of_ne m ρ c main_arg6 (by decide)

theorem keep_arg6_15 (c : Dev nD) : W15 m ρ c (Proc.devRef .tc main_arg6) = W14 m ρ c (Proc.devRef .tc main_arg6) :=
  StableHlo.after_of_forall_not_mem (b := Proc.devRef .tc main_arg6) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg6_16 (c : Dev nD) : W16 m ρ c (Proc.devRef .tc main_arg6) = W15 m ρ c (Proc.devRef .tc main_arg6) :=
  W16_of_ne m ρ c main_arg6 (by decide)

theorem at_arg6_16 (c : Dev nD) : W16 m ρ c (Proc.devRef .tc main_arg6) = W0 m ρ c (Proc.devRef .tc main_arg6) :=
  ((keep_arg6_16 m ρ c).trans ((keep_arg6_15 m ρ c).trans ((keep_arg6_14 m ρ c).trans ((keep_arg6_13 m ρ c).trans ((keep_arg6_12 m ρ c).trans (keep_arg6_11 m ρ c)))))).trans (at_arg6_10 m ρ c)

theorem keep_arg2_1 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_2 (c : Dev nD) : W2 m ρ c (Proc.devRef .tc main_arg2) = W1 m ρ c (Proc.devRef .tc main_arg2) :=
  W2_of_ne m ρ c main_arg2 (by decide)

theorem keep_arg2_3 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_4 (c : Dev nD) : W4 m ρ c (Proc.devRef .tc main_arg2) = W3 m ρ c (Proc.devRef .tc main_arg2) :=
  W4_of_ne m ρ c main_arg2 (by decide)

theorem keep_arg2_5 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_6 (c : Dev nD) : W6 m ρ c (Proc.devRef .tc main_arg2) = W5 m ρ c (Proc.devRef .tc main_arg2) :=
  W6_of_ne m ρ c main_arg2 (by decide)

theorem keep_arg2_7 (c : Dev nD) : W7 m ρ c (Proc.devRef .tc main_arg2) = W6 m ρ c (Proc.devRef .tc main_arg2) :=
  StableHlo.after_of_forall_not_mem (b := Proc.devRef .tc main_arg2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_8 (c : Dev nD) : W8 m ρ c (Proc.devRef .tc main_arg2) = W7 m ρ c (Proc.devRef .tc main_arg2) :=
  W8_of_ne m ρ c main_arg2 (by decide)

theorem keep_arg2_9 (c : Dev nD) : W9 m ρ c (Proc.devRef .tc main_arg2) = W8 m ρ c (Proc.devRef .tc main_arg2) :=
  StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_10 (c : Dev nD) : W10 m ρ c (Proc.devRef .tc main_arg2) = W9 m ρ c (Proc.devRef .tc main_arg2) :=
  W10_of_ne m ρ c main_arg2 (by decide)

theorem keep_arg2_11 (c : Dev nD) : W11 m ρ c (Proc.devRef .tc main_arg2) = W10 m ρ c (Proc.devRef .tc main_arg2) :=
  StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_12 (c : Dev nD) : W12 m ρ c (Proc.devRef .tc main_arg2) = W11 m ρ c (Proc.devRef .tc main_arg2) :=
  W12_of_ne m ρ c main_arg2 (by decide)

theorem keep_arg2_13 (c : Dev nD) : W13 m ρ c (Proc.devRef .tc main_arg2) = W12 m ρ c (Proc.devRef .tc main_arg2) :=
  StableHlo.after_of_forall_not_mem (b := Proc.devRef .tc main_arg2) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_14 (c : Dev nD) : W14 m ρ c (Proc.devRef .tc main_arg2) = W13 m ρ c (Proc.devRef .tc main_arg2) :=
  W14_of_ne m ρ c main_arg2 (by decide)

theorem keep_arg2_15 (c : Dev nD) : W15 m ρ c (Proc.devRef .tc main_arg2) = W14 m ρ c (Proc.devRef .tc main_arg2) :=
  StableHlo.after_of_forall_not_mem (b := Proc.devRef .tc main_arg2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_16 (c : Dev nD) : W16 m ρ c (Proc.devRef .tc main_arg2) = W15 m ρ c (Proc.devRef .tc main_arg2) :=
  W16_of_ne m ρ c main_arg2 (by decide)

theorem keep_arg2_17 (c : Dev nD) : W17 m ρ c (Proc.devRef .tc main_arg2) = W16 m ρ c (Proc.devRef .tc main_arg2) :=
  StableHlo.after_of_forall_not_mem (b := Proc.devRef .tc main_arg2) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg2_18 (c : Dev nD) : W18 m ρ c (Proc.devRef .tc main_arg2) = W17 m ρ c (Proc.devRef .tc main_arg2) :=
  W18_of_ne m ρ c main_arg2 (by decide)

theorem at_arg2_18 (c : Dev nD) : W18 m ρ c (Proc.devRef .tc main_arg2) = W0 m ρ c (Proc.devRef .tc main_arg2) :=
  (keep_arg2_18 m ρ c).trans ((keep_arg2_17 m ρ c).trans ((keep_arg2_16 m ρ c).trans ((keep_arg2_15 m ρ c).trans ((keep_arg2_14 m ρ c).trans ((keep_arg2_13 m ρ c).trans ((keep_arg2_12 m ρ c).trans ((keep_arg2_11 m ρ c).trans ((keep_arg2_10 m ρ c).trans ((keep_arg2_9 m ρ c).trans ((keep_arg2_8 m ρ c).trans ((keep_arg2_7 m ρ c).trans ((keep_arg2_6 m ρ c).trans ((keep_arg2_5 m ρ c).trans ((keep_arg2_4 m ρ c).trans ((keep_arg2_3 m ρ c).trans ((keep_arg2_2 m ρ c).trans (keep_arg2_1 m ρ c)))))))))))))))))

theorem keep_arg8_1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_2 (c : Dev nD) : W2 m ρ c (Proc.devRef .tc main_arg8) = W1 m ρ c (Proc.devRef .tc main_arg8) :=
  W2_of_ne m ρ c main_arg8 (by decide)

theorem keep_arg8_3 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_4 (c : Dev nD) : W4 m ρ c (Proc.devRef .tc main_arg8) = W3 m ρ c (Proc.devRef .tc main_arg8) :=
  W4_of_ne m ρ c main_arg8 (by decide)

theorem keep_arg8_5 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_6 (c : Dev nD) : W6 m ρ c (Proc.devRef .tc main_arg8) = W5 m ρ c (Proc.devRef .tc main_arg8) :=
  W6_of_ne m ρ c main_arg8 (by decide)

theorem keep_arg8_7 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_8 (c : Dev nD) : W8 m ρ c (Proc.devRef .tc main_arg8) = W7 m ρ c (Proc.devRef .tc main_arg8) :=
  W8_of_ne m ρ c main_arg8 (by decide)

theorem keep_arg8_9 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_10 (c : Dev nD) : W10 m ρ c (Proc.devRef .tc main_arg8) = W9 m ρ c (Proc.devRef .tc main_arg8) :=
  W10_of_ne m ρ c main_arg8 (by decide)

theorem keep_arg8_11 (c : Dev nD) : W11 m ρ c (Proc.devRef .tc main_arg8) = W10 m ρ c (Proc.devRef .tc main_arg8) :=
  StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_12 (c : Dev nD) : W12 m ρ c (Proc.devRef .tc main_arg8) = W11 m ρ c (Proc.devRef .tc main_arg8) :=
  W12_of_ne m ρ c main_arg8 (by decide)

theorem keep_arg8_13 (c : Dev nD) : W13 m ρ c (Proc.devRef .tc main_arg8) = W12 m ρ c (Proc.devRef .tc main_arg8) :=
  StableHlo.after_of_forall_not_mem (b := Proc.devRef .tc main_arg8) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_14 (c : Dev nD) : W14 m ρ c (Proc.devRef .tc main_arg8) = W13 m ρ c (Proc.devRef .tc main_arg8) :=
  W14_of_ne m ρ c main_arg8 (by decide)

theorem keep_arg8_15 (c : Dev nD) : W15 m ρ c (Proc.devRef .tc main_arg8) = W14 m ρ c (Proc.devRef .tc main_arg8) :=
  StableHlo.after_of_forall_not_mem (b := Proc.devRef .tc main_arg8) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_16 (c : Dev nD) : W16 m ρ c (Proc.devRef .tc main_arg8) = W15 m ρ c (Proc.devRef .tc main_arg8) :=
  W16_of_ne m ρ c main_arg8 (by decide)

theorem keep_arg8_17 (c : Dev nD) : W17 m ρ c (Proc.devRef .tc main_arg8) = W16 m ρ c (Proc.devRef .tc main_arg8) :=
  StableHlo.after_of_forall_not_mem (b := Proc.devRef .tc main_arg8) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg8_18 (c : Dev nD) : W18 m ρ c (Proc.devRef .tc main_arg8) = W17 m ρ c (Proc.devRef .tc main_arg8) :=
  W18_of_ne m ρ c main_arg8 (by decide)

theorem at_arg8_18 (c : Dev nD) : W18 m ρ c (Proc.devRef .tc main_arg8) = W0 m ρ c (Proc.devRef .tc main_arg8) :=
  (keep_arg8_18 m ρ c).trans ((keep_arg8_17 m ρ c).trans ((keep_arg8_16 m ρ c).trans ((keep_arg8_15 m ρ c).trans ((keep_arg8_14 m ρ c).trans ((keep_arg8_13 m ρ c).trans ((keep_arg8_12 m ρ c).trans ((keep_arg8_11 m ρ c).trans ((keep_arg8_10 m ρ c).trans ((keep_arg8_9 m ρ c).trans ((keep_arg8_8 m ρ c).trans ((keep_arg8_7 m ρ c).trans ((keep_arg8_6 m ρ c).trans ((keep_arg8_5 m ρ c).trans ((keep_arg8_4 m ρ c).trans ((keep_arg8_3 m ρ c).trans ((keep_arg8_2 m ρ c).trans (keep_arg8_1 m ρ c)))))))))))))))))

theorem keep_arg10_1 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_2 (c : Dev nD) : W2 m ρ c (Proc.devRef .tc main_arg10) = W1 m ρ c (Proc.devRef .tc main_arg10) :=
  W2_of_ne m ρ c main_arg10 (by decide)

theorem keep_arg10_3 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_4 (c : Dev nD) : W4 m ρ c (Proc.devRef .tc main_arg10) = W3 m ρ c (Proc.devRef .tc main_arg10) :=
  W4_of_ne m ρ c main_arg10 (by decide)

theorem keep_arg10_5 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_6 (c : Dev nD) : W6 m ρ c (Proc.devRef .tc main_arg10) = W5 m ρ c (Proc.devRef .tc main_arg10) :=
  W6_of_ne m ρ c main_arg10 (by decide)

theorem keep_arg10_7 (c : Dev nD) : W7 m ρ c (Proc.devRef .tc main_arg10) = W6 m ρ c (Proc.devRef .tc main_arg10) :=
  StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_8 (c : Dev nD) : W8 m ρ c (Proc.devRef .tc main_arg10) = W7 m ρ c (Proc.devRef .tc main_arg10) :=
  W8_of_ne m ρ c main_arg10 (by decide)

theorem keep_arg10_9 (c : Dev nD) : W9 m ρ c (Proc.devRef .tc main_arg10) = W8 m ρ c (Proc.devRef .tc main_arg10) :=
  StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_10 (c : Dev nD) : W10 m ρ c (Proc.devRef .tc main_arg10) = W9 m ρ c (Proc.devRef .tc main_arg10) :=
  W10_of_ne m ρ c main_arg10 (by decide)

theorem keep_arg10_11 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_12 (c : Dev nD) : W12 m ρ c (Proc.devRef .tc main_arg10) = W11 m ρ c (Proc.devRef .tc main_arg10) :=
  W12_of_ne m ρ c main_arg10 (by decide)

theorem keep_arg10_13 (c : Dev nD) : W13 m ρ c (Proc.devRef .tc main_arg10) = W12 m ρ c (Proc.devRef .tc main_arg10) :=
  StableHlo.after_of_forall_not_mem (b := Proc.devRef .tc main_arg10) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_14 (c : Dev nD) : W14 m ρ c (Proc.devRef .tc main_arg10) = W13 m ρ c (Proc.devRef .tc main_arg10) :=
  W14_of_ne m ρ c main_arg10 (by decide)

theorem keep_arg10_15 (c : Dev nD) : W15 m ρ c (Proc.devRef .tc main_arg10) = W14 m ρ c (Proc.devRef .tc main_arg10) :=
  StableHlo.after_of_forall_not_mem (b := Proc.devRef .tc main_arg10) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_16 (c : Dev nD) : W16 m ρ c (Proc.devRef .tc main_arg10) = W15 m ρ c (Proc.devRef .tc main_arg10) :=
  W16_of_ne m ρ c main_arg10 (by decide)

theorem keep_arg10_17 (c : Dev nD) : W17 m ρ c (Proc.devRef .tc main_arg10) = W16 m ρ c (Proc.devRef .tc main_arg10) :=
  StableHlo.after_of_forall_not_mem (b := Proc.devRef .tc main_arg10) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg10_18 (c : Dev nD) : W18 m ρ c (Proc.devRef .tc main_arg10) = W17 m ρ c (Proc.devRef .tc main_arg10) :=
  W18_of_ne m ρ c main_arg10 (by decide)

theorem at_arg10_18 (c : Dev nD) : W18 m ρ c (Proc.devRef .tc main_arg10) = W0 m ρ c (Proc.devRef .tc main_arg10) :=
  (keep_arg10_18 m ρ c).trans ((keep_arg10_17 m ρ c).trans ((keep_arg10_16 m ρ c).trans ((keep_arg10_15 m ρ c).trans ((keep_arg10_14 m ρ c).trans ((keep_arg10_13 m ρ c).trans ((keep_arg10_12 m ρ c).trans ((keep_arg10_11 m ρ c).trans ((keep_arg10_10 m ρ c).trans ((keep_arg10_9 m ρ c).trans ((keep_arg10_8 m ρ c).trans ((keep_arg10_7 m ρ c).trans ((keep_arg10_6 m ρ c).trans ((keep_arg10_5 m ρ c).trans ((keep_arg10_4 m ρ c).trans ((keep_arg10_3 m ρ c).trans ((keep_arg10_2 m ρ c).trans (keep_arg10_1 m ρ c)))))))))))))))))

theorem keep_arg7_1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_2 (c : Dev nD) : W2 m ρ c (Proc.devRef .tc main_arg7) = W1 m ρ c (Proc.devRef .tc main_arg7) :=
  W2_of_ne m ρ c main_arg7 (by decide)

theorem keep_arg7_3 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_4 (c : Dev nD) : W4 m ρ c (Proc.devRef .tc main_arg7) = W3 m ρ c (Proc.devRef .tc main_arg7) :=
  W4_of_ne m ρ c main_arg7 (by decide)

theorem keep_arg7_5 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_6 (c : Dev nD) : W6 m ρ c (Proc.devRef .tc main_arg7) = W5 m ρ c (Proc.devRef .tc main_arg7) :=
  W6_of_ne m ρ c main_arg7 (by decide)

theorem keep_arg7_7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_8 (c : Dev nD) : W8 m ρ c (Proc.devRef .tc main_arg7) = W7 m ρ c (Proc.devRef .tc main_arg7) :=
  W8_of_ne m ρ c main_arg7 (by decide)

theorem keep_arg7_9 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_10 (c : Dev nD) : W10 m ρ c (Proc.devRef .tc main_arg7) = W9 m ρ c (Proc.devRef .tc main_arg7) :=
  W10_of_ne m ρ c main_arg7 (by decide)

theorem keep_arg7_11 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_12 (c : Dev nD) : W12 m ρ c (Proc.devRef .tc main_arg7) = W11 m ρ c (Proc.devRef .tc main_arg7) :=
  W12_of_ne m ρ c main_arg7 (by decide)

theorem keep_arg7_13 (c : Dev nD) : W13 m ρ c (Proc.devRef .tc main_arg7) = W12 m ρ c (Proc.devRef .tc main_arg7) :=
  StableHlo.after_of_forall_not_mem (b := Proc.devRef .tc main_arg7) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_14 (c : Dev nD) : W14 m ρ c (Proc.devRef .tc main_arg7) = W13 m ρ c (Proc.devRef .tc main_arg7) :=
  W14_of_ne m ρ c main_arg7 (by decide)

theorem keep_arg7_15 (c : Dev nD) : W15 m ρ c (Proc.devRef .tc main_arg7) = W14 m ρ c (Proc.devRef .tc main_arg7) :=
  StableHlo.after_of_forall_not_mem (b := Proc.devRef .tc main_arg7) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_16 (c : Dev nD) : W16 m ρ c (Proc.devRef .tc main_arg7) = W15 m ρ c (Proc.devRef .tc main_arg7) :=
  W16_of_ne m ρ c main_arg7 (by decide)

theorem keep_arg7_17 (c : Dev nD) : W17 m ρ c (Proc.devRef .tc main_arg7) = W16 m ρ c (Proc.devRef .tc main_arg7) :=
  StableHlo.after_of_forall_not_mem (b := Proc.devRef .tc main_arg7) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg7_18 (c : Dev nD) : W18 m ρ c (Proc.devRef .tc main_arg7) = W17 m ρ c (Proc.devRef .tc main_arg7) :=
  W18_of_ne m ρ c main_arg7 (by decide)

theorem keep_arg7_19 (c : Dev nD) : W19 m ρ c (Proc.devRef .tc main_arg7) = W18 m ρ c (Proc.devRef .tc main_arg7) :=
  StableHlo.after_of_forall_not_mem (b := Proc.devRef .tc main_arg7) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_arg7_19 (c : Dev nD) : W19 m ρ c (Proc.devRef .tc main_arg7) = W0 m ρ c (Proc.devRef .tc main_arg7) :=
  (keep_arg7_19 m ρ c).trans ((keep_arg7_18 m ρ c).trans ((keep_arg7_17 m ρ c).trans ((keep_arg7_16 m ρ c).trans ((keep_arg7_15 m ρ c).trans ((keep_arg7_14 m ρ c).trans ((keep_arg7_13 m ρ c).trans ((keep_arg7_12 m ρ c).trans ((keep_arg7_11 m ρ c).trans ((keep_arg7_10 m ρ c).trans ((keep_arg7_9 m ρ c).trans ((keep_arg7_8 m ρ c).trans ((keep_arg7_7 m ρ c).trans ((keep_arg7_6 m ρ c).trans ((keep_arg7_5 m ρ c).trans ((keep_arg7_4 m ρ c).trans ((keep_arg7_3 m ρ c).trans ((keep_arg7_2 m ρ c).trans (keep_arg7_1 m ρ c))))))))))))))))))

theorem keep_arg9_1 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_2 (c : Dev nD) : W2 m ρ c (Proc.devRef .tc main_arg9) = W1 m ρ c (Proc.devRef .tc main_arg9) :=
  W2_of_ne m ρ c main_arg9 (by decide)

theorem keep_arg9_3 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_4 (c : Dev nD) : W4 m ρ c (Proc.devRef .tc main_arg9) = W3 m ρ c (Proc.devRef .tc main_arg9) :=
  W4_of_ne m ρ c main_arg9 (by decide)

theorem keep_arg9_5 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_6 (c : Dev nD) : W6 m ρ c (Proc.devRef .tc main_arg9) = W5 m ρ c (Proc.devRef .tc main_arg9) :=
  W6_of_ne m ρ c main_arg9 (by decide)

theorem keep_arg9_7 (c : Dev nD) : W7 m ρ c (Proc.devRef .tc main_arg9) = W6 m ρ c (Proc.devRef .tc main_arg9) :=
  StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_8 (c : Dev nD) : W8 m ρ c (Proc.devRef .tc main_arg9) = W7 m ρ c (Proc.devRef .tc main_arg9) :=
  W8_of_ne m ρ c main_arg9 (by decide)

theorem keep_arg9_9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_10 (c : Dev nD) : W10 m ρ c (Proc.devRef .tc main_arg9) = W9 m ρ c (Proc.devRef .tc main_arg9) :=
  W10_of_ne m ρ c main_arg9 (by decide)

theorem keep_arg9_11 (c : Dev nD) : W11 m ρ c (Proc.devRef .tc main_arg9) = W10 m ρ c (Proc.devRef .tc main_arg9) :=
  StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_12 (c : Dev nD) : W12 m ρ c (Proc.devRef .tc main_arg9) = W11 m ρ c (Proc.devRef .tc main_arg9) :=
  W12_of_ne m ρ c main_arg9 (by decide)

theorem keep_arg9_13 (c : Dev nD) : W13 m ρ c (Proc.devRef .tc main_arg9) = W12 m ρ c (Proc.devRef .tc main_arg9) :=
  StableHlo.after_of_forall_not_mem (b := Proc.devRef .tc main_arg9) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_14 (c : Dev nD) : W14 m ρ c (Proc.devRef .tc main_arg9) = W13 m ρ c (Proc.devRef .tc main_arg9) :=
  W14_of_ne m ρ c main_arg9 (by decide)

theorem keep_arg9_15 (c : Dev nD) : W15 m ρ c (Proc.devRef .tc main_arg9) = W14 m ρ c (Proc.devRef .tc main_arg9) :=
  StableHlo.after_of_forall_not_mem (b := Proc.devRef .tc main_arg9) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_16 (c : Dev nD) : W16 m ρ c (Proc.devRef .tc main_arg9) = W15 m ρ c (Proc.devRef .tc main_arg9) :=
  W16_of_ne m ρ c main_arg9 (by decide)

theorem keep_arg9_17 (c : Dev nD) : W17 m ρ c (Proc.devRef .tc main_arg9) = W16 m ρ c (Proc.devRef .tc main_arg9) :=
  StableHlo.after_of_forall_not_mem (b := Proc.devRef .tc main_arg9) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep_arg9_18 (c : Dev nD) : W18 m ρ c (Proc.devRef .tc main_arg9) = W17 m ρ c (Proc.devRef .tc main_arg9) :=
  W18_of_ne m ρ c main_arg9 (by decide)

theorem keep_arg9_19 (c : Dev nD) : W19 m ρ c (Proc.devRef .tc main_arg9) = W18 m ρ c (Proc.devRef .tc main_arg9) :=
  StableHlo.after_of_forall_not_mem (b := Proc.devRef .tc main_arg9) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_arg9_19 (c : Dev nD) : W19 m ρ c (Proc.devRef .tc main_arg9) = W0 m ρ c (Proc.devRef .tc main_arg9) :=
  (keep_arg9_19 m ρ c).trans ((keep_arg9_18 m ρ c).trans ((keep_arg9_17 m ρ c).trans ((keep_arg9_16 m ρ c).trans ((keep_arg9_15 m ρ c).trans ((keep_arg9_14 m ρ c).trans ((keep_arg9_13 m ρ c).trans ((keep_arg9_12 m ρ c).trans ((keep_arg9_11 m ρ c).trans ((keep_arg9_10 m ρ c).trans ((keep_arg9_9 m ρ c).trans ((keep_arg9_8 m ρ c).trans ((keep_arg9_7 m ρ c).trans ((keep_arg9_6 m ρ c).trans ((keep_arg9_5 m ρ c).trans ((keep_arg9_4 m ρ c).trans ((keep_arg9_3 m ρ c).trans ((keep_arg9_2 m ρ c).trans (keep_arg9_1 m ρ c))))))))))))))))))

end Cert.KernelIdeal.Stages

end
-- ==== Proof.KeepStages.lean ====
/-
  Buffers that no later host operation and no later region writes keep their contents across the boundaries of the
  run: each lemma walks one buffer back through the fold of boundary contents, one boundary at a time (part three: a layer's aggregated features and its output).
-/
import proofs.«111193_j89515708383972_1_alg».proof.Proof.Gen.KernelIdeal.Frame

set_option maxRecDepth 16384

noncomputable section

namespace Cert.KernelIdeal.Stages

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem keep_v51_4 (c : Dev nD) : W4 m ρ c (Proc.devRef .tc main_v51) = W3 m ρ c (Proc.devRef .tc main_v51) :=
  (W4_arr m ρ c 0).trans (((dat1 (V3 m ρ) c).arrAt_in 0 rfl _).trans (A_eq1 (V3 m ρ) c 0))

theorem keep_v51_5 (c : Dev nD) : W5 m ρ c (Proc.devRef .tc main_v51) = W4 m ρ c (Proc.devRef .tc main_v51) :=
  StableHlo.after_of_forall_not_mem (b := Proc.devRef .tc main_v51) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_v51_5 (c : Dev nD) : W5 m ρ c (Proc.devRef .tc main_v51) = W3 m ρ c (Proc.devRef .tc main_v51) :=
  (keep_v51_5 m ρ c).trans (keep_v51_4 m ρ c)

theorem keep_v105_10 (c : Dev nD) : W10 m ρ c (Proc.devRef .tc main_v105) = W9 m ρ c (Proc.devRef .tc main_v105) :=
  (W10_arr m ρ c 0).trans (((dat4 (V9 m ρ) c).arrAt_in 0 rfl _).trans (A_eq4 (V9 m ρ) c 0))

theorem keep_v105_11 (c : Dev nD) : W11 m ρ c (Proc.devRef .tc main_v105) = W10 m ρ c (Proc.devRef .tc main_v105) :=
  StableHlo.after_of_forall_not_mem (b := Proc.devRef .tc main_v105) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_v105_11 (c : Dev nD) : W11 m ρ c (Proc.devRef .tc main_v105) = W9 m ρ c (Proc.devRef .tc main_v105) :=
  (keep_v105_11 m ρ c).trans (keep_v105_10 m ρ c)

theorem keep_v159_16 (c : Dev nD) : W16 m ρ c (Proc.devRef .tc main_v159) = W15 m ρ c (Proc.devRef .tc main_v159) :=
  (W16_arr m ρ c 0).trans (((dat7 (V15 m ρ) c).arrAt_in 0 rfl _).trans (A_eq7 (V15 m ρ) c 0))

theorem keep_v159_17 (c : Dev nD) : W17 m ρ c (Proc.devRef .tc main_v159) = W16 m ρ c (Proc.devRef .tc main_v159) :=
  StableHlo.after_of_forall_not_mem (b := Proc.devRef .tc main_v159) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_v159_17 (c : Dev nD) : W17 m ρ c (Proc.devRef .tc main_v159) = W15 m ρ c (Proc.devRef .tc main_v159) :=
  (keep_v159_17 m ρ c).trans (keep_v159_16 m ρ c)

theorem keep_v65_7 (c : Dev nD) : W7 m ρ c (Proc.devRef .tc main_v65) = W6 m ρ c (Proc.devRef .tc main_v65) :=
  StableHlo.after_of_forall_not_mem (b := Proc.devRef .tc main_v65) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_v65_7 (c : Dev nD) : W7 m ρ c (Proc.devRef .tc main_v65) = W6 m ρ c (Proc.devRef .tc main_v65) :=
  keep_v65_7 m ρ c

theorem keep_v119_13 (c : Dev nD) : W13 m ρ c (Proc.devRef .tc main_v119) = W12 m ρ c (Proc.devRef .tc main_v119) :=
  StableHlo.after_of_forall_not_mem (b := Proc.devRef .tc main_v119) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem at_v119_13 (c : Dev nD) : W13 m ρ c (Proc.devRef .tc main_v119) = W12 m ρ c (Proc.devRef .tc main_v119) :=
  keep_v119_13 m ρ c

end Cert.KernelIdeal.Stages

end
-- ==== Proof.KernelStages.lean ====
/-
  The idealized kernel's boundary contents, stage by stage.

  Between the regions the kernel runs the same host operations as the reference: the edge indices and the degree
  factors once, then per layer the weight slice, the edge aggregation of the product rows, the mean and the variance
  from the two column sums (the variance as the mean of squares minus the squared mean), and the scale and shift
  rows; at the end the pooling by graph. Each lemma reads one buffer after one host stretch as the stretch's
  operations applied to the buffers the stretch found.
-/
import proofs.«111193_j89515708383972_1_alg».proof.Proof.Gen.KernelIdeal.Frame
import proofs.«111193_j89515708383972_1_alg».proof.Proof.RefLayer
import proofs.«111193_j89515708383972_1_alg».proof.Proof.KernelHost
import proofs.«111193_j89515708383972_1_alg».proof.Proof.KeepIdx
import proofs.«111193_j89515708383972_1_alg».proof.Proof.KeepArgs
import proofs.«111193_j89515708383972_1_alg».proof.Proof.KeepStages
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo Cert.KernelIdeal Cert.KernelIdeal.Gen
open Cert.ReferenceIdeal.ReadP (val_main_v1 val_main_v3 val_main_v10 val_main_v44 val_main_v12 val_main_v14 val_main_v53 val_main_v55 val_main_v83 val_main_v85 val_main_v124 val_main_v126 val_main_v154 val_main_v156 val_main_v195 val_main_v197)

variable (m : (ℓ : Loc nD τ sig) → Buf (Elt Ideal) ℓ) (ρ : Dev nD → PrngReg) (c : Dev nD)

/-! ## Before the first region: the edge indices, the degree factors and the first weight matrix -/

theorem s0_v1 : W1 m ρ c (Proc.devRef .tc main_v1) = val_main_v1 (F := Ideal) (m ((c : Thread nD τ).loc main_arg1)) := by
  show StableHlo.after hostOps0 (W0 m ρ c) (Proc.devRef .tc main_v1) = _
  after_results
  rfl
theorem s0_v3 : W1 m ρ c (Proc.devRef .tc main_v3) = val_main_v3 (F := Ideal) (m ((c : Thread nD τ).loc main_arg1)) := by
  show StableHlo.after hostOps0 (W0 m ρ c) (Proc.devRef .tc main_v3) = _
  after_results
  rfl
theorem s0_v10 : W1 m ρ c (Proc.devRef .tc main_v10) = val_main_v10 (F := Ideal) (m ((c : Thread nD τ).loc main_arg1)) := by
  show StableHlo.after hostOps0 (W0 m ρ c) (Proc.devRef .tc main_v10) = _
  after_results
  rfl
theorem s0_v11 : W1 m ρ c (Proc.devRef .tc main_v11) = val_main_v44 (F := Ideal) (m ((c : Thread nD τ).loc main_arg1)) := by
  show StableHlo.after hostOps0 (W0 m ρ c) (Proc.devRef .tc main_v11) = _
  after_results
  rfl
theorem s0_v13 : W1 m ρ c (Proc.devRef .tc main_v13) = val_main_v12 (F := Ideal) (m ((c : Thread nD τ).loc main_arg3)) := by
  show StableHlo.after hostOps0 (W0 m ρ c) (Proc.devRef .tc main_v13) = _
  after_results
  rfl

/-! ## Layer 1 -/

set_option maxHeartbeats 4000000 in
theorem glue0 : W3 m ρ c (Proc.devRef .tc main_v51) = Cert.ReferenceIdeal.Layer.agg (W2 m ρ c (Proc.devRef .tc main_v14)) (m ((c : Thread nD τ).loc main_arg1)) (val_main_v14 (F := Ideal) (m ((c : Thread nD τ).loc main_arg4))) := by
  show StableHlo.after hostOps1 (W2 m ρ c) (Proc.devRef .tc main_v51) = _
  after_results_simp
  rw [at_v1_2 m ρ c, at_v3_2 m ρ c, at_v10_2 m ρ c, at_v11_2 m ρ c, at_arg4_2 m ρ c, s0_v1, s0_v3, s0_v10, s0_v11]
  rfl
theorem mean0 : W5 m ρ c (Proc.devRef .tc main_v54) = kMean (W4 m ρ c (Proc.devRef .tc main_v52_0)) := by
  show StableHlo.after hostOps2 (W4 m ρ c) (Proc.devRef .tc main_v54) = _
  after_results
  rfl
theorem var0 : W5 m ρ c (Proc.devRef .tc main_v58) = kVar (W4 m ρ c (Proc.devRef .tc main_v52_0)) (W4 m ρ c (Proc.devRef .tc main_v52_1)) := by
  show StableHlo.after hostOps2 (W4 m ρ c) (Proc.devRef .tc main_v58) = _
  after_results
  rfl
theorem scale0 : W5 m ρ c (Proc.devRef .tc main_v63) = kRow (val_main_v53 (F := Ideal) (m ((c : Thread nD τ).loc main_arg5))) := by
  show StableHlo.after hostOps2 (W4 m ρ c) (Proc.devRef .tc main_v63) = _
  after_results
  rw [at_arg5_4 m ρ c]
  rfl
theorem shift0 : W5 m ρ c (Proc.devRef .tc main_v64) = kRow (val_main_v55 (F := Ideal) (m ((c : Thread nD τ).loc main_arg6))) := by
  show StableHlo.after hostOps2 (W4 m ρ c) (Proc.devRef .tc main_v64) = _
  after_results
  rw [at_arg6_4 m ρ c]
  rfl

/-! ## Layer 2 -/

theorem wslice1 : W7 m ρ c (Proc.devRef .tc main_v67) = val_main_v83 (F := Ideal) (m ((c : Thread nD τ).loc main_arg3)) := by
  show StableHlo.after hostOps3 (W6 m ρ c) (Proc.devRef .tc main_v67) = _
  after_results
  rw [at_arg3_6 m ρ c]
  rfl
set_option maxHeartbeats 4000000 in
theorem glue1 : W9 m ρ c (Proc.devRef .tc main_v105) = Cert.ReferenceIdeal.Layer.agg (W8 m ρ c (Proc.devRef .tc main_v68)) (m ((c : Thread nD τ).loc main_arg1)) (val_main_v85 (F := Ideal) (m ((c : Thread nD τ).loc main_arg4))) := by
  show StableHlo.after hostOps4 (W8 m ρ c) (Proc.devRef .tc main_v105) = _
  after_results_simp
  rw [at_v1_8 m ρ c, at_v3_8 m ρ c, at_v10_8 m ρ c, at_v11_8 m ρ c, at_arg4_8 m ρ c, s0_v1, s0_v3, s0_v10, s0_v11]
  rfl
theorem mean1 : W11 m ρ c (Proc.devRef .tc main_v108) = kMean (W10 m ρ c (Proc.devRef .tc main_v106_0)) := by
  show StableHlo.after hostOps5 (W10 m ρ c) (Proc.devRef .tc main_v108) = _
  after_results
  rfl
theorem var1 : W11 m ρ c (Proc.devRef .tc main_v112) = kVar (W10 m ρ c (Proc.devRef .tc main_v106_0)) (W10 m ρ c (Proc.devRef .tc main_v106_1)) := by
  show StableHlo.after hostOps5 (W10 m ρ c) (Proc.devRef .tc main_v112) = _
  after_results
  rfl
theorem scale1 : W11 m ρ c (Proc.devRef .tc main_v117) = kRow (val_main_v124 (F := Ideal) (m ((c : Thread nD τ).loc main_arg5))) := by
  show StableHlo.after hostOps5 (W10 m ρ c) (Proc.devRef .tc main_v117) = _
  after_results
  rw [at_arg5_10 m ρ c]
  rfl
theorem shift1 : W11 m ρ c (Proc.devRef .tc main_v118) = kRow (val_main_v126 (F := Ideal) (m ((c : Thread nD τ).loc main_arg6))) := by
  show StableHlo.after hostOps5 (W10 m ρ c) (Proc.devRef .tc main_v118) = _
  after_results
  rw [at_arg6_10 m ρ c]
  rfl

/-! ## Layer 3 -/

theorem wslice2 : W13 m ρ c (Proc.devRef .tc main_v121) = val_main_v154 (F := Ideal) (m ((c : Thread nD τ).loc main_arg3)) := by
  show StableHlo.after hostOps6 (W12 m ρ c) (Proc.devRef .tc main_v121) = _
  after_results
  rw [at_arg3_12 m ρ c]
  rfl
set_option maxHeartbeats 4000000 in
theorem glue2 : W15 m ρ c (Proc.devRef .tc main_v159) = Cert.ReferenceIdeal.Layer.agg (W14 m ρ c (Proc.devRef .tc main_v122)) (m ((c : Thread nD τ).loc main_arg1)) (val_main_v156 (F := Ideal) (m ((c : Thread nD τ).loc main_arg4))) := by
  show StableHlo.after hostOps7 (W14 m ρ c) (Proc.devRef .tc main_v159) = _
  after_results_simp
  rw [at_v1_14 m ρ c, at_v3_14 m ρ c, at_v10_14 m ρ c, at_v11_14 m ρ c, at_arg4_14 m ρ c, s0_v1, s0_v3, s0_v10, s0_v11]
  rfl
theorem mean2 : W17 m ρ c (Proc.devRef .tc main_v162) = kMean (W16 m ρ c (Proc.devRef .tc main_v160_0)) := by
  show StableHlo.after hostOps8 (W16 m ρ c) (Proc.devRef .tc main_v162) = _
  after_results
  rfl
theorem var2 : W17 m ρ c (Proc.devRef .tc main_v166) = kVar (W16 m ρ c (Proc.devRef .tc main_v160_0)) (W16 m ρ c (Proc.devRef .tc main_v160_1)) := by
  show StableHlo.after hostOps8 (W16 m ρ c) (Proc.devRef .tc main_v166) = _
  after_results
  rfl
theorem scale2 : W17 m ρ c (Proc.devRef .tc main_v171) = kRow (val_main_v195 (F := Ideal) (m ((c : Thread nD τ).loc main_arg5))) := by
  show StableHlo.after hostOps8 (W16 m ρ c) (Proc.devRef .tc main_v171) = _
  after_results
  rw [at_arg5_16 m ρ c]
  rfl
theorem shift2 : W17 m ρ c (Proc.devRef .tc main_v172) = kRow (val_main_v197 (F := Ideal) (m ((c : Thread nD τ).loc main_arg6))) := by
  show StableHlo.after hostOps8 (W16 m ρ c) (Proc.devRef .tc main_v172) = _
  after_results
  rw [at_arg6_16 m ρ c]
  rfl

/-! ## The pooling and the head's bias rows -/

set_option maxHeartbeats 4000000 in
theorem pooled : W19 m ρ c (Proc.devRef .tc main_v185) = Cert.ReferenceIdeal.Layer.pool (W18 m ρ c (Proc.devRef .tc main_v173)) (m ((c : Thread nD τ).loc main_arg2)) := by
  show StableHlo.after hostOps9 (W18 m ρ c) (Proc.devRef .tc main_v185) = _
  after_results_simp
  rw [at_arg2_18 m ρ c]
  rfl
theorem bias1 : W19 m ρ c (Proc.devRef .tc main_v186) = shapeCast S1x128 (m ((c : Thread nD τ).loc main_arg8)) shapeCasts_S128_S1x128 := by
  show StableHlo.after hostOps9 (W18 m ρ c) (Proc.devRef .tc main_v186) = _
  after_results
  rw [at_arg8_18 m ρ c]
  rfl
theorem bias2 : W19 m ρ c (Proc.devRef .tc main_v187) = shapeCast S1x10 (m ((c : Thread nD τ).loc main_arg10)) shapeCasts_S10_S1x10 := by
  show StableHlo.after hostOps9 (W18 m ρ c) (Proc.devRef .tc main_v187) = _
  after_results
  rw [at_arg10_18 m ρ c]
  rfl

end Cert.KernelIdeal.Stages

end
-- ==== Proof.RefLayerAt.lean ====
/-
  The reference's normalisation read at an index, on the extended reals.

  Column `c` of a [20000, 256] array has mean (sum of the column) / 20000 and variance (sum of the squared centred
  entries) / 20000; the normalised entry at (n, c) is max(((gamma c * (a (n, c) - mean c)) * rsqrt(var c + eps)) + beta c, 0).
-/
import proofs.«111193_j89515708383972_1_alg».proof.Proof.RefLayer
import Idealize.ShloMosaic.PureOps.Ideal.Laws

noncomputable section

open scoped BigOperators

namespace Cert.ReferenceIdeal.Layer

open Idealize.ShloMosaic Idealize.ShloMosaic.ValueIdx Cert.ReferenceIdeal Cert.ReferenceIdeal.ReadP Cert.ReferenceIdeal.Facts₀ Cert.ReferenceIdeal.Facts

/-- The column of a [20000, 256] index, as an index of a 256-vector. -/
abbrev colOf (i : S20000x256.Idx) : S256.Idx := idx_main_v59 (idx_main_v60 i)

/-- The 256-vector spread over the rows, read at an index: its entry at the index's column. -/
theorem rows_apply {F : FTy → Type} [FloatOps F] (v : (⟨S256, .f32⟩ : BufTy).Contents (Elt F)) (i : S20000x256.Idx) :
    rows (F := F) v i = v (colOf i) := by
  unfold rows
  rw [broadcastInDim_apply _ bcast_S1x256_S20000x256_0_1 _ i (idx_main_v60 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  exact broadcastInDim_apply _ bcast_S256_S1x256_1 v (idx_main_v60 i) (colOf i) (fun a => match a with
    | ⟨0, _⟩ => by show ((idx_main_v60 i) 1).val = if (256 : Nat) = 1 then 0 else ((idx_main_v60 i) 1).val; rw [if_neg (by decide)])

/-- The host's column sum from the zero word, read at a column: the sum of the column's 20000 entries. -/
theorem colSum_apply (a : FVec Ideal S20000x256 .f32) (j : S256.Idx) :
    Host.reduceAdd (F := Ideal) a (val_main_cst_8 (F := Ideal)) reducesTo_S20000x256_S256_d0 h_S_ j = ∑ k : Fin 20000, a (idx_main_v56 j k) := by
  simp only [Host.reduceAdd, Ideal.hostReduceAdd_def]
  rw [Ideal.hostReduceAdd_single reducesTo_S20000x256_S256_d0 (by decide)]
  have h0 : (val_main_cst_8 (F := Ideal)) (Shape.Idx.first h_S_) = 0 := Ideal.ofBits_zero_f32
  rw [h0, zero_add]
  refine Finset.sum_congr rfl fun k _ => ?_
  exact congrArg a (funext fun b => Fin.ext (by match b with | ⟨0, _⟩ => rfl | ⟨1, _⟩ => rfl))

/-- The divisor array: every entry is the word of 20000. -/
theorem n_apply (j : S256.Idx) : val_main_v57 (F := Ideal) j = Ideal.ofBits .f32 0x469C4000#32 := rfl

/-- The mean of a column. -/
theorem colMean_apply (a : FVec Ideal S20000x256 .f32) (j : S256.Idx) :
    colMean (F := Ideal) a j = Ideal.div (∑ k : Fin 20000, a (idx_main_v56 j k)) (Ideal.ofBits .f32 0x469C4000#32) := by
  show FloatOps.hostDivf (F := Ideal) (Host.reduceAdd (F := Ideal) a (val_main_cst_8 (F := Ideal)) reducesTo_S20000x256_S256_d0 h_S_ j) (val_main_v57 (F := Ideal) j) = _
  rw [colSum_apply, n_apply, Ideal.hostDivf_def]

/-- A centred entry. -/
theorem centred_apply (a : FVec Ideal S20000x256 .f32) (i : S20000x256.Idx) : centred (F := Ideal) a i = a i - colMean (F := Ideal) a (colOf i) := by
  show FloatOps.subf (F := Ideal) (a i) (rows (F := Ideal) (colMean (F := Ideal) a) i) = _
  rw [rows_apply, Ideal.subf_def]

/-- The variance of a column. -/
theorem colVar_apply (a : FVec Ideal S20000x256 .f32) (j : S256.Idx) :
    colVar (F := Ideal) a j = Ideal.div (∑ k : Fin 20000, (a (idx_main_v56 j k) - colMean (F := Ideal) a j) * (a (idx_main_v56 j k) - colMean (F := Ideal) a j))
      (Ideal.ofBits .f32 0x469C4000#32) := by
  show FloatOps.hostDivf (F := Ideal) (Host.reduceAdd (F := Ideal) (mulf (centred (F := Ideal) a) (centred (F := Ideal) a)) (val_main_cst_10 (F := Ideal)) reducesTo_S20000x256_S256_d0 h_S_ j)
    (val_main_v64 (F := Ideal) j) = _
  have e : Host.reduceAdd (F := Ideal) (mulf (centred (F := Ideal) a) (centred (F := Ideal) a)) (val_main_cst_10 (F := Ideal)) reducesTo_S20000x256_S256_d0 h_S_ j
      = ∑ k : Fin 20000, (mulf (centred (F := Ideal) a) (centred (F := Ideal) a)) (idx_main_v56 j k) := colSum_apply _ j
  rw [e, Ideal.hostDivf_def]
  refine congrArg₂ Ideal.div (Finset.sum_congr rfl fun k _ => ?_) rfl
  show FloatOps.mulf (F := Ideal) (centred (F := Ideal) a (idx_main_v56 j k)) (centred (F := Ideal) a (idx_main_v56 j k)) = _
  rw [centred_apply, Ideal.mulf_def]
  have hc : colOf (idx_main_v56 j k) = j := funext fun b => Fin.ext (by match b with | ⟨0, _⟩ => rfl)
  rw [hc]

/-- The normalised, scaled, shifted and clamped entry. -/
theorem norm_apply (a : FVec Ideal S20000x256 .f32) (g be : FVec Ideal S256 .f32) (i : S20000x256.Idx) :
    norm (F := Ideal) a g be i = max (((g (colOf i) * (a i - colMean (F := Ideal) a (colOf i))) * Ideal.rsqrt (colVar (F := Ideal) a (colOf i) + Ideal.ofBits .f32 0x3727C5AC#32))
      + be (colOf i)) 0 := by
  show FloatOps.maximumf (F := Ideal) (FloatOps.addf (FloatOps.mulf (FloatOps.mulf (rows (F := Ideal) g i) (centred (F := Ideal) a i))
      (rows (F := Ideal) (Host.rsqrt (F := Ideal) (addf (colVar (F := Ideal) a) (val_main_v72 (F := Ideal)))) i)) (rows (F := Ideal) be i)) (val_main_call0_v0 (F := Ideal) i) = _
  rw [rows_apply, rows_apply, rows_apply, centred_apply]
  have hz : val_main_call0_v0 (F := Ideal) i = 0 := Ideal.ofBits_zero_f32
  rw [hz]
  rfl

end Cert.ReferenceIdeal.Layer

end
-- ==== Proof.RealLaws.lean ====
/-
  The real-number laws of the extended reals that a batch-normalised network needs.

  On the extended reals the two textbook forms of a variance, E[x²] − (E x)² and E[(x − E x)²], agree only
  when every entry is a real number (at an infinity one side is an undefined difference). So "every entry is
  real" has to be carried through every operation of the network. This file has three parts:

  1. scalars: the real numbers inside the extended reals are closed under the field operations, max, min,
     finite sums, division by a nonzero real and the reciprocal square root of a positive real; the constants
     the programs spell are real;
  2. arrays: every array operation of the network (re-indexings, pointwise arithmetic, scatter-add, matrix
     product, column sum, constants) sends arrays of reals to arrays of reals; a node degree plus one is a real
     that is at least one;
  3. the variance law: for real entries the two forms of the variance agree, the common value is a real that is
     at least zero, and the mean is real.
-/
import proofs.«111193_j89515708383972_1_alg».proof.Proof.Spec
import Idealize.ShloMosaic.PureOps.Ideal.Laws
import Idealize.ShloMosaic.PureOps.Contract
import Mathlib

noncomputable section

open scoped BigOperators

namespace Cert.Gcn

open Idealize.ShloMosaic

/-! ## 1. Scalars -/

/-- A real number, seen as an extended real, is real. -/
theorem IsReal.coe (r : ℝ) : IsReal (r : EReal) := ⟨r, rfl⟩

/-- Zero is real. -/
theorem IsReal.zero : IsReal (0 : EReal) := ⟨0, EReal.coe_zero.symm⟩

/-- One is real. -/
theorem IsReal.one : IsReal (1 : EReal) := ⟨1, EReal.coe_one.symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The negative of a real is real. -/
theorem IsReal.neg {x : EReal} (hx : IsReal x) : IsReal (-x) := by
  obtain ⟨a, rfl⟩ := hx
  exact ⟨-a, (EReal.coe_neg a).symm⟩

/-- The larger of two reals is real: it is one of the two. -/
theorem IsReal.max {x y : EReal} (hx : IsReal x) (hy : IsReal y) : IsReal (max x y) := by
  rcases max_choice x y with h | h
  · rw [h]; exact hx
  · rw [h]; exact hy

/-- The smaller of two reals is real: it is one of the two. -/
theorem IsReal.min {x y : EReal} (hx : IsReal x) (hy : IsReal y) : IsReal (min x y) := by
  rcases min_choice x y with h | h
  · rw [h]; exact hx
  · rw [h]; exact hy

/-- A finite sum of reals is real. -/
theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- A sum of reals over a whole finite type is real. -/
theorem IsReal.sum_univ {ι : Type*} [Fintype ι] (f : ι → EReal) (h : ∀ i, IsReal (f i)) : IsReal (∑ i, f i) :=
  IsReal.sum Finset.univ f fun i _ => h i

/-- The coercion of the reals into the extended reals commutes with finite sums. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A real divided by a nonzero real is real. -/
theorem IsReal.div_coe {x : EReal} (hx : IsReal x) {N : ℝ} (hN : N ≠ 0) : IsReal (Ideal.div x (N : EReal)) := by
  rw [Ideal.div_coe hN]
  exact hx.mul (IsReal.coe _)

/-- The f32 word 0x469C4000 denotes the real number 20000. -/
theorem ofBits_20000 : Ideal.ofBits .f32 0x469C4000#32 = ((20000 : ℝ) : EReal) := by
  simp [Ideal.ofBits, Ideal.ieee, -EReal.coe_mul]; norm_num

/-- The f32 word 0x3F800000 denotes the real number 1. -/
theorem ofBits_one : Ideal.ofBits .f32 0x3F800000#32 = ((1 : ℝ) : EReal) := by
  simp [Ideal.ofBits, Ideal.ieee, -EReal.coe_mul]; norm_num

/-- The f32 word 0x3727C5AC, the stabiliser, denotes the real 10995116 · 2⁻⁴⁰. -/
theorem eps_eq : eps = ((10995116 * (2 : ℝ) ^ (-40 : ℤ) : ℝ) : EReal) := by
  simp [eps, Ideal.ofBits, Ideal.ieee, -EReal.coe_mul]

/-- The stabiliser is a positive real. -/
theorem eps_pos : ∃ e : ℝ, 0 < e ∧ eps = (e : EReal) :=
  ⟨10995116 * (2 : ℝ) ^ (-40 : ℤ), by positivity, eps_eq⟩

/-- The stabiliser is real. -/
theorem IsReal.eps : IsReal Cert.Gcn.eps := by
  obtain ⟨e, _, he⟩ := eps_pos
  exact ⟨e, he⟩

/-- The reciprocal square root of a positive real is real. -/
theorem isReal_rsqrt_of_pos {r : ℝ} (h : 0 < r) : IsReal (Ideal.rsqrt (r : EReal)) := by
  rw [Ideal.rsqrt_coe, if_neg (not_lt.mpr h.le), if_neg h.ne']
  exact ⟨_, rfl⟩

/-- The reciprocal square root of an extended real that is a positive real is real. -/
theorem isReal_rsqrt_of_pos' (x : EReal) (h : ∃ r : ℝ, 0 < r ∧ x = (r : EReal)) : IsReal (Ideal.rsqrt x) := by
  obtain ⟨r, hr, rfl⟩ := h
  exact isReal_rsqrt_of_pos hr

/-- A real that is at least zero, plus the stabiliser, is a positive real. -/
theorem add_eps_pos {v : ℝ} (hv : 0 ≤ v) : ∃ r : ℝ, 0 < r ∧ (v : EReal) + eps = (r : EReal) := by
  obtain ⟨e, he, h⟩ := eps_pos
  exact ⟨v + e, by linarith, by rw [h, EReal.coe_add]⟩

/-- The reciprocal square root of a nonnegative real plus the stabiliser is real. -/
theorem isReal_rsqrt_add_eps {v : ℝ} (hv : 0 ≤ v) : IsReal (Ideal.rsqrt ((v : EReal) + eps)) :=
  isReal_rsqrt_of_pos' _ (add_eps_pos hv)

/-! ## 2. Arrays -/

/-- Reading an array of reals through any re-indexing gives an array of reals. -/
theorem AllReal.comp {s t : Shape} {v : s.Idx → EReal} (hv : AllReal v) (f : t.Idx → s.Idx) :
    AllReal (fun i => v (f i)) := fun i => hv (f i)

/-- An array all of whose entries are one real number is an array of reals. -/
theorem AllReal.const {s : Shape} {x : EReal} (hx : IsReal x) : AllReal (fun _ : s.Idx => x) := fun _ => hx

/-- An array given entry by entry as real numbers is an array of reals. -/
theorem AllReal.of_eq_coe {s : Shape} {v : s.Idx → EReal} (a : s.Idx → ℝ) (h : ∀ i, v i = (a i : EReal)) :
    AllReal v := fun i => ⟨a i, h i⟩

/-- The splat of a real is an array of reals. -/
theorem AllReal.broadcast {x : EReal} (hx : IsReal x) (t : Shape) : AllReal (broadcast t x) := fun _ => hx

/-- A broadcast along trailing axes re-indexes: it keeps an array real. -/
theorem AllReal.broadcastTo {s : Shape} {x : s.Idx → EReal} (hx : AllReal x) (t : Shape) (h : s.Broadcasts t) :
    AllReal (broadcastTo t x h) := fun _ => hx _

/-- A broadcast in dimensions re-indexes: it keeps an array real. -/
theorem AllReal.broadcastInDim {s : Shape} {x : s.Idx → EReal} (hx : AllReal x) (t : Shape)
    (dims : Fin s.rank → Fin t.rank) (h : s.BroadcastsInDim t dims) : AllReal (broadcastInDim t dims h x) :=
  fun _ => hx _

/-- A shape cast re-indexes: it keeps an array real. -/
theorem AllReal.shapeCast {s : Shape} {x : s.Idx → EReal} (hx : AllReal x) (t : Shape) (h : s.ShapeCasts t) :
    AllReal (shapeCast t x h) := fun _ => hx _

/-- A slice re-indexes: it keeps an array real. -/
theorem AllReal.extractStridedSlice {s : Shape} {x : s.Idx → EReal} (hx : AllReal x) (t : Shape)
    (off : Fin s.rank → Nat) (h : s.Slices off t) : AllReal (extractStridedSlice t off x h) := fun _ => hx _

/-- A strided slice re-indexes: it keeps an array real. -/
theorem AllReal.hostSlice {s : Shape} {x : s.Idx → EReal} (hx : AllReal x) (t : Shape)
    (start strides : Fin s.rank → Nat) (h : s.SlicesBy start strides t) : AllReal (Host.slice t start strides x h) :=
  fun _ => hx _

/-- A transposition re-indexes: it keeps an array real. -/
theorem AllReal.transpose {s : Shape} {x : s.Idx → EReal} (hx : AllReal x) (t : Shape) (perm : List (Fin s.rank))
    (h : s.Transposes perm t) : AllReal (transpose t perm x h) := fun _ => hx _

/-- A gather re-indexes (each result entry is some operand entry): it keeps an array real. -/
theorem AllReal.gather {s si t : Shape} {w : Nat} {x : s.Idx → EReal} (hx : AllReal x) (d : GatherDims s si t)
    (idx : IVec si w) : AllReal (Host.gather d x idx) := fun _ => hx _

section Pointwise
variable {s : Shape} {φ : FTy} {x y : FVec Ideal s φ}

/-- The entrywise product of two arrays of reals is an array of reals. -/
theorem AllReal.mulf (hx : AllReal x) (hy : AllReal y) : AllReal (mulf x y) := fun i => (hx i).mul (hy i)

/-- The entrywise sum of two arrays of reals is an array of reals. -/
theorem AllReal.addf (hx : AllReal x) (hy : AllReal y) : AllReal (addf x y) := fun i => (hx i).add (hy i)

/-- The entrywise difference of two arrays of reals is an array of reals. -/
theorem AllReal.subf (hx : AllReal x) (hy : AllReal y) : AllReal (subf x y) := fun i => (hx i).sub (hy i)

/-- The entrywise maximum of two arrays of reals is an array of reals. -/
theorem AllReal.maximumf (hx : AllReal x) (hy : AllReal y) : AllReal (maximumf x y) := fun i => (hx i).max (hy i)

/-- The entrywise minimum of two arrays of reals is an array of reals. -/
theorem AllReal.minimumf (hx : AllReal x) (hy : AllReal y) : AllReal (minimumf x y) := fun i => (hx i).min (hy i)

/-- The entrywise negative of an array of reals is an array of reals. -/
theorem AllReal.negf (hx : AllReal x) : AllReal (negf x) := fun i => (hx i).neg

/-- An array of reals divided entrywise by an array whose every entry is one nonzero real is an array of reals. -/
theorem AllReal.hostDivf_const (hx : AllReal x) {N : ℝ} (hN : N ≠ 0) (hy : ∀ i, y i = (N : EReal)) :
    AllReal (Host.divf x y) := fun i => by
  show IsReal (Ideal.div (x i) (y i))
  rw [hy i]
  exact (hx i).div_coe hN

/-- The same for the kernel's division. -/
theorem AllReal.divf_const (hx : AllReal x) {N : ℝ} (hN : N ≠ 0) (hy : ∀ i, y i = (N : EReal)) :
    AllReal (divf x y) := fun i => by
  show IsReal (Ideal.div (x i) (y i))
  rw [hy i]
  exact (hx i).div_coe hN

/-- The reciprocal square root, entry by entry, of an array of positive reals is an array of reals. -/
theorem AllReal.hostRsqrt_of_pos (hx : ∀ i, ∃ r : ℝ, 0 < r ∧ x i = (r : EReal)) : AllReal (Host.rsqrt x) :=
  fun i => isReal_rsqrt_of_pos' (x i) (hx i)

/-- The same for the kernel's reciprocal square root. -/
theorem AllReal.rsqrt_of_pos (hx : ∀ i, ∃ r : ℝ, 0 < r ∧ x i = (r : EReal)) : AllReal (rsqrt x) :=
  fun i => isReal_rsqrt_of_pos' (x i) (hx i)

end Pointwise

/-- A scatter-add of an array of reals into an array of reals is an array of reals: each entry is an operand entry
    plus a finite sum of update entries. -/
theorem AllReal.scatterAdd {s si su : Shape} {φ : FTy} {w : Nat} (d : ScatterDims s si su) {x : FVec Ideal s φ}
    (idx : IVec si w) {upd : FVec Ideal su φ} (hx : AllReal x) (hupd : AllReal upd) :
    AllReal (Host.scatterAdd (F := Ideal) d x idx upd) := fun i => by
  show IsReal (x i + ∑ j ∈ Finset.univ.filter (fun j => d.resultIdx? j idx = some i), upd j)
  exact (hx i).add (IsReal.sum _ _ fun j _ => hupd j)

/-- The same at any schedule key. -/
theorem AllReal.scatterAddAt (sched : HostSchedule) {s si su : Shape} {φ : FTy} {w : Nat} (d : ScatterDims s si su)
    {x : FVec Ideal s φ} (idx : IVec si w) {upd : FVec Ideal su φ} (hx : AllReal x) (hupd : AllReal upd) :
    AllReal (Host.scatterAddAt (F := Ideal) sched d x idx upd) := fun i => by
  show IsReal (x i + ∑ j ∈ Finset.univ.filter (fun j => d.resultIdx? j idx = some i), upd j)
  exact (hx i).add (IsReal.sum _ _ fun j _ => hupd j)

/-- A matrix product of two arrays of reals is an array of reals: each entry is a finite sum of products. -/
theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral (F := Ideal) d prec l r) := fun j => by
  show IsReal (FloatOps.dotGeneral d prec .single l r j)
  rw [Ideal.dotGeneral_apply]
  exact IsReal.sum_univ _ fun k => (hl _).mul (hr _)

/-- The same at any schedule key. -/
theorem AllReal.dotGeneralAt (sched : HostSchedule) {sl sr so : Shape} {φ₁ φ₂ : FTy} (d : DotDims sl sr so)
    (prec : Option ContractPrecision) {l : FVec Ideal sl φ₁} {r : FVec Ideal sr φ₂} (hl : AllReal l) (hr : AllReal r) :
    AllReal (Host.dotGeneralAt (F := Ideal) sched d prec l r) := fun j => by
  show IsReal (FloatOps.dotGeneral d prec sched l r j)
  rw [Ideal.dotGeneral_apply]
  exact IsReal.sum_univ _ fun k => (hl _).mul (hr _)

/-- The kernel's matrix product of two arrays of reals onto an accumulator of reals is an array of reals. -/
theorem AllReal.matmul {sl sr so : Shape} {φ₁ φ₂ : FTy} (d : DotDims sl sr so) (prec : Option ContractPrecision)
    {l : FVec Ideal sl φ₁} {r : FVec Ideal sr φ₂} {acc : FVec Ideal so .f32} (hl : AllReal l) (hr : AllReal r)
    (hacc : AllReal acc) : AllReal (matmul (F := Ideal) d prec l r acc) := fun j => by
  show IsReal (FloatOps.matmul d prec l r acc j)
  rw [Ideal.matmul_apply]
  exact (hacc j).add (IsReal.sum_univ _ fun k => (hl _).mul (hr _))

/-- A sum over axes of an array of reals from a real initial value is an array of reals: each entry is the initial
    value plus a finite sum of operand entries. -/
theorem AllReal.reduceAdd {s : Shape} {φ : FTy} {axes : List (Fin s.rank)} {t u : Shape} {x : FVec Ideal s φ}
    {init : u.Idx → Ideal φ} (hx : AllReal x) (hinit : AllReal init) (h : s.ReducesTo axes t) (hu : 0 < u.numel) :
    AllReal (Host.reduceAdd (F := Ideal) x init h hu) := fun j => by
  show IsReal (init (Shape.Idx.first hu) + ∑ i ∈ Finset.univ.filter (fun i => h.drop i = j), x i)
  exact (hinit _).add (IsReal.sum _ _ fun i _ => hx i)

/-- The same at any schedule key. -/
theorem AllReal.reduceAddAt (sched : HostSchedule) {s : Shape} {φ : FTy} {axes : List (Fin s.rank)} {t u : Shape}
    {x : FVec Ideal s φ} {init : u.Idx → Ideal φ} (hx : AllReal x) (hinit : AllReal init) (h : s.ReducesTo axes t)
    (hu : 0 < u.numel) : AllReal (Host.reduceAddAt (F := Ideal) sched x init h hu) := fun j => by
  show IsReal (init (Shape.Idx.first hu) + ∑ i ∈ Finset.univ.filter (fun i => h.drop i = j), x i)
  exact (hinit _).add (IsReal.sum _ _ fun i _ => hx i)

/-- The kernel's sum over axes of an array of reals is an array of reals. -/
theorem AllReal.idealReduceAdd {s : Shape} {axes : List (Fin s.rank)} {t : Shape} (h : s.Reduces axes t)
    {x : s.Idx → EReal} (hx : AllReal x) : AllReal (Ideal.reduceAdd h x) := fun j => by
  show IsReal (∑ i ∈ Finset.univ.filter (fun i => h.drop i = j), x i)
  exact IsReal.sum _ _ fun i _ => hx i

/-- The zero constant array is an array of reals. -/
theorem AllReal.constant_zero (s : Shape) : AllReal (constant (F := Ideal) s .f32 0x00000000#32) := fun _ => by
  show IsReal (Ideal.ofBits .f32 0x00000000#32)
  rw [Ideal.ofBits_zero_f32]; exact IsReal.zero

/-- The constant array of ones is an array of reals. -/
theorem AllReal.constant_one (s : Shape) : AllReal (constant (F := Ideal) s .f32 0x3F800000#32) := fun _ => by
  show IsReal (Ideal.ofBits .f32 0x3F800000#32)
  rw [ofBits_one]; exact IsReal.coe _

/-- The constant array of 20000s is an array of reals. -/
theorem AllReal.constant_20000 (s : Shape) : AllReal (constant (F := Ideal) s .f32 0x469C4000#32) := fun _ => by
  show IsReal (Ideal.ofBits .f32 0x469C4000#32)
  rw [ofBits_20000]; exact IsReal.coe _

/-- The constant array of the stabiliser is an array of reals. -/
theorem AllReal.constant_eps (s : Shape) : AllReal (constant (F := Ideal) s .f32 0x3727C5AC#32) := fun _ =>
  IsReal.eps

/-- Every entry of the zero constant array is the extended real zero. -/
theorem constant_zero_apply (s : Shape) (i : s.Idx) : constant (F := Ideal) s .f32 0x00000000#32 i = (0 : EReal) :=
  Ideal.ofBits_zero_f32

/-- Every entry of the constant array of ones is the extended real one. -/
theorem constant_one_apply (s : Shape) (i : s.Idx) : constant (F := Ideal) s .f32 0x3F800000#32 i = (1 : EReal) := by
  show Ideal.ofBits .f32 0x3F800000#32 = 1
  rw [ofBits_one, EReal.coe_one]

/-- Every entry of the constant array of 20000s is the real 20000. -/
theorem constant_20000_apply (s : Shape) (i : s.Idx) :
    constant (F := Ideal) s .f32 0x469C4000#32 i = ((20000 : ℝ) : EReal) := ofBits_20000

/-- A finite sum of reals that are at least zero is a real that is at least zero. -/
theorem sum_nonneg_real {ι : Type*} (s : Finset ι) (f : ι → EReal) (h : ∀ i ∈ s, ∃ r : ℝ, 0 ≤ r ∧ f i = (r : EReal)) :
    ∃ r : ℝ, 0 ≤ r ∧ ∑ i ∈ s, f i = (r : EReal) :=
  Finset.sum_induction f (fun x => ∃ r : ℝ, 0 ≤ r ∧ x = (r : EReal))
    (fun _ _ ⟨a, ha, ea⟩ ⟨b, hb, eb⟩ => ⟨a + b, add_nonneg ha hb, by rw [ea, eb, EReal.coe_add]⟩)
    ⟨0, le_rfl, EReal.coe_zero.symm⟩ h

/-- The degree plus one: scatter-adding ones into zeros and adding one gives, at every entry, a real that is at
    least one (the number of updates landing there, plus one). Entrywise hypotheses. -/
theorem degree_ge_one {s si su : Shape} {φ : FTy} {w : Nat} (d : ScatterDims s si su) (x one : FVec Ideal s φ)
    (idx : IVec si w) (upd : FVec Ideal su φ) (hx : ∀ i, x i = (0 : EReal)) (hupd : ∀ j, upd j = (1 : EReal))
    (hone : ∀ i, one i = (1 : EReal)) (i : s.Idx) :
    ∃ r : ℝ, 1 ≤ r ∧ addf (Host.scatterAdd (F := Ideal) d x idx upd) one i = (r : EReal) := by
  obtain ⟨c, hc, hsum⟩ := sum_nonneg_real (Finset.univ.filter (fun j => d.resultIdx? j idx = some i)) upd
    (fun j _ => ⟨1, zero_le_one, by rw [hupd j, EReal.coe_one]⟩)
  refine ⟨c + 1, by linarith, ?_⟩
  show (x i + ∑ j ∈ Finset.univ.filter (fun j => d.resultIdx? j idx = some i), upd j) + one i = _
  rw [hx i, hone i, hsum, zero_add, EReal.coe_add, EReal.coe_one]

/-- The same with the operand, the updates and the added array given as constant functions. -/
theorem degree_ge_one' {s si su : Shape} {φ : FTy} {w : Nat} (d : ScatterDims s si su) (x one : FVec Ideal s φ)
    (idx : IVec si w) (upd : FVec Ideal su φ) (hx : x = fun _ => (0 : EReal)) (hupd : upd = fun _ => (1 : EReal))
    (hone : one = fun _ => (1 : EReal)) (i : s.Idx) :
    ∃ r : ℝ, 1 ≤ r ∧ addf (Host.scatterAdd (F := Ideal) d x idx upd) one i = (r : EReal) :=
  degree_ge_one d x one idx upd (fun i => congrFun hx i) (fun j => congrFun hupd j) (fun i => congrFun hone i) i

/-- The degree plus one is an array of reals. -/
theorem allReal_degree {s si su : Shape} {φ : FTy} {w : Nat} (d : ScatterDims s si su) (x one : FVec Ideal s φ)
    (idx : IVec si w) (upd : FVec Ideal su φ) (hx : ∀ i, x i = (0 : EReal)) (hupd : ∀ j, upd j = (1 : EReal))
    (hone : ∀ i, one i = (1 : EReal)) : AllReal (addf (Host.scatterAdd (F := Ideal) d x idx upd) one) := fun i => by
  obtain ⟨r, _, h⟩ := degree_ge_one d x one idx upd hx hupd hone i
  exact ⟨r, h⟩

/-- The reciprocal square root of the degree plus one is an array of reals. -/
theorem allReal_rsqrt_degree {s si su : Shape} {φ : FTy} {w : Nat} (d : ScatterDims s si su) (x one : FVec Ideal s φ)
    (idx : IVec si w) (upd : FVec Ideal su φ) (hx : ∀ i, x i = (0 : EReal)) (hupd : ∀ j, upd j = (1 : EReal))
    (hone : ∀ i, one i = (1 : EReal)) :
    AllReal (Host.rsqrt (addf (Host.scatterAdd (F := Ideal) d x idx upd) one)) :=
  AllReal.hostRsqrt_of_pos fun i => by
    obtain ⟨r, hr, h⟩ := degree_ge_one d x one idx upd hx hupd hone i
    exact ⟨r, by linarith, h⟩

/-- The same with the operand, the updates and the added array given as constant functions. -/
theorem allReal_rsqrt_degree' {s si su : Shape} {φ : FTy} {w : Nat} (d : ScatterDims s si su) (x one : FVec Ideal s φ)
    (idx : IVec si w) (upd : FVec Ideal su φ) (hx : x = fun _ => (0 : EReal)) (hupd : upd = fun _ => (1 : EReal))
    (hone : one = fun _ => (1 : EReal)) :
    AllReal (Host.rsqrt (addf (Host.scatterAdd (F := Ideal) d x idx upd) one)) :=
  allReal_rsqrt_degree d x one idx upd (fun i => congrFun hx i) (fun j => congrFun hupd j) (fun i => congrFun hone i)

/-! ## 3. The variance law -/

/-- A family of real extended reals is the coercion of a family of real numbers. -/
theorem exists_real_family {ι : Type*} (x : ι → EReal) (hx : ∀ i, IsReal (x i)) :
    ∃ a : ι → ℝ, ∀ i, x i = (a i : EReal) :=
  ⟨fun i => (hx i).choose, fun i => (hx i).choose_spec⟩

/-- The variance law on the real numbers: with m the mean of N numbers, the mean of the squares minus m² is the
    mean of the squared deviations from m. Expand (a − m)² = a² − 2·m·a + m² and use ∑ a = N·m. -/
theorem variance_real {ι : Type*} [Fintype ι] (N : ℝ) (hN : N = Fintype.card ι) (hpos : 0 < N) (a : ι → ℝ) :
    (∑ i, a i * a i) * (1 / N) - ((∑ i, a i) * (1 / N)) * ((∑ i, a i) * (1 / N))
      = (∑ i, (a i - (∑ i, a i) * (1 / N)) * (a i - (∑ i, a i) * (1 / N))) * (1 / N) := by
  have hN0 : N ≠ 0 := hpos.ne'
  generalize hS : (∑ i, a i) = S
  generalize hm : S * (1 / N) = m
  have hSm : S = N * m := by rw [← hm]; field_simp
  have h1 : ∑ i, (a i - m) * (a i - m) = (∑ i, a i * a i) - 2 * m * S + N * (m * m) := by
    have h2 : ∀ i, (a i - m) * (a i - m) = a i * a i - 2 * m * a i + m * m := fun i => by ring
    simp only [h2]
    rw [Finset.sum_add_distrib, Finset.sum_sub_distrib, ← Finset.mul_sum, Finset.sum_const, Finset.card_univ,
      nsmul_eq_mul, ← hN, hS]
  rw [h1, hSm]
  field_simp
  ring

/-- The mean of real entries is real. -/
theorem mean_isReal {ι : Type*} [Fintype ι] (N : ℝ) (hpos : 0 < N) (x : ι → EReal) (hx : ∀ i, IsReal (x i)) :
    IsReal (Ideal.div (∑ i, x i) (N : EReal)) :=
  (IsReal.sum_univ x hx).div_coe hpos.ne'

/-- The mean of the coercions of real numbers is the coercion of their mean. -/
theorem mean_coe {ι : Type*} [Fintype ι] (N : ℝ) (hpos : 0 < N) (a : ι → ℝ) :
    Ideal.div (∑ i, (a i : EReal)) (N : EReal) = (((∑ i, a i) * (1 / N) : ℝ) : EReal) := by
  rw [Ideal.div_coe hpos.ne', ← coe_finset_sum, ← EReal.coe_mul]

/-- The variance law on the extended reals, for real entries: with μ the mean, the mean of the squares minus μ² is
    the mean of the squared deviations from μ. (Both sides are coercions of the two sides of the law on the reals.) -/
theorem variance_law {ι : Type*} [Fintype ι] (N : ℝ) (hN : N = Fintype.card ι) (hpos : 0 < N) (x : ι → EReal)
    (hx : ∀ i, IsReal (x i)) :
    Ideal.div (∑ i, x i * x i) (N : EReal)
        - Ideal.div (∑ i, x i) (N : EReal) * Ideal.div (∑ i, x i) (N : EReal)
      = Ideal.div (∑ i, (x i - Ideal.div (∑ i, x i) (N : EReal)) * (x i - Ideal.div (∑ i, x i) (N : EReal)))
          (N : EReal) := by
  obtain ⟨a, ha⟩ := exists_real_family x hx
  obtain rfl : x = fun i => (a i : EReal) := funext ha
  have hN0 : N ≠ 0 := hpos.ne'
  rw [mean_coe N hpos a]
  have hsq : ∑ i, (a i : EReal) * (a i : EReal) = ((∑ i, a i * a i : ℝ) : EReal) := by
    rw [coe_finset_sum]
    exact Finset.sum_congr rfl fun i _ => (EReal.coe_mul _ _).symm
  have hdev : ∑ i, ((a i : EReal) - (((∑ i, a i) * (1 / N) : ℝ) : EReal))
        * ((a i : EReal) - (((∑ i, a i) * (1 / N) : ℝ) : EReal))
      = ((∑ i, (a i - (∑ i, a i) * (1 / N)) * (a i - (∑ i, a i) * (1 / N)) : ℝ) : EReal) := by
    rw [coe_finset_sum]
    exact Finset.sum_congr rfl fun i _ => by rw [← EReal.coe_sub, ← EReal.coe_mul]
  rw [hsq, hdev, Ideal.div_coe hN0, Ideal.div_coe hN0, ← EReal.coe_mul, ← EReal.coe_mul, ← EReal.coe_mul,
    ← EReal.coe_sub, variance_real N hN hpos a]

/-- The variance of real entries (the mean of the squared deviations from the mean) is a real that is at least
    zero. -/
theorem variance_nonneg {ι : Type*} [Fintype ι] (N : ℝ) (hpos : 0 < N) (x : ι → EReal) (hx : ∀ i, IsReal (x i)) :
    ∃ v : ℝ, 0 ≤ v ∧
      Ideal.div (∑ i, (x i - Ideal.div (∑ i, x i) (N : EReal)) * (x i - Ideal.div (∑ i, x i) (N : EReal)))
        (N : EReal) = (v : EReal) := by
  obtain ⟨a, ha⟩ := exists_real_family x hx
  obtain rfl : x = fun i => (a i : EReal) := funext ha
  have hN0 : N ≠ 0 := hpos.ne'
  rw [mean_coe N hpos a]
  have hdev : ∑ i, ((a i : EReal) - (((∑ i, a i) * (1 / N) : ℝ) : EReal))
        * ((a i : EReal) - (((∑ i, a i) * (1 / N) : ℝ) : EReal))
      = ((∑ i, (a i - (∑ i, a i) * (1 / N)) * (a i - (∑ i, a i) * (1 / N)) : ℝ) : EReal) := by
    rw [coe_finset_sum]
    exact Finset.sum_congr rfl fun i _ => by rw [← EReal.coe_sub, ← EReal.coe_mul]
  refine ⟨(∑ i, (a i - (∑ i, a i) * (1 / N)) * (a i - (∑ i, a i) * (1 / N))) * (1 / N),
    mul_nonneg (Finset.sum_nonneg fun i _ => mul_self_nonneg _) (by positivity), ?_⟩
  rw [hdev, Ideal.div_coe hN0, ← EReal.coe_mul]

/-- The same value in its other form: the mean of the squares minus the squared mean is a real at least zero. -/
theorem variance_nonneg' {ι : Type*} [Fintype ι] (N : ℝ) (hN : N = Fintype.card ι) (hpos : 0 < N) (x : ι → EReal)
    (hx : ∀ i, IsReal (x i)) :
    ∃ v : ℝ, 0 ≤ v ∧
      Ideal.div (∑ i, x i * x i) (N : EReal)
        - Ideal.div (∑ i, x i) (N : EReal) * Ideal.div (∑ i, x i) (N : EReal) = (v : EReal) := by
  rw [variance_law N hN hpos x hx]
  exact variance_nonneg N hpos x hx

/-- The three facts together: the mean is real, the two forms of the variance agree, and the common value is a real
    that is at least zero. -/
theorem variance_law_full {ι : Type*} [Fintype ι] (N : ℝ) (hN : N = Fintype.card ι) (hpos : 0 < N) (x : ι → EReal)
    (hx : ∀ i, IsReal (x i)) :
    IsReal (Ideal.div (∑ i, x i) (N : EReal)) ∧
    Ideal.div (∑ i, x i * x i) (N : EReal)
        - Ideal.div (∑ i, x i) (N : EReal) * Ideal.div (∑ i, x i) (N : EReal)
      = Ideal.div (∑ i, (x i - Ideal.div (∑ i, x i) (N : EReal)) * (x i - Ideal.div (∑ i, x i) (N : EReal)))
          (N : EReal) ∧
    ∃ v : ℝ, 0 ≤ v ∧
      Ideal.div (∑ i, (x i - Ideal.div (∑ i, x i) (N : EReal)) * (x i - Ideal.div (∑ i, x i) (N : EReal)))
        (N : EReal) = (v : EReal) :=
  ⟨mean_isReal N hpos x hx, variance_law N hN hpos x hx, variance_nonneg N hpos x hx⟩

/-- The number 20000 is the number of rows. -/
theorem card_rows : (20000 : ℝ) = Fintype.card (Fin 20000) := by simp

/-- The variance law over the 20000 rows. -/
theorem variance_law_20000 (x : Fin 20000 → EReal) (hx : ∀ i, IsReal (x i)) :
    IsReal (Ideal.div (∑ i, x i) ((20000 : ℝ) : EReal)) ∧
    Ideal.div (∑ i, x i * x i) ((20000 : ℝ) : EReal)
        - Ideal.div (∑ i, x i) ((20000 : ℝ) : EReal) * Ideal.div (∑ i, x i) ((20000 : ℝ) : EReal)
      = Ideal.div (∑ i, (x i - Ideal.div (∑ i, x i) ((20000 : ℝ) : EReal))
          * (x i - Ideal.div (∑ i, x i) ((20000 : ℝ) : EReal))) ((20000 : ℝ) : EReal) ∧
    ∃ v : ℝ, 0 ≤ v ∧
      Ideal.div (∑ i, (x i - Ideal.div (∑ i, x i) ((20000 : ℝ) : EReal))
          * (x i - Ideal.div (∑ i, x i) ((20000 : ℝ) : EReal))) ((20000 : ℝ) : EReal) = (v : EReal) :=
  variance_law_full 20000 card_rows (by norm_num) x hx

/-- The variance law for one column of a [20000, 256] array of reals, in the vocabulary of the column sums: with
    m the column mean, the mean of the squares minus m² is the mean of the squared deviations, m is real, and
    the common value is a real at least zero. -/
theorem variance_law_col (a : (⟨2, ![20000, 256]⟩ : Shape).Idx → EReal) (ha : AllReal a)
    (j : (⟨2, ![1, 256]⟩ : Shape).Idx) :
    IsReal (Ideal.div (colSum a j) ((20000 : ℝ) : EReal)) ∧
    Ideal.div (colSumSq a j) ((20000 : ℝ) : EReal)
        - Ideal.div (colSum a j) ((20000 : ℝ) : EReal) * Ideal.div (colSum a j) ((20000 : ℝ) : EReal)
      = Ideal.div (∑ r : Fin 20000, (a (ValueIdx.ix2 r (j 1)) - Ideal.div (colSum a j) ((20000 : ℝ) : EReal))
          * (a (ValueIdx.ix2 r (j 1)) - Ideal.div (colSum a j) ((20000 : ℝ) : EReal))) ((20000 : ℝ) : EReal) ∧
    ∃ v : ℝ, 0 ≤ v ∧
      Ideal.div (colSumSq a j) ((20000 : ℝ) : EReal)
        - Ideal.div (colSum a j) ((20000 : ℝ) : EReal) * Ideal.div (colSum a j) ((20000 : ℝ) : EReal)
        = (v : EReal) := by
  have h := variance_law_20000 (fun r => a (ValueIdx.ix2 r (j 1))) (fun r => ha _)
  refine ⟨h.1, h.2.1, ?_⟩
  obtain ⟨v, hv, e⟩ := h.2.2
  exact ⟨v, hv, h.2.1.trans e⟩

/-! ## 4. The network's own functions -/

open Idealize.ShloMosaic.ValueIdx in
/-- The dense product of two arrays of reals is an array of reals. -/
theorem allReal_lin {h : (⟨2, ![20000, 256]⟩ : Shape).Idx → EReal} {w : (⟨2, ![256, 256]⟩ : Shape).Idx → EReal}
    (hh : AllReal h) (hw : AllReal w) : AllReal (lin h w) :=
  fun _ => IsReal.sum_univ _ fun _ => (hh _).mul (hw _)

/-- The column sums of an array of reals are real. -/
theorem allReal_colSum {a : (⟨2, ![20000, 256]⟩ : Shape).Idx → EReal} (ha : AllReal a) : AllReal (colSum a) :=
  fun _ => IsReal.sum_univ _ fun _ => ha _

/-- The column sums of squares of an array of reals are real. -/
theorem allReal_colSumSq {a : (⟨2, ![20000, 256]⟩ : Shape).Idx → EReal} (ha : AllReal a) : AllReal (colSumSq a) :=
  fun _ => IsReal.sum_univ _ fun _ => (ha _).mul (ha _)

/-- Normalising an array of reals by a real mean and a variance that is a real at least zero, scaling and shifting
    by real rows and clamping at zero gives an array of reals: the stabilised variance is a positive real, so its
    reciprocal square root is real. -/
theorem allReal_bnRelu {a : (⟨2, ![20000, 256]⟩ : Shape).Idx → EReal}
    {mean var gamma beta : (⟨2, ![1, 256]⟩ : Shape).Idx → EReal} (ha : AllReal a) (hmean : AllReal mean)
    (hvar : ∀ j, ∃ v : ℝ, 0 ≤ v ∧ var j = (v : EReal)) (hgamma : AllReal gamma) (hbeta : AllReal beta) :
    AllReal (bnRelu a mean var gamma beta) := fun i => by
  obtain ⟨v, hv, e⟩ := hvar (ValueIdx.ix2 0 (i 1))
  show IsReal (max ((((a i - mean (ValueIdx.ix2 0 (i 1))) * Ideal.rsqrt (var (ValueIdx.ix2 0 (i 1)) + eps))
    * gamma (ValueIdx.ix2 0 (i 1))) + beta (ValueIdx.ix2 0 (i 1))) 0)
  rw [e]
  exact (((((ha i).sub (hmean _)).mul (isReal_rsqrt_add_eps hv)).mul (hgamma _)).add (hbeta _)).max IsReal.zero

/-- The two-layer head on arrays of reals gives an array of reals. -/
theorem allReal_mlp {p : (⟨2, ![64, 256]⟩ : Shape).Idx → EReal} {w1 : (⟨2, ![256, 128]⟩ : Shape).Idx → EReal}
    {b1 : (⟨2, ![1, 128]⟩ : Shape).Idx → EReal} {w2 : (⟨2, ![128, 10]⟩ : Shape).Idx → EReal}
    {b2 : (⟨2, ![1, 10]⟩ : Shape).Idx → EReal} (hp : AllReal p) (hw1 : AllReal w1) (hb1 : AllReal b1)
    (hw2 : AllReal w2) (hb2 : AllReal b2) : AllReal (mlp p w1 b1 w2 b2) := fun _ =>
  (IsReal.sum_univ _ fun _ =>
    (((IsReal.sum_univ _ fun _ => (hp _).mul (hw1 _)).add (hb1 _)).max IsReal.zero).mul (hw2 _)).add (hb2 _)

end Cert.Gcn

end
-- ==== Proof.LayerLaw.lean ====
/-
  One layer's normalisation is the same on both sides.

  The kernel normalises a column with mean s / 20000 and variance q / 20000 - mean * mean, from the column's sum s and
  sum of squares q; the reference with the same mean and the mean of the squared centred (F := Ideal) entries. For a column of
  real numbers these variances are equal, and then the two normalised entries differ only in the order of three
  factors. The common variance is a nonnegative real, so the layer's output is real again.
-/
import proofs.«111193_j89515708383972_1_alg».proof.Proof.KernelHost
import proofs.«111193_j89515708383972_1_alg».proof.Proof.RefLayerAt
import proofs.«111193_j89515708383972_1_alg».proof.Proof.RealLaws

noncomputable section

open scoped BigOperators

namespace Cert.Bridge

open Idealize.ShloMosaic Idealize.ShloMosaic.ValueIdx Cert.Gcn
open Cert.KernelIdeal.Stages (kMean kVar kRow kMean_apply kVar_apply kRow_apply)
open Cert.ReferenceIdeal.Layer (norm colMean colVar colOf norm_apply colMean_apply colVar_apply)
open Cert.ReferenceIdeal.ReadP (idx_main_v56)

/-- The kernel's normalisation from the column sums is the reference's normalisation, on a real array. -/
theorem norm_law (a : FVec Ideal Cert.ReferenceIdeal.S20000x256 .f32)
    (g be : FVec Ideal Cert.ReferenceIdeal.S256 .f32) (ha : AllReal a) :
    bnRelu a (kMean (colSum a)) (kVar (colSum a) (colSumSq a)) (kRow g) (kRow be) = norm (F := Ideal) a g be := by
  funext i
  rw [norm_apply]
  unfold bnRelu
  obtain ⟨_, hlaw, _⟩ := variance_law_col a ha (ix2 0 (i 1))
  have hidx : ∀ k : Fin 20000, idx_main_v56 (colOf i) k = ix2 k (i 1) := fun k =>
    funext fun b => Fin.ext (by match b with | ⟨0, _⟩ => rfl | ⟨1, _⟩ => rfl)
  have hcol : colOf i = ix1 (i 1) := funext fun b => Fin.ext (by match b with | ⟨0, _⟩ => rfl)
  have hμ : kMean (colSum a) (ix2 0 (i 1)) = colMean (F := Ideal) a (colOf i) := by
    rw [kMean_apply, colMean_apply]
    simp only [hidx]
    rfl
  have hvar : kVar (colSum a) (colSumSq a) (ix2 0 (i 1)) = colVar (F := Ideal) a (colOf i) := by
    rw [kVar_apply, colVar_apply, ← hμ, kMean_apply, ofBits_20000]
    simp only [hidx]
    exact hlaw
  have hg : kRow g (ix2 0 (i 1)) = g (colOf i) := (kRow_apply g (i 1)).trans (congrArg g hcol.symm)
  have hbe : kRow be (ix2 0 (i 1)) = be (colOf i) := (kRow_apply be (i 1)).trans (congrArg be hcol.symm)
  rw [hμ, hvar, hg, hbe, mul_right_comm, mul_comm (a i - _)]

/-- The normalised layer output of a real array with real scale and shift is real. -/
theorem allReal_norm (a : FVec Ideal Cert.ReferenceIdeal.S20000x256 .f32)
    (g be : FVec Ideal Cert.ReferenceIdeal.S256 .f32) (ha : AllReal a) (hg : AllReal g) (hbe : AllReal be) :
    AllReal (norm (F := Ideal) a g be) := by
  rw [← norm_law a g be ha]
  refine allReal_bnRelu ha (fun j => ?_) (fun j => ?_) (AllReal.shapeCast hg _ _) (AllReal.shapeCast hbe _ _)
  · rw [kMean_apply, ofBits_20000]
    exact (variance_law_col a ha j).1
  · obtain ⟨_, _, v, hv, e⟩ := variance_law_col a ha j
    exact ⟨v, hv, by rw [kVar_apply, kMean_apply, ofBits_20000]; exact e⟩

end Cert.Bridge

end
-- ==== Proof.RefDot.lean ====
/-
  The reference's dense products as plain sums: the [20000, 256] by [256, 256] product of a layer is
  the sum over the 256 input features of feature times weight, at every (node, output feature).
-/
import proofs.«111193_j89515708383972_1_alg».proof.Proof.RefLayer
import proofs.«111193_j89515708383972_1_alg».proof.Proof.Spec
import Idealize.ShloMosaic.PureOps.Ideal.Laws

noncomputable section

open scoped BigOperators

namespace Cert.ReferenceIdeal.Layer

open Idealize.ShloMosaic Idealize.ShloMosaic.ValueIdx Cert.ReferenceIdeal Cert.ReferenceIdeal.ReadP Cert.ReferenceIdeal.Facts₀ Cert.ReferenceIdeal.Facts

/-- The host's product of node features with a weight matrix is the sum over the input features, entry by entry. -/
theorem dot_eq_lin (h : FVec Ideal S20000x256 .f32) (w : FVec Ideal S256x256 .f32) :
    Host.dotGeneral (F := Ideal) dot_S20000x256_S256x256_S20000x256_1_0_0_1_n_n none h w = Cert.Gcn.lin h w := by
  funext i
  simp only [Host.dotGeneral]
  rw [Ideal.dotGeneral_apply, ← Equiv.sum_comp (ValueIdx.contrEquiv1 dot_S20000x256_S256x256_S20000x256_1_0_0_1_n_n 256 rfl rfl).symm]
  unfold Cert.Gcn.lin
  refine Finset.sum_congr rfl fun k _ => ?_
  have hk := ValueIdx.contrEquiv1_symm_val dot_S20000x256_S256x256_S20000x256_1_0_0_1_n_n 256 rfl rfl k
  have el : dot_S20000x256_S256x256_S20000x256_1_0_0_1_n_n.lhsIdx i ((ValueIdx.contrEquiv1 dot_S20000x256_S256x256_S20000x256_1_0_0_1_n_n 256 rfl rfl).symm k) = ix2 (i 0) k := funext fun a => Fin.ext (by
    match a with
    | ⟨0, _⟩ => exact lhs_main_v15_0 _ _
    | ⟨1, _⟩ => exact (lhs_main_v15_1 _ _).trans hk)
  have er : dot_S20000x256_S256x256_S20000x256_1_0_0_1_n_n.rhsIdx i ((ValueIdx.contrEquiv1 dot_S20000x256_S256x256_S20000x256_1_0_0_1_n_n 256 rfl rfl).symm k) = ix2 k (i 1) := funext fun a => Fin.ext (by
    match a with
    | ⟨0, _⟩ => exact (rhs_main_v15_0 _ _).trans hk
    | ⟨1, _⟩ => exact rhs_main_v15_1 _ _)
  rw [el, er]
  rfl

/-- The first product of the head at (graph, hidden unit): the sum over the 256 pooled features. -/
theorem dot_pool_apply (l : FVec Ideal S64x256 .f32) (r : FVec Ideal S256x128 .f32) (i : S64x128.Idx) :
    Host.dotGeneral (F := Ideal) dot_S64x256_S256x128_S64x128_1_0_0_1_n_n none l r i = ∑ k : Fin 256, l (ix2 (i 0) k) * r (ix2 k (i 1)) := by
  simp only [Host.dotGeneral]
  rw [Ideal.dotGeneral_apply, ← Equiv.sum_comp (ValueIdx.contrEquiv1 dot_S64x256_S256x128_S64x128_1_0_0_1_n_n 256 rfl rfl).symm]
  refine Finset.sum_congr rfl fun k _ => ?_
  have hk := ValueIdx.contrEquiv1_symm_val dot_S64x256_S256x128_S64x128_1_0_0_1_n_n 256 rfl rfl k
  have el : dot_S64x256_S256x128_S64x128_1_0_0_1_n_n.lhsIdx i ((ValueIdx.contrEquiv1 dot_S64x256_S256x128_S64x128_1_0_0_1_n_n 256 rfl rfl).symm k) = ix2 (i 0) k := funext fun a => Fin.ext (by
    match a with
    | ⟨0, _⟩ => exact lhs_main_v236_0 _ _
    | ⟨1, _⟩ => exact (lhs_main_v236_1 _ _).trans hk)
  have er : dot_S64x256_S256x128_S64x128_1_0_0_1_n_n.rhsIdx i ((ValueIdx.contrEquiv1 dot_S64x256_S256x128_S64x128_1_0_0_1_n_n 256 rfl rfl).symm k) = ix2 k (i 1) := funext fun a => Fin.ext (by
    match a with
    | ⟨0, _⟩ => exact (rhs_main_v236_0 _ _).trans hk
    | ⟨1, _⟩ => exact rhs_main_v236_1 _ _)
  rw [el, er]
  rfl

/-- The second product of the head at (graph, class): the sum over the 128 hidden units. -/
theorem dot_hidden_apply (l : FVec Ideal S64x128 .f32) (r : FVec Ideal S128x10 .f32) (i : S64x10.Idx) :
    Host.dotGeneral (F := Ideal) dot_S64x128_S128x10_S64x10_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S64x128_S128x10_S64x10_1_0_0_1_n_n 128 rfl rfl).symm]
  refine Finset.sum_congr rfl fun k _ => ?_
  have hk := ValueIdx.contrEquiv1_symm_val dot_S64x128_S128x10_S64x10_1_0_0_1_n_n 128 rfl rfl k
  have el : dot_S64x128_S128x10_S64x10_1_0_0_1_n_n.lhsIdx i ((ValueIdx.contrEquiv1 dot_S64x128_S128x10_S64x10_1_0_0_1_n_n 128 rfl rfl).symm k) = ix2 (i 0) k := funext fun a => Fin.ext (by
    match a with
    | ⟨0, _⟩ => exact lhs_main_v241_0 _ _
    | ⟨1, _⟩ => exact (lhs_main_v241_1 _ _).trans hk)
  have er : dot_S64x128_S128x10_S64x10_1_0_0_1_n_n.rhsIdx i ((ValueIdx.contrEquiv1 dot_S64x128_S128x10_S64x10_1_0_0_1_n_n 128 rfl rfl).symm k) = ix2 k (i 1) := funext fun a => Fin.ext (by
    match a with
    | ⟨0, _⟩ => exact (rhs_main_v241_0 _ _).trans hk
    | ⟨1, _⟩ => exact rhs_main_v241_1 _ _)
  rw [el, er]
  rfl

/-- The head is relu(p * w1 + b1) * w2 + b2 with the two bias vectors read as rows. -/
theorem head_eq_mlp (p : FVec Ideal S64x256 .f32) (x7 : FVec Ideal S256x128 .f32)
    (x8 : FVec Ideal S128 .f32) (x9 : FVec Ideal S128x10 .f32)
    (x10 : FVec Ideal S10 .f32) :
    head (F := Ideal) p x7 x8 x9 x10 = Cert.Gcn.mlp p x7 (fun j => x8 (ix1 (j 1))) x9 (fun j => x10 (ix1 (j 1))) := by
  funext i
  unfold head Cert.Gcn.mlp
  show FloatOps.addf (F := Ideal) (Host.dotGeneral (F := Ideal) dot_S64x128_S128x10_S64x10_1_0_0_1_n_n none _ x9 i) (val_main_v243 (F := Ideal) x10 i) = _
  rw [dot_hidden_apply, Ideal.addf_def, val_main_v243_apply, val_main_v242_apply]
  have e10 : idx_main_v242 (idx_main_v243 i) = ix1 (i 1) := funext fun a => Fin.ext (by match a with | ⟨0, _⟩ => rfl)
  rw [e10]
  refine congrArg (· + _) (Finset.sum_congr rfl fun k _ => ?_)
  refine congrArg (· * _) ?_
  show FloatOps.maximumf (F := Ideal) (FloatOps.addf (Host.dotGeneral (F := Ideal) dot_S64x256_S256x128_S64x128_1_0_0_1_n_n none p x7 (ix2 (i 0) k)) (val_main_v238 (F := Ideal) x8 (ix2 (i 0) k)))
    (val_main_call3_v0 (F := Ideal) (ix2 (i 0) k)) = _
  rw [dot_pool_apply, Ideal.maximumf_def, Ideal.addf_def, val_main_v238_apply, val_main_v237_apply]
  have e8 : idx_main_v237 (idx_main_v238 (ix2 (i 0) k)) = ix1 k := funext fun a => Fin.ext (by match a with | ⟨0, _⟩ => rfl)
  have hz : val_main_call3_v0 (F := Ideal) (ix2 (i 0) k) = 0 := Ideal.ofBits_zero_f32
  rw [e8, hz]

end Cert.ReferenceIdeal.Layer

end
-- ==== Proof.LinRegion0.lean ====
/-
  Region 0, a dense layer's product: each of the ten grid points multiplies its block of 2000 rows of the node
  features by the whole [256, 256] weight into a zero accumulator and writes the product back as rows
  2000 t … 2000 t + 1999 of the output. The ten blocks tile the 20000 rows, so the output array ends holding
  the whole product `lin h w` of the two arrays the region was entered with.
-/
import proofs.«111193_j89515708383972_1_alg».proof.Proof.Gen.KernelIdeal.Frame
import proofs.«111193_j89515708383972_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-- Row coordinate of the left operand's index of the [2000,256] x [256,256] product: the output's row. -/
theorem lhs0_row (i : S2000x256.Idx) (u : dot_S2000x256_S256x256_S2000x256_1_0_0_1_n_n.contr.Idx) :
    (dot_S2000x256_S256x256_S2000x256_1_0_0_1_n_n.lhsIdx i u 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- Column coordinate of the right operand's index: the output's column. -/
theorem rhs0_col (i : S2000x256.Idx) (u : dot_S2000x256_S256x256_S2000x256_1_0_0_1_n_n.contr.Idx) :
    (dot_S2000x256_S256x256_S2000x256_1_0_0_1_n_n.rhsIdx i u 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The [2000,256] x [256,256] product into a zero accumulator, at an entry: the sum over the 256 contracted
    positions of the entry's row of the left operand times its column of the right one. -/
theorem matmul0_apply {φ₁ φ₂ : FTy} (a : FVec Ideal S2000x256 φ₁) (b : FVec Ideal S256x256 φ₂) (j : S2000x256.Idx) :
    matmul dot_S2000x256_S256x256_S2000x256_1_0_0_1_n_n none a b (constant (F := Ideal) S2000x256 .f32 0x00000000#32) j
      = ∑ k : Fin 256, a (ix2 (⟨(j 0).val, (j 0).isLt⟩ : Fin 2000) k) * b (ix2 k (⟨(j 1).val, (j 1).isLt⟩ : Fin 256)) := by
  refine (Ideal.matmul_constant_zero_apply dot_S2000x256_S256x256_S2000x256_1_0_0_1_n_n none a b j).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx j ((contrEquiv1 dot_S2000x256_S256x256_S2000x256_1_0_0_1_n_n 256 rfl rfl).symm k) = ix2 (⟨(j 0).val, (j 0).isLt⟩ : Fin 2000) k := funext fun d => Fin.ext (by
    match d with
    | ⟨0, _⟩ => exact lhs0_row _ _
    | ⟨1, _⟩ => exact (dot_S2000x256_S256x256_S2000x256_1_0_0_1_n_n.lhsIdx_val_of_single rfl _ _).trans hk)
  have er : dot_S2000x256_S256x256_S2000x256_1_0_0_1_n_n.rhsIdx j ((contrEquiv1 dot_S2000x256_S256x256_S2000x256_1_0_0_1_n_n 256 rfl rfl).symm k) = ix2 k (⟨(j 1).val, (j 1).isLt⟩ : Fin 256) := funext fun d => Fin.ext (by
    match d with
    | ⟨0, _⟩ => exact (dot_S2000x256_S256x256_S2000x256_1_0_0_1_n_n.rhsIdx_val_of_single rfl _ _).trans hk
    | ⟨1, _⟩ => exact rhs0_col _ _)
  rw [el, er]

/-- The body's stored value at an entry of its block: the rounding steps are the identity on the extended reals,
    so it is the product of the loaded feature block with the loaded weight. -/
theorem pay0_apply (x0 : Vec Ideal S2000x256 .f32) (x1 : Vec Ideal S256x256 .f32) (j : S2000x256.Idx) :
    k0_pay1 (F := Ideal) x0 x1 j
      = ∑ k : Fin 256, x0 (ix2 (⟨(j 0).val, (j 0).isLt⟩ : Fin 2000) k) * x1 (ix2 k (⟨(j 1).val, (j 1).isLt⟩ : Fin 256)) := by
  unfold k0_pay1
  refine (matmul0_apply _ _ j).trans ?_
  refine Finset.sum_congr rfl fun k _ => ?_
  rw [shapeCast_self]
  rfl

theorem hz0 : (![0, 0] : Fin 2 → Nat) = fun _ => 0 := funext fun a => by fin_cases a <;> rfl

/-- The index maps over the ten grid points: the feature window and the output window sit at row block t, the
    weight window is the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 2000 t … 2000 t + 1999 of the feature array. -/
theorem iblk0_0_at (V : (c : Dev nD) → (b : Ref sig .tc) → Buf (Elt Ideal) ((c : Thread nD τ).loc b)) (c : Dev nD) (t : Fin cfg0.N)
    (p : Fin 2000) (k : Fin 256) (i : S20000x256.Idx) (hi0 : (i 0).val = t.val * 2000 + p.val) (hi1 : (i 1).val = k.val) :
    (iblk0 V c 0 t : Vec Ideal S2000x256 .f32) (ix2 p k) = (V c (Pipeline.arrRef spec0 0) : S20000x256.Idx → EReal) i := by
  obtain ⟨e00, e01, -⟩ := idx_facts0 t
  unfold iblk0
  rw [View.read_apply]
  show (V c (Pipeline.arrRef spec0 0) : S20000x256.Idx → EReal) _ = _
  refine congrArg (V c (Pipeline.arrRef spec0 0) : S20000x256.Idx → EReal) ?_
  funext a
  apply Fin.ext
  match a with
  | ⟨0, _⟩ => show win0_0.index t (0 : Fin 2) * 2000 + 1 * p.val = (i 0).val; rw [e00, hi0]; omega
  | ⟨1, _⟩ => show win0_0.index t (1 : Fin 2) * 256 + 1 * k.val = (i 1).val; rw [e01, hi1]; omega

/-- The weight window's block at every point is the whole weight. -/
theorem iblk0_1_at (V : (c : Dev nD) → (b : Ref sig .tc) → Buf (Elt Ideal) ((c : Thread nD τ).loc b)) (c : Dev nD) (t : Fin cfg0.N)
    (k : Fin 256) (q : Fin 256) (i : S256x256.Idx) (hi0 : (i 0).val = k.val) (hi1 : (i 1).val = q.val) :
    (iblk0 V c 1 t : Vec Ideal S256x256 .f32) (ix2 k q) = (V c (Pipeline.arrRef spec0 1) : S256x256.Idx → EReal) i := by
  obtain ⟨-, -, e10, e11, -⟩ := idx_facts0 t
  unfold iblk0
  rw [View.read_apply]
  show (V c (Pipeline.arrRef spec0 1) : S256x256.Idx → EReal) _ = _
  refine congrArg (V c (Pipeline.arrRef spec0 1) : S256x256.Idx → EReal) ?_
  funext a
  apply Fin.ext
  match a with
  | ⟨0, _⟩ => show win0_1.index t (0 : Fin 2) * 256 + 1 * k.val = (i 0).val; rw [e10, hi0]; omega
  | ⟨1, _⟩ => show win0_1.index t (1 : Fin 2) * 256 + 1 * q.val = (i 1).val; rw [e11, hi1]; omega

/-- What point t writes back is block t of the whole product of the region-entry arrays. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.lin (V c (Pipeline.arrRef spec0 0) : S20000x256.Idx → EReal) (V c (Pipeline.arrRef spec0 1) : S256x256.Idx → EReal)) := by
  show (cfg0.win 2).cut (grid0.coords t) ((dat0 V c).after 2 t) = _
  rw [after0_2]
  unfold out0_2
  rw [View.canon_unit_zero hz0]
  simp only [View.ld_unit_zero (S := S2000x256) hz0, View.ld_unit_zero (S := S256x256) hz0]
  obtain ⟨-, -, -, -, e20, e21⟩ := idx_facts0 t
  funext j
  refine (pay0_apply _ _ j).trans ?_
  show _ = Cert.Gcn.lin (V c (Pipeline.arrRef spec0 0) : S20000x256.Idx → EReal) (V c (Pipeline.arrRef spec0 1) : S256x256.Idx → EReal) (((cfg0.win 2).blk t).view.emb j)
  unfold Cert.Gcn.lin
  refine Finset.sum_congr rfl fun k _ => ?_
  rw [iblk0_0_at V c t _ k (ix2 ((((cfg0.win 2).blk t).view.emb j) 0) k)
        (by show win0_2.index t (0 : Fin 2) * 2000 + 1 * (j 0).val = t.val * 2000 + (j 0).val; rw [e20]; omega) rfl,
      iblk0_1_at V c t k _ (ix2 k ((((cfg0.win 2).blk t).view.emb j) 1)) rfl
        (by show win0_2.index t (1 : Fin 2) * 256 + 1 * (j 1).val = (j 1).val; rw [e21]; omega)]

/-- An index of the output array is in point t's block iff each coordinate is in the block's range on its axis. -/
theorem mem_blk0 (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v14).slice (win0_2.rect t)).set ↔ _
  rw [View.set_slice_whole, Rect.mem_set_unit]
  exact Iff.rfl

/-- Row r of the output lies in the block of point r / 2000: the ten blocks tile the array. -/
theorem cover0 (i : S20000x256.Idx) :
    ∃ t : Fin cfg0.N, (cfg0.win 2).flush t = true ∧ i ∈ ((cfg0.win 2).blk t).view.set := by
  have hN : cfg0.N = 10 := N_0
  have hi0 : (i 0).val < 20000 := (i 0).isLt
  have hi1 : (i 1).val < 256 := (i 1).isLt
  refine ⟨⟨(i 0).val / 2000, by rw [hN]; omega⟩, flush0_2 _, ?_⟩
  rw [mem_blk0]
  obtain ⟨-, -, -, -, e20, e21⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 256 ≤ (i 1).val ∧ (i 1).val < win0_2.index _ (1 : Fin 2) * 256 + 256
    rw [e21]; omega

/-- Region 0's output array after its run: the product of the feature array and the weight array as the region
    found them. -/
theorem lin_region0 (V : (c : Dev nD) → (b : Ref sig .tc) → Buf (Elt Ideal) ((c : Thread nD τ).loc b)) (c : Dev nD) :
    (dat0 (F := Ideal) V c).arrAt 2 cfg0.N
      = Cert.Gcn.lin (V c (Pipeline.arrRef spec0 0) : S20000x256.Idx → EReal) (V c (Pipeline.arrRef spec0 1) : S256x256.Idx → EReal) :=
  (dat0 (F := Ideal) V c).arrAt_eq_of_cover 2 (Cert.Gcn.lin (V c (Pipeline.arrRef spec0 0) : S20000x256.Idx → EReal) (V c (Pipeline.arrRef spec0 1) : S256x256.Idx → EReal))
    (fun t _ => flushed0_eq V c t) cover0

end Cert.KernelIdeal.RegionValue

end
-- ==== Proof.LinRegion3.lean ====
/-
  Region 3, a dense layer's product: each of the ten grid points multiplies its block of 2000 rows of the node
  features by the whole [256, 256] weight into a zero accumulator and writes the product back as rows
  2000 t … 2000 t + 1999 of the output. The ten blocks tile the 20000 rows, so the output array ends holding
  the whole product `lin h w` of the two arrays the region was entered with.
-/
import proofs.«111193_j89515708383972_1_alg».proof.Proof.Gen.KernelIdeal.Frame
import proofs.«111193_j89515708383972_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-- Row coordinate of the left operand's index of the [2000,256] x [256,256] product: the output's row. -/
theorem lhs3_row (i : S2000x256.Idx) (u : dot_S2000x256_S256x256_S2000x256_1_0_0_1_n_n.contr.Idx) :
    (dot_S2000x256_S256x256_S2000x256_1_0_0_1_n_n.lhsIdx i u 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- Column coordinate of the right operand's index: the output's column. -/
theorem rhs3_col (i : S2000x256.Idx) (u : dot_S2000x256_S256x256_S2000x256_1_0_0_1_n_n.contr.Idx) :
    (dot_S2000x256_S256x256_S2000x256_1_0_0_1_n_n.rhsIdx i u 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The [2000,256] x [256,256] product into a zero accumulator, at an entry: the sum over the 256 contracted
    positions of the entry's row of the left operand times its column of the right one. -/
theorem matmul3_apply {φ₁ φ₂ : FTy} (a : FVec Ideal S2000x256 φ₁) (b : FVec Ideal S256x256 φ₂) (j : S2000x256.Idx) :
    matmul dot_S2000x256_S256x256_S2000x256_1_0_0_1_n_n none a b (constant (F := Ideal) S2000x256 .f32 0x00000000#32) j
      = ∑ k : Fin 256, a (ix2 (⟨(j 0).val, (j 0).isLt⟩ : Fin 2000) k) * b (ix2 k (⟨(j 1).val, (j 1).isLt⟩ : Fin 256)) := by
  refine (Ideal.matmul_constant_zero_apply dot_S2000x256_S256x256_S2000x256_1_0_0_1_n_n none a b j).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx j ((contrEquiv1 dot_S2000x256_S256x256_S2000x256_1_0_0_1_n_n 256 rfl rfl).symm k) = ix2 (⟨(j 0).val, (j 0).isLt⟩ : Fin 2000) k := funext fun d => Fin.ext (by
    match d with
    | ⟨0, _⟩ => exact lhs3_row _ _
    | ⟨1, _⟩ => exact (dot_S2000x256_S256x256_S2000x256_1_0_0_1_n_n.lhsIdx_val_of_single rfl _ _).trans hk)
  have er : dot_S2000x256_S256x256_S2000x256_1_0_0_1_n_n.rhsIdx j ((contrEquiv1 dot_S2000x256_S256x256_S2000x256_1_0_0_1_n_n 256 rfl rfl).symm k) = ix2 k (⟨(j 1).val, (j 1).isLt⟩ : Fin 256) := funext fun d => Fin.ext (by
    match d with
    | ⟨0, _⟩ => exact (dot_S2000x256_S256x256_S2000x256_1_0_0_1_n_n.rhsIdx_val_of_single rfl _ _).trans hk
    | ⟨1, _⟩ => exact rhs3_col _ _)
  rw [el, er]

/-- The body's stored value at an entry of its block: the rounding steps are the identity on the extended reals,
    so it is the product of the loaded feature block with the loaded weight. -/
theorem pay3_apply (x0 : Vec Ideal S2000x256 .f32) (x1 : Vec Ideal S256x256 .f32) (j : S2000x256.Idx) :
    k3_pay1 (F := Ideal) x0 x1 j
      = ∑ k : Fin 256, x0 (ix2 (⟨(j 0).val, (j 0).isLt⟩ : Fin 2000) k) * x1 (ix2 k (⟨(j 1).val, (j 1).isLt⟩ : Fin 256)) := by
  unfold k3_pay1
  refine (matmul3_apply _ _ j).trans ?_
  refine Finset.sum_congr rfl fun k _ => ?_
  rw [shapeCast_self, shapeCast_self]
  rfl

theorem hz3 : (![0, 0] : Fin 2 → Nat) = fun _ => 0 := funext fun a => by fin_cases a <;> rfl

/-- The index maps over the ten grid points: the feature window and the output window sit at row block t, the
    weight window is the whole weight. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature window's block at point t is rows 2000 t … 2000 t + 1999 of the feature array. -/
theorem iblk3_0_at (V : (c : Dev nD) → (b : Ref sig .tc) → Buf (Elt Ideal) ((c : Thread nD τ).loc b)) (c : Dev nD) (t : Fin cfg3.N)
    (p : Fin 2000) (k : Fin 256) (i : S20000x256.Idx) (hi0 : (i 0).val = t.val * 2000 + p.val) (hi1 : (i 1).val = k.val) :
    (iblk3 V c 0 t : Vec Ideal S2000x256 .f32) (ix2 p k) = (V c (Pipeline.arrRef spec3 0) : S20000x256.Idx → EReal) i := by
  obtain ⟨e00, e01, -⟩ := idx_facts3 t
  unfold iblk3
  rw [View.read_apply]
  show (V c (Pipeline.arrRef spec3 0) : S20000x256.Idx → EReal) _ = _
  refine congrArg (V c (Pipeline.arrRef spec3 0) : S20000x256.Idx → EReal) ?_
  funext a
  apply Fin.ext
  match a with
  | ⟨0, _⟩ => show win3_0.index t (0 : Fin 2) * 2000 + 1 * p.val = (i 0).val; rw [e00, hi0]; omega
  | ⟨1, _⟩ => show win3_0.index t (1 : Fin 2) * 256 + 1 * k.val = (i 1).val; rw [e01, hi1]; omega

/-- The weight window's block at every point is the whole weight. -/
theorem iblk3_1_at (V : (c : Dev nD) → (b : Ref sig .tc) → Buf (Elt Ideal) ((c : Thread nD τ).loc b)) (c : Dev nD) (t : Fin cfg3.N)
    (k : Fin 256) (q : Fin 256) (i : S256x256.Idx) (hi0 : (i 0).val = k.val) (hi1 : (i 1).val = q.val) :
    (iblk3 V c 1 t : Vec Ideal S256x256 .f32) (ix2 k q) = (V c (Pipeline.arrRef spec3 1) : S256x256.Idx → EReal) i := by
  obtain ⟨-, -, e10, e11, -⟩ := idx_facts3 t
  unfold iblk3
  rw [View.read_apply]
  show (V c (Pipeline.arrRef spec3 1) : S256x256.Idx → EReal) _ = _
  refine congrArg (V c (Pipeline.arrRef spec3 1) : S256x256.Idx → EReal) ?_
  funext a
  apply Fin.ext
  match a with
  | ⟨0, _⟩ => show win3_1.index t (0 : Fin 2) * 256 + 1 * k.val = (i 0).val; rw [e10, hi0]; omega
  | ⟨1, _⟩ => show win3_1.index t (1 : Fin 2) * 256 + 1 * q.val = (i 1).val; rw [e11, hi1]; omega

/-- What point t writes back is block t of the whole product of the region-entry arrays. -/
theorem flushed3_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Gcn.lin (V c (Pipeline.arrRef spec3 0) : S20000x256.Idx → EReal) (V c (Pipeline.arrRef spec3 1) : S256x256.Idx → EReal)) := by
  show (cfg3.win 2).cut (grid3.coords t) ((dat3 V c).after 2 t) = _
  rw [after3_2]
  unfold out3_2
  rw [View.canon_unit_zero hz3]
  simp only [View.ld_unit_zero (S := S2000x256) hz3, View.ld_unit_zero (S := S256x256) hz3]
  obtain ⟨-, -, -, -, e20, e21⟩ := idx_facts3 t
  funext j
  refine (pay3_apply _ _ j).trans ?_
  show _ = Cert.Gcn.lin (V c (Pipeline.arrRef spec3 0) : S20000x256.Idx → EReal) (V c (Pipeline.arrRef spec3 1) : S256x256.Idx → EReal) (((cfg3.win 2).blk t).view.emb j)
  unfold Cert.Gcn.lin
  refine Finset.sum_congr rfl fun k _ => ?_
  rw [iblk3_0_at V c t _ k (ix2 ((((cfg3.win 2).blk t).view.emb j) 0) k)
        (by show win3_2.index t (0 : Fin 2) * 2000 + 1 * (j 0).val = t.val * 2000 + (j 0).val; rw [e20]; omega) rfl,
      iblk3_1_at V c t k _ (ix2 k ((((cfg3.win 2).blk t).view.emb j) 1)) rfl
        (by show win3_2.index t (1 : Fin 2) * 256 + 1 * (j 1).val = (j 1).val; rw [e21]; omega)]

/-- An index of the output array is in point t's block iff each coordinate is in the block's range on its axis. -/
theorem mem_blk3 (t : Fin cfg3.N) (i : S20000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v68).slice (win3_2.rect t)).set ↔ _
  rw [View.set_slice_whole, Rect.mem_set_unit]
  exact Iff.rfl

/-- Row r of the output lies in the block of point r / 2000: the ten blocks tile the array. -/
theorem cover3 (i : S20000x256.Idx) :
    ∃ t : Fin cfg3.N, (cfg3.win 2).flush t = true ∧ i ∈ ((cfg3.win 2).blk t).view.set := by
  have hN : cfg3.N = 10 := N_3
  have hi0 : (i 0).val < 20000 := (i 0).isLt
  have hi1 : (i 1).val < 256 := (i 1).isLt
  refine ⟨⟨(i 0).val / 2000, by rw [hN]; omega⟩, flush3_2 _, ?_⟩
  rw [mem_blk3]
  obtain ⟨-, -, -, -, e20, e21⟩ := idx_facts3 ⟨(i 0).val / 2000, by rw [hN]; omega⟩
  intro a
  match a with
  | ⟨0, _⟩ =>
    show win3_2.index _ (0 : Fin 2) * 2000 ≤ (i 0).val ∧ (i 0).val < win3_2.index _ (0 : Fin 2) * 2000 + 2000
    rw [e20]; show (i 0).val / 2000 * 2000 ≤ (i 0).val ∧ (i 0).val < (i 0).val / 2000 * 2000 + 2000; omega
  | ⟨1, _⟩ =>
    show win3_2.index _ (1 : Fin 2) * 256 ≤ (i 1).val ∧ (i 1).val < win3_2.index _ (1 : Fin 2) * 256 + 256
    rw [e21]; omega

/-- Region 3's output array after its run: the product of the feature array and the weight array as the region
    found them. -/
theorem lin_region3 (V : (c : Dev nD) → (b : Ref sig .tc) → Buf (Elt Ideal) ((c : Thread nD τ).loc b)) (c : Dev nD) :
    (dat3 (F := Ideal) V c).arrAt 2 cfg3.N
      = Cert.Gcn.lin (V c (Pipeline.arrRef spec3 0) : S20000x256.Idx → EReal) (V c (Pipeline.arrRef spec3 1) : S256x256.Idx → EReal) :=
  (dat3 (F := Ideal) V c).arrAt_eq_of_cover 2 (Cert.Gcn.lin (V c (Pipeline.arrRef spec3 0) : S20000x256.Idx → EReal) (V c (Pipeline.arrRef spec3 1) : S256x256.Idx → EReal))
    (fun t _ => flushed3_eq V c t) cover3

end Cert.KernelIdeal.RegionValue

end
-- ==== Proof.LinRegion6.lean ====
/-
  Region 6, a dense layer's product: each of the ten grid points multiplies its block of 2000 rows of the node
  features by the whole [256, 256] weight into a zero accumulator and writes the product back as rows
  2000 t … 2000 t + 1999 of the output. The ten blocks tile the 20000 rows, so the output array ends holding
  the whole product `lin h w` of the two arrays the region was entered with.
-/
import proofs.«111193_j89515708383972_1_alg».proof.Proof.Gen.KernelIdeal.Frame
import proofs.«111193_j89515708383972_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-- Row coordinate of the left operand's index of the [2000,256] x [256,256] product: the output's row. -/
theorem lhs6_row (i : S2000x256.Idx) (u : dot_S2000x256_S256x256_S2000x256_1_0_0_1_n_n.contr.Idx) :
    (dot_S2000x256_S256x256_S2000x256_1_0_0_1_n_n.lhsIdx i u 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- Column coordinate of the right operand's index: the output's column. -/
theorem rhs6_col (i : S2000x256.Idx) (u : dot_S2000x256_S256x256_S2000x256_1_0_0_1_n_n.contr.Idx) :
    (dot_S2000x256_S256x256_S2000x256_1_0_0_1_n_n.rhsIdx i u 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The [2000,256] x [256,256] product into a zero accumulator, at an entry: the sum over the 256 contracted
    positions of the entry's row of the left operand times its column of the right one. -/
theorem matmul6_apply {φ₁ φ₂ : FTy} (a : FVec Ideal S2000x256 φ₁) (b : FVec Ideal S256x256 φ₂) (j : S2000x256.Idx) :
    matmul dot_S2000x256_S256x256_S2000x256_1_0_0_1_n_n none a b (constant (F := Ideal) S2000x256 .f32 0x00000000#32) j
      = ∑ k : Fin 256, a (ix2 (⟨(j 0).val, (j 0).isLt⟩ : Fin 2000) k) * b (ix2 k (⟨(j 1).val, (j 1).isLt⟩ : Fin 256)) := by
  refine (Ideal.matmul_constant_zero_apply dot_S2000x256_S256x256_S2000x256_1_0_0_1_n_n none a b j).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx j ((contrEquiv1 dot_S2000x256_S256x256_S2000x256_1_0_0_1_n_n 256 rfl rfl).symm k) = ix2 (⟨(j 0).val, (j 0).isLt⟩ : Fin 2000) k := funext fun d => Fin.ext (by
    match d with
    | ⟨0, _⟩ => exact lhs6_row _ _
    | ⟨1, _⟩ => exact (dot_S2000x256_S256x256_S2000x256_1_0_0_1_n_n.lhsIdx_val_of_single rfl _ _).trans hk)
  have er : dot_S2000x256_S256x256_S2000x256_1_0_0_1_n_n.rhsIdx j ((contrEquiv1 dot_S2000x256_S256x256_S2000x256_1_0_0_1_n_n 256 rfl rfl).symm k) = ix2 k (⟨(j 1).val, (j 1).isLt⟩ : Fin 256) := funext fun d => Fin.ext (by
    match d with
    | ⟨0, _⟩ => exact (dot_S2000x256_S256x256_S2000x256_1_0_0_1_n_n.rhsIdx_val_of_single rfl _ _).trans hk
    | ⟨1, _⟩ => exact rhs6_col _ _)
  rw [el, er]

/-- The body's stored value at an entry of its block: the rounding steps are the identity on the extended reals,
    so it is the product of the loaded feature block with the loaded weight. -/
theorem pay6_apply (x0 : Vec Ideal S2000x256 .f32) (x1 : Vec Ideal S256x256 .f32) (j : S2000x256.Idx) :
    k6_pay1 (F := Ideal) x0 x1 j
      = ∑ k : Fin 256, x0 (ix2 (⟨(j 0).val, (j 0).isLt⟩ : Fin 2000) k) * x1 (ix2 k (⟨(j 1).val, (j 1).isLt⟩ : Fin 256)) := by
  unfold k6_pay1
  refine (matmul6_apply _ _ j).trans ?_
  refine Finset.sum_congr rfl fun k _ => ?_
  rw [shapeCast_self, shapeCast_self]
  rfl

theorem hz6 : (![0, 0] : Fin 2 → Nat) = fun _ => 0 := funext fun a => by fin_cases a <;> rfl

/-- The index maps over the ten grid points: the feature window and the output window sit at row block t, the
    weight window is the whole weight. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The feature window's block at point t is rows 2000 t … 2000 t + 1999 of the feature array. -/
theorem iblk6_0_at (V : (c : Dev nD) → (b : Ref sig .tc) → Buf (Elt Ideal) ((c : Thread nD τ).loc b)) (c : Dev nD) (t : Fin cfg6.N)
    (p : Fin 2000) (k : Fin 256) (i : S20000x256.Idx) (hi0 : (i 0).val = t.val * 2000 + p.val) (hi1 : (i 1).val = k.val) :
    (iblk6 V c 0 t : Vec Ideal S2000x256 .f32) (ix2 p k) = (V c (Pipeline.arrRef spec6 0) : S20000x256.Idx → EReal) i := by
  obtain ⟨e00, e01, -⟩ := idx_facts6 t
  unfold iblk6
  rw [View.read_apply]
  show (V c (Pipeline.arrRef spec6 0) : S20000x256.Idx → EReal) _ = _
  refine congrArg (V c (Pipeline.arrRef spec6 0) : S20000x256.Idx → EReal) ?_
  funext a
  apply Fin.ext
  match a with
  | ⟨0, _⟩ => show win6_0.index t (0 : Fin 2) * 2000 + 1 * p.val = (i 0).val; rw [e00, hi0]; omega
  | ⟨1, _⟩ => show win6_0.index t (1 : Fin 2) * 256 + 1 * k.val = (i 1).val; rw [e01, hi1]; omega

/-- The weight window's block at every point is the whole weight. -/
theorem iblk6_1_at (V : (c : Dev nD) → (b : Ref sig .tc) → Buf (Elt Ideal) ((c : Thread nD τ).loc b)) (c : Dev nD) (t : Fin cfg6.N)
    (k : Fin 256) (q : Fin 256) (i : S256x256.Idx) (hi0 : (i 0).val = k.val) (hi1 : (i 1).val = q.val) :
    (iblk6 V c 1 t : Vec Ideal S256x256 .f32) (ix2 k q) = (V c (Pipeline.arrRef spec6 1) : S256x256.Idx → EReal) i := by
  obtain ⟨-, -, e10, e11, -⟩ := idx_facts6 t
  unfold iblk6
  rw [View.read_apply]
  show (V c (Pipeline.arrRef spec6 1) : S256x256.Idx → EReal) _ = _
  refine congrArg (V c (Pipeline.arrRef spec6 1) : S256x256.Idx → EReal) ?_
  funext a
  apply Fin.ext
  match a with
  | ⟨0, _⟩ => show win6_1.index t (0 : Fin 2) * 256 + 1 * k.val = (i 0).val; rw [e10, hi0]; omega
  | ⟨1, _⟩ => show win6_1.index t (1 : Fin 2) * 256 + 1 * q.val = (i 1).val; rw [e11, hi1]; omega

/-- What point t writes back is block t of the whole product of the region-entry arrays. -/
theorem flushed6_eq (V : (c : Dev nD) → (b : Ref sig .tc) → Buf (Elt Ideal) ((c : Thread nD τ).loc b)) (c : Dev nD) (t : Fin cfg6.N) :
    (dat6 (F := Ideal) V c).flushed 2 t
      = ((cfg6.win 2).blk t).view.read (Elt Ideal) (Cert.Gcn.lin (V c (Pipeline.arrRef spec6 0) : S20000x256.Idx → EReal) (V c (Pipeline.arrRef spec6 1) : S256x256.Idx → EReal)) := by
  show (cfg6.win 2).cut (grid6.coords t) ((dat6 V c).after 2 t) = _
  rw [after6_2]
  unfold out6_2
  rw [View.canon_unit_zero hz6]
  simp only [View.ld_unit_zero (S := S2000x256) hz6, View.ld_unit_zero (S := S256x256) hz6]
  obtain ⟨-, -, -, -, e20, e21⟩ := idx_facts6 t
  funext j
  refine (pay6_apply _ _ j).trans ?_
  show _ = Cert.Gcn.lin (V c (Pipeline.arrRef spec6 0) : S20000x256.Idx → EReal) (V c (Pipeline.arrRef spec6 1) : S256x256.Idx → EReal) (((cfg6.win 2).blk t).view.emb j)
  unfold Cert.Gcn.lin
  refine Finset.sum_congr rfl fun k _ => ?_
  rw [iblk6_0_at V c t _ k (ix2 ((((cfg6.win 2).blk t).view.emb j) 0) k)
        (by show win6_2.index t (0 : Fin 2) * 2000 + 1 * (j 0).val = t.val * 2000 + (j 0).val; rw [e20]; omega) rfl,
      iblk6_1_at V c t k _ (ix2 k ((((cfg6.win 2).blk t).view.emb j) 1)) rfl
        (by show win6_2.index t (1 : Fin 2) * 256 + 1 * (j 1).val = (j 1).val; rw [e21]; omega)]

/-- An index of the output array is in point t's block iff each coordinate is in the block's range on its axis. -/
theorem mem_blk6 (t : Fin cfg6.N) (i : S20000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v122).slice (win6_2.rect t)).set ↔ _
  rw [View.set_slice_whole, Rect.mem_set_unit]
  exact Iff.rfl

/-- Row r of the output lies in the block of point r / 2000: the ten blocks tile the array. -/
theorem cover6 (i : S20000x256.Idx) :
    ∃ t : Fin cfg6.N, (cfg6.win 2).flush t = true ∧ i ∈ ((cfg6.win 2).blk t).view.set := by
  have hN : cfg6.N = 10 := N_6
  have hi0 : (i 0).val < 20000 := (i 0).isLt
  have hi1 : (i 1).val < 256 := (i 1).isLt
  refine ⟨⟨(i 0).val / 2000, by rw [hN]; omega⟩, flush6_2 _, ?_⟩
  rw [mem_blk6]
  obtain ⟨-, -, -, -, e20, e21⟩ := idx_facts6 ⟨(i 0).val / 2000, by rw [hN]; omega⟩
  intro a
  match a with
  | ⟨0, _⟩ =>
    show win6_2.index _ (0 : Fin 2) * 2000 ≤ (i 0).val ∧ (i 0).val < win6_2.index _ (0 : Fin 2) * 2000 + 2000
    rw [e20]; show (i 0).val / 2000 * 2000 ≤ (i 0).val ∧ (i 0).val < (i 0).val / 2000 * 2000 + 2000; omega
  | ⟨1, _⟩ =>
    show win6_2.index _ (1 : Fin 2) * 256 ≤ (i 1).val ∧ (i 1).val < win6_2.index _ (1 : Fin 2) * 256 + 256
    rw [e21]; omega

/-- Region 6's output array after its run: the product of the feature array and the weight array as the region
    found them. -/
theorem lin_region6 (V : (c : Dev nD) → (b : Ref sig .tc) → Buf (Elt Ideal) ((c : Thread nD τ).loc b)) (c : Dev nD) :
    (dat6 (F := Ideal) V c).arrAt 2 cfg6.N
      = Cert.Gcn.lin (V c (Pipeline.arrRef spec6 0) : S20000x256.Idx → EReal) (V c (Pipeline.arrRef spec6 1) : S256x256.Idx → EReal) :=
  (dat6 (F := Ideal) V c).arrAt_eq_of_cover 2 (Cert.Gcn.lin (V c (Pipeline.arrRef spec6 0) : S20000x256.Idx → EReal) (V c (Pipeline.arrRef spec6 1) : S256x256.Idx → EReal))
    (fun t _ => flushed6_eq V c t) cover6

end Cert.KernelIdeal.RegionValue

end
-- ==== Proof.LibTileSum.lean ====
/-
  Sums over an initial segment of the naturals, cut into tiles of equal length.

  A function on `Fin n` is extended by zero to all naturals (`extendZero`); a sum over `Fin n` is then a sum over
  `Finset.range n` (`sum_fin_eq_sum_range`), and the sum over the first `(k + 1) * T` naturals is the sum over the
  first `k * T` plus the sum over the next `T` (`sum_range_succ_mul`). Only commutativity and associativity of the
  addition are used: the lemmas hold in every additive commutative monoid, the extended reals among them, where
  no finiteness is needed to regroup a sum.
-/
import Mathlib.Algebra.BigOperators.Fin

open scoped BigOperators

namespace Cert.TileSum

variable {β : Type*} [AddCommMonoid β]

/-- A function on `Fin n` extended by zero to every natural. -/
def extendZero (n : ℕ) (f : Fin n → β) (i : ℕ) : β := if h : i < n then f ⟨i, h⟩ else 0

/-- Below `n` the extension is the function. -/
theorem extendZero_of_lt (n : ℕ) (f : Fin n → β) (i : ℕ) (h : i < n) : extendZero n f i = f ⟨i, h⟩ := dif_pos h

/-- A sum over `Fin n` is the sum of the extension over the first `n` naturals. -/
theorem sum_fin_eq_sum_range (n : ℕ) (f : Fin n → β) :
    ∑ r : Fin n, f r = ∑ i ∈ Finset.range n, extendZero n f i := by
  rw [Finset.sum_range]
  exact Finset.sum_congr rfl fun r _ => (extendZero_of_lt n f r.val r.isLt).symm

/-- One more tile: the first `(k + 1) * T` terms are the first `k * T` and then the `T` terms of tile `k`. -/
theorem sum_range_succ_mul (g : ℕ → β) (T k : ℕ) :
    ∑ i ∈ Finset.range ((k + 1) * T), g i
      = ∑ i ∈ Finset.range (k * T), g i + ∑ q : Fin T, g (k * T + q.val) := by
  rw [Nat.succ_mul, Finset.sum_range_add, Finset.sum_range fun x => g (k * T + x)]

/-- The first tile alone. -/
theorem sum_range_one_mul (g : ℕ → β) (T : ℕ) :
    ∑ i ∈ Finset.range ((0 + 1) * T), g i = ∑ q : Fin T, g (0 * T + q.val) := by
  rw [sum_range_succ_mul, Nat.zero_mul, Finset.sum_range_zero, zero_add]

/-- The running sum over tiles. If `acc` is the sum of `g` over the first `n` tiles of length `T` and `b` is tile `n` of `g`,
    then `acc` plus the sum of `b` is the sum of `g` over the first `n + 1` tiles. -/
theorem tile_step {N T : ℕ} (g : Fin N → β) (n : ℕ) (hn : n * T + T ≤ N) (b : Fin T → β)
    (hb : ∀ r : Fin T, b r = g ⟨n * T + r.val, lt_of_lt_of_le (Nat.add_lt_add_left r.isLt _) hn⟩) (acc : β)
    (hacc : acc = ∑ i ∈ Finset.range (n * T), extendZero N g i) :
    acc + ∑ r : Fin T, b r = ∑ i ∈ Finset.range ((n + 1) * T), extendZero N g i := by
  rw [sum_range_succ_mul, hacc]
  refine congrArg _ (Finset.sum_congr rfl fun r _ => ?_)
  rw [hb r, extendZero_of_lt]

/-- The first tile: nothing plus the sum of tile 0 is the sum over the first tile. -/
theorem tile_first {N T : ℕ} (g : Fin N → β) (hn : T ≤ N) (b : Fin T → β)
    (hb : ∀ r : Fin T, b r = g ⟨0 * T + r.val, by have := r.isLt; omega⟩) :
    0 + ∑ r : Fin T, b r = ∑ i ∈ Finset.range ((0 + 1) * T), extendZero N g i :=
  tile_step g 0 (by omega) b hb 0 (by rw [Nat.zero_mul, Finset.sum_range_zero])

end Cert.TileSum
-- ==== Proof.LibLaneSum.lean ====
/-
  A lane reduction read at a column.

  The sum over the rows of an [n, m] block, taken as a vector of m lanes and re-laid as a [1, m] row, is at column j
  the sum over the n rows of the block's entry in column j (`laneSum_apply`). Over the extended reals the sum is a
  plain finite sum: no order of summation is left in it.
-/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.LaneSum

/-- The two zero offsets of a rank-2 access, as the constant function. -/
theorem zero_offsets : (![0, 0] : Fin 2 → Nat) = fun _ => 0 := funext fun a => by fin_cases a <;> rfl

/-- The lane reduction over the rows of an [n, m] block, re-laid as a [1, m] row, is at column j the sum over the n
    rows of the block's entry in that column. -/
theorem laneSum_apply {n m : ℕ} (src : FVec Ideal ⟨2, ![n, m]⟩ .f32)
    (h : (⟨2, ![n, m]⟩ : Shape).Reduces [0] ⟨1, ![m]⟩) (hφ : FKind.Formats .f32)
    (hacc : (0x00000000#32 : BitVec 32) = FKind.add.neutral .f32 hφ)
    (hc : (⟨1, ![m]⟩ : Shape).ShapeCasts ⟨2, ![1, m]⟩) (u : Fin 1) (j : Fin m) :
    shapeCast ⟨2, ![1, m]⟩ (multiReduction (F := Ideal) .add [0] ⟨1, ![m]⟩ src 0x00000000#32 h hφ hacc) hc (ix2 u j)
      = ∑ r : Fin n, src (ix2 r j) := by
  refine (shapeCast_a_1a_apply _ hc u j).trans ?_
  refine (Ideal.multiReduction_add_single src 0x00000000#32 h hφ hacc (ix1 j)).trans ?_
  refine Finset.sum_congr rfl fun r _ => congrArg src ?_
  funext a
  match a with
  | ⟨0, _⟩ => rfl
  | ⟨1, _⟩ => rfl

end Cert.LaneSum

end
-- ==== Proof.ReduceRegion1.lean ====
/-
  Region 1: the column sums and the column sums of squares of a [20000, 256] array, accumulated over its ten row
  blocks of 2000 rows.

  At the first grid point the two [1, 256] rows are set to zero; at every point t the body adds to the first row the
  column sums of row block t (rows 2000·t … 2000·t + 1999 of the array) and to the second row the column sums of the
  squares of that block. The two rows stay in place from one point to the next and are written back after the last
  point. So after point n the first row holds, at column j, the sum of the array's entries in column j over the rows
  below 2000·(n + 1), and the second row the sum of their squares — by induction on n. Addition on the extended reals is
  commutative and associative, so the ten partial sums regroup into the one sum over the 20000 rows with no
  finiteness needed. After the last point these are the column sums and the column sums of squares of the whole array.
-/
import proofs.«111193_j89515708383972_1_alg».proof.Proof.Gen.KernelIdeal.Frame
import proofs.«111193_j89515708383972_1_alg».proof.Proof.Spec
import proofs.«111193_j89515708383972_1_alg».proof.Proof.LibTileSum
import proofs.«111193_j89515708383972_1_alg».proof.Proof.LibLaneSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen Cert.TileSum Cert.LaneSum

/-! ## What each case of the body leaves in the two rows -/

section Pieces

variable {F : FTy → Type} [FloatOps F]

/-- Away from the first point the body leaves in the first row the row it found plus the column sums of the block. -/
theorem out1_B_1_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero zero_offsets]
  simp only [View.readAt_eq_ld, h1.read_unread, h2.read_unread, View.ld_unit_zero (S := S2000x256) zero_offsets,
    View.ld_unit_zero (S := S1x256) zero_offsets]

/-- Away from the first point the body leaves in the second row the row it found plus the column sums of the block's
    squares. -/
theorem out1_B_2_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero zero_offsets]
  simp only [View.readAt_eq_ld, h1.read_unread, h3.read_unread, View.ld_unit_zero (S := S2000x256) zero_offsets,
    View.ld_unit_zero (S := S1x256) zero_offsets]

/-- At the first point the body sets the first row to zero, reads it back and leaves zero plus the column sums of the
    block. -/
theorem out1_A_1_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

/-- At the first point the body sets the second row to zero, reads it back and leaves zero plus the column sums of the
    block's squares. -/
theorem out1_A_2_eq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

end Pieces

/-! ## The payloads at a column, on the extended reals -/

/-- The zero row the first point stores. -/
theorem k1_pay1_apply (i : S1x256.Idx) : k1_pay1 (F := Ideal) i = 0 := by
  unfold k1_pay1
  exact Ideal.ofBits_zero_f32

/-- The zero row the first point stores in the second output. -/
theorem k1_pay2_apply (i : S1x256.Idx) : k1_pay2 (F := Ideal) i = 0 := by
  unfold k1_pay2
  exact Ideal.ofBits_zero_f32

/-- The first row's update at column j: what it held plus the sum of the block's column j over its 2000 rows. -/
theorem k1_pay4_apply (x : Vec Ideal S2000x256 .f32) (acc : Vec Ideal S1x256 .f32) (u : Fin 1) (j : Fin 256) :
    k1_pay4 (F := Ideal) x acc (ix2 u j) = acc (ix2 u j) + ∑ r : Fin 2000, x (ix2 r j) := by
  unfold k1_pay4 k1_pay3
  dsimp only
  refine (addf_apply _ _ _).trans ?_
  rw [shapeCast_self, shapeCast_self]
  exact congrArg (acc (ix2 u j) + ·) (laneSum_apply x _ _ _ _ u j)

/-- The second row's update at column j: what it held plus the sum of the squares of the block's column j. -/
theorem k1_pay5_apply (x : Vec Ideal S2000x256 .f32) (acc : Vec Ideal S1x256 .f32) (u : Fin 1) (j : Fin 256) :
    k1_pay5 (F := Ideal) x acc (ix2 u j) = acc (ix2 u j) + ∑ r : Fin 2000, x (ix2 r j) * x (ix2 r j) := by
  unfold k1_pay5 k1_pay3
  dsimp only
  refine (addf_apply _ _ _).trans ?_
  rw [shapeCast_self, shapeCast_self]
  exact congrArg (acc (ix2 u j) + ·) (laneSum_apply (mulf x x) _ _ _ _ u j)

/-! ## The blocks of the input window -/

/-- The input window's block index at point t is (t, 0); -/
theorem idx1_0 : ∀ t : Fin cfg1.N, win1_0.index t (0 : Fin 2) = t.val ∧ win1_0.index t (1 : Fin 2) = 0 :=
  (by decide +kernel : ∀ t : Fin grid1.N, _)

/-- the two output windows' block index is (0, 0) at every point. -/
theorem idx1_1 : ∀ t : Fin cfg1.N, win1_1.index t (0 : Fin 2) = 0 ∧ win1_1.index t (1 : Fin 2) = 0 :=
  (by decide +kernel : ∀ t : Fin grid1.N, _)

theorem idx1_2 : ∀ t : Fin cfg1.N, win1_2.index t (0 : Fin 2) = 0 ∧ win1_2.index t (1 : Fin 2) = 0 :=
  (by decide +kernel : ∀ t : Fin grid1.N, _)

section Blocks

variable {F : FTy → Type} [FloatOps F]
variable (V : (c : Dev nD) → (b : Ref sig .tc) → Buf (Elt F) ((c : Thread nD τ).loc b))

/-- Entry (r, j) of row block t of the input array is the array's entry (2000·t + r, j). -/
theorem iblk1_apply (c : Dev nD) (t : Fin cfg1.N) (r : Fin 2000) (j : Fin 256) (h : t.val * 2000 + r.val < 20000) :
    (iblk1 V c 0 t : Vec F S2000x256 .f32) (ix2 r j)
      = (V c (Pipeline.arrRef spec1 0) : Vec F S20000x256 .f32) (ix2 ⟨t.val * 2000 + r.val, h⟩ j) := by
  obtain ⟨e0, e1⟩ := idx1_0 t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t (0 : Fin 2) * 2000 + 1 * r.val = t.val * 2000 + r.val; rw [e0]; omega
  | ⟨1, _⟩ => show win1_0.index t (1 : Fin 2) * 256 + 1 * j.val = j.val; rw [e1]; omega

end Blocks

/-! ## The running sums -/

section Sums

variable (V : (c : Dev nD) → (b : Ref sig .tc) → Buf (Elt Ideal) ((c : Thread nD τ).loc b))

/-- Column j of the input array, as a function of the row. -/
abbrev col1 (c : Dev nD) (j : Fin 256) : Fin 20000 → EReal :=
  fun r => (V c (Pipeline.arrRef spec1 0) : Vec Ideal S20000x256 .f32) (ix2 r j)

/-- The squares of column j of the input array. -/
abbrev colSq1 (c : Dev nD) (j : Fin 256) : Fin 20000 → EReal :=
  fun r => col1 V c j r * col1 V c j r

/-- After point n the first row holds at column j the sum of column j over the rows below 2000·(n + 1), and the second
    row the sum of the squares: by induction on the point, the first point starting from zero. -/
theorem outsAt1_eq (c : Dev nD) : ∀ (n : ℕ) (hn : n < cfg1.N) (u : Fin 1) (j : Fin 256),
    (outsAt1 V c n hn).1 (ix2 u j) = ∑ i ∈ Finset.range ((n + 1) * 2000), extendZero 20000 (col1 V c j) i
    ∧ (outsAt1 V c n hn).2 (ix2 u j) = ∑ i ∈ Finset.range ((n + 1) * 2000), extendZero 20000 (colSq1 V c j) i
  | 0, hn, u, j => by
    rw [outsAt1_A V c ⟨0, hn⟩ rfl]
    dsimp only
    rw [out1_A_1_eq, out1_A_2_eq, k1_pay4_apply, k1_pay5_apply, k1_pay1_apply, k1_pay2_apply]
    constructor
    · exact tile_first (col1 V c j) (by omega) _ fun r => iblk1_apply V c ⟨0, hn⟩ r j _
    · exact tile_first (colSq1 V c j) (by omega) _ fun r => by
        rw [iblk1_apply V c ⟨0, hn⟩ r j (by have := r.isLt; show 0 * 2000 + r.val < 20000; omega)]
  | n + 1, hn, u, j => by
    have hN : n + 1 < 10 := lt_of_lt_of_eq hn (show cfg1.N = 10 from N_1)
    have hB : ¬(⟨n + 1, hn⟩ : Fin cfg1.N).val % 10 = 0 := by dsimp only; omega
    obtain ⟨ih1, ih2⟩ := outsAt1_eq c n (Nat.lt_of_succ_lt hn) u j
    rw [outsAt1_B V c ⟨n + 1, hn⟩ hB]
    dsimp only
    rw [out1_B_1_eq, out1_B_2_eq, k1_pay4_apply, k1_pay5_apply]
    constructor
    · exact tile_step (col1 V c j) (n + 1) (by omega) _ (fun r => iblk1_apply V c ⟨n + 1, hn⟩ r j _) _ ih1
    · exact tile_step (colSq1 V c j) (n + 1) (by omega) _ (fun r => by
        rw [iblk1_apply V c ⟨n + 1, hn⟩ r j (by have := r.isLt; show (n + 1) * 2000 + r.val < 20000; omega)]) _ ih2

/-- The last point of the grid. -/
theorem last1 : (9 : ℕ) < cfg1.N := by rw [show cfg1.N = 10 from N_1]; decide

/-- After the last point the first row is the column sums of the whole array, -/
theorem outsAt1_last_1 (c : Dev nD) :
    (outsAt1 V c 9 last1).1 = Cert.Gcn.colSum (V c (Pipeline.arrRef spec1 0)) := by
  funext i
  obtain ⟨u, j, rfl⟩ : ∃ (u : Fin 1) (j : Fin 256), i = ix2 u j := ⟨i 0, i 1, eq_ix2 i⟩
  rw [(outsAt1_eq V c 9 last1 u j).1]
  exact (sum_fin_eq_sum_range 20000 (col1 V c j)).symm

/-- and the second row the column sums of its squares. -/
theorem outsAt1_last_2 (c : Dev nD) :
    (outsAt1 V c 9 last1).2 = Cert.Gcn.colSumSq (V c (Pipeline.arrRef spec1 0)) := by
  funext i
  obtain ⟨u, j, rfl⟩ : ∃ (u : Fin 1) (j : Fin 256), i = ix2 u j := ⟨i 0, i 1, eq_ix2 i⟩
  rw [(outsAt1_eq V c 9 last1 u j).2]
  exact (sum_fin_eq_sum_range 20000 (colSq1 V c j)).symm

/-! ## The write-back after the last point, and the final arrays -/

/-- An index of a [1, 256] row is in point t's block of the first output window iff each coordinate is in the
    block's range on its axis. -/
theorem mem_blk1_1 (t : Fin cfg1.N) (i : S1x256.Idx) :
    i ∈ ((cfg1.win 1).blk t).view.set ↔ ∀ a : Fin 2, win1_1.index t a * S1x256.size a ≤ (i a).val ∧ (i a).val < win1_1.index t a * S1x256.size a + S1x256.size a := by
  show i ∈ ((View.whole main_v52_0).slice (win1_1.rect t)).set ↔ _
  rw [View.set_slice_whole, Rect.mem_set_unit]
  exact Iff.rfl

theorem mem_blk1_2 (t : Fin cfg1.N) (i : S1x256.Idx) :
    i ∈ ((cfg1.win 2).blk t).view.set ↔ ∀ a : Fin 2, win1_2.index t a * S1x256.size a ≤ (i a).val ∧ (i a).val < win1_2.index t a * S1x256.size a + S1x256.size a := by
  show i ∈ ((View.whole main_v52_1).slice (win1_2.rect t)).set ↔ _
  rw [View.set_slice_whole, Rect.mem_set_unit]
  exact Iff.rfl

/-- The last point's block of the first output window is the whole row. -/
theorem covered1_1 (i : S1x256.Idx) : ∃ t : Fin cfg1.N, (cfg1.win 1).flush t = true ∧ i ∈ ((cfg1.win 1).blk t).view.set := by
  refine ⟨⟨9, last1⟩, (flush1_1 _).mpr rfl, ?_⟩
  rw [mem_blk1_1]
  obtain ⟨e0, e1⟩ := idx1_1 ⟨9, last1⟩
  intro a
  match a with
  | ⟨0, _⟩ => show win1_1.index ⟨9, last1⟩ (0 : Fin 2) * 1 ≤ (i 0).val ∧ (i 0).val < win1_1.index ⟨9, last1⟩ (0 : Fin 2) * 1 + 1; have := idx2_lt0 i; omega
  | ⟨1, _⟩ => show win1_1.index ⟨9, last1⟩ (1 : Fin 2) * 256 ≤ (i 1).val ∧ (i 1).val < win1_1.index ⟨9, last1⟩ (1 : Fin 2) * 256 + 256; have := idx2_lt1 i; omega

/-- The last point's block of the second output window is the whole row. -/
theorem covered1_2 (i : S1x256.Idx) : ∃ t : Fin cfg1.N, (cfg1.win 2).flush t = true ∧ i ∈ ((cfg1.win 2).blk t).view.set := by
  refine ⟨⟨9, last1⟩, (flush1_2 _).mpr rfl, ?_⟩
  rw [mem_blk1_2]
  obtain ⟨e0, e1⟩ := idx1_2 ⟨9, last1⟩
  intro a
  match a with
  | ⟨0, _⟩ => show win1_2.index ⟨9, last1⟩ (0 : Fin 2) * 1 ≤ (i 0).val ∧ (i 0).val < win1_2.index ⟨9, last1⟩ (0 : Fin 2) * 1 + 1; have := idx2_lt0 i; omega
  | ⟨1, _⟩ => show win1_2.index ⟨9, last1⟩ (1 : Fin 2) * 256 ≤ (i 1).val ∧ (i 1).val < win1_2.index ⟨9, last1⟩ (1 : Fin 2) * 256 + 256; have := idx2_lt1 i; omega

/-- The one write-back of the first row, after the last point, writes the column sums: the block at index (0, 0) of
    a [1, 256] array is the array. -/
theorem flushed1_1_eq (c : Dev nD) (t : Fin cfg1.N) (hf : (cfg1.win 1).flush t = true) :
    (dat1 V c).flushed 1 t
      = ((cfg1.win 1).blk t).view.read (Elt Ideal) (Cert.Gcn.colSum (V c (Pipeline.arrRef spec1 0))) := by
  have hN : cfg1.N = 10 := N_1
  have h9 : t.val = 9 := by have := (flush1_1 t).mp hf; have := t.isLt; omega
  obtain rfl : t = ⟨9, last1⟩ := Fin.ext h9
  show (cfg1.win 1).cut (grid1.coords ⟨9, last1⟩) ((dat1 V c).after 1 ⟨9, last1⟩) = _
  rw [after1_1]
  dsimp only
  rw [outsAt1_last_1]
  obtain ⟨e0, e1⟩ := idx1_1 ⟨9, last1⟩
  have hz' : (fun a => win1_1.index ⟨9, last1⟩ a * main_v52_0.ty.shape.size a) = fun _ => 0 := funext fun a => by
    match a with
    | ⟨0, _⟩ => show win1_1.index ⟨9, last1⟩ (0 : Fin 2) * 1 = 0; omega
    | ⟨1, _⟩ => show win1_1.index ⟨9, last1⟩ (1 : Fin 2) * 256 = 0; omega
  exact (Memref.read_access_unit_zero (Elt Ideal) main_v52_0 hz' (fun a => by rw [congrFun hz' a]; simp) _).symm

/-- The one write-back of the second row writes the column sums of squares. -/
theorem flushed1_2_eq (c : Dev nD) (t : Fin cfg1.N) (hf : (cfg1.win 2).flush t = true) :
    (dat1 V c).flushed 2 t
      = ((cfg1.win 2).blk t).view.read (Elt Ideal) (Cert.Gcn.colSumSq (V c (Pipeline.arrRef spec1 0))) := by
  have hN : cfg1.N = 10 := N_1
  have h9 : t.val = 9 := by have := (flush1_2 t).mp hf; have := t.isLt; omega
  obtain rfl : t = ⟨9, last1⟩ := Fin.ext h9
  show (cfg1.win 2).cut (grid1.coords ⟨9, last1⟩) ((dat1 V c).after 2 ⟨9, last1⟩) = _
  rw [after1_2]
  dsimp only
  rw [outsAt1_last_2]
  obtain ⟨e0, e1⟩ := idx1_2 ⟨9, last1⟩
  have hz' : (fun a => win1_2.index ⟨9, last1⟩ a * main_v52_1.ty.shape.size a) = fun _ => 0 := funext fun a => by
    match a with
    | ⟨0, _⟩ => show win1_2.index ⟨9, last1⟩ (0 : Fin 2) * 1 = 0; omega
    | ⟨1, _⟩ => show win1_2.index ⟨9, last1⟩ (1 : Fin 2) * 256 = 0; omega
  exact (Memref.read_access_unit_zero (Elt Ideal) main_v52_1 hz' (fun a => by rw [congrFun hz' a]; simp) _).symm

/-- REGION 1, FIRST OUTPUT: the array the region leaves is the column sums of the array it found in its input
    window. -/
theorem sum_region1 (c : Dev nD) :
    (dat1 (F := Ideal) V c).arrAt 1 cfg1.N = Cert.Gcn.colSum (V c (Pipeline.arrRef spec1 0)) :=
  (dat1 V c).arrAt_eq_of_cover 1 _ (flushed1_1_eq V c) covered1_1

/-- REGION 1, SECOND OUTPUT: the array the region leaves is the column sums of squares of the array it found in its
    input window. -/
theorem sumsq_region1 (c : Dev nD) :
    (dat1 (F := Ideal) V c).arrAt 2 cfg1.N = Cert.Gcn.colSumSq (V c (Pipeline.arrRef spec1 0)) :=
  (dat1 V c).arrAt_eq_of_cover 2 _ (flushed1_2_eq V c) covered1_2

end Sums

end Cert.KernelIdeal.RegionValue

end
-- ==== Proof.ReduceRegion4.lean ====
/-
  Region 4: the column sums and the column sums of squares of a [20000, 256] array, accumulated over its ten row
  blocks of 2000 rows.

  At the first grid point the two [1, 256] rows are set to zero; at every point t the body adds to the first row the
  column sums of row block t (rows 2000·t … 2000·t + 1999 of the array) and to the second row the column sums of the
  squares of that block. The two rows stay in place from one point to the next and are written back after the last
  point. So after point n the first row holds, at column j, the sum of the array's entries in column j over the rows
  below 2000·(n + 1), and the second row the sum of their squares — by induction on n. Addition on the extended reals is
  commutative and associative, so the ten partial sums regroup into the one sum over the 20000 rows with no
  finiteness needed. After the last point these are the column sums and the column sums of squares of the whole array.
-/
import proofs.«111193_j89515708383972_1_alg».proof.Proof.Gen.KernelIdeal.Frame
import proofs.«111193_j89515708383972_1_alg».proof.Proof.Spec
import proofs.«111193_j89515708383972_1_alg».proof.Proof.LibTileSum
import proofs.«111193_j89515708383972_1_alg».proof.Proof.LibLaneSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen Cert.TileSum Cert.LaneSum

/-! ## What each case of the body leaves in the two rows -/

section Pieces

variable {F : FTy → Type} [FloatOps F]

/-- Away from the first point the body leaves in the first row the row it found plus the column sums of the block. -/
theorem out4_B_1_eq (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond4_0 i) (x : Vec F S2000x256 .f32) (xo1 xo2 : Vec F S1x256 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero zero_offsets]
  simp only [View.readAt_eq_ld, h1.read_unread, h2.read_unread, View.ld_unit_zero (S := S2000x256) zero_offsets,
    View.ld_unit_zero (S := S1x256) zero_offsets]

/-- Away from the first point the body leaves in the second row the row it found plus the column sums of the block's
    squares. -/
theorem out4_B_2_eq (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond4_0 i) (x : Vec F S2000x256 .f32) (xo1 xo2 : Vec F S1x256 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero zero_offsets]
  simp only [View.readAt_eq_ld, h1.read_unread, h3.read_unread, View.ld_unit_zero (S := S2000x256) zero_offsets,
    View.ld_unit_zero (S := S1x256) zero_offsets]

/-- At the first point the body sets the first row to zero, reads it back and leaves zero plus the column sums of the
    block. -/
theorem out4_A_1_eq (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond4_0 i) (x : Vec F S2000x256 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

/-- At the first point the body sets the second row to zero, reads it back and leaves zero plus the column sums of the
    block's squares. -/
theorem out4_A_2_eq (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond4_0 i) (x : Vec F S2000x256 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

end Pieces

/-! ## The payloads at a column, on the extended reals -/

/-- The zero row the first point stores. -/
theorem k4_pay1_apply (i : S1x256.Idx) : k4_pay1 (F := Ideal) i = 0 := by
  unfold k4_pay1
  exact Ideal.ofBits_zero_f32

/-- The zero row the first point stores in the second output. -/
theorem k4_pay2_apply (i : S1x256.Idx) : k4_pay2 (F := Ideal) i = 0 := by
  unfold k4_pay2
  exact Ideal.ofBits_zero_f32

/-- The first row's update at column j: what it held plus the sum of the block's column j over its 2000 rows. -/
theorem k4_pay4_apply (x : Vec Ideal S2000x256 .f32) (acc : Vec Ideal S1x256 .f32) (u : Fin 1) (j : Fin 256) :
    k4_pay4 (F := Ideal) x acc (ix2 u j) = acc (ix2 u j) + ∑ r : Fin 2000, x (ix2 r j) := by
  unfold k4_pay4 k4_pay3
  dsimp only
  refine (addf_apply _ _ _).trans ?_
  rw [shapeCast_self, shapeCast_self]
  exact congrArg (acc (ix2 u j) + ·) (laneSum_apply x _ _ _ _ u j)

/-- The second row's update at column j: what it held plus the sum of the squares of the block's column j. -/
theorem k4_pay5_apply (x : Vec Ideal S2000x256 .f32) (acc : Vec Ideal S1x256 .f32) (u : Fin 1) (j : Fin 256) :
    k4_pay5 (F := Ideal) x acc (ix2 u j) = acc (ix2 u j) + ∑ r : Fin 2000, x (ix2 r j) * x (ix2 r j) := by
  unfold k4_pay5 k4_pay3
  dsimp only
  refine (addf_apply _ _ _).trans ?_
  rw [shapeCast_self, shapeCast_self]
  exact congrArg (acc (ix2 u j) + ·) (laneSum_apply (mulf x x) _ _ _ _ u j)

/-! ## The blocks of the input window -/

/-- The input window's block index at point t is (t, 0); -/
theorem idx4_0 : ∀ t : Fin cfg4.N, win4_0.index t (0 : Fin 2) = t.val ∧ win4_0.index t (1 : Fin 2) = 0 :=
  (by decide +kernel : ∀ t : Fin grid4.N, _)

/-- the two output windows' block index is (0, 0) at every point. -/
theorem idx4_1 : ∀ t : Fin cfg4.N, win4_1.index t (0 : Fin 2) = 0 ∧ win4_1.index t (1 : Fin 2) = 0 :=
  (by decide +kernel : ∀ t : Fin grid4.N, _)

theorem idx4_2 : ∀ t : Fin cfg4.N, win4_2.index t (0 : Fin 2) = 0 ∧ win4_2.index t (1 : Fin 2) = 0 :=
  (by decide +kernel : ∀ t : Fin grid4.N, _)

section Blocks

variable {F : FTy → Type} [FloatOps F]
variable (V : (c : Dev nD) → (b : Ref sig .tc) → Buf (Elt F) ((c : Thread nD τ).loc b))

/-- Entry (r, j) of row block t of the input array is the array's entry (2000·t + r, j). -/
theorem iblk4_apply (c : Dev nD) (t : Fin cfg4.N) (r : Fin 2000) (j : Fin 256) (h : t.val * 2000 + r.val < 20000) :
    (iblk4 V c 0 t : Vec F S2000x256 .f32) (ix2 r j)
      = (V c (Pipeline.arrRef spec4 0) : Vec F S20000x256 .f32) (ix2 ⟨t.val * 2000 + r.val, h⟩ j) := by
  obtain ⟨e0, e1⟩ := idx4_0 t
  unfold iblk4
  rw [View.read_apply]
  show V c (Pipeline.arrRef spec4 0) _ = V c (Pipeline.arrRef spec4 0) _
  refine congrArg (V c (Pipeline.arrRef spec4 0)) ?_
  funext a
  apply Fin.ext
  match a with
  | ⟨0, _⟩ => show win4_0.index t (0 : Fin 2) * 2000 + 1 * r.val = t.val * 2000 + r.val; rw [e0]; omega
  | ⟨1, _⟩ => show win4_0.index t (1 : Fin 2) * 256 + 1 * j.val = j.val; rw [e1]; omega

end Blocks

/-! ## The running sums -/

section Sums

variable (V : (c : Dev nD) → (b : Ref sig .tc) → Buf (Elt Ideal) ((c : Thread nD τ).loc b))

/-- Column j of the input array, as a function of the row. -/
abbrev col4 (c : Dev nD) (j : Fin 256) : Fin 20000 → EReal :=
  fun r => (V c (Pipeline.arrRef spec4 0) : Vec Ideal S20000x256 .f32) (ix2 r j)

/-- The squares of column j of the input array. -/
abbrev colSq4 (c : Dev nD) (j : Fin 256) : Fin 20000 → EReal :=
  fun r => col4 V c j r * col4 V c j r

/-- After point n the first row holds at column j the sum of column j over the rows below 2000·(n + 1), and the second
    row the sum of the squares: by induction on the point, the first point starting from zero. -/
theorem outsAt4_eq (c : Dev nD) : ∀ (n : ℕ) (hn : n < cfg4.N) (u : Fin 1) (j : Fin 256),
    (outsAt4 V c n hn).1 (ix2 u j) = ∑ i ∈ Finset.range ((n + 1) * 2000), extendZero 20000 (col4 V c j) i
    ∧ (outsAt4 V c n hn).2 (ix2 u j) = ∑ i ∈ Finset.range ((n + 1) * 2000), extendZero 20000 (colSq4 V c j) i
  | 0, hn, u, j => by
    rw [outsAt4_A V c ⟨0, hn⟩ rfl]
    dsimp only
    rw [out4_A_1_eq, out4_A_2_eq, k4_pay4_apply, k4_pay5_apply, k4_pay1_apply, k4_pay2_apply]
    constructor
    · exact tile_first (col4 V c j) (by omega) _ fun r => iblk4_apply V c ⟨0, hn⟩ r j _
    · exact tile_first (colSq4 V c j) (by omega) _ fun r => by
        rw [iblk4_apply V c ⟨0, hn⟩ r j (by have := r.isLt; show 0 * 2000 + r.val < 20000; omega)]
  | n + 1, hn, u, j => by
    have hN : n + 1 < 10 := lt_of_lt_of_eq hn (show cfg4.N = 10 from N_4)
    have hB : ¬(⟨n + 1, hn⟩ : Fin cfg4.N).val % 10 = 0 := by dsimp only; omega
    obtain ⟨ih1, ih2⟩ := outsAt4_eq c n (Nat.lt_of_succ_lt hn) u j
    rw [outsAt4_B V c ⟨n + 1, hn⟩ hB]
    dsimp only
    rw [out4_B_1_eq, out4_B_2_eq, k4_pay4_apply, k4_pay5_apply]
    constructor
    · exact tile_step (col4 V c j) (n + 1) (by omega) _ (fun r => iblk4_apply V c ⟨n + 1, hn⟩ r j _) _ ih1
    · exact tile_step (colSq4 V c j) (n + 1) (by omega) _ (fun r => by
        rw [iblk4_apply V c ⟨n + 1, hn⟩ r j (by have := r.isLt; show (n + 1) * 2000 + r.val < 20000; omega)]) _ ih2

/-- The last point of the grid. -/
theorem last4 : (9 : ℕ) < cfg4.N := by rw [show cfg4.N = 10 from N_4]; decide

/-- After the last point the first row is the column sums of the whole array, -/
theorem outsAt4_last_1 (c : Dev nD) :
    (outsAt4 V c 9 last4).1 = Cert.Gcn.colSum (V c (Pipeline.arrRef spec4 0)) := by
  funext i
  obtain ⟨u, j, rfl⟩ : ∃ (u : Fin 1) (j : Fin 256), i = ix2 u j := ⟨i 0, i 1, eq_ix2 i⟩
  rw [(outsAt4_eq V c 9 last4 u j).1]
  exact (sum_fin_eq_sum_range 20000 (col4 V c j)).symm

/-- and the second row the column sums of its squares. -/
theorem outsAt4_last_2 (c : Dev nD) :
    (outsAt4 V c 9 last4).2 = Cert.Gcn.colSumSq (V c (Pipeline.arrRef spec4 0)) := by
  funext i
  obtain ⟨u, j, rfl⟩ : ∃ (u : Fin 1) (j : Fin 256), i = ix2 u j := ⟨i 0, i 1, eq_ix2 i⟩
  rw [(outsAt4_eq V c 9 last4 u j).2]
  exact (sum_fin_eq_sum_range 20000 (colSq4 V c j)).symm

/-! ## The write-back after the last point, and the final arrays -/

/-- An index of a [1, 256] row is in point t's block of the first output window iff each coordinate is in the
    block's range on its axis. -/
theorem mem_blk4_1 (t : Fin cfg4.N) (i : S1x256.Idx) :
    i ∈ ((cfg4.win 1).blk t).view.set ↔ ∀ a : Fin 2, win4_1.index t a * S1x256.size a ≤ (i a).val ∧ (i a).val < win4_1.index t a * S1x256.size a + S1x256.size a := by
  show i ∈ ((View.whole main_v106_0).slice (win4_1.rect t)).set ↔ _
  rw [View.set_slice_whole, Rect.mem_set_unit]
  exact Iff.rfl

theorem mem_blk4_2 (t : Fin cfg4.N) (i : S1x256.Idx) :
    i ∈ ((cfg4.win 2).blk t).view.set ↔ ∀ a : Fin 2, win4_2.index t a * S1x256.size a ≤ (i a).val ∧ (i a).val < win4_2.index t a * S1x256.size a + S1x256.size a := by
  show i ∈ ((View.whole main_v106_1).slice (win4_2.rect t)).set ↔ _
  rw [View.set_slice_whole, Rect.mem_set_unit]
  exact Iff.rfl

/-- The last point's block of the first output window is the whole row. -/
theorem covered4_1 (i : S1x256.Idx) : ∃ t : Fin cfg4.N, (cfg4.win 1).flush t = true ∧ i ∈ ((cfg4.win 1).blk t).view.set := by
  refine ⟨⟨9, last4⟩, (flush4_1 _).mpr rfl, ?_⟩
  rw [mem_blk4_1]
  obtain ⟨e0, e1⟩ := idx4_1 ⟨9, last4⟩
  intro a
  match a with
  | ⟨0, _⟩ => show win4_1.index ⟨9, last4⟩ (0 : Fin 2) * 1 ≤ (i 0).val ∧ (i 0).val < win4_1.index ⟨9, last4⟩ (0 : Fin 2) * 1 + 1; have := idx2_lt0 i; omega
  | ⟨1, _⟩ => show win4_1.index ⟨9, last4⟩ (1 : Fin 2) * 256 ≤ (i 1).val ∧ (i 1).val < win4_1.index ⟨9, last4⟩ (1 : Fin 2) * 256 + 256; have := idx2_lt1 i; omega

/-- The last point's block of the second output window is the whole row. -/
theorem covered4_2 (i : S1x256.Idx) : ∃ t : Fin cfg4.N, (cfg4.win 2).flush t = true ∧ i ∈ ((cfg4.win 2).blk t).view.set := by
  refine ⟨⟨9, last4⟩, (flush4_2 _).mpr rfl, ?_⟩
  rw [mem_blk4_2]
  obtain ⟨e0, e1⟩ := idx4_2 ⟨9, last4⟩
  intro a
  match a with
  | ⟨0, _⟩ => show win4_2.index ⟨9, last4⟩ (0 : Fin 2) * 1 ≤ (i 0).val ∧ (i 0).val < win4_2.index ⟨9, last4⟩ (0 : Fin 2) * 1 + 1; have := idx2_lt0 i; omega
  | ⟨1, _⟩ => show win4_2.index ⟨9, last4⟩ (1 : Fin 2) * 256 ≤ (i 1).val ∧ (i 1).val < win4_2.index ⟨9, last4⟩ (1 : Fin 2) * 256 + 256; have := idx2_lt1 i; omega

/-- The one write-back of the first row, after the last point, writes the column sums: the block at index (0, 0) of
    a [1, 256] array is the array. -/
theorem flushed4_1_eq (c : Dev nD) (t : Fin cfg4.N) (hf : (cfg4.win 1).flush t = true) :
    (dat4 V c).flushed 1 t
      = ((cfg4.win 1).blk t).view.read (Elt Ideal) (Cert.Gcn.colSum (V c (Pipeline.arrRef spec4 0))) := by
  have hN : cfg4.N = 10 := N_4
  have h9 : t.val = 9 := by have := (flush4_1 t).mp hf; have := t.isLt; omega
  obtain rfl : t = ⟨9, last4⟩ := Fin.ext h9
  show (cfg4.win 1).cut (grid4.coords ⟨9, last4⟩) ((dat4 V c).after 1 ⟨9, last4⟩) = _
  rw [after4_1]
  dsimp only
  rw [outsAt4_last_1]
  obtain ⟨e0, e1⟩ := idx4_1 ⟨9, last4⟩
  have hz' : (fun a => win4_1.index ⟨9, last4⟩ a * main_v106_0.ty.shape.size a) = fun _ => 0 := funext fun a => by
    match a with
    | ⟨0, _⟩ => show win4_1.index ⟨9, last4⟩ (0 : Fin 2) * 1 = 0; omega
    | ⟨1, _⟩ => show win4_1.index ⟨9, last4⟩ (1 : Fin 2) * 256 = 0; omega
  exact (Memref.read_access_unit_zero (Elt Ideal) main_v106_0 hz' (fun a => by rw [congrFun hz' a]; simp) _).symm

/-- The one write-back of the second row writes the column sums of squares. -/
theorem flushed4_2_eq (c : Dev nD) (t : Fin cfg4.N) (hf : (cfg4.win 2).flush t = true) :
    (dat4 V c).flushed 2 t
      = ((cfg4.win 2).blk t).view.read (Elt Ideal) (Cert.Gcn.colSumSq (V c (Pipeline.arrRef spec4 0))) := by
  have hN : cfg4.N = 10 := N_4
  have h9 : t.val = 9 := by have := (flush4_2 t).mp hf; have := t.isLt; omega
  obtain rfl : t = ⟨9, last4⟩ := Fin.ext h9
  show (cfg4.win 2).cut (grid4.coords ⟨9, last4⟩) ((dat4 V c).after 2 ⟨9, last4⟩) = _
  rw [after4_2]
  dsimp only
  rw [outsAt4_last_2]
  obtain ⟨e0, e1⟩ := idx4_2 ⟨9, last4⟩
  have hz' : (fun a => win4_2.index ⟨9, last4⟩ a * main_v106_1.ty.shape.size a) = fun _ => 0 := funext fun a => by
    match a with
    | ⟨0, _⟩ => show win4_2.index ⟨9, last4⟩ (0 : Fin 2) * 1 = 0; omega
    | ⟨1, _⟩ => show win4_2.index ⟨9, last4⟩ (1 : Fin 2) * 256 = 0; omega
  exact (Memref.read_access_unit_zero (Elt Ideal) main_v106_1 hz' (fun a => by rw [congrFun hz' a]; simp) _).symm

/-- REGION 4, FIRST OUTPUT: the array the region leaves is the column sums of the array it found in its input
    window. -/
theorem sum_region4 (c : Dev nD) :
    (dat4 (F := Ideal) V c).arrAt 1 cfg4.N = Cert.Gcn.colSum (V c (Pipeline.arrRef spec4 0)) :=
  (dat4 V c).arrAt_eq_of_cover 1 _ (flushed4_1_eq V c) covered4_1

/-- REGION 4, SECOND OUTPUT: the array the region leaves is the column sums of squares of the array it found in its
    input window. -/
theorem sumsq_region4 (c : Dev nD) :
    (dat4 (F := Ideal) V c).arrAt 2 cfg4.N = Cert.Gcn.colSumSq (V c (Pipeline.arrRef spec4 0)) :=
  (dat4 V c).arrAt_eq_of_cover 2 _ (flushed4_2_eq V c) covered4_2

end Sums

end Cert.KernelIdeal.RegionValue

end
-- ==== Proof.ReduceRegion7.lean ====
/-
  Region 7: the column sums and the column sums of squares of a [20000, 256] array, accumulated over its ten row
  blocks of 2000 rows.

  At the first grid point the two [1, 256] rows are set to zero; at every point t the body adds to the first row the
  column sums of row block t (rows 2000·t … 2000·t + 1999 of the array) and to the second row the column sums of the
  squares of that block. The two rows stay in place from one point to the next and are written back after the last
  point. So after point n the first row holds, at column j, the sum of the array's entries in column j over the rows
  below 2000·(n + 1), and the second row the sum of their squares — by induction on n. Addition on the extended reals is
  commutative and associative, so the ten partial sums regroup into the one sum over the 20000 rows with no
  finiteness needed. After the last point these are the column sums and the column sums of squares of the whole array.
-/
import proofs.«111193_j89515708383972_1_alg».proof.Proof.Gen.KernelIdeal.Frame
import proofs.«111193_j89515708383972_1_alg».proof.Proof.Spec
import proofs.«111193_j89515708383972_1_alg».proof.Proof.LibTileSum
import proofs.«111193_j89515708383972_1_alg».proof.Proof.LibLaneSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen Cert.TileSum Cert.LaneSum

/-! ## What each case of the body leaves in the two rows -/

section Pieces

variable {F : FTy → Type} [FloatOps F]

/-- Away from the first point the body leaves in the first row the row it found plus the column sums of the block. -/
theorem out7_B_1_eq (c : Dev nD) (i : grid7.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond7_0 i) (x : Vec F S2000x256 .f32) (xo1 xo2 : Vec F S1x256 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  sl_unfold_words
  rw [View.canon_unit_zero zero_offsets]
  simp only [View.readAt_eq_ld, h1.read_unread, h2.read_unread, View.ld_unit_zero (S := S2000x256) zero_offsets,
    View.ld_unit_zero (S := S1x256) zero_offsets]

/-- Away from the first point the body leaves in the second row the row it found plus the column sums of the block's
    squares. -/
theorem out7_B_2_eq (c : Dev nD) (i : grid7.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond7_0 i) (x : Vec F S2000x256 .f32) (xo1 xo2 : Vec F S1x256 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  sl_unfold_words
  rw [View.canon_unit_zero zero_offsets]
  simp only [View.readAt_eq_ld, h1.read_unread, h3.read_unread, View.ld_unit_zero (S := S2000x256) zero_offsets,
    View.ld_unit_zero (S := S1x256) zero_offsets]

/-- At the first point the body sets the first row to zero, reads it back and leaves zero plus the column sums of the
    block. -/
theorem out7_A_1_eq (c : Dev nD) (i : grid7.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond7_0 i) (x : Vec F S2000x256 .f32) :
    out7_A_1 c i a1 h1 a2 h2 a3 h3 hc x = k7_pay4 x (k7_pay1 (F := F)) := by
  unfold out7_A_1
  rw [View.read_writes_eq_canon _ _ _ (cover7_A_1 c i a1 h1 a2 h2 a3 h3 hc x)]
  unfold kernelRun7_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

/-- At the first point the body sets the second row to zero, reads it back and leaves zero plus the column sums of the
    block's squares. -/
theorem out7_A_2_eq (c : Dev nD) (i : grid7.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond7_0 i) (x : Vec F S2000x256 .f32) :
    out7_A_2 c i a1 h1 a2 h2 a3 h3 hc x = k7_pay5 x (k7_pay2 (F := F)) := by
  unfold out7_A_2
  rw [View.read_writes_eq_canon _ _ _ (cover7_A_2 c i a1 h1 a2 h2 a3 h3 hc x)]
  unfold kernelRun7_A
  dsimp only
  sl_unfold_words
  rw [View.canon_cons_unit_zero (S := S1x256) zero_offsets, View.readCov_unit_zero (S := S1x256) _ zero_offsets]
  simp only [View.readAt_eq_ld, h1.read_unread, View.ld_unit_zero (S := S2000x256) zero_offsets]

end Pieces

/-! ## The payloads at a column, on the extended reals -/

/-- The zero row the first point stores. -/
theorem k7_pay1_apply (i : S1x256.Idx) : k7_pay1 (F := Ideal) i = 0 := by
  unfold k7_pay1
  exact Ideal.ofBits_zero_f32

/-- The zero row the first point stores in the second output. -/
theorem k7_pay2_apply (i : S1x256.Idx) : k7_pay2 (F := Ideal) i = 0 := by
  unfold k7_pay2
  exact Ideal.ofBits_zero_f32

/-- The first row's update at column j: what it held plus the sum of the block's column j over its 2000 rows. -/
theorem k7_pay4_apply (x : Vec Ideal S2000x256 .f32) (acc : Vec Ideal S1x256 .f32) (u : Fin 1) (j : Fin 256) :
    k7_pay4 (F := Ideal) x acc (ix2 u j) = acc (ix2 u j) + ∑ r : Fin 2000, x (ix2 r j) := by
  unfold k7_pay4 k7_pay3
  dsimp only
  refine (addf_apply _ _ _).trans ?_
  rw [shapeCast_self, shapeCast_self]
  exact congrArg (acc (ix2 u j) + ·) (laneSum_apply x _ _ _ _ u j)

/-- The second row's update at column j: what it held plus the sum of the squares of the block's column j. -/
theorem k7_pay5_apply (x : Vec Ideal S2000x256 .f32) (acc : Vec Ideal S1x256 .f32) (u : Fin 1) (j : Fin 256) :
    k7_pay5 (F := Ideal) x acc (ix2 u j) = acc (ix2 u j) + ∑ r : Fin 2000, x (ix2 r j) * x (ix2 r j) := by
  unfold k7_pay5 k7_pay3
  dsimp only
  refine (addf_apply _ _ _).trans ?_
  rw [shapeCast_self, shapeCast_self]
  exact congrArg (acc (ix2 u j) + ·) (laneSum_apply (mulf x x) _ _ _ _ u j)

/-! ## The blocks of the input window -/

/-- The input window's block index at point t is (t, 0); -/
theorem idx7_0 : ∀ t : Fin cfg7.N, win7_0.index t (0 : Fin 2) = t.val ∧ win7_0.index t (1 : Fin 2) = 0 :=
  (by decide +kernel : ∀ t : Fin grid7.N, _)

/-- the two output windows' block index is (0, 0) at every point. -/
theorem idx7_1 : ∀ t : Fin cfg7.N, win7_1.index t (0 : Fin 2) = 0 ∧ win7_1.index t (1 : Fin 2) = 0 :=
  (by decide +kernel : ∀ t : Fin grid7.N, _)

theorem idx7_2 : ∀ t : Fin cfg7.N, win7_2.index t (0 : Fin 2) = 0 ∧ win7_2.index t (1 : Fin 2) = 0 :=
  (by decide +kernel : ∀ t : Fin grid7.N, _)

section Blocks

variable {F : FTy → Type} [FloatOps F]
variable (V : (c : Dev nD) → (b : Ref sig .tc) → Buf (Elt F) ((c : Thread nD τ).loc b))

/-- Entry (r, j) of row block t of the input array is the array's entry (2000·t + r, j). -/
theorem iblk7_apply (c : Dev nD) (t : Fin cfg7.N) (r : Fin 2000) (j : Fin 256) (h : t.val * 2000 + r.val < 20000) :
    (iblk7 V c 0 t : Vec F S2000x256 .f32) (ix2 r j)
      = (V c (Pipeline.arrRef spec7 0) : Vec F S20000x256 .f32) (ix2 ⟨t.val * 2000 + r.val, h⟩ j) := by
  obtain ⟨e0, e1⟩ := idx7_0 t
  unfold iblk7
  rw [View.read_apply]
  show V c (Pipeline.arrRef spec7 0) _ = V c (Pipeline.arrRef spec7 0) _
  refine congrArg (V c (Pipeline.arrRef spec7 0)) ?_
  funext a
  apply Fin.ext
  match a with
  | ⟨0, _⟩ => show win7_0.index t (0 : Fin 2) * 2000 + 1 * r.val = t.val * 2000 + r.val; rw [e0]; omega
  | ⟨1, _⟩ => show win7_0.index t (1 : Fin 2) * 256 + 1 * j.val = j.val; rw [e1]; omega

end Blocks

/-! ## The running sums -/

section Sums

variable (V : (c : Dev nD) → (b : Ref sig .tc) → Buf (Elt Ideal) ((c : Thread nD τ).loc b))

/-- Column j of the input array, as a function of the row. -/
abbrev col7 (c : Dev nD) (j : Fin 256) : Fin 20000 → EReal :=
  fun r => (V c (Pipeline.arrRef spec7 0) : Vec Ideal S20000x256 .f32) (ix2 r j)

/-- The squares of column j of the input array. -/
abbrev colSq7 (c : Dev nD) (j : Fin 256) : Fin 20000 → EReal :=
  fun r => col7 V c j r * col7 V c j r

/-- After point n the first row holds at column j the sum of column j over the rows below 2000·(n + 1), and the second
    row the sum of the squares: by induction on the point, the first point starting from zero. -/
theorem outsAt7_eq (c : Dev nD) : ∀ (n : ℕ) (hn : n < cfg7.N) (u : Fin 1) (j : Fin 256),
    (outsAt7 V c n hn).1 (ix2 u j) = ∑ i ∈ Finset.range ((n + 1) * 2000), extendZero 20000 (col7 V c j) i
    ∧ (outsAt7 V c n hn).2 (ix2 u j) = ∑ i ∈ Finset.range ((n + 1) * 2000), extendZero 20000 (colSq7 V c j) i
  | 0, hn, u, j => by
    rw [outsAt7_A V c ⟨0, hn⟩ rfl]
    dsimp only
    rw [out7_A_1_eq, out7_A_2_eq, k7_pay4_apply, k7_pay5_apply, k7_pay1_apply, k7_pay2_apply]
    constructor
    · exact tile_first (col7 V c j) (by omega) _ fun r => iblk7_apply V c ⟨0, hn⟩ r j _
    · exact tile_first (colSq7 V c j) (by omega) _ fun r => by
        rw [iblk7_apply V c ⟨0, hn⟩ r j (by have := r.isLt; show 0 * 2000 + r.val < 20000; omega)]
  | n + 1, hn, u, j => by
    have hN : n + 1 < 10 := lt_of_lt_of_eq hn (show cfg7.N = 10 from N_7)
    have hB : ¬(⟨n + 1, hn⟩ : Fin cfg7.N).val % 10 = 0 := by dsimp only; omega
    obtain ⟨ih1, ih2⟩ := outsAt7_eq c n (Nat.lt_of_succ_lt hn) u j
    rw [outsAt7_B V c ⟨n + 1, hn⟩ hB]
    dsimp only
    rw [out7_B_1_eq, out7_B_2_eq, k7_pay4_apply, k7_pay5_apply]
    constructor
    · exact tile_step (col7 V c j) (n + 1) (by omega) _ (fun r => iblk7_apply V c ⟨n + 1, hn⟩ r j _) _ ih1
    · exact tile_step (colSq7 V c j) (n + 1) (by omega) _ (fun r => by
        rw [iblk7_apply V c ⟨n + 1, hn⟩ r j (by have := r.isLt; show (n + 1) * 2000 + r.val < 20000; omega)]) _ ih2

/-- The last point of the grid. -/
theorem last7 : (9 : ℕ) < cfg7.N := by rw [show cfg7.N = 10 from N_7]; decide

/-- After the last point the first row is the column sums of the whole array, -/
theorem outsAt7_last_1 (c : Dev nD) :
    (outsAt7 V c 9 last7).1 = Cert.Gcn.colSum (V c (Pipeline.arrRef spec7 0)) := by
  funext i
  obtain ⟨u, j, rfl⟩ : ∃ (u : Fin 1) (j : Fin 256), i = ix2 u j := ⟨i 0, i 1, eq_ix2 i⟩
  rw [(outsAt7_eq V c 9 last7 u j).1]
  exact (sum_fin_eq_sum_range 20000 (col7 V c j)).symm

/-- and the second row the column sums of its squares. -/
theorem outsAt7_last_2 (c : Dev nD) :
    (outsAt7 V c 9 last7).2 = Cert.Gcn.colSumSq (V c (Pipeline.arrRef spec7 0)) := by
  funext i
  obtain ⟨u, j, rfl⟩ : ∃ (u : Fin 1) (j : Fin 256), i = ix2 u j := ⟨i 0, i 1, eq_ix2 i⟩
  rw [(outsAt7_eq V c 9 last7 u j).2]
  exact (sum_fin_eq_sum_range 20000 (colSq7 V c j)).symm

/-! ## The write-back after the last point, and the final arrays -/

/-- An index of a [1, 256] row is in point t's block of the first output window iff each coordinate is in the
    block's range on its axis. -/
theorem mem_blk7_1 (t : Fin cfg7.N) (i : S1x256.Idx) :
    i ∈ ((cfg7.win 1).blk t).view.set ↔ ∀ a : Fin 2, win7_1.index t a * S1x256.size a ≤ (i a).val ∧ (i a).val < win7_1.index t a * S1x256.size a + S1x256.size a := by
  show i ∈ ((View.whole main_v160_0).slice (win7_1.rect t)).set ↔ _
  rw [View.set_slice_whole, Rect.mem_set_unit]
  exact Iff.rfl

theorem mem_blk7_2 (t : Fin cfg7.N) (i : S1x256.Idx) :
    i ∈ ((cfg7.win 2).blk t).view.set ↔ ∀ a : Fin 2, win7_2.index t a * S1x256.size a ≤ (i a).val ∧ (i a).val < win7_2.index t a * S1x256.size a + S1x256.size a := by
  show i ∈ ((View.whole main_v160_1).slice (win7_2.rect t)).set ↔ _
  rw [View.set_slice_whole, Rect.mem_set_unit]
  exact Iff.rfl

/-- The last point's block of the first output window is the whole row. -/
theorem covered7_1 (i : S1x256.Idx) : ∃ t : Fin cfg7.N, (cfg7.win 1).flush t = true ∧ i ∈ ((cfg7.win 1).blk t).view.set := by
  refine ⟨⟨9, last7⟩, (flush7_1 _).mpr rfl, ?_⟩
  rw [mem_blk7_1]
  obtain ⟨e0, e1⟩ := idx7_1 ⟨9, last7⟩
  intro a
  match a with
  | ⟨0, _⟩ => show win7_1.index ⟨9, last7⟩ (0 : Fin 2) * 1 ≤ (i 0).val ∧ (i 0).val < win7_1.index ⟨9, last7⟩ (0 : Fin 2) * 1 + 1; have := idx2_lt0 i; omega
  | ⟨1, _⟩ => show win7_1.index ⟨9, last7⟩ (1 : Fin 2) * 256 ≤ (i 1).val ∧ (i 1).val < win7_1.index ⟨9, last7⟩ (1 : Fin 2) * 256 + 256; have := idx2_lt1 i; omega

/-- The last point's block of the second output window is the whole row. -/
theorem covered7_2 (i : S1x256.Idx) : ∃ t : Fin cfg7.N, (cfg7.win 2).flush t = true ∧ i ∈ ((cfg7.win 2).blk t).view.set := by
  refine ⟨⟨9, last7⟩, (flush7_2 _).mpr rfl, ?_⟩
  rw [mem_blk7_2]
  obtain ⟨e0, e1⟩ := idx7_2 ⟨9, last7⟩
  intro a
  match a with
  | ⟨0, _⟩ => show win7_2.index ⟨9, last7⟩ (0 : Fin 2) * 1 ≤ (i 0).val ∧ (i 0).val < win7_2.index ⟨9, last7⟩ (0 : Fin 2) * 1 + 1; have := idx2_lt0 i; omega
  | ⟨1, _⟩ => show win7_2.index ⟨9, last7⟩ (1 : Fin 2) * 256 ≤ (i 1).val ∧ (i 1).val < win7_2.index ⟨9, last7⟩ (1 : Fin 2) * 256 + 256; have := idx2_lt1 i; omega

/-- The one write-back of the first row, after the last point, writes the column sums: the block at index (0, 0) of
    a [1, 256] array is the array. -/
theorem flushed7_1_eq (c : Dev nD) (t : Fin cfg7.N) (hf : (cfg7.win 1).flush t = true) :
    (dat7 V c).flushed 1 t
      = ((cfg7.win 1).blk t).view.read (Elt Ideal) (Cert.Gcn.colSum (V c (Pipeline.arrRef spec7 0))) := by
  have hN : cfg7.N = 10 := N_7
  have h9 : t.val = 9 := by have := (flush7_1 t).mp hf; have := t.isLt; omega
  obtain rfl : t = ⟨9, last7⟩ := Fin.ext h9
  show (cfg7.win 1).cut (grid7.coords ⟨9, last7⟩) ((dat7 V c).after 1 ⟨9, last7⟩) = _
  rw [after7_1]
  dsimp only
  rw [outsAt7_last_1]
  obtain ⟨e0, e1⟩ := idx7_1 ⟨9, last7⟩
  have hz' : (fun a => win7_1.index ⟨9, last7⟩ a * main_v160_0.ty.shape.size a) = fun _ => 0 := funext fun a => by
    match a with
    | ⟨0, _⟩ => show win7_1.index ⟨9, last7⟩ (0 : Fin 2) * 1 = 0; omega
    | ⟨1, _⟩ => show win7_1.index ⟨9, last7⟩ (1 : Fin 2) * 256 = 0; omega
  exact (Memref.read_access_unit_zero (Elt Ideal) main_v160_0 hz' (fun a => by rw [congrFun hz' a]; simp) _).symm

/-- The one write-back of the second row writes the column sums of squares. -/
theorem flushed7_2_eq (c : Dev nD) (t : Fin cfg7.N) (hf : (cfg7.win 2).flush t = true) :
    (dat7 V c).flushed 2 t
      = ((cfg7.win 2).blk t).view.read (Elt Ideal) (Cert.Gcn.colSumSq (V c (Pipeline.arrRef spec7 0))) := by
  have hN : cfg7.N = 10 := N_7
  have h9 : t.val = 9 := by have := (flush7_2 t).mp hf; have := t.isLt; omega
  obtain rfl : t = ⟨9, last7⟩ := Fin.ext h9
  show (cfg7.win 2).cut (grid7.coords ⟨9, last7⟩) ((dat7 V c).after 2 ⟨9, last7⟩) = _
  rw [after7_2]
  dsimp only
  rw [outsAt7_last_2]
  obtain ⟨e0, e1⟩ := idx7_2 ⟨9, last7⟩
  have hz' : (fun a => win7_2.index ⟨9, last7⟩ a * main_v160_1.ty.shape.size a) = fun _ => 0 := funext fun a => by
    match a with
    | ⟨0, _⟩ => show win7_2.index ⟨9, last7⟩ (0 : Fin 2) * 1 = 0; omega
    | ⟨1, _⟩ => show win7_2.index ⟨9, last7⟩ (1 : Fin 2) * 256 = 0; omega
  exact (Memref.read_access_unit_zero (Elt Ideal) main_v160_1 hz' (fun a => by rw [congrFun hz' a]; simp) _).symm

/-- REGION 7, FIRST OUTPUT: the array the region leaves is the column sums of the array it found in its input
    window. -/
theorem sum_region7 (c : Dev nD) :
    (dat7 (F := Ideal) V c).arrAt 1 cfg7.N = Cert.Gcn.colSum (V c (Pipeline.arrRef spec7 0)) :=
  (dat7 V c).arrAt_eq_of_cover 1 _ (flushed7_1_eq V c) covered7_1

/-- REGION 7, SECOND OUTPUT: the array the region leaves is the column sums of squares of the array it found in its
    input window. -/
theorem sumsq_region7 (c : Dev nD) :
    (dat7 (F := Ideal) V c).arrAt 2 cfg7.N = Cert.Gcn.colSumSq (V c (Pipeline.arrRef spec7 0)) :=
  (dat7 V c).arrAt_eq_of_cover 2 _ (flushed7_2_eq V c) covered7_2

end Sums

end Cert.KernelIdeal.RegionValue

end
-- ==== Proof.NormRegion2.lean ====
/-
  The normalising region of one layer, as one function of the arrays the region finds.

  The region walks the [20000, 256] array of aggregated features in 10 blocks of 2000 rows. At the block of
  rows 2000·t … 2000·t + 1999 its body computes, entry by entry,
      max(((h − mean) · rsqrt(var + eps)) · gamma + beta, 0)
  where mean, var, gamma and beta are [1, 256] rows read whole at every block and spread over the 2000 rows.
  An entry (r, q) of the result therefore depends on entry (r, q) of the features and on column q of the four
  rows only: the block written at point t is the restriction of `Cert.Gcn.bnRelu` of the whole arrays to its
  rows, the ten blocks cover the array, and so the array the region leaves is `bnRelu` of the arrays it found.

  Order of the file: the body's value at an entry (`norm2_pay_apply`, `norm2_point`); the block indices of the
  six windows at every grid point (`norm2_idx`); each input block as entries of its array (`norm2_blk_feat`,
  `norm2_blk_row`); what a point writes back (`norm2_flushed`); which entries a point's block holds
  (`norm2_mem_blk`) and that every entry is in some block (`norm2_cover`); the array after the region
  (`norm_region2`).
-/
import proofs.«111193_j89515708383972_1_alg».proof.Proof.Gen.KernelIdeal.Frame
import proofs.«111193_j89515708383972_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-! ## The body at one entry -/

/-- The zero offsets of an access to a whole block, as a constant function. -/
theorem norm2_hz : (![0, 0] : Fin 2 → Nat) = fun _ => 0 :=
  funext fun a => by match a with | ⟨0, _⟩ => rfl | ⟨1, _⟩ => rfl

/-- The body's value at row `p`, column `q` of a block: the feature entry there, centred by the mean's column `q`,
    scaled by the reciprocal root of the variance's column `q` plus the stabiliser, then by gamma's column `q`,
    shifted by beta's column `q`, and clamped below at zero. The identity re-shapings drop out, each row spread
    over the block reads its column `q`, and the zero word is the number zero. -/
theorem norm2_pay_apply (var mean gamma beta : FVec Ideal S1x256 .f32) (h : FVec Ideal S2000x256 .f32)
    (p : Fin 2000) (q : Fin 256) :
    k2_pay1 (F := Ideal) var h mean gamma beta (ix2 p q)
      = max ((((h (ix2 p q) - mean (ix2 0 q)) * Ideal.rsqrt (var (ix2 0 q) + Cert.Gcn.eps)) * gamma (ix2 0 q))
          + beta (ix2 0 q)) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

/-- The same with the blocks' entries named as entries of whole arrays: if the feature block's entry (p, q) is the
    array's entry (r, q) and each row block's column `q` is its array's column `q`, the body's value at (p, q) is
    `bnRelu` of the arrays at (r, q). -/
theorem norm2_point (A : (⟨2, ![20000, 256]⟩ : Shape).Idx → EReal) (M W Γ B : (⟨2, ![1, 256]⟩ : Shape).Idx → EReal)
    (var mean gamma beta : FVec Ideal S1x256 .f32) (h : FVec Ideal S2000x256 .f32)
    (p : Fin 2000) (q : Fin 256) (r : Fin 20000)
    (hh : h (ix2 p q) = A (ix2 r q)) (hm : mean (ix2 0 q) = M (ix2 0 q)) (hv : var (ix2 0 q) = W (ix2 0 q))
    (hg : gamma (ix2 0 q) = Γ (ix2 0 q)) (hb : beta (ix2 0 q) = B (ix2 0 q)) :
    k2_pay1 (F := Ideal) var h mean gamma beta (ix2 p q) = Cert.Gcn.bnRelu A M W Γ B (ix2 r q) := by
  rw [norm2_pay_apply, hh, hm, hv, hg, hb]
  rfl

/-! ## The windows' blocks -/

variable (V : (c : Dev nD) → (b : Ref sig .tc) → Buf (Elt Ideal) ((c : Thread nD τ).loc b))

/-- The block indices at every grid point, decided over the ten points: the feature window and the output window
    are at block (t, 0); the four row windows stay at block (0, 0). -/
theorem norm2_idx : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The feature window's block at point `t` is rows 2000·t … 2000·t + 1999 of its array: its entry `x` is the
    array's entry `k` whenever `k` is row 2000·t + x₀, column x₁. -/
theorem norm2_blk_feat (c : Dev nD) (t : Fin cfg2.N) (x : S2000x256.Idx) (k : S20000x256.Idx)
    (hk0 : (k 0).val = 2000 * t.val + (x 0).val) (hk1 : (k 1).val = (x 1).val) :
    (iblk2 V c 0 t : Vec Ideal S2000x256 .f32) x
      = (V c (Pipeline.arrRef spec2 0) : S20000x256.Idx → EReal) k := by
  obtain ⟨e0, e1, -⟩ := norm2_idx t
  unfold iblk2
  rw [View.read_apply]
  show (V c (Pipeline.arrRef spec2 0) : S20000x256.Idx → EReal) _ = _
  refine congrArg (V c (Pipeline.arrRef spec2 0) : S20000x256.Idx → EReal) (funext fun a => Fin.ext ?_)
  match a with
  | ⟨0, _⟩ => show win2_0.index t 0 * 2000 + 1 * (x 0).val = (k 0).val; rw [e0, hk0]; omega
  | ⟨1, _⟩ => show win2_0.index t 1 * 256 + 1 * (x 1).val = (k 1).val; rw [e1, hk1]; omega

/-- Row window 1's block at every point is its whole [1, 256] array. -/
theorem norm2_blk_row1 (c : Dev nD) (t : Fin cfg2.N) (x : S1x256.Idx) :
    (iblk2 V c 1 t : Vec Ideal S1x256 .f32) x = (V c (Pipeline.arrRef spec2 1) : S1x256.Idx → EReal) x := by
  obtain ⟨-, -, -, -, e0, e1, -⟩ := norm2_idx t
  unfold iblk2
  rw [View.read_apply]
  show (V c (Pipeline.arrRef spec2 1) : S1x256.Idx → EReal) _ = _
  refine congrArg (V c (Pipeline.arrRef spec2 1) : S1x256.Idx → EReal) (funext fun a => Fin.ext ?_)
  match a with
  | ⟨0, _⟩ => show win2_1.index t 0 * 1 + 1 * (x 0).val = (x 0).val; rw [e0]; omega
  | ⟨1, _⟩ => show win2_1.index t 1 * 256 + 1 * (x 1).val = (x 1).val; rw [e1]; omega

/-- Row window 2's block at every point is its whole [1, 256] array. -/
theorem norm2_blk_row2 (c : Dev nD) (t : Fin cfg2.N) (x : S1x256.Idx) :
    (iblk2 V c 2 t : Vec Ideal S1x256 .f32) x = (V c (Pipeline.arrRef spec2 2) : S1x256.Idx → EReal) x := by
  obtain ⟨-, -, -, -, -, -, e0, e1, -⟩ := norm2_idx t
  unfold iblk2
  rw [View.read_apply]
  show (V c (Pipeline.arrRef spec2 2) : S1x256.Idx → EReal) _ = _
  refine congrArg (V c (Pipeline.arrRef spec2 2) : S1x256.Idx → EReal) (funext fun a => Fin.ext ?_)
  match a with
  | ⟨0, _⟩ => show win2_2.index t 0 * 1 + 1 * (x 0).val = (x 0).val; rw [e0]; omega
  | ⟨1, _⟩ => show win2_2.index t 1 * 256 + 1 * (x 1).val = (x 1).val; rw [e1]; omega

/-- Row window 3's block at every point is its whole [1, 256] array. -/
theorem norm2_blk_row3 (c : Dev nD) (t : Fin cfg2.N) (x : S1x256.Idx) :
    (iblk2 V c 3 t : Vec Ideal S1x256 .f32) x = (V c (Pipeline.arrRef spec2 3) : S1x256.Idx → EReal) x := by
  obtain ⟨-, -, -, -, -, -, -, -, e0, e1, -⟩ := norm2_idx t
  unfold iblk2
  rw [View.read_apply]
  show (V c (Pipeline.arrRef spec2 3) : S1x256.Idx → EReal) _ = _
  refine congrArg (V c (Pipeline.arrRef spec2 3) : S1x256.Idx → EReal) (funext fun a => Fin.ext ?_)
  match a with
  | ⟨0, _⟩ => show win2_3.index t 0 * 1 + 1 * (x 0).val = (x 0).val; rw [e0]; omega
  | ⟨1, _⟩ => show win2_3.index t 1 * 256 + 1 * (x 1).val = (x 1).val; rw [e1]; omega

/-- Row window 4's block at every point is its whole [1, 256] array. -/
theorem norm2_blk_row4 (c : Dev nD) (t : Fin cfg2.N) (x : S1x256.Idx) :
    (iblk2 V c 4 t : Vec Ideal S1x256 .f32) x = (V c (Pipeline.arrRef spec2 4) : S1x256.Idx → EReal) x := by
  obtain ⟨-, -, -, -, -, -, -, -, -, -, e0, e1⟩ := norm2_idx t
  unfold iblk2
  rw [View.read_apply]
  show (V c (Pipeline.arrRef spec2 4) : S1x256.Idx → EReal) _ = _
  refine congrArg (V c (Pipeline.arrRef spec2 4) : S1x256.Idx → EReal) (funext fun a => Fin.ext ?_)
  match a with
  | ⟨0, _⟩ => show win2_4.index t 0 * 1 + 1 * (x 0).val = (x 0).val; rw [e0]; omega
  | ⟨1, _⟩ => show win2_4.index t 1 * 256 + 1 * (x 1).val = (x 1).val; rw [e1]; omega

/-! ## What a point writes back -/

/-- WHAT POINT `t` WRITES BACK is block `t` of `bnRelu` of the arrays the region finds: the block's entry (p, q) is
    the body's value at (p, q) of the input blocks, the feature block's (p, q) is the array's (2000·t + p, q), the
    row blocks are the rows, and the output block's (p, q) sits at (2000·t + p, q) of the output array. -/
theorem norm2_flushed (c : Dev nD) (t : Fin cfg2.N) :
    (dat2 V c).flushed 5 t = ((cfg2.win 5).blk t).view.read (Elt Ideal)
      (Cert.Gcn.bnRelu (V c (Pipeline.arrRef spec2 0)) (V c (Pipeline.arrRef spec2 1)) (V c (Pipeline.arrRef spec2 2))
        (V c (Pipeline.arrRef spec2 3)) (V c (Pipeline.arrRef spec2 4))) := by
  refine (congrArg ((cfg2.win 5).cut (grid2.coords t)) (after2_5 V c t)).trans ?_
  unfold out2_5
  rw [View.canon_unit_zero norm2_hz]
  simp only [View.ld_unit_zero (S := S2000x256) norm2_hz, View.ld_unit_zero (S := S1x256) norm2_hz]
  funext j
  have hp : (j 0).val < 2000 := (j 0).isLt
  have hq : (j 1).val < 256 := (j 1).isLt
  have hN : cfg2.N = 10 := N_2
  have ht : t.val < cfg2.N := t.isLt
  obtain ⟨-, -, e0, e1, -⟩ := norm2_idx t
  have hx : (cfg2.win 5).xinj (grid2.coords t) j = ix2 (⟨(j 0).val, hp⟩ : Fin 2000) (⟨(j 1).val, hq⟩ : Fin 256) :=
    funext fun a => by match a with | ⟨0, _⟩ => rfl | ⟨1, _⟩ => rfl
  have he : ((cfg2.win 5).blk t).view.emb j
      = ix2 (⟨2000 * t.val + (j 0).val, by omega⟩ : Fin 20000) (⟨(j 1).val, hq⟩ : Fin 256) :=
    funext fun a => Fin.ext (by
      match a with
      | ⟨0, _⟩ => show win2_5.index t 0 * 2000 + 1 * (j 0).val = 2000 * t.val + (j 0).val; rw [e0]; omega
      | ⟨1, _⟩ => show win2_5.index t 1 * 256 + 1 * (j 1).val = (j 1).val; rw [e1]; omega)
  show k2_pay1 (iblk2 V c 2 t) (iblk2 V c 0 t) (iblk2 V c 1 t) (iblk2 V c 3 t) (iblk2 V c 4 t)
        ((cfg2.win 5).xinj (grid2.coords t) j)
      = Cert.Gcn.bnRelu _ _ _ _ _ (((cfg2.win 5).blk t).view.emb j)
  rw [hx, he]
  exact norm2_point _ _ _ _ _ (iblk2 V c 2 t) (iblk2 V c 1 t) (iblk2 V c 3 t) (iblk2 V c 4 t) (iblk2 V c 0 t) _ _ _
    (norm2_blk_feat V c t _ _ rfl rfl) (norm2_blk_row1 V c t _) (norm2_blk_row2 V c t _)
    (norm2_blk_row3 V c t _) (norm2_blk_row4 V c t _)

/-! ## The blocks cover the array -/

/-- An entry of the output array is in point `t`'s block iff each coordinate is in the block's range on its axis. -/
theorem norm2_mem_blk (t : Fin cfg2.N) (i : S20000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v65).slice (win2_5.rect t)).set ↔ _
  rw [View.set_slice_whole, Rect.mem_set_unit]
  exact Iff.rfl

/-- Every entry (r, q) of the output array is in the block of the point r / 2000, and every point writes back. -/
theorem norm2_cover (i : S20000x256.Idx) :
    ∃ t : Fin cfg2.N, (cfg2.win 5).flush t = true ∧ i ∈ ((cfg2.win 5).blk t).view.set := by
  have hN : cfg2.N = 10 := N_2
  have hi0 : (i 0).val < 20000 := (i 0).isLt
  have hi1 : (i 1).val < 256 := (i 1).isLt
  have htlt : (i 0).val / 2000 < cfg2.N := by omega
  obtain ⟨-, -, e0, e1, -⟩ := norm2_idx ⟨(i 0).val / 2000, htlt⟩
  have e0' : win2_5.index ⟨(i 0).val / 2000, htlt⟩ 0 = (i 0).val / 2000 := e0
  refine ⟨⟨(i 0).val / 2000, htlt⟩, flush2_5 _, ?_⟩
  rw [norm2_mem_blk]
  intro a
  match a with
  | ⟨0, _⟩ =>
    show win2_5.index ⟨(i 0).val / 2000, htlt⟩ 0 * 2000 ≤ (i 0).val
      ∧ (i 0).val < win2_5.index ⟨(i 0).val / 2000, htlt⟩ 0 * 2000 + 2000
    rw [e0']; omega
  | ⟨1, _⟩ =>
    show win2_5.index ⟨(i 0).val / 2000, htlt⟩ 1 * 256 ≤ (i 1).val
      ∧ (i 1).val < win2_5.index ⟨(i 0).val / 2000, htlt⟩ 1 * 256 + 256
    rw [e1]; omega

/-! ## The array after the region -/

/-- THE ARRAY THE REGION LEAVES in its output window is `bnRelu` of the arrays it found in its five input windows
    (features, mean, variance, gamma, beta), whatever those arrays are. -/
theorem norm_region2 (c : Dev nD) :
    (dat2 (F := Ideal) V c).arrAt 5 cfg2.N
      = Cert.Gcn.bnRelu (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => norm2_flushed V c t) norm2_cover

end Cert.KernelIdeal.RegionValue

end
-- ==== Proof.NormRegion5.lean ====
/-
  The normalising region of one layer, as one function of the arrays the region finds.

  The region walks the [20000, 256] array of aggregated features in 10 blocks of 2000 rows. At the block of
  rows 2000·t … 2000·t + 1999 its body computes, entry by entry,
      max(((h − mean) · rsqrt(var + eps)) · gamma + beta, 0)
  where mean, var, gamma and beta are [1, 256] rows read whole at every block and spread over the 2000 rows.
  An entry (r, q) of the result therefore depends on entry (r, q) of the features and on column q of the four
  rows only: the block written at point t is the restriction of `Cert.Gcn.bnRelu` of the whole arrays to its
  rows, the ten blocks cover the array, and so the array the region leaves is `bnRelu` of the arrays it found.

  Order of the file: the body's value at an entry (`norm5_pay_apply`, `norm5_point`); the block indices of the
  six windows at every grid point (`norm5_idx`); each input block as entries of its array (`norm5_blk_feat`,
  `norm5_blk_row`); what a point writes back (`norm5_flushed`); which entries a point's block holds
  (`norm5_mem_blk`) and that every entry is in some block (`norm5_cover`); the array after the region
  (`norm_region5`).
-/
import proofs.«111193_j89515708383972_1_alg».proof.Proof.Gen.KernelIdeal.Frame
import proofs.«111193_j89515708383972_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-! ## The body at one entry -/

/-- The zero offsets of an access to a whole block, as a constant function. -/
theorem norm5_hz : (![0, 0] : Fin 2 → Nat) = fun _ => 0 :=
  funext fun a => by match a with | ⟨0, _⟩ => rfl | ⟨1, _⟩ => rfl

/-- The body's value at row `p`, column `q` of a block: the feature entry there, centred by the mean's column `q`,
    scaled by the reciprocal root of the variance's column `q` plus the stabiliser, then by gamma's column `q`,
    shifted by beta's column `q`, and clamped below at zero. The identity re-shapings drop out, each row spread
    over the block reads its column `q`, and the zero word is the number zero. -/
theorem norm5_pay_apply (var mean gamma beta : FVec Ideal S1x256 .f32) (h : FVec Ideal S2000x256 .f32)
    (p : Fin 2000) (q : Fin 256) :
    k5_pay1 (F := Ideal) var h mean gamma beta (ix2 p q)
      = max ((((h (ix2 p q) - mean (ix2 0 q)) * Ideal.rsqrt (var (ix2 0 q) + Cert.Gcn.eps)) * gamma (ix2 0 q))
          + beta (ix2 0 q)) 0 := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

/-- The same with the blocks' entries named as entries of whole arrays: if the feature block's entry (p, q) is the
    array's entry (r, q) and each row block's column `q` is its array's column `q`, the body's value at (p, q) is
    `bnRelu` of the arrays at (r, q). -/
theorem norm5_point (A : (⟨2, ![20000, 256]⟩ : Shape).Idx → EReal) (M W Γ B : (⟨2, ![1, 256]⟩ : Shape).Idx → EReal)
    (var mean gamma beta : FVec Ideal S1x256 .f32) (h : FVec Ideal S2000x256 .f32)
    (p : Fin 2000) (q : Fin 256) (r : Fin 20000)
    (hh : h (ix2 p q) = A (ix2 r q)) (hm : mean (ix2 0 q) = M (ix2 0 q)) (hv : var (ix2 0 q) = W (ix2 0 q))
    (hg : gamma (ix2 0 q) = Γ (ix2 0 q)) (hb : beta (ix2 0 q) = B (ix2 0 q)) :
    k5_pay1 (F := Ideal) var h mean gamma beta (ix2 p q) = Cert.Gcn.bnRelu A M W Γ B (ix2 r q) := by
  rw [norm5_pay_apply, hh, hm, hv, hg, hb]
  rfl

/-! ## The windows' blocks -/

variable (V : (c : Dev nD) → (b : Ref sig .tc) → Buf (Elt Ideal) ((c : Thread nD τ).loc b))

/-- The block indices at every grid point, decided over the ten points: the feature window and the output window
    are at block (t, 0); the four row windows stay at block (0, 0). -/
theorem norm5_idx : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The feature window's block at point `t` is rows 2000·t … 2000·t + 1999 of its array: its entry `x` is the
    array's entry `k` whenever `k` is row 2000·t + x₀, column x₁. -/
theorem norm5_blk_feat (c : Dev nD) (t : Fin cfg5.N) (x : S2000x256.Idx) (k : S20000x256.Idx)
    (hk0 : (k 0).val = 2000 * t.val + (x 0).val) (hk1 : (k 1).val = (x 1).val) :
    (iblk5 V c 0 t : Vec Ideal S2000x256 .f32) x
      = (V c (Pipeline.arrRef spec5 0) : S20000x256.Idx → EReal) k := by
  obtain ⟨e0, e1, -⟩ := norm5_idx t
  unfold iblk5
  rw [View.read_apply]
  show (V c (Pipeline.arrRef spec5 0) : S20000x256.Idx → EReal) _ = _
  refine congrArg (V c (Pipeline.arrRef spec5 0) : S20000x256.Idx → EReal) (funext fun a => Fin.ext ?_)
  match a with
  | ⟨0, _⟩ => show win5_0.index t 0 * 2000 + 1 * (x 0).val = (k 0).val; rw [e0, hk0]; omega
  | ⟨1, _⟩ => show win5_0.index t 1 * 256 + 1 * (x 1).val = (k 1).val; rw [e1, hk1]; omega

/-- Row window 1's block at every point is its whole [1, 256] array. -/
theorem norm5_blk_row1 (c : Dev nD) (t : Fin cfg5.N) (x : S1x256.Idx) :
    (iblk5 V c 1 t : Vec Ideal S1x256 .f32) x = (V c (Pipeline.arrRef spec5 1) : S1x256.Idx → EReal) x := by
  obtain ⟨-, -, -, -, e0, e1, -⟩ := norm5_idx t
  unfold iblk5
  rw [View.read_apply]
  show (V c (Pipeline.arrRef spec5 1) : S1x256.Idx → EReal) _ = _
  refine congrArg (V c (Pipeline.arrRef spec5 1) : S1x256.Idx → EReal) (funext fun a => Fin.ext ?_)
  match a with
  | ⟨0, _⟩ => show win5_1.index t 0 * 1 + 1 * (x 0).val = (x 0).val; rw [e0]; omega
  | ⟨1, _⟩ => show win5_1.index t 1 * 256 + 1 * (x 1).val = (x 1).val; rw [e1]; omega

/-- Row window 2's block at every point is its whole [1, 256] array. -/
theorem norm5_blk_row2 (c : Dev nD) (t : Fin cfg5.N) (x : S1x256.Idx) :
    (iblk5 V c 2 t : Vec Ideal S1x256 .f32) x = (V c (Pipeline.arrRef spec5 2) : S1x256.Idx → EReal) x := by
  obtain ⟨-, -, -, -, -, -, e0, e1, -⟩ := norm5_idx t
  unfold iblk5
  rw [View.read_apply]
  show (V c (Pipeline.arrRef spec5 2) : S1x256.Idx → EReal) _ = _
  refine congrArg (V c (Pipeline.arrRef spec5 2) : S1x256.Idx → EReal) (funext fun a => Fin.ext ?_)
  match a with
  | ⟨0, _⟩ => show win5_2.index t 0 * 1 + 1 * (x 0).val = (x 0).val; rw [e0]; omega
  | ⟨1, _⟩ => show win5_2.index t 1 * 256 + 1 * (x 1).val = (x 1).val; rw [e1]; omega

/-- Row window 3's block at every point is its whole [1, 256] array. -/
theorem norm5_blk_row3 (c : Dev nD) (t : Fin cfg5.N) (x : S1x256.Idx) :
    (iblk5 V c 3 t : Vec Ideal S1x256 .f32) x = (V c (Pipeline.arrRef spec5 3) : S1x256.Idx → EReal) x := by
  obtain ⟨-, -, -, -, -, -, -, -, e0, e1, -⟩ := norm5_idx t
  unfold iblk5
  rw [View.read_apply]
  show (V c (Pipeline.arrRef spec5 3) : S1x256.Idx → EReal) _ = _
  refine congrArg (V c (Pipeline.arrRef spec5 3) : S1x256.Idx → EReal) (funext fun a => Fin.ext ?_)
  match a with
  | ⟨0, _⟩ => show win5_3.index t 0 * 1 + 1 * (x 0).val = (x 0).val; rw [e0]; omega
  | ⟨1, _⟩ => show win5_3.index t 1 * 256 + 1 * (x 1).val = (x 1).val; rw [e1]; omega

/-- Row window 4's block at every point is its whole [1, 256] array. -/
theorem norm5_blk_row4 (c : Dev nD) (t : Fin cfg5.N) (x : S1x256.Idx) :
    (iblk5 V c 4 t : Vec Ideal S1x256 .f32) x = (V c (Pipeline.arrRef spec5 4) : S1x256.Idx → EReal) x := by
  obtain ⟨-, -, -, -, -, -, -, -, -, -, e0, e1⟩ := norm5_idx t
  unfold iblk5
  rw [View.read_apply]
  show (V c (Pipeline.arrRef spec5 4) : S1x256.Idx → EReal) _ = _
  refine congrArg (V c (Pipeline.arrRef spec5 4) : S1x256.Idx → EReal) (funext fun a => Fin.ext ?_)
  match a with
  | ⟨0, _⟩ => show win5_4.index t 0 * 1 + 1 * (x 0).val = (x 0).val; rw [e0]; omega
  | ⟨1, _⟩ => show win5_4.index t 1 * 256 + 1 * (x 1).val = (x 1).val; rw [e1]; omega

/-! ## What a point writes back -/

/-- WHAT POINT `t` WRITES BACK is block `t` of `bnRelu` of the arrays the region finds: the block's entry (p, q) is
    the body's value at (p, q) of the input blocks, the feature block's (p, q) is the array's (2000·t + p, q), the
    row blocks are the rows, and the output block's (p, q) sits at (2000·t + p, q) of the output array. -/
theorem norm5_flushed (c : Dev nD) (t : Fin cfg5.N) :
    (dat5 V c).flushed 5 t = ((cfg5.win 5).blk t).view.read (Elt Ideal)
      (Cert.Gcn.bnRelu (V c (Pipeline.arrRef spec5 0)) (V c (Pipeline.arrRef spec5 1)) (V c (Pipeline.arrRef spec5 2))
        (V c (Pipeline.arrRef spec5 3)) (V c (Pipeline.arrRef spec5 4))) := by
  refine (congrArg ((cfg5.win 5).cut (grid5.coords t)) (after5_5 V c t)).trans ?_
  unfold out5_5
  rw [View.canon_unit_zero norm5_hz]
  simp only [View.ld_unit_zero (S := S2000x256) norm5_hz, View.ld_unit_zero (S := S1x256) norm5_hz]
  funext j
  have hp : (j 0).val < 2000 := (j 0).isLt
  have hq : (j 1).val < 256 := (j 1).isLt
  have hN : cfg5.N = 10 := N_5
  have ht : t.val < cfg5.N := t.isLt
  obtain ⟨-, -, e0, e1, -⟩ := norm5_idx t
  have hx : (cfg5.win 5).xinj (grid5.coords t) j = ix2 (⟨(j 0).val, hp⟩ : Fin 2000) (⟨(j 1).val, hq⟩ : Fin 256) :=
    funext fun a => by match a with | ⟨0, _⟩ => rfl | ⟨1, _⟩ => rfl
  have he : ((cfg5.win 5).blk t).view.emb j
      = ix2 (⟨2000 * t.val + (j 0).val, by omega⟩ : Fin 20000) (⟨(j 1).val, hq⟩ : Fin 256) :=
    funext fun a => Fin.ext (by
      match a with
      | ⟨0, _⟩ => show win5_5.index t 0 * 2000 + 1 * (j 0).val = 2000 * t.val + (j 0).val; rw [e0]; omega
      | ⟨1, _⟩ => show win5_5.index t 1 * 256 + 1 * (j 1).val = (j 1).val; rw [e1]; omega)
  show k5_pay1 (iblk5 V c 2 t) (iblk5 V c 0 t) (iblk5 V c 1 t) (iblk5 V c 3 t) (iblk5 V c 4 t)
        ((cfg5.win 5).xinj (grid5.coords t) j)
      = Cert.Gcn.bnRelu _ _ _ _ _ (((cfg5.win 5).blk t).view.emb j)
  rw [hx, he]
  exact norm5_point _ _ _ _ _ (iblk5 V c 2 t) (iblk5 V c 1 t) (iblk5 V c 3 t) (iblk5 V c 4 t) (iblk5 V c 0 t) _ _ _
    (norm5_blk_feat V c t _ _ rfl rfl) (norm5_blk_row1 V c t _) (norm5_blk_row2 V c t _)
    (norm5_blk_row3 V c t _) (norm5_blk_row4 V c t _)

/-! ## The blocks cover the array -/

/-- An entry of the output array is in point `t`'s block iff each coordinate is in the block's range on its axis. -/
theorem norm5_mem_blk (t : Fin cfg5.N) (i : S20000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole main_v119).slice (win5_5.rect t)).set ↔ _
  rw [View.set_slice_whole, Rect.mem_set_unit]
  exact Iff.rfl

/-- Every entry (r, q) of the output array is in the block of the point r / 2000, and every point writes back. -/
theorem norm5_cover (i : S20000x256.Idx) :
    ∃ t : Fin cfg5.N, (cfg5.win 5).flush t = true ∧ i ∈ ((cfg5.win 5).blk t).view.set := by
  have hN : cfg5.N = 10 := N_5
  have hi0 : (i 0).val < 20000 := (i 0).isLt
  have hi1 : (i 1).val < 256 := (i 1).isLt
  have htlt : (i 0).val / 2000 < cfg5.N := by omega
  obtain ⟨-, -, e0, e1, -⟩ := norm5_idx ⟨(i 0).val / 2000, htlt⟩
  have e0' : win5_5.index ⟨(i 0).val / 2000, htlt⟩ 0 = (i 0).val / 2000 := e0
  refine ⟨⟨(i 0).val / 2000, htlt⟩, flush5_5 _, ?_⟩
  rw [norm5_mem_blk]
  intro a
  match a with
  | ⟨0, _⟩ =>
    show win5_5.index ⟨(i 0).val / 2000, htlt⟩ 0 * 2000 ≤ (i 0).val
      ∧ (i 0).val < win5_5.index ⟨(i 0).val / 2000, htlt⟩ 0 * 2000 + 2000
    rw [e0']; omega
  | ⟨1, _⟩ =>
    show win5_5.index ⟨(i 0).val / 2000, htlt⟩ 1 * 256 ≤ (i 1).val
      ∧ (i 1).val < win5_5.index ⟨(i 0).val / 2000, htlt⟩ 1 * 256 + 256
    rw [e1]; omega

/-! ## The array after the region -/

/-- THE ARRAY THE REGION LEAVES in its output window is `bnRelu` of the arrays it found in its five input windows
    (features, mean, variance, gamma, beta), whatever those arrays are. -/
theorem norm_region5 (c : Dev nD) :
    (dat5 (F := Ideal) V c).arrAt 5 cfg5.N
      = Cert.Gcn.bnRelu (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => norm5_flushed V c t) norm5_cover

end Cert.KernelIdeal.RegionValue

end
-- ==== Proof.NormRegion8.lean ====
/-
  The normalising region of one layer, as one function of the arrays the region finds.

  The region walks the [20000, 256] array of aggregated features in 10 blocks of 2000 rows. At the block of
  rows 2000·t … 2000·t + 1999 its body computes, entry by entry,
      max(((h − mean) · rsqrt(var + eps)) · gamma + beta, 0)
  where mean, var, gamma and beta are [1, 256] rows read whole at every block and spread over the 2000 rows.
  An entry (r, q) of the result therefore depends on entry (r, q) of the features and on column q of the four
  rows only: the block written at point t is the restriction of `Cert.Gcn.bnRelu` of the whole arrays to its
  rows, the ten blocks cover the array, and so the array the region leaves is `bnRelu` of the arrays it found.

  Order of the file: the body's value at an entry (`norm8_pay_apply`, `norm8_point`); the block indices of the
  six windows at every grid point (`norm8_idx`); each input block as entries of its array (`norm8_blk_feat`,
  `norm8_blk_row`); what a point writes back (`norm8_flushed`); which entries a point's block holds
  (`norm8_mem_blk`) and that every entry is in some block (`norm8_cover`); the array after the region
  (`norm_region8`).
-/
import proofs.«111193_j89515708383972_1_alg».proof.Proof.Gen.KernelIdeal.Frame
import proofs.«111193_j89515708383972_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-! ## The body at one entry -/

/-- The zero offsets of an access to a whole block, as a constant function. -/
theorem norm8_hz : (![0, 0] : Fin 2 → Nat) = fun _ => 0 :=
  funext fun a => by match a with | ⟨0, _⟩ => rfl | ⟨1, _⟩ => rfl

/-- The body's value at row `p`, column `q` of a block: the feature entry there, centred by the mean's column `q`,
    scaled by the reciprocal root of the variance's column `q` plus the stabiliser, then by gamma's column `q`,
    shifted by beta's column `q`, and clamped below at zero. The identity re-shapings drop out, each row spread
    over the block reads its column `q`, and the zero word is the number zero. -/
theorem norm8_pay_apply (var mean gamma beta : FVec Ideal S1x256 .f32) (h : FVec Ideal S2000x256 .f32)
    (p : Fin 2000) (q : Fin 256) :
    k8_pay1 (F := Ideal) var h mean gamma beta (ix2 p q)
      = max ((((h (ix2 p q) - mean (ix2 0 q)) * Ideal.rsqrt (var (ix2 0 q) + Cert.Gcn.eps)) * gamma (ix2 0 q))
          + beta (ix2 0 q)) 0 := by
  unfold k8_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

/-- The same with the blocks' entries named as entries of whole arrays: if the feature block's entry (p, q) is the
    array's entry (r, q) and each row block's column `q` is its array's column `q`, the body's value at (p, q) is
    `bnRelu` of the arrays at (r, q). -/
theorem norm8_point (A : (⟨2, ![20000, 256]⟩ : Shape).Idx → EReal) (M W Γ B : (⟨2, ![1, 256]⟩ : Shape).Idx → EReal)
    (var mean gamma beta : FVec Ideal S1x256 .f32) (h : FVec Ideal S2000x256 .f32)
    (p : Fin 2000) (q : Fin 256) (r : Fin 20000)
    (hh : h (ix2 p q) = A (ix2 r q)) (hm : mean (ix2 0 q) = M (ix2 0 q)) (hv : var (ix2 0 q) = W (ix2 0 q))
    (hg : gamma (ix2 0 q) = Γ (ix2 0 q)) (hb : beta (ix2 0 q) = B (ix2 0 q)) :
    k8_pay1 (F := Ideal) var h mean gamma beta (ix2 p q) = Cert.Gcn.bnRelu A M W Γ B (ix2 r q) := by
  rw [norm8_pay_apply, hh, hm, hv, hg, hb]
  rfl

/-! ## The windows' blocks -/

variable (V : (c : Dev nD) → (b : Ref sig .tc) → Buf (Elt Ideal) ((c : Thread nD τ).loc b))

/-- The block indices at every grid point, decided over the ten points: the feature window and the output window
    are at block (t, 0); the four row windows stay at block (0, 0). -/
theorem norm8_idx : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- The feature window's block at point `t` is rows 2000·t … 2000·t + 1999 of its array: its entry `x` is the
    array's entry `k` whenever `k` is row 2000·t + x₀, column x₁. -/
theorem norm8_blk_feat (c : Dev nD) (t : Fin cfg8.N) (x : S2000x256.Idx) (k : S20000x256.Idx)
    (hk0 : (k 0).val = 2000 * t.val + (x 0).val) (hk1 : (k 1).val = (x 1).val) :
    (iblk8 V c 0 t : Vec Ideal S2000x256 .f32) x
      = (V c (Pipeline.arrRef spec8 0) : S20000x256.Idx → EReal) k := by
  obtain ⟨e0, e1, -⟩ := norm8_idx t
  unfold iblk8
  rw [View.read_apply]
  show (V c (Pipeline.arrRef spec8 0) : S20000x256.Idx → EReal) _ = _
  refine congrArg (V c (Pipeline.arrRef spec8 0) : S20000x256.Idx → EReal) (funext fun a => Fin.ext ?_)
  match a with
  | ⟨0, _⟩ => show win8_0.index t 0 * 2000 + 1 * (x 0).val = (k 0).val; rw [e0, hk0]; omega
  | ⟨1, _⟩ => show win8_0.index t 1 * 256 + 1 * (x 1).val = (k 1).val; rw [e1, hk1]; omega

/-- Row window 1's block at every point is its whole [1, 256] array. -/
theorem norm8_blk_row1 (c : Dev nD) (t : Fin cfg8.N) (x : S1x256.Idx) :
    (iblk8 V c 1 t : Vec Ideal S1x256 .f32) x = (V c (Pipeline.arrRef spec8 1) : S1x256.Idx → EReal) x := by
  obtain ⟨-, -, -, -, e0, e1, -⟩ := norm8_idx t
  unfold iblk8
  rw [View.read_apply]
  show (V c (Pipeline.arrRef spec8 1) : S1x256.Idx → EReal) _ = _
  refine congrArg (V c (Pipeline.arrRef spec8 1) : S1x256.Idx → EReal) (funext fun a => Fin.ext ?_)
  match a with
  | ⟨0, _⟩ => show win8_1.index t 0 * 1 + 1 * (x 0).val = (x 0).val; rw [e0]; omega
  | ⟨1, _⟩ => show win8_1.index t 1 * 256 + 1 * (x 1).val = (x 1).val; rw [e1]; omega

/-- Row window 2's block at every point is its whole [1, 256] array. -/
theorem norm8_blk_row2 (c : Dev nD) (t : Fin cfg8.N) (x : S1x256.Idx) :
    (iblk8 V c 2 t : Vec Ideal S1x256 .f32) x = (V c (Pipeline.arrRef spec8 2) : S1x256.Idx → EReal) x := by
  obtain ⟨-, -, -, -, -, -, e0, e1, -⟩ := norm8_idx t
  unfold iblk8
  rw [View.read_apply]
  show (V c (Pipeline.arrRef spec8 2) : S1x256.Idx → EReal) _ = _
  refine congrArg (V c (Pipeline.arrRef spec8 2) : S1x256.Idx → EReal) (funext fun a => Fin.ext ?_)
  match a with
  | ⟨0, _⟩ => show win8_2.index t 0 * 1 + 1 * (x 0).val = (x 0).val; rw [e0]; omega
  | ⟨1, _⟩ => show win8_2.index t 1 * 256 + 1 * (x 1).val = (x 1).val; rw [e1]; omega

/-- Row window 3's block at every point is its whole [1, 256] array. -/
theorem norm8_blk_row3 (c : Dev nD) (t : Fin cfg8.N) (x : S1x256.Idx) :
    (iblk8 V c 3 t : Vec Ideal S1x256 .f32) x = (V c (Pipeline.arrRef spec8 3) : S1x256.Idx → EReal) x := by
  obtain ⟨-, -, -, -, -, -, -, -, e0, e1, -⟩ := norm8_idx t
  unfold iblk8
  rw [View.read_apply]
  show (V c (Pipeline.arrRef spec8 3) : S1x256.Idx → EReal) _ = _
  refine congrArg (V c (Pipeline.arrRef spec8 3) : S1x256.Idx → EReal) (funext fun a => Fin.ext ?_)
  match a with
  | ⟨0, _⟩ => show win8_3.index t 0 * 1 + 1 * (x 0).val = (x 0).val; rw [e0]; omega
  | ⟨1, _⟩ => show win8_3.index t 1 * 256 + 1 * (x 1).val = (x 1).val; rw [e1]; omega

/-- Row window 4's block at every point is its whole [1, 256] array. -/
theorem norm8_blk_row4 (c : Dev nD) (t : Fin cfg8.N) (x : S1x256.Idx) :
    (iblk8 V c 4 t : Vec Ideal S1x256 .f32) x = (V c (Pipeline.arrRef spec8 4) : S1x256.Idx → EReal) x := by
  obtain ⟨-, -, -, -, -, -, -, -, -, -, e0, e1⟩ := norm8_idx t
  unfold iblk8
  rw [View.read_apply]
  show (V c (Pipeline.arrRef spec8 4) : S1x256.Idx → EReal) _ = _
  refine congrArg (V c (Pipeline.arrRef spec8 4) : S1x256.Idx → EReal) (funext fun a => Fin.ext ?_)
  match a with
  | ⟨0, _⟩ => show win8_4.index t 0 * 1 + 1 * (x 0).val = (x 0).val; rw [e0]; omega
  | ⟨1, _⟩ => show win8_4.index t 1 * 256 + 1 * (x 1).val = (x 1).val; rw [e1]; omega

/-! ## What a point writes back -/

/-- WHAT POINT `t` WRITES BACK is block `t` of `bnRelu` of the arrays the region finds: the block's entry (p, q) is
    the body's value at (p, q) of the input blocks, the feature block's (p, q) is the array's (2000·t + p, q), the
    row blocks are the rows, and the output block's (p, q) sits at (2000·t + p, q) of the output array. -/
theorem norm8_flushed (c : Dev nD) (t : Fin cfg8.N) :
    (dat8 V c).flushed 5 t = ((cfg8.win 5).blk t).view.read (Elt Ideal)
      (Cert.Gcn.bnRelu (V c (Pipeline.arrRef spec8 0)) (V c (Pipeline.arrRef spec8 1)) (V c (Pipeline.arrRef spec8 2))
        (V c (Pipeline.arrRef spec8 3)) (V c (Pipeline.arrRef spec8 4))) := by
  refine (congrArg ((cfg8.win 5).cut (grid8.coords t)) (after8_5 V c t)).trans ?_
  unfold out8_5
  rw [View.canon_unit_zero norm8_hz]
  simp only [View.ld_unit_zero (S := S2000x256) norm8_hz, View.ld_unit_zero (S := S1x256) norm8_hz]
  funext j
  have hp : (j 0).val < 2000 := (j 0).isLt
  have hq : (j 1).val < 256 := (j 1).isLt
  have hN : cfg8.N = 10 := N_8
  have ht : t.val < cfg8.N := t.isLt
  obtain ⟨-, -, e0, e1, -⟩ := norm8_idx t
  have hx : (cfg8.win 5).xinj (grid8.coords t) j = ix2 (⟨(j 0).val, hp⟩ : Fin 2000) (⟨(j 1).val, hq⟩ : Fin 256) :=
    funext fun a => by match a with | ⟨0, _⟩ => rfl | ⟨1, _⟩ => rfl
  have he : ((cfg8.win 5).blk t).view.emb j
      = ix2 (⟨2000 * t.val + (j 0).val, by omega⟩ : Fin 20000) (⟨(j 1).val, hq⟩ : Fin 256) :=
    funext fun a => Fin.ext (by
      match a with
      | ⟨0, _⟩ => show win8_5.index t 0 * 2000 + 1 * (j 0).val = 2000 * t.val + (j 0).val; rw [e0]; omega
      | ⟨1, _⟩ => show win8_5.index t 1 * 256 + 1 * (j 1).val = (j 1).val; rw [e1]; omega)
  show k8_pay1 (iblk8 V c 2 t) (iblk8 V c 0 t) (iblk8 V c 1 t) (iblk8 V c 3 t) (iblk8 V c 4 t)
        ((cfg8.win 5).xinj (grid8.coords t) j)
      = Cert.Gcn.bnRelu _ _ _ _ _ (((cfg8.win 5).blk t).view.emb j)
  rw [hx, he]
  exact norm8_point _ _ _ _ _ (iblk8 V c 2 t) (iblk8 V c 1 t) (iblk8 V c 3 t) (iblk8 V c 4 t) (iblk8 V c 0 t) _ _ _
    (norm8_blk_feat V c t _ _ rfl rfl) (norm8_blk_row1 V c t _) (norm8_blk_row2 V c t _)
    (norm8_blk_row3 V c t _) (norm8_blk_row4 V c t _)

/-! ## The blocks cover the array -/

/-- An entry of the output array is in point `t`'s block iff each coordinate is in the block's range on its axis. -/
theorem norm8_mem_blk (t : Fin cfg8.N) (i : S20000x256.Idx) :
    i ∈ ((cfg8.win 5).blk t).view.set ↔ ∀ a : Fin 2, win8_5.index t a * S2000x256.size a ≤ (i a).val
      ∧ (i a).val < win8_5.index t a * S2000x256.size a + S2000x256.size a := by
  show i ∈ ((View.whole main_v173).slice (win8_5.rect t)).set ↔ _
  rw [View.set_slice_whole, Rect.mem_set_unit]
  exact Iff.rfl

/-- Every entry (r, q) of the output array is in the block of the point r / 2000, and every point writes back. -/
theorem norm8_cover (i : S20000x256.Idx) :
    ∃ t : Fin cfg8.N, (cfg8.win 5).flush t = true ∧ i ∈ ((cfg8.win 5).blk t).view.set := by
  have hN : cfg8.N = 10 := N_8
  have hi0 : (i 0).val < 20000 := (i 0).isLt
  have hi1 : (i 1).val < 256 := (i 1).isLt
  have htlt : (i 0).val / 2000 < cfg8.N := by omega
  obtain ⟨-, -, e0, e1, -⟩ := norm8_idx ⟨(i 0).val / 2000, htlt⟩
  have e0' : win8_5.index ⟨(i 0).val / 2000, htlt⟩ 0 = (i 0).val / 2000 := e0
  refine ⟨⟨(i 0).val / 2000, htlt⟩, flush8_5 _, ?_⟩
  rw [norm8_mem_blk]
  intro a
  match a with
  | ⟨0, _⟩ =>
    show win8_5.index ⟨(i 0).val / 2000, htlt⟩ 0 * 2000 ≤ (i 0).val
      ∧ (i 0).val < win8_5.index ⟨(i 0).val / 2000, htlt⟩ 0 * 2000 + 2000
    rw [e0']; omega
  | ⟨1, _⟩ =>
    show win8_5.index ⟨(i 0).val / 2000, htlt⟩ 1 * 256 ≤ (i 1).val
      ∧ (i 1).val < win8_5.index ⟨(i 0).val / 2000, htlt⟩ 1 * 256 + 256
    rw [e1]; omega

/-! ## The array after the region -/

/-- THE ARRAY THE REGION LEAVES in its output window is `bnRelu` of the arrays it found in its five input windows
    (features, mean, variance, gamma, beta), whatever those arrays are. -/
theorem norm_region8 (c : Dev nD) :
    (dat8 (F := Ideal) V c).arrAt 5 cfg8.N
      = Cert.Gcn.bnRelu (V c (Pipeline.arrRef spec8 0)) (V c (Pipeline.arrRef spec8 1)) (V c (Pipeline.arrRef spec8 2))
          (V c (Pipeline.arrRef spec8 3)) (V c (Pipeline.arrRef spec8 4)) :=
  (dat8 V c).arrAt_eq_of_cover 5 _ (fun t _ => norm8_flushed V c t) norm8_cover

end Cert.KernelIdeal.RegionValue

end
-- ==== Proof.HeadRegion9.lean ====
/-
  Region 9, the head: its one grid point loads the 64 pooled rows, the two weights and the two biases whole,
  computes relu(p * w1 + b1) * w2 + b2 and writes the [64, 10] result back whole. So the output array ends
  holding `mlp` of the five arrays the region was entered with.
-/
import proofs.«111193_j89515708383972_1_alg».proof.Proof.Gen.KernelIdeal.Frame
import proofs.«111193_j89515708383972_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-- Row coordinate of the left operand's index of the [64,256] x [256,128] product: the output's row. -/
theorem lhs9a_row (i : S64x128.Idx) (u : dot_S64x256_S256x128_S64x128_1_0_0_1_n_n.contr.Idx) :
    (dot_S64x256_S256x128_S64x128_1_0_0_1_n_n.lhsIdx i u 0).val = (i 0).val := by
  unfold DotDims.lhsIdx
  rw [dif_neg (show ¬(0 : Fin S64x256.rank) ∈ dot_S64x256_S256x128_S64x128_1_0_0_1_n_n.lhsBatch by decide), dif_pos (show (0 : Fin S64x256.rank) ∈ dot_S64x256_S256x128_S64x128_1_0_0_1_n_n.lhsNonContracting by decide)]
  rfl

/-- Column coordinate of the right operand's index: the output's column. -/
theorem rhs9a_col (i : S64x128.Idx) (u : dot_S64x256_S256x128_S64x128_1_0_0_1_n_n.contr.Idx) :
    (dot_S64x256_S256x128_S64x128_1_0_0_1_n_n.rhsIdx i u 1).val = (i 1).val := by
  unfold DotDims.rhsIdx
  rw [dif_neg (show ¬(1 : Fin S256x128.rank) ∈ dot_S64x256_S256x128_S64x128_1_0_0_1_n_n.rhsBatch by decide), dif_pos (show (1 : Fin S256x128.rank) ∈ dot_S64x256_S256x128_S64x128_1_0_0_1_n_n.rhsNonContracting by decide)]
  rfl

/-- The [64,256] x [256,128] product into a zero accumulator, at an entry: the sum over the 256 contracted
    positions of the entry's row of the left operand times its column of the right one. -/
theorem matmul9a_apply {φ₁ φ₂ : FTy} (a : FVec Ideal S64x256 φ₁) (b : FVec Ideal S256x128 φ₂) (j : S64x128.Idx) :
    matmul dot_S64x256_S256x128_S64x128_1_0_0_1_n_n none a b (constant (F := Ideal) S64x128 .f32 0x00000000#32) j
      = ∑ k : Fin 256, a (ix2 (⟨(j 0).val, (j 0).isLt⟩ : Fin 64) k) * b (ix2 k (⟨(j 1).val, (j 1).isLt⟩ : Fin 128)) := by
  refine (Ideal.matmul_constant_zero_apply dot_S64x256_S256x128_S64x128_1_0_0_1_n_n none a b j).trans ?_
  rw [← Equiv.sum_comp (contrEquiv1 dot_S64x256_S256x128_S64x128_1_0_0_1_n_n 256 rfl rfl).symm]
  refine Finset.sum_congr rfl fun k _ => ?_
  have hk := contrEquiv1_symm_val dot_S64x256_S256x128_S64x128_1_0_0_1_n_n 256 rfl rfl k
  have el : dot_S64x256_S256x128_S64x128_1_0_0_1_n_n.lhsIdx j ((contrEquiv1 dot_S64x256_S256x128_S64x128_1_0_0_1_n_n 256 rfl rfl).symm k) = ix2 (⟨(j 0).val, (j 0).isLt⟩ : Fin 64) k := funext fun d => Fin.ext (by
    match d with
    | ⟨0, _⟩ => exact lhs9a_row _ _
    | ⟨1, _⟩ => exact (dot_S64x256_S256x128_S64x128_1_0_0_1_n_n.lhsIdx_val_of_single rfl _ _).trans hk)
  have er : dot_S64x256_S256x128_S64x128_1_0_0_1_n_n.rhsIdx j ((contrEquiv1 dot_S64x256_S256x128_S64x128_1_0_0_1_n_n 256 rfl rfl).symm k) = ix2 k (⟨(j 1).val, (j 1).isLt⟩ : Fin 128) := funext fun d => Fin.ext (by
    match d with
    | ⟨0, _⟩ => exact (dot_S64x256_S256x128_S64x128_1_0_0_1_n_n.rhsIdx_val_of_single rfl _ _).trans hk
    | ⟨1, _⟩ => exact rhs9a_col _ _)
  rw [el, er]

/-- Row coordinate of the left operand's index of the [64,128] x [128,10] product: the output's row. -/
theorem lhs9b_row (i : S64x10.Idx) (u : dot_S64x128_S128x10_S64x10_1_0_0_1_n_n.contr.Idx) :
    (dot_S64x128_S128x10_S64x10_1_0_0_1_n_n.lhsIdx i u 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl

/-- Column coordinate of the right operand's index: the output's column. -/
theorem rhs9b_col (i : S64x10.Idx) (u : dot_S64x128_S128x10_S64x10_1_0_0_1_n_n.contr.Idx) :
    (dot_S64x128_S128x10_S64x10_1_0_0_1_n_n.rhsIdx i u 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The [64,128] x [128,10] product into a zero accumulator, at an entry: the sum over the 128 contracted
    positions of the entry's row of the left operand times its column of the right one. -/
theorem matmul9b_apply {φ₁ φ₂ : FTy} (a : FVec Ideal S64x128 φ₁) (b : FVec Ideal S128x10 φ₂) (j : S64x10.Idx) :
    matmul dot_S64x128_S128x10_S64x10_1_0_0_1_n_n none a b (constant (F := Ideal) S64x10 .f32 0x00000000#32) j
      = ∑ k : Fin 128, a (ix2 (⟨(j 0).val, (j 0).isLt⟩ : Fin 64) k) * b (ix2 k (⟨(j 1).val, (j 1).isLt⟩ : Fin 10)) := by
  refine (Ideal.matmul_constant_zero_apply dot_S64x128_S128x10_S64x10_1_0_0_1_n_n none a b j).trans ?_
  rw [← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx j ((contrEquiv1 dot_S64x128_S128x10_S64x10_1_0_0_1_n_n 128 rfl rfl).symm k) = ix2 (⟨(j 0).val, (j 0).isLt⟩ : Fin 64) k := funext fun d => Fin.ext (by
    match d with
    | ⟨0, _⟩ => exact lhs9b_row _ _
    | ⟨1, _⟩ => exact (dot_S64x128_S128x10_S64x10_1_0_0_1_n_n.lhsIdx_val_of_single rfl _ _).trans hk)
  have er : dot_S64x128_S128x10_S64x10_1_0_0_1_n_n.rhsIdx j ((contrEquiv1 dot_S64x128_S128x10_S64x10_1_0_0_1_n_n 128 rfl rfl).symm k) = ix2 k (⟨(j 1).val, (j 1).isLt⟩ : Fin 10) := funext fun d => Fin.ext (by
    match d with
    | ⟨0, _⟩ => exact (dot_S64x128_S128x10_S64x10_1_0_0_1_n_n.rhsIdx_val_of_single rfl _ _).trans hk
    | ⟨1, _⟩ => exact rhs9b_col _ _)
  rw [el, er]

/-- The head's stored value at the entry (p, q): relu(pooled * w1 + b1) * w2 + b2, the rounding steps being the
    identity on the extended reals and the zero word the extended real 0. -/
theorem pay9_apply (x0 : Vec Ideal S64x256 .f32) (x1 : Vec Ideal S256x128 .f32) (x2 : Vec Ideal S1x128 .f32)
    (x3 : Vec Ideal S128x10 .f32) (x4 : Vec Ideal S1x10 .f32) (p : Fin 64) (q : Fin 10) :
    k9_pay1 (F := Ideal) x0 x1 x2 x3 x4 (ix2 p q)
      = (∑ k : Fin 128, max ((∑ r : Fin 256, x0 (ix2 p r) * x1 (ix2 r k)) + x2 (ix2 (0 : Fin 1) k)) 0 * x3 (ix2 k q))
        + x4 (ix2 (0 : Fin 1) q) := by
  unfold k9_pay1
  simp only [shapeCast_self]
  refine congrArg₂ (· + ·) ?_ (broadcastTo_1b_ab_apply x4 broadcasts_S1x10_S64x10 p q)
  refine (matmul9b_apply _ _ (ix2 p q)).trans ?_
  refine Finset.sum_congr rfl fun k _ => ?_
  refine congrArg₂ (· * ·) ?_ rfl
  refine congrArg₂ max ?_ Ideal.ofBits_zero_f32
  refine congrArg₂ (· + ·) ?_ (broadcastTo_1b_ab_apply x2 broadcasts_S1x128_S64x128 p k)
  exact matmul9a_apply _ _ (ix2 p k)

/-- The same at an index of the block given by its coordinates. -/
theorem pay9_at (x0 : Vec Ideal S64x256 .f32) (x1 : Vec Ideal S256x128 .f32) (x2 : Vec Ideal S1x128 .f32)
    (x3 : Vec Ideal S128x10 .f32) (x4 : Vec Ideal S1x10 .f32) (j : S64x10.Idx) :
    k9_pay1 (F := Ideal) x0 x1 x2 x3 x4 j
      = (∑ k : Fin 128, max ((∑ r : Fin 256, x0 (ix2 (⟨(j 0).val, (j 0).isLt⟩ : Fin 64) r) * x1 (ix2 r k)) + x2 (ix2 (0 : Fin 1) k)) 0
            * x3 (ix2 k (⟨(j 1).val, (j 1).isLt⟩ : Fin 10)))
        + x4 (ix2 (0 : Fin 1) (⟨(j 1).val, (j 1).isLt⟩ : Fin 10)) := by
  have e : j = ix2 (⟨(j 0).val, (j 0).isLt⟩ : Fin 64) (⟨(j 1).val, (j 1).isLt⟩ : Fin 10) := by
    funext a
    match a with
    | ⟨0, _⟩ => rfl
    | ⟨1, _⟩ => rfl
  exact (congrArg (k9_pay1 (F := Ideal) x0 x1 x2 x3 x4) e).trans (pay9_apply x0 x1 x2 x3 x4 _ _)

theorem hz9 : (![0, 0] : Fin 2 → Nat) = fun _ => 0 := funext fun a => by fin_cases a <;> rfl

/-- Every window of the head sits at block (0, 0): each block is its whole array. -/
theorem idx_facts9 : ∀ t : Fin cfg9.N, win9_0.index t (0 : Fin 2) = 0
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0 :=
  (by decide +kernel : ∀ t : Fin grid9.N, _)

/-- Input window 0's one block is its whole array. -/
theorem iblk9_0_at (V : (c : Dev nD) → (b : Ref sig .tc) → Buf (Elt Ideal) ((c : Thread nD τ).loc b)) (c : Dev nD) (t : Fin cfg9.N)
    (a : Fin 64) (b : Fin 256) (i : S64x256.Idx) (hi0 : (i 0).val = a.val) (hi1 : (i 1).val = b.val) :
    (iblk9 V c 0 t : Vec Ideal S64x256 .f32) (ix2 a b) = (V c (Pipeline.arrRef spec9 0) : S64x256.Idx → EReal) i := by
  obtain ⟨e0, e1, -⟩ := idx_facts9 t
  unfold iblk9
  rw [View.read_apply]
  show (V c (Pipeline.arrRef spec9 0) : S64x256.Idx → EReal) _ = _
  refine congrArg (V c (Pipeline.arrRef spec9 0) : S64x256.Idx → EReal) ?_
  funext d
  apply Fin.ext
  match d with
  | ⟨0, _⟩ => show win9_0.index t (0 : Fin 2) * 64 + 1 * a.val = (i 0).val; rw [e0, hi0]; omega
  | ⟨1, _⟩ => show win9_0.index t (1 : Fin 2) * 256 + 1 * b.val = (i 1).val; rw [e1, hi1]; omega

/-- Input window 1's one block is its whole array. -/
theorem iblk9_1_at (V : (c : Dev nD) → (b : Ref sig .tc) → Buf (Elt Ideal) ((c : Thread nD τ).loc b)) (c : Dev nD) (t : Fin cfg9.N)
    (a : Fin 256) (b : Fin 128) (i : S256x128.Idx) (hi0 : (i 0).val = a.val) (hi1 : (i 1).val = b.val) :
    (iblk9 V c 1 t : Vec Ideal S256x128 .f32) (ix2 a b) = (V c (Pipeline.arrRef spec9 1) : S256x128.Idx → EReal) i := by
  obtain ⟨-, -, e0, e1, -⟩ := idx_facts9 t
  unfold iblk9
  rw [View.read_apply]
  show (V c (Pipeline.arrRef spec9 1) : S256x128.Idx → EReal) _ = _
  refine congrArg (V c (Pipeline.arrRef spec9 1) : S256x128.Idx → EReal) ?_
  funext d
  apply Fin.ext
  match d with
  | ⟨0, _⟩ => show win9_1.index t (0 : Fin 2) * 256 + 1 * a.val = (i 0).val; rw [e0, hi0]; omega
  | ⟨1, _⟩ => show win9_1.index t (1 : Fin 2) * 128 + 1 * b.val = (i 1).val; rw [e1, hi1]; omega

/-- Input window 2's one block is its whole array. -/
theorem iblk9_2_at (V : (c : Dev nD) → (b : Ref sig .tc) → Buf (Elt Ideal) ((c : Thread nD τ).loc b)) (c : Dev nD) (t : Fin cfg9.N)
    (a : Fin 1) (b : Fin 128) (i : S1x128.Idx) (hi0 : (i 0).val = a.val) (hi1 : (i 1).val = b.val) :
    (iblk9 V c 2 t : Vec Ideal S1x128 .f32) (ix2 a b) = (V c (Pipeline.arrRef spec9 2) : S1x128.Idx → EReal) i := by
  obtain ⟨-, -, -, -, e0, e1, -⟩ := idx_facts9 t
  unfold iblk9
  rw [View.read_apply]
  show (V c (Pipeline.arrRef spec9 2) : S1x128.Idx → EReal) _ = _
  refine congrArg (V c (Pipeline.arrRef spec9 2) : S1x128.Idx → EReal) ?_
  funext d
  apply Fin.ext
  match d with
  | ⟨0, _⟩ => show win9_2.index t (0 : Fin 2) * 1 + 1 * a.val = (i 0).val; rw [e0, hi0]; omega
  | ⟨1, _⟩ => show win9_2.index t (1 : Fin 2) * 128 + 1 * b.val = (i 1).val; rw [e1, hi1]; omega

/-- Input window 3's one block is its whole array. -/
theorem iblk9_3_at (V : (c : Dev nD) → (b : Ref sig .tc) → Buf (Elt Ideal) ((c : Thread nD τ).loc b)) (c : Dev nD) (t : Fin cfg9.N)
    (a : Fin 128) (b : Fin 10) (i : S128x10.Idx) (hi0 : (i 0).val = a.val) (hi1 : (i 1).val = b.val) :
    (iblk9 V c 3 t : Vec Ideal S128x10 .f32) (ix2 a b) = (V c (Pipeline.arrRef spec9 3) : S128x10.Idx → EReal) i := by
  obtain ⟨-, -, -, -, -, -, e0, e1, -⟩ := idx_facts9 t
  unfold iblk9
  rw [View.read_apply]
  show (V c (Pipeline.arrRef spec9 3) : S128x10.Idx → EReal) _ = _
  refine congrArg (V c (Pipeline.arrRef spec9 3) : S128x10.Idx → EReal) ?_
  funext d
  apply Fin.ext
  match d with
  | ⟨0, _⟩ => show win9_3.index t (0 : Fin 2) * 128 + 1 * a.val = (i 0).val; rw [e0, hi0]; omega
  | ⟨1, _⟩ => show win9_3.index t (1 : Fin 2) * 10 + 1 * b.val = (i 1).val; rw [e1, hi1]; omega

/-- Input window 4's one block is its whole array. -/
theorem iblk9_4_at (V : (c : Dev nD) → (b : Ref sig .tc) → Buf (Elt Ideal) ((c : Thread nD τ).loc b)) (c : Dev nD) (t : Fin cfg9.N)
    (a : Fin 1) (b : Fin 10) (i : S1x10.Idx) (hi0 : (i 0).val = a.val) (hi1 : (i 1).val = b.val) :
    (iblk9 V c 4 t : Vec Ideal S1x10 .f32) (ix2 a b) = (V c (Pipeline.arrRef spec9 4) : S1x10.Idx → EReal) i := by
  obtain ⟨-, -, -, -, -, -, -, -, e0, e1, -⟩ := idx_facts9 t
  unfold iblk9
  rw [View.read_apply]
  show (V c (Pipeline.arrRef spec9 4) : S1x10.Idx → EReal) _ = _
  refine congrArg (V c (Pipeline.arrRef spec9 4) : S1x10.Idx → EReal) ?_
  funext d
  apply Fin.ext
  match d with
  | ⟨0, _⟩ => show win9_4.index t (0 : Fin 2) * 1 + 1 * a.val = (i 0).val; rw [e0, hi0]; omega
  | ⟨1, _⟩ => show win9_4.index t (1 : Fin 2) * 10 + 1 * b.val = (i 1).val; rw [e1, hi1]; omega

/-- The body's result at the block index j is `mlp` of the region-entry arrays at any array index i with j's
    coordinates: every input block is its whole array. -/
theorem body9_at (V : (c : Dev nD) → (b : Ref sig .tc) → Buf (Elt Ideal) ((c : Thread nD τ).loc b)) (c : Dev nD) (t : Fin cfg9.N) (j i : S64x10.Idx)
    (h0 : (i 0).val = (j 0).val) (h1 : (i 1).val = (j 1).val) :
    k9_pay1 (F := Ideal) (iblk9 V c 0 t) (iblk9 V c 1 t) (iblk9 V c 2 t) (iblk9 V c 3 t) (iblk9 V c 4 t) j
      = Cert.Gcn.mlp (V c (Pipeline.arrRef spec9 0) : S64x256.Idx → EReal) (V c (Pipeline.arrRef spec9 1) : S256x128.Idx → EReal) (V c (Pipeline.arrRef spec9 2) : S1x128.Idx → EReal) (V c (Pipeline.arrRef spec9 3) : S128x10.Idx → EReal) (V c (Pipeline.arrRef spec9 4) : S1x10.Idx → EReal) i := by
  refine (pay9_at _ _ _ _ _ j).trans ?_
  unfold Cert.Gcn.mlp
  refine congrArg₂ (· + ·) (Finset.sum_congr rfl fun k _ => congrArg₂ (· * ·) (congrArg₂ max (congrArg₂ (· + ·)
      (Finset.sum_congr rfl fun r _ => ?_) ?_) rfl) ?_) ?_
  · rw [iblk9_0_at V c t (⟨(j 0).val, (j 0).isLt⟩ : Fin 64) r (ix2 (i 0) r) h0 rfl, iblk9_1_at V c t r k (ix2 r k) rfl rfl]
  · exact iblk9_2_at V c t 0 k (ix2 0 k) rfl rfl
  · exact iblk9_3_at V c t k (⟨(j 1).val, (j 1).isLt⟩ : Fin 10) (ix2 k (i 1)) rfl h1
  · exact iblk9_4_at V c t 0 (⟨(j 1).val, (j 1).isLt⟩ : Fin 10) (ix2 0 (i 1)) rfl h1

/-- An element of the output's one block sits in the array at the same coordinates. -/
theorem emb9_val (t : Fin cfg9.N) (j : S64x10.Idx) :
    ((((cfg9.win 5).blk t).view.emb j) 0).val = (j 0).val ∧ ((((cfg9.win 5).blk t).view.emb j) 1).val = (j 1).val := by
  obtain ⟨-, -, -, -, -, -, -, -, -, -, e0, e1⟩ := idx_facts9 t
  constructor
  · show win9_5.index t (0 : Fin 2) * 64 + 1 * (j 0).val = (j 0).val; rw [e0]; omega
  · show win9_5.index t (1 : Fin 2) * 10 + 1 * (j 1).val = (j 1).val; rw [e1]; omega

set_option maxHeartbeats 400000 in
/-- What the one point writes back is the whole of `mlp` of the region-entry arrays. -/
theorem flushed9_eq (V : (c : Dev nD) → (b : Ref sig .tc) → Buf (Elt Ideal) ((c : Thread nD τ).loc b)) (c : Dev nD) (t : Fin cfg9.N) :
    (dat9 (F := Ideal) V c).flushed 5 t
      = ((cfg9.win 5).blk t).view.read (Elt Ideal) (Cert.Gcn.mlp (V c (Pipeline.arrRef spec9 0) : S64x256.Idx → EReal) (V c (Pipeline.arrRef spec9 1) : S256x128.Idx → EReal) (V c (Pipeline.arrRef spec9 2) : S1x128.Idx → EReal) (V c (Pipeline.arrRef spec9 3) : S128x10.Idx → EReal) (V c (Pipeline.arrRef spec9 4) : S1x10.Idx → EReal)) := by
  show (cfg9.win 5).cut (grid9.coords t) ((dat9 V c).after 5 t) = _
  rw [after9_5]
  unfold out9_5
  rw [View.canon_unit_zero hz9]
  simp only [View.ld_unit_zero (S := S64x256) hz9, View.ld_unit_zero (S := S256x128) hz9, View.ld_unit_zero (S := S1x128) hz9,
    View.ld_unit_zero (S := S128x10) hz9, View.ld_unit_zero (S := S1x10) hz9]
  funext j
  exact body9_at V c t j (((cfg9.win 5).blk t).view.emb j) (emb9_val t j).1 (emb9_val t j).2

set_option maxHeartbeats 400000 in
/-- An index of the output array is in the one block iff each coordinate is in the block's range on its axis. -/
theorem mem_blk9 (t : Fin cfg9.N) (i : S64x10.Idx) :
    i ∈ ((cfg9.win 5).blk t).view.set ↔ ∀ a : Fin 2, win9_5.index t a * S64x10.size a ≤ (i a).val ∧ (i a).val < win9_5.index t a * S64x10.size a + S64x10.size a := by
  show i ∈ ((View.whole main_v188).slice (win9_5.rect t)).set ↔ _
  rw [View.set_slice_whole, Rect.mem_set_unit]
  exact Iff.rfl

set_option maxHeartbeats 400000 in
/-- The one block covers the whole output array. -/
theorem cover9 (i : S64x10.Idx) :
    ∃ t : Fin cfg9.N, (cfg9.win 5).flush t = true ∧ i ∈ ((cfg9.win 5).blk t).view.set := by
  have hN : cfg9.N = 1 := N_9
  have hi0 : (i 0).val < 64 := (i 0).isLt
  have hi1 : (i 1).val < 10 := (i 1).isLt
  refine ⟨⟨0, by rw [hN]; omega⟩, flush9_5 _, ?_⟩
  rw [mem_blk9]
  obtain ⟨-, -, -, -, -, -, -, -, -, -, e0, e1⟩ := idx_facts9 ⟨0, by rw [hN]; omega⟩
  intro a
  match a with
  | ⟨0, _⟩ =>
    show win9_5.index _ (0 : Fin 2) * 64 ≤ (i 0).val ∧ (i 0).val < win9_5.index _ (0 : Fin 2) * 64 + 64
    rw [e0]; omega
  | ⟨1, _⟩ =>
    show win9_5.index _ (1 : Fin 2) * 10 ≤ (i 1).val ∧ (i 1).val < win9_5.index _ (1 : Fin 2) * 10 + 10
    rw [e1]; omega

/-- Region 9's output array after its run: the head applied to the pooled rows, weights and biases as the region
    found them. -/
theorem head_region9 (V : (c : Dev nD) → (b : Ref sig .tc) → Buf (Elt Ideal) ((c : Thread nD τ).loc b)) (c : Dev nD) :
    (dat9 (F := Ideal) V c).arrAt 5 cfg9.N
      = Cert.Gcn.mlp (V c (Pipeline.arrRef spec9 0) : S64x256.Idx → EReal) (V c (Pipeline.arrRef spec9 1) : S256x128.Idx → EReal) (V c (Pipeline.arrRef spec9 2) : S1x128.Idx → EReal) (V c (Pipeline.arrRef spec9 3) : S128x10.Idx → EReal) (V c (Pipeline.arrRef spec9 4) : S1x10.Idx → EReal) :=
  (dat9 (F := Ideal) V c).arrAt_eq_of_cover 5 (Cert.Gcn.mlp (V c (Pipeline.arrRef spec9 0) : S64x256.Idx → EReal) (V c (Pipeline.arrRef spec9 1) : S256x128.Idx → EReal) (V c (Pipeline.arrRef spec9 2) : S1x128.Idx → EReal) (V c (Pipeline.arrRef spec9 3) : S128x10.Idx → EReal) (V c (Pipeline.arrRef spec9 4) : S1x10.Idx → EReal))
    (fun t _ => flushed9_eq V c t) cover9

end Cert.KernelIdeal.RegionValue

end
-- ==== Proof.KernelChain.lean ====
/-
  The idealized kernel's boundary contents are the reference's stage functions of the arguments.

  Layer by layer: the linear region's array is the dense product (the same sum as the reference's), the host stretch
  after it is the reference's edge aggregation, the reduce region leaves the column sums and sums of squares, the next
  stretch the mean and variance rows, and the normalise region's array is the reference's normalised output once the
  aggregated array is real. The last region is the head on the pooled rows.
-/
import proofs.«111193_j89515708383972_1_alg».proof.Proof.KernelStages
import proofs.«111193_j89515708383972_1_alg».proof.Proof.LayerLaw
import proofs.«111193_j89515708383972_1_alg».proof.Proof.RefDot
import proofs.«111193_j89515708383972_1_alg».proof.Proof.LinRegion0
import proofs.«111193_j89515708383972_1_alg».proof.Proof.LinRegion3
import proofs.«111193_j89515708383972_1_alg».proof.Proof.LinRegion6
import proofs.«111193_j89515708383972_1_alg».proof.Proof.ReduceRegion1
import proofs.«111193_j89515708383972_1_alg».proof.Proof.ReduceRegion4
import proofs.«111193_j89515708383972_1_alg».proof.Proof.ReduceRegion7
import proofs.«111193_j89515708383972_1_alg».proof.Proof.NormRegion2
import proofs.«111193_j89515708383972_1_alg».proof.Proof.NormRegion5
import proofs.«111193_j89515708383972_1_alg».proof.Proof.NormRegion8
import proofs.«111193_j89515708383972_1_alg».proof.Proof.HeadRegion9

set_option maxRecDepth 16384

noncomputable section

namespace Cert.KernelIdeal.Stages

open Idealize.ShloMosaic Idealize.ShloMosaic.TcCoe Idealize.SL.Sem Cert.KernelIdeal Cert.KernelIdeal.Gen Cert.KernelIdeal.Facts₀ Cert.KernelIdeal.Facts
open Cert.ReferenceIdeal.ReadP (val_main_v15 val_main_v51 val_main_v81 val_main_v86 val_main_v122 val_main_v152 val_main_v157 val_main_v193 val_main_v223 val_main_v235 val_main_v244)
open Cert.Gcn (AllReal)

variable (m : (ℓ : Loc nD τ sig) → Buf (Elt Ideal) ℓ) (ρ : Dev nD → PrngReg) (c : Dev nD)

/-! ## Layer 1 -/

theorem lin_stage0  : W2 m ρ c (Proc.devRef .tc main_v14) = val_main_v15 (F := Ideal) (m ((c : Thread nD τ).loc main_arg0)) (m ((c : Thread nD τ).loc main_arg3)) := by
  have h1 : W2 m ρ c (Proc.devRef .tc main_v14) = Cert.Gcn.lin (W1 m ρ c (Proc.devRef .tc main_arg0)) (W1 m ρ c (Proc.devRef .tc main_v13)) :=
    (W2_arr m ρ c 2).trans (RegionValue.lin_region0 (V1 m ρ) c)
  have hin : W1 m ρ c (Proc.devRef .tc main_arg0) = (m ((c : Thread nD τ).loc main_arg0)) := at_arg0_1 m ρ c
  rw [h1, hin, s0_v13 m ρ c, ← Cert.ReferenceIdeal.Layer.dot_eq_lin]
  rfl

theorem agg_stage0  : W3 m ρ c (Proc.devRef .tc main_v51) = val_main_v51 (F := Ideal) (m ((c : Thread nD τ).loc main_arg0)) (m ((c : Thread nD τ).loc main_arg1)) (m ((c : Thread nD τ).loc main_arg3)) (m ((c : Thread nD τ).loc main_arg4)) := by
  rw [glue0, lin_stage0 m ρ c ]
  rfl

theorem out_stage0  (hr0 : AllReal (val_main_v51 (F := Ideal) (m ((c : Thread nD τ).loc main_arg0)) (m ((c : Thread nD τ).loc main_arg1)) (m ((c : Thread nD τ).loc main_arg3)) (m ((c : Thread nD τ).loc main_arg4)))) : W6 m ρ c (Proc.devRef .tc main_v65) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h1 : W6 m ρ c (Proc.devRef .tc main_v65) = Cert.Gcn.bnRelu (W5 m ρ c (Proc.devRef .tc main_v51)) (W5 m ρ c (Proc.devRef .tc main_v54)) (W5 m ρ c (Proc.devRef .tc main_v58)) (W5 m ρ c (Proc.devRef .tc main_v63)) (W5 m ρ c (Proc.devRef .tc main_v64)) :=
    (W6_arr m ρ c 5).trans (RegionValue.norm_region2 (V5 m ρ) c)
  have hs : W4 m ρ c (Proc.devRef .tc main_v52_0) = Cert.Gcn.colSum (W3 m ρ c (Proc.devRef .tc main_v51)) :=
    (W4_arr m ρ c 1).trans (RegionValue.sum_region1 (V3 m ρ) c)
  have hq : W4 m ρ c (Proc.devRef .tc main_v52_1) = Cert.Gcn.colSumSq (W3 m ρ c (Proc.devRef .tc main_v51)) :=
    (W4_arr m ρ c 2).trans (RegionValue.sumsq_region1 (V3 m ρ) c)
  rw [h1, at_v51_5 m ρ c, mean0, var0, scale0, shift0, hs, hq, agg_stage0 m ρ c , Cert.Bridge.norm_law _ _ _ hr0]
  rfl

/-! ## Layer 2 -/

theorem lin_stage1 (hr0 : AllReal (val_main_v51 (F := Ideal) (m ((c : Thread nD τ).loc main_arg0)) (m ((c : Thread nD τ).loc main_arg1)) (m ((c : Thread nD τ).loc main_arg3)) (m ((c : Thread nD τ).loc main_arg4)))) : W8 m ρ c (Proc.devRef .tc main_v68) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h1 : W8 m ρ c (Proc.devRef .tc main_v68) = Cert.Gcn.lin (W7 m ρ c (Proc.devRef .tc main_v65)) (W7 m ρ c (Proc.devRef .tc main_v67)) :=
    (W8_arr m ρ c 2).trans (RegionValue.lin_region3 (V7 m ρ) c)
  have hin : W7 m ρ c (Proc.devRef .tc main_v65) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (keep_v65_7 m ρ c).trans (out_stage0 m ρ c hr0)
  rw [h1, hin, wslice1 m ρ c, ← Cert.ReferenceIdeal.Layer.dot_eq_lin]
  rfl

theorem agg_stage1 (hr0 : AllReal (val_main_v51 (F := Ideal) (m ((c : Thread nD τ).loc main_arg0)) (m ((c : Thread nD τ).loc main_arg1)) (m ((c : Thread nD τ).loc main_arg3)) (m ((c : Thread nD τ).loc main_arg4)))) : W9 m ρ c (Proc.devRef .tc main_v105) = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [glue1, lin_stage1 m ρ c hr0]
  rfl

theorem out_stage1 (hr0 : AllReal (val_main_v51 (F := Ideal) (m ((c : Thread nD τ).loc main_arg0)) (m ((c : Thread nD τ).loc main_arg1)) (m ((c : Thread nD τ).loc main_arg3)) (m ((c : Thread nD τ).loc main_arg4)))) (hr1 : AllReal (val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W12 m ρ c (Proc.devRef .tc main_v119) = val_main_v152 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h1 : W12 m ρ c (Proc.devRef .tc main_v119) = Cert.Gcn.bnRelu (W11 m ρ c (Proc.devRef .tc main_v105)) (W11 m ρ c (Proc.devRef .tc main_v108)) (W11 m ρ c (Proc.devRef .tc main_v112)) (W11 m ρ c (Proc.devRef .tc main_v117)) (W11 m ρ c (Proc.devRef .tc main_v118)) :=
    (W12_arr m ρ c 5).trans (RegionValue.norm_region5 (V11 m ρ) c)
  have hs : W10 m ρ c (Proc.devRef .tc main_v106_0) = Cert.Gcn.colSum (W9 m ρ c (Proc.devRef .tc main_v105)) :=
    (W10_arr m ρ c 1).trans (RegionValue.sum_region4 (V9 m ρ) c)
  have hq : W10 m ρ c (Proc.devRef .tc main_v106_1) = Cert.Gcn.colSumSq (W9 m ρ c (Proc.devRef .tc main_v105)) :=
    (W10_arr m ρ c 2).trans (RegionValue.sumsq_region4 (V9 m ρ) c)
  rw [h1, at_v105_11 m ρ c, mean1, var1, scale1, shift1, hs, hq, agg_stage1 m ρ c hr0, Cert.Bridge.norm_law _ _ _ hr1]
  rfl

/-! ## Layer 3 -/

theorem lin_stage2 (hr0 : AllReal (val_main_v51 (F := Ideal) (m ((c : Thread nD τ).loc main_arg0)) (m ((c : Thread nD τ).loc main_arg1)) (m ((c : Thread nD τ).loc main_arg3)) (m ((c : Thread nD τ).loc main_arg4)))) (hr1 : AllReal (val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W14 m ρ c (Proc.devRef .tc main_v122) = val_main_v157 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h1 : W14 m ρ c (Proc.devRef .tc main_v122) = Cert.Gcn.lin (W13 m ρ c (Proc.devRef .tc main_v119)) (W13 m ρ c (Proc.devRef .tc main_v121)) :=
    (W14_arr m ρ c 2).trans (RegionValue.lin_region6 (V13 m ρ) c)
  have hin : W13 m ρ c (Proc.devRef .tc main_v119) = val_main_v152 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (keep_v119_13 m ρ c).trans (out_stage1 m ρ c hr0 hr1)
  rw [h1, hin, wslice2 m ρ c, ← Cert.ReferenceIdeal.Layer.dot_eq_lin]
  rfl

theorem agg_stage2 (hr0 : AllReal (val_main_v51 (F := Ideal) (m ((c : Thread nD τ).loc main_arg0)) (m ((c : Thread nD τ).loc main_arg1)) (m ((c : Thread nD τ).loc main_arg3)) (m ((c : Thread nD τ).loc main_arg4)))) (hr1 : AllReal (val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W15 m ρ c (Proc.devRef .tc main_v159) = val_main_v193 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [glue2, lin_stage2 m ρ c hr0 hr1]
  rfl

theorem out_stage2 (hr0 : AllReal (val_main_v51 (F := Ideal) (m ((c : Thread nD τ).loc main_arg0)) (m ((c : Thread nD τ).loc main_arg1)) (m ((c : Thread nD τ).loc main_arg3)) (m ((c : Thread nD τ).loc main_arg4)))) (hr1 : AllReal (val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (hr2 : AllReal (val_main_v193 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W18 m ρ c (Proc.devRef .tc main_v173) = val_main_v223 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h1 : W18 m ρ c (Proc.devRef .tc main_v173) = Cert.Gcn.bnRelu (W17 m ρ c (Proc.devRef .tc main_v159)) (W17 m ρ c (Proc.devRef .tc main_v162)) (W17 m ρ c (Proc.devRef .tc main_v166)) (W17 m ρ c (Proc.devRef .tc main_v171)) (W17 m ρ c (Proc.devRef .tc main_v172)) :=
    (W18_arr m ρ c 5).trans (RegionValue.norm_region8 (V17 m ρ) c)
  have hs : W16 m ρ c (Proc.devRef .tc main_v160_0) = Cert.Gcn.colSum (W15 m ρ c (Proc.devRef .tc main_v159)) :=
    (W16_arr m ρ c 1).trans (RegionValue.sum_region7 (V15 m ρ) c)
  have hq : W16 m ρ c (Proc.devRef .tc main_v160_1) = Cert.Gcn.colSumSq (W15 m ρ c (Proc.devRef .tc main_v159)) :=
    (W16_arr m ρ c 2).trans (RegionValue.sumsq_region7 (V15 m ρ) c)
  rw [h1, at_v159_17 m ρ c, mean2, var2, scale2, shift2, hs, hq, agg_stage2 m ρ c hr0 hr1, Cert.Bridge.norm_law _ _ _ hr2]
  rfl

/-! ## The head -/

theorem result_stage (hr0 : AllReal (val_main_v51 (F := Ideal) (m ((c : Thread nD τ).loc main_arg0)) (m ((c : Thread nD τ).loc main_arg1)) (m ((c : Thread nD τ).loc main_arg3)) (m ((c : Thread nD τ).loc main_arg4)))) (hr1 : AllReal (val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (hr2 : AllReal (val_main_v193 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) :
    W20 m ρ c (Proc.devRef .tc main_v188) = val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h1 : W20 m ρ c (Proc.devRef .tc main_v188) = Cert.Gcn.mlp (W19 m ρ c (Proc.devRef .tc main_v185)) (W19 m ρ c (Proc.devRef .tc main_arg7)) (W19 m ρ c (Proc.devRef .tc main_v186)) (W19 m ρ c (Proc.devRef .tc main_arg9)) (W19 m ρ c (Proc.devRef .tc main_v187)) :=
    (W20_arr m ρ c 5).trans (RegionValue.head_region9 (V19 m ρ) c)
  rw [h1, pooled, bias1, bias2, at_arg7_19 m ρ c, at_arg9_19 m ρ c, out_stage2 m ρ c hr0 hr1 hr2, Cert.ReferenceIdeal.Layer.result,
    Cert.ReferenceIdeal.Layer.pooled, Cert.ReferenceIdeal.Layer.head_eq_mlp, row128_eq, row10_eq]

end Cert.KernelIdeal.Stages

end
-- ==== Proof.RefRun.lean ====
/-
  The reference's run, read stage by stage.

  The reference is a straight line of host operations, so every weakly fair execution terminates with each buffer
  at the fold of the operations' results over the launch contents. The line is cut after each layer's product, its
  edge aggregation and its normalised output; each stage's buffer is read as the stage's operations applied to what
  the stage found, and that is the corresponding stage function of the arguments. No operation writes an argument.
-/
import proofs.«111193_j89515708383972_1_alg».proof.Proof.Gen.ReferenceIdeal
import proofs.«111193_j89515708383972_1_alg».proof.Proof.RefReadP
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- @main's 296 operations, in order (a called function's operations stand in its call's place, spelt `TRef.…`). -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_cst (constant S_ .f32 0x3F800000#32),
    unary main_cst main_v4 (broadcastInDim S320000 ![] bcast_S_S320000 : (⟨S_, .f32⟩ : BufTy).Contents (Elt F) → (⟨S320000, .f32⟩ : BufTy).Contents (Elt F)),
    nullary main_cst_0 (constant S_ .f32 0x00000000#32),
    unary main_cst_0 main_v5 (broadcastInDim S20000 ![] bcast_S_S20000 : (⟨S_, .f32⟩ : BufTy).Contents (Elt F) → (⟨S20000, .f32⟩ : BufTy).Contents (Elt F)),
    unary main_v3 main_v6 (broadcastInDim S320000x1 ![0] bcast_S320000_S320000x1_0 : (⟨S320000, .i32⟩ : BufTy).Contents (Elt F) → (⟨S320000x1, .i32⟩ : BufTy).Contents (Elt F)),
    ternary main_v5 main_v6 main_v4 main_v7 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    nullary main_cst_1 (constant S_ .f32 0x3F800000#32),
    unary main_cst_1 main_v8 (broadcastInDim S20000 ![] bcast_S_S20000 : (⟨S_, .f32⟩ : BufTy).Contents (Elt F) → (⟨S20000, .f32⟩ : BufTy).Contents (Elt F)),
    binary main_v7 main_v8 main_v9 (addf : (⟨S20000, .f32⟩ : BufTy).Contents (Elt F) → (⟨S20000, .f32⟩ : BufTy).Contents (Elt F) → (⟨S20000, .f32⟩ : BufTy).Contents (Elt F)),
    unary main_v9 main_v10 (Host.rsqrt : (⟨S20000, .f32⟩ : BufTy).Contents (Elt F) → (⟨S20000, .f32⟩ : BufTy).Contents (Elt F)),
    unary main_arg3 main_v11 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v11 main_v12 rfl shapeCasts_S1x256x256_S256x256,
    unary main_arg4 main_v13 ((extractStridedSlice S1x256 ![0, 0] · slices_S3x256_S1x256_0_0) : (⟨S3x256, .f32⟩ : BufTy).Contents (Elt F) → (⟨S1x256, .f32⟩ : BufTy).Contents (Elt F)),
    reshape main_v13 main_v14 rfl shapeCasts_S1x256_S256,
    binary main_arg0 main_v12 main_v15 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c (constantI S_ 32 0#32),
    unary main_c main_v16 (broadcastInDim S320000 ![] bcast_S_S320000 : (⟨S_, .i32⟩ : BufTy).Contents (Elt F) → (⟨S320000, .i32⟩ : BufTy).Contents (Elt F)),
    binary main_v1 main_v16 main_v17 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v18 (broadcastInDim S320000 ![] bcast_S_S320000 : (⟨S_, .i32⟩ : BufTy).Contents (Elt F) → (⟨S320000, .i32⟩ : BufTy).Contents (Elt F)),
    binary main_v1 main_v18 main_v19 (addi : (⟨S320000, .i32⟩ : BufTy).Contents (Elt F) → (⟨S320000, .i32⟩ : BufTy).Contents (Elt F) → (⟨S320000, .i32⟩ : BufTy).Contents (Elt F)),
    ternary main_v17 main_v19 main_v1 main_v20 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v20 main_v21 (broadcastInDim S320000x1 ![0] bcast_S320000_S320000x1_0 : (⟨S320000, .i32⟩ : BufTy).Contents (Elt F) → (⟨S320000x1, .i32⟩ : BufTy).Contents (Elt F)),
    binary main_v10 main_v21 main_v22 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_3 (constantI S_ 32 0#32),
    unary main_c_3 main_v23 (broadcastInDim S320000 ![] bcast_S_S320000 : (⟨S_, .i32⟩ : BufTy).Contents (Elt F) → (⟨S320000, .i32⟩ : BufTy).Contents (Elt F)),
    binary main_v3 main_v23 main_v24 (cmpi .slt : (⟨S320000, .i32⟩ : BufTy).Contents (Elt F) → (⟨S320000, .i32⟩ : BufTy).Contents (Elt F) → (⟨S320000, .i1⟩ : BufTy).Contents (Elt F)),
    nullary main_c_4 (constantI S_ 32 20000#32),
    unary main_c_4 main_v25 (broadcastInDim S320000 ![] bcast_S_S320000 : (⟨S_, .i32⟩ : BufTy).Contents (Elt F) → (⟨S320000, .i32⟩ : BufTy).Contents (Elt F)),
    binary main_v3 main_v25 main_v26 (addi : (⟨S320000, .i32⟩ : BufTy).Contents (Elt F) → (⟨S320000, .i32⟩ : BufTy).Contents (Elt F) → (⟨S320000, .i32⟩ : BufTy).Contents (Elt F)),
    ternary main_v24 main_v26 main_v3 main_v27 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v27 main_v28 (broadcastInDim S320000x1 ![0] bcast_S320000_S320000x1_0 : (⟨S320000, .i32⟩ : BufTy).Contents (Elt F) → (⟨S320000x1, .i32⟩ : BufTy).Contents (Elt F)),
    binary main_v10 main_v28 main_v29 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v22 main_v29 main_v30 (mulf : (⟨S320000, .f32⟩ : BufTy).Contents (Elt F) → (⟨S320000, .f32⟩ : BufTy).Contents (Elt F) → (⟨S320000, .f32⟩ : BufTy).Contents (Elt F)),
    unary main_v30 main_v31 (broadcastInDim S320000x1 ![0] bcast_S320000_S320000x1_0 : (⟨S320000, .f32⟩ : BufTy).Contents (Elt F) → (⟨S320000x1, .f32⟩ : BufTy).Contents (Elt F)),
    nullary main_c_5 (constantI S_ 32 0#32),
    unary main_c_5 main_v32 (broadcastInDim S320000 ![] bcast_S_S320000 : (⟨S_, .i32⟩ : BufTy).Contents (Elt F) → (⟨S320000, .i32⟩ : BufTy).Contents (Elt F)),
    binary main_v1 main_v32 main_v33 (cmpi .slt : (⟨S320000, .i32⟩ : BufTy).Contents (Elt F) → (⟨S320000, .i32⟩ : BufTy).Contents (Elt F) → (⟨S320000, .i1⟩ : BufTy).Contents (Elt F)),
    nullary main_c_6 (constantI S_ 32 20000#32),
    unary main_c_6 main_v34 (broadcastInDim S320000 ![] bcast_S_S320000 : (⟨S_, .i32⟩ : BufTy).Contents (Elt F) → (⟨S320000, .i32⟩ : BufTy).Contents (Elt F)),
    binary main_v1 main_v34 main_v35 (addi : (⟨S320000, .i32⟩ : BufTy).Contents (Elt F) → (⟨S320000, .i32⟩ : BufTy).Contents (Elt F) → (⟨S320000, .i32⟩ : BufTy).Contents (Elt F)),
    ternary main_v33 main_v35 main_v1 main_v36 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v36 main_v37 (broadcastInDim S320000x1 ![0] bcast_S320000_S320000x1_0 : (⟨S320000, .i32⟩ : BufTy).Contents (Elt F) → (⟨S320000x1, .i32⟩ : BufTy).Contents (Elt F)),
    binary main_v15 main_v37 main_v38 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v31 main_v39 (broadcastInDim S320000x256 ![0, 1] bcast_S320000x1_S320000x256_0_1 : (⟨S320000x1, .f32⟩ : BufTy).Contents (Elt F) → (⟨S320000x256, .f32⟩ : BufTy).Contents (Elt F)),
    binary main_v38 main_v39 main_v40 (mulf : (⟨S320000x256, .f32⟩ : BufTy).Contents (Elt F) → (⟨S320000x256, .f32⟩ : BufTy).Contents (Elt F) → (⟨S320000x256, .f32⟩ : BufTy).Contents (Elt F)),
    nullary main_cst_7 (constant S_ .f32 0x00000000#32),
    unary main_cst_7 main_v41 (broadcastInDim S20000x256 ![] bcast_S_S20000x256 : (⟨S_, .f32⟩ : BufTy).Contents (Elt F) → (⟨S20000x256, .f32⟩ : BufTy).Contents (Elt F)),
    unary main_v3 main_v42 (broadcastInDim S320000x1 ![0] bcast_S320000_S320000x1_0 : (⟨S320000, .i32⟩ : BufTy).Contents (Elt F) → (⟨S320000x1, .i32⟩ : BufTy).Contents (Elt F)),
    ternary main_v41 main_v42 main_v40 main_v43 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    binary main_v10 main_v10 main_v44 (mulf : (⟨S20000, .f32⟩ : BufTy).Contents (Elt F) → (⟨S20000, .f32⟩ : BufTy).Contents (Elt F) → (⟨S20000, .f32⟩ : BufTy).Contents (Elt F)),
    unary main_v44 main_v45 (broadcastInDim S20000x1 ![0] bcast_S20000_S20000x1_0 : (⟨S20000, .f32⟩ : BufTy).Contents (Elt F) → (⟨S20000x1, .f32⟩ : BufTy).Contents (Elt F)),
    unary main_v45 main_v46 (broadcastInDim S20000x256 ![0, 1] bcast_S20000x1_S20000x256_0_1 : (⟨S20000x1, .f32⟩ : BufTy).Contents (Elt F) → (⟨S20000x256, .f32⟩ : BufTy).Contents (Elt F)),
    binary main_v15 main_v46 main_v47 (mulf : (⟨S20000x256, .f32⟩ : BufTy).Contents (Elt F) → (⟨S20000x256, .f32⟩ : BufTy).Contents (Elt F) → (⟨S20000x256, .f32⟩ : BufTy).Contents (Elt F)),
    binary main_v43 main_v47 main_v48 (addf : (⟨S20000x256, .f32⟩ : BufTy).Contents (Elt F) → (⟨S20000x256, .f32⟩ : BufTy).Contents (Elt F) → (⟨S20000x256, .f32⟩ : BufTy).Contents (Elt F)),
    unary main_v14 main_v49 (broadcastInDim S1x256 ![1] bcast_S256_S1x256_1 : (⟨S256, .f32⟩ : BufTy).Contents (Elt F) → (⟨S1x256, .f32⟩ : BufTy).Contents (Elt F)),
    unary main_v49 main_v50 (broadcastInDim S20000x256 ![0, 1] bcast_S1x256_S20000x256_0_1 : (⟨S1x256, .f32⟩ : BufTy).Contents (Elt F) → (⟨S20000x256, .f32⟩ : BufTy).Contents (Elt F)),
    binary main_v48 main_v50 main_v51 (addf : (⟨S20000x256, .f32⟩ : BufTy).Contents (Elt F) → (⟨S20000x256, .f32⟩ : BufTy).Contents (Elt F) → (⟨S20000x256, .f32⟩ : BufTy).Contents (Elt F)),
    unary main_arg5 main_v52 ((extractStridedSlice S1x256 ![0, 0] · slices_S3x256_S1x256_0_0) : (⟨S3x256, .f32⟩ : BufTy).Contents (Elt F) → (⟨S1x256, .f32⟩ : BufTy).Contents (Elt F)),
    reshape main_v52 main_v53 rfl shapeCasts_S1x256_S256,
    unary main_arg6 main_v54 ((extractStridedSlice S1x256 ![0, 0] · slices_S3x256_S1x256_0_0) : (⟨S3x256, .f32⟩ : BufTy).Contents (Elt F) → (⟨S1x256, .f32⟩ : BufTy).Contents (Elt F)),
    reshape main_v54 main_v55 rfl shapeCasts_S1x256_S256,
    nullary main_cst_8 (constant S_ .f32 0x00000000#32),
    binary main_v51 main_cst_8 main_v56 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_9 (constant S_ .f32 0x469C4000#32),
    unary main_cst_9 main_v57 (broadcastInDim S256 ![] bcast_S_S256 : (⟨S_, .f32⟩ : BufTy).Contents (Elt F) → (⟨S256, .f32⟩ : BufTy).Contents (Elt F)),
    binary main_v56 main_v57 main_v58 (Host.divf : (⟨S256, .f32⟩ : BufTy).Contents (Elt F) → (⟨S256, .f32⟩ : BufTy).Contents (Elt F) → (⟨S256, .f32⟩ : BufTy).Contents (Elt F)),
    unary main_v58 main_v59 (broadcastInDim S1x256 ![1] bcast_S256_S1x256_1 : (⟨S256, .f32⟩ : BufTy).Contents (Elt F) → (⟨S1x256, .f32⟩ : BufTy).Contents (Elt F)),
    unary main_v59 main_v60 (broadcastInDim S20000x256 ![0, 1] bcast_S1x256_S20000x256_0_1 : (⟨S1x256, .f32⟩ : BufTy).Contents (Elt F) → (⟨S20000x256, .f32⟩ : BufTy).Contents (Elt F)),
    binary main_v51 main_v60 main_v61 (subf : (⟨S20000x256, .f32⟩ : BufTy).Contents (Elt F) → (⟨S20000x256, .f32⟩ : BufTy).Contents (Elt F) → (⟨S20000x256, .f32⟩ : BufTy).Contents (Elt F)),
    binary main_v61 main_v61 main_v62 (mulf : (⟨S20000x256, .f32⟩ : BufTy).Contents (Elt F) → (⟨S20000x256, .f32⟩ : BufTy).Contents (Elt F) → (⟨S20000x256, .f32⟩ : BufTy).Contents (Elt F)),
    nullary main_cst_10 (constant S_ .f32 0x00000000#32),
    binary main_v62 main_cst_10 main_v63 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_11 (constant S_ .f32 0x469C4000#32),
    unary main_cst_11 main_v64 (broadcastInDim S256 ![] bcast_S_S256 : (⟨S_, .f32⟩ : BufTy).Contents (Elt F) → (⟨S256, .f32⟩ : BufTy).Contents (Elt F)),
    binary main_v63 main_v64 main_v65 (Host.divf : (⟨S256, .f32⟩ : BufTy).Contents (Elt F) → (⟨S256, .f32⟩ : BufTy).Contents (Elt F) → (⟨S256, .f32⟩ : BufTy).Contents (Elt F)),
    unary main_v58 main_v66 (broadcastInDim S1x256 ![1] bcast_S256_S1x256_1 : (⟨S256, .f32⟩ : BufTy).Contents (Elt F) → (⟨S1x256, .f32⟩ : BufTy).Contents (Elt F)),
    unary main_v66 main_v67 (broadcastInDim S20000x256 ![0, 1] bcast_S1x256_S20000x256_0_1 : (⟨S1x256, .f32⟩ : BufTy).Contents (Elt F) → (⟨S20000x256, .f32⟩ : BufTy).Contents (Elt F)),
    binary main_v51 main_v67 main_v68 (subf : (⟨S20000x256, .f32⟩ : BufTy).Contents (Elt F) → (⟨S20000x256, .f32⟩ : BufTy).Contents (Elt F) → (⟨S20000x256, .f32⟩ : BufTy).Contents (Elt F)),
    unary main_v53 main_v69 (broadcastInDim S1x256 ![1] bcast_S256_S1x256_1 : (⟨S256, .f32⟩ : BufTy).Contents (Elt F) → (⟨S1x256, .f32⟩ : BufTy).Contents (Elt F)),
    unary main_v69 main_v70 (broadcastInDim S20000x256 ![0, 1] bcast_S1x256_S20000x256_0_1 : (⟨S1x256, .f32⟩ : BufTy).Contents (Elt F) → (⟨S20000x256, .f32⟩ : BufTy).Contents (Elt F)),
    binary main_v70 main_v68 main_v71 (mulf : (⟨S20000x256, .f32⟩ : BufTy).Contents (Elt F) → (⟨S20000x256, .f32⟩ : BufTy).Contents (Elt F) → (⟨S20000x256, .f32⟩ : BufTy).Contents (Elt F)),
    nullary main_cst_12 (constant S_ .f32 0x3727C5AC#32),
    unary main_cst_12 main_v72 (broadcastInDim S256 ![] bcast_S_S256 : (⟨S_, .f32⟩ : BufTy).Contents (Elt F) → (⟨S256, .f32⟩ : BufTy).Contents (Elt F)),
    binary main_v65 main_v72 main_v73 (addf : (⟨S256, .f32⟩ : BufTy).Contents (Elt F) → (⟨S256, .f32⟩ : BufTy).Contents (Elt F) → (⟨S256, .f32⟩ : BufTy).Contents (Elt F)),
    unary main_v73 main_v74 (Host.rsqrt : (⟨S256, .f32⟩ : BufTy).Contents (Elt F) → (⟨S256, .f32⟩ : BufTy).Contents (Elt F)),
    unary main_v74 main_v75 (broadcastInDim S1x256 ![1] bcast_S256_S1x256_1 : (⟨S256, .f32⟩ : BufTy).Contents (Elt F) → (⟨S1x256, .f32⟩ : BufTy).Contents (Elt F)),
    unary main_v75 main_v76 (broadcastInDim S20000x256 ![0, 1] bcast_S1x256_S20000x256_0_1 : (⟨S1x256, .f32⟩ : BufTy).Contents (Elt F) → (⟨S20000x256, .f32⟩ : BufTy).Contents (Elt F)),
    binary main_v71 main_v76 main_v77 (mulf : (⟨S20000x256, .f32⟩ : BufTy).Contents (Elt F) → (⟨S20000x256, .f32⟩ : BufTy).Contents (Elt F) → (⟨S20000x256, .f32⟩ : BufTy).Contents (Elt F)),
    unary main_v55 main_v78 (broadcastInDim S1x256 ![1] bcast_S256_S1x256_1 : (⟨S256, .f32⟩ : BufTy).Contents (Elt F) → (⟨S1x256, .f32⟩ : BufTy).Contents (Elt F)),
    unary main_v78 main_v79 (broadcastInDim S20000x256 ![0, 1] bcast_S1x256_S20000x256_0_1 : (⟨S1x256, .f32⟩ : BufTy).Contents (Elt F) → (⟨S20000x256, .f32⟩ : BufTy).Contents (Elt F)),
    binary main_v77 main_v79 main_v80 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x256, .f32⟩) main_call0_v0) (broadcastInDim S20000x256 ![] bcast_S_S20000x256),
    TRef.binary (TRef.of (T := ⟨S20000x256, .f32⟩) main_v80) (TRef.of (T := ⟨S20000x256, .f32⟩) main_call0_v0) (TRef.of (T := ⟨S20000x256, .f32⟩) main_v81) maximumf,
    unary main_arg3 main_v82 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v82 main_v83 rfl shapeCasts_S1x256x256_S256x256,
    unary main_arg4 main_v84 ((extractStridedSlice S1x256 ![1, 0] · slices_S3x256_S1x256_1_0) : (⟨S3x256, .f32⟩ : BufTy).Contents (Elt F) → (⟨S1x256, .f32⟩ : BufTy).Contents (Elt F)),
    reshape main_v84 main_v85 rfl shapeCasts_S1x256_S256,
    binary main_v81 main_v83 main_v86 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_13 (constantI S_ 32 0#32),
    unary main_c_13 main_v87 (broadcastInDim S320000 ![] bcast_S_S320000 : (⟨S_, .i32⟩ : BufTy).Contents (Elt F) → (⟨S320000, .i32⟩ : BufTy).Contents (Elt F)),
    binary main_v1 main_v87 main_v88 (cmpi .slt : (⟨S320000, .i32⟩ : BufTy).Contents (Elt F) → (⟨S320000, .i32⟩ : BufTy).Contents (Elt F) → (⟨S320000, .i1⟩ : BufTy).Contents (Elt F)),
    nullary main_c_14 (constantI S_ 32 20000#32),
    unary main_c_14 main_v89 (broadcastInDim S320000 ![] bcast_S_S320000 : (⟨S_, .i32⟩ : BufTy).Contents (Elt F) → (⟨S320000, .i32⟩ : BufTy).Contents (Elt F)),
    binary main_v1 main_v89 main_v90 (addi : (⟨S320000, .i32⟩ : BufTy).Contents (Elt F) → (⟨S320000, .i32⟩ : BufTy).Contents (Elt F) → (⟨S320000, .i32⟩ : BufTy).Contents (Elt F)),
    ternary main_v88 main_v90 main_v1 main_v91 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v91 main_v92 (broadcastInDim S320000x1 ![0] bcast_S320000_S320000x1_0 : (⟨S320000, .i32⟩ : BufTy).Contents (Elt F) → (⟨S320000x1, .i32⟩ : BufTy).Contents (Elt F)),
    binary main_v10 main_v92 main_v93 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_15 (constantI S_ 32 0#32),
    unary main_c_15 main_v94 (broadcastInDim S320000 ![] bcast_S_S320000 : (⟨S_, .i32⟩ : BufTy).Contents (Elt F) → (⟨S320000, .i32⟩ : BufTy).Contents (Elt F)),
    binary main_v3 main_v94 main_v95 (cmpi .slt : (⟨S320000, .i32⟩ : BufTy).Contents (Elt F) → (⟨S320000, .i32⟩ : BufTy).Contents (Elt F) → (⟨S320000, .i1⟩ : BufTy).Contents (Elt F)),
    nullary main_c_16 (constantI S_ 32 20000#32),
    unary main_c_16 main_v96 (broadcastInDim S320000 ![] bcast_S_S320000 : (⟨S_, .i32⟩ : BufTy).Contents (Elt F) → (⟨S320000, .i32⟩ : BufTy).Contents (Elt F)),
    binary main_v3 main_v96 main_v97 (addi : (⟨S320000, .i32⟩ : BufTy).Contents (Elt F) → (⟨S320000, .i32⟩ : BufTy).Contents (Elt F) → (⟨S320000, .i32⟩ : BufTy).Contents (Elt F)),
    ternary main_v95 main_v97 main_v3 main_v98 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v98 main_v99 (broadcastInDim S320000x1 ![0] bcast_S320000_S320000x1_0 : (⟨S320000, .i32⟩ : BufTy).Contents (Elt F) → (⟨S320000x1, .i32⟩ : BufTy).Contents (Elt F)),
    binary main_v10 main_v99 main_v100 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v93 main_v100 main_v101 (mulf : (⟨S320000, .f32⟩ : BufTy).Contents (Elt F) → (⟨S320000, .f32⟩ : BufTy).Contents (Elt F) → (⟨S320000, .f32⟩ : BufTy).Contents (Elt F)),
    unary main_v101 main_v102 (broadcastInDim S320000x1 ![0] bcast_S320000_S320000x1_0 : (⟨S320000, .f32⟩ : BufTy).Contents (Elt F) → (⟨S320000x1, .f32⟩ : BufTy).Contents (Elt F)),
    nullary main_c_17 (constantI S_ 32 0#32),
    unary main_c_17 main_v103 (broadcastInDim S320000 ![] bcast_S_S320000 : (⟨S_, .i32⟩ : BufTy).Contents (Elt F) → (⟨S320000, .i32⟩ : BufTy).Contents (Elt F)),
    binary main_v1 main_v103 main_v104 (cmpi .slt : (⟨S320000, .i32⟩ : BufTy).Contents (Elt F) → (⟨S320000, .i32⟩ : BufTy).Contents (Elt F) → (⟨S320000, .i1⟩ : BufTy).Contents (Elt F)),
    nullary main_c_18 (constantI S_ 32 20000#32),
    unary main_c_18 main_v105 (broadcastInDim S320000 ![] bcast_S_S320000 : (⟨S_, .i32⟩ : BufTy).Contents (Elt F) → (⟨S320000, .i32⟩ : BufTy).Contents (Elt F)),
    binary main_v1 main_v105 main_v106 (addi : (⟨S320000, .i32⟩ : BufTy).Contents (Elt F) → (⟨S320000, .i32⟩ : BufTy).Contents (Elt F) → (⟨S320000, .i32⟩ : BufTy).Contents (Elt F)),
    ternary main_v104 main_v106 main_v1 main_v107 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v107 main_v108 (broadcastInDim S320000x1 ![0] bcast_S320000_S320000x1_0 : (⟨S320000, .i32⟩ : BufTy).Contents (Elt F) → (⟨S320000x1, .i32⟩ : BufTy).Contents (Elt F)),
    binary main_v86 main_v108 main_v109 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v102 main_v110 (broadcastInDim S320000x256 ![0, 1] bcast_S320000x1_S320000x256_0_1 : (⟨S320000x1, .f32⟩ : BufTy).Contents (Elt F) → (⟨S320000x256, .f32⟩ : BufTy).Contents (Elt F)),
    binary main_v109 main_v110 main_v111 (mulf : (⟨S320000x256, .f32⟩ : BufTy).Contents (Elt F) → (⟨S320000x256, .f32⟩ : BufTy).Contents (Elt F) → (⟨S320000x256, .f32⟩ : BufTy).Contents (Elt F)),
    nullary main_cst_19 (constant S_ .f32 0x00000000#32),
    unary main_cst_19 main_v112 (broadcastInDim S20000x256 ![] bcast_S_S20000x256 : (⟨S_, .f32⟩ : BufTy).Contents (Elt F) → (⟨S20000x256, .f32⟩ : BufTy).Contents (Elt F)),
    unary main_v3 main_v113 (broadcastInDim S320000x1 ![0] bcast_S320000_S320000x1_0 : (⟨S320000, .i32⟩ : BufTy).Contents (Elt F) → (⟨S320000x1, .i32⟩ : BufTy).Contents (Elt F)),
    ternary main_v112 main_v113 main_v111 main_v114 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    binary main_v10 main_v10 main_v115 (mulf : (⟨S20000, .f32⟩ : BufTy).Contents (Elt F) → (⟨S20000, .f32⟩ : BufTy).Contents (Elt F) → (⟨S20000, .f32⟩ : BufTy).Contents (Elt F)),
    unary main_v115 main_v116 (broadcastInDim S20000x1 ![0] bcast_S20000_S20000x1_0 : (⟨S20000, .f32⟩ : BufTy).Contents (Elt F) → (⟨S20000x1, .f32⟩ : BufTy).Contents (Elt F)),
    unary main_v116 main_v117 (broadcastInDim S20000x256 ![0, 1] bcast_S20000x1_S20000x256_0_1 : (⟨S20000x1, .f32⟩ : BufTy).Contents (Elt F) → (⟨S20000x256, .f32⟩ : BufTy).Contents (Elt F)),
    binary main_v86 main_v117 main_v118 (mulf : (⟨S20000x256, .f32⟩ : BufTy).Contents (Elt F) → (⟨S20000x256, .f32⟩ : BufTy).Contents (Elt F) → (⟨S20000x256, .f32⟩ : BufTy).Contents (Elt F)),
    binary main_v114 main_v118 main_v119 (addf : (⟨S20000x256, .f32⟩ : BufTy).Contents (Elt F) → (⟨S20000x256, .f32⟩ : BufTy).Contents (Elt F) → (⟨S20000x256, .f32⟩ : BufTy).Contents (Elt F)),
    unary main_v85 main_v120 (broadcastInDim S1x256 ![1] bcast_S256_S1x256_1 : (⟨S256, .f32⟩ : BufTy).Contents (Elt F) → (⟨S1x256, .f32⟩ : BufTy).Contents (Elt F)),
    unary main_v120 main_v121 (broadcastInDim S20000x256 ![0, 1] bcast_S1x256_S20000x256_0_1 : (⟨S1x256, .f32⟩ : BufTy).Contents (Elt F) → (⟨S20000x256, .f32⟩ : BufTy).Contents (Elt F)),
    binary main_v119 main_v121 main_v122 (addf : (⟨S20000x256, .f32⟩ : BufTy).Contents (Elt F) → (⟨S20000x256, .f32⟩ : BufTy).Contents (Elt F) → (⟨S20000x256, .f32⟩ : BufTy).Contents (Elt F)),
    unary main_arg5 main_v123 ((extractStridedSlice S1x256 ![1, 0] · slices_S3x256_S1x256_1_0) : (⟨S3x256, .f32⟩ : BufTy).Contents (Elt F) → (⟨S1x256, .f32⟩ : BufTy).Contents (Elt F)),
    reshape main_v123 main_v124 rfl shapeCasts_S1x256_S256,
    unary main_arg6 main_v125 ((extractStridedSlice S1x256 ![1, 0] · slices_S3x256_S1x256_1_0) : (⟨S3x256, .f32⟩ : BufTy).Contents (Elt F) → (⟨S1x256, .f32⟩ : BufTy).Contents (Elt F)),
    reshape main_v125 main_v126 rfl shapeCasts_S1x256_S256,
    nullary main_cst_20 (constant S_ .f32 0x00000000#32),
    binary main_v122 main_cst_20 main_v127 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_21 (constant S_ .f32 0x469C4000#32),
    unary main_cst_21 main_v128 (broadcastInDim S256 ![] bcast_S_S256 : (⟨S_, .f32⟩ : BufTy).Contents (Elt F) → (⟨S256, .f32⟩ : BufTy).Contents (Elt F)),
    binary main_v127 main_v128 main_v129 (Host.divf : (⟨S256, .f32⟩ : BufTy).Contents (Elt F) → (⟨S256, .f32⟩ : BufTy).Contents (Elt F) → (⟨S256, .f32⟩ : BufTy).Contents (Elt F)),
    unary main_v129 main_v130 (broadcastInDim S1x256 ![1] bcast_S256_S1x256_1 : (⟨S256, .f32⟩ : BufTy).Contents (Elt F) → (⟨S1x256, .f32⟩ : BufTy).Contents (Elt F)),
    unary main_v130 main_v131 (broadcastInDim S20000x256 ![0, 1] bcast_S1x256_S20000x256_0_1 : (⟨S1x256, .f32⟩ : BufTy).Contents (Elt F) → (⟨S20000x256, .f32⟩ : BufTy).Contents (Elt F)),
    binary main_v122 main_v131 main_v132 (subf : (⟨S20000x256, .f32⟩ : BufTy).Contents (Elt F) → (⟨S20000x256, .f32⟩ : BufTy).Contents (Elt F) → (⟨S20000x256, .f32⟩ : BufTy).Contents (Elt F)),
    binary main_v132 main_v132 main_v133 (mulf : (⟨S20000x256, .f32⟩ : BufTy).Contents (Elt F) → (⟨S20000x256, .f32⟩ : BufTy).Contents (Elt F) → (⟨S20000x256, .f32⟩ : BufTy).Contents (Elt F)),
    nullary main_cst_22 (constant S_ .f32 0x00000000#32),
    binary main_v133 main_cst_22 main_v134 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_23 (constant S_ .f32 0x469C4000#32),
    unary main_cst_23 main_v135 (broadcastInDim S256 ![] bcast_S_S256 : (⟨S_, .f32⟩ : BufTy).Contents (Elt F) → (⟨S256, .f32⟩ : BufTy).Contents (Elt F)),
    binary main_v134 main_v135 main_v136 (Host.divf : (⟨S256, .f32⟩ : BufTy).Contents (Elt F) → (⟨S256, .f32⟩ : BufTy).Contents (Elt F) → (⟨S256, .f32⟩ : BufTy).Contents (Elt F)),
    unary main_v129 main_v137 (broadcastInDim S1x256 ![1] bcast_S256_S1x256_1 : (⟨S256, .f32⟩ : BufTy).Contents (Elt F) → (⟨S1x256, .f32⟩ : BufTy).Contents (Elt F)),
    unary main_v137 main_v138 (broadcastInDim S20000x256 ![0, 1] bcast_S1x256_S20000x256_0_1 : (⟨S1x256, .f32⟩ : BufTy).Contents (Elt F) → (⟨S20000x256, .f32⟩ : BufTy).Contents (Elt F)),
    binary main_v122 main_v138 main_v139 (subf : (⟨S20000x256, .f32⟩ : BufTy).Contents (Elt F) → (⟨S20000x256, .f32⟩ : BufTy).Contents (Elt F) → (⟨S20000x256, .f32⟩ : BufTy).Contents (Elt F)),
    unary main_v124 main_v140 (broadcastInDim S1x256 ![1] bcast_S256_S1x256_1 : (⟨S256, .f32⟩ : BufTy).Contents (Elt F) → (⟨S1x256, .f32⟩ : BufTy).Contents (Elt F)),
    unary main_v140 main_v141 (broadcastInDim S20000x256 ![0, 1] bcast_S1x256_S20000x256_0_1 : (⟨S1x256, .f32⟩ : BufTy).Contents (Elt F) → (⟨S20000x256, .f32⟩ : BufTy).Contents (Elt F)),
    binary main_v141 main_v139 main_v142 (mulf : (⟨S20000x256, .f32⟩ : BufTy).Contents (Elt F) → (⟨S20000x256, .f32⟩ : BufTy).Contents (Elt F) → (⟨S20000x256, .f32⟩ : BufTy).Contents (Elt F)),
    nullary main_cst_24 (constant S_ .f32 0x3727C5AC#32),
    unary main_cst_24 main_v143 (broadcastInDim S256 ![] bcast_S_S256 : (⟨S_, .f32⟩ : BufTy).Contents (Elt F) → (⟨S256, .f32⟩ : BufTy).Contents (Elt F)),
    binary main_v136 main_v143 main_v144 (addf : (⟨S256, .f32⟩ : BufTy).Contents (Elt F) → (⟨S256, .f32⟩ : BufTy).Contents (Elt F) → (⟨S256, .f32⟩ : BufTy).Contents (Elt F)),
    unary main_v144 main_v145 (Host.rsqrt : (⟨S256, .f32⟩ : BufTy).Contents (Elt F) → (⟨S256, .f32⟩ : BufTy).Contents (Elt F)),
    unary main_v145 main_v146 (broadcastInDim S1x256 ![1] bcast_S256_S1x256_1 : (⟨S256, .f32⟩ : BufTy).Contents (Elt F) → (⟨S1x256, .f32⟩ : BufTy).Contents (Elt F)),
    unary main_v146 main_v147 (broadcastInDim S20000x256 ![0, 1] bcast_S1x256_S20000x256_0_1 : (⟨S1x256, .f32⟩ : BufTy).Contents (Elt F) → (⟨S20000x256, .f32⟩ : BufTy).Contents (Elt F)),
    binary main_v142 main_v147 main_v148 (mulf : (⟨S20000x256, .f32⟩ : BufTy).Contents (Elt F) → (⟨S20000x256, .f32⟩ : BufTy).Contents (Elt F) → (⟨S20000x256, .f32⟩ : BufTy).Contents (Elt F)),
    unary main_v126 main_v149 (broadcastInDim S1x256 ![1] bcast_S256_S1x256_1 : (⟨S256, .f32⟩ : BufTy).Contents (Elt F) → (⟨S1x256, .f32⟩ : BufTy).Contents (Elt F)),
    unary main_v149 main_v150 (broadcastInDim S20000x256 ![0, 1] bcast_S1x256_S20000x256_0_1 : (⟨S1x256, .f32⟩ : BufTy).Contents (Elt F) → (⟨S20000x256, .f32⟩ : BufTy).Contents (Elt F)),
    binary main_v148 main_v150 main_v151 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v151) (TRef.of (T := ⟨S20000x256, .f32⟩) main_call1_v0) (TRef.of (T := ⟨S20000x256, .f32⟩) main_v152) maximumf,
    unary main_arg3 main_v153 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v153 main_v154 rfl shapeCasts_S1x256x256_S256x256,
    unary main_arg4 main_v155 ((extractStridedSlice S1x256 ![2, 0] · slices_S3x256_S1x256_2_0) : (⟨S3x256, .f32⟩ : BufTy).Contents (Elt F) → (⟨S1x256, .f32⟩ : BufTy).Contents (Elt F)),
    reshape main_v155 main_v156 rfl shapeCasts_S1x256_S256,
    binary main_v152 main_v154 main_v157 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_c_25 (constantI S_ 32 0#32),
    unary main_c_25 main_v158 (broadcastInDim S320000 ![] bcast_S_S320000 : (⟨S_, .i32⟩ : BufTy).Contents (Elt F) → (⟨S320000, .i32⟩ : BufTy).Contents (Elt F)),
    binary main_v1 main_v158 main_v159 (cmpi .slt : (⟨S320000, .i32⟩ : BufTy).Contents (Elt F) → (⟨S320000, .i32⟩ : BufTy).Contents (Elt F) → (⟨S320000, .i1⟩ : BufTy).Contents (Elt F)),
    nullary main_c_26 (constantI S_ 32 20000#32),
    unary main_c_26 main_v160 (broadcastInDim S320000 ![] bcast_S_S320000 : (⟨S_, .i32⟩ : BufTy).Contents (Elt F) → (⟨S320000, .i32⟩ : BufTy).Contents (Elt F)),
    binary main_v1 main_v160 main_v161 (addi : (⟨S320000, .i32⟩ : BufTy).Contents (Elt F) → (⟨S320000, .i32⟩ : BufTy).Contents (Elt F) → (⟨S320000, .i32⟩ : BufTy).Contents (Elt F)),
    ternary main_v159 main_v161 main_v1 main_v162 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v162 main_v163 (broadcastInDim S320000x1 ![0] bcast_S320000_S320000x1_0 : (⟨S320000, .i32⟩ : BufTy).Contents (Elt F) → (⟨S320000x1, .i32⟩ : BufTy).Contents (Elt F)),
    binary main_v10 main_v163 main_v164 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_27 (constantI S_ 32 0#32),
    unary main_c_27 main_v165 (broadcastInDim S320000 ![] bcast_S_S320000 : (⟨S_, .i32⟩ : BufTy).Contents (Elt F) → (⟨S320000, .i32⟩ : BufTy).Contents (Elt F)),
    binary main_v3 main_v165 main_v166 (cmpi .slt : (⟨S320000, .i32⟩ : BufTy).Contents (Elt F) → (⟨S320000, .i32⟩ : BufTy).Contents (Elt F) → (⟨S320000, .i1⟩ : BufTy).Contents (Elt F)),
    nullary main_c_28 (constantI S_ 32 20000#32),
    unary main_c_28 main_v167 (broadcastInDim S320000 ![] bcast_S_S320000 : (⟨S_, .i32⟩ : BufTy).Contents (Elt F) → (⟨S320000, .i32⟩ : BufTy).Contents (Elt F)),
    binary main_v3 main_v167 main_v168 (addi : (⟨S320000, .i32⟩ : BufTy).Contents (Elt F) → (⟨S320000, .i32⟩ : BufTy).Contents (Elt F) → (⟨S320000, .i32⟩ : BufTy).Contents (Elt F)),
    ternary main_v166 main_v168 main_v3 main_v169 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v169 main_v170 (broadcastInDim S320000x1 ![0] bcast_S320000_S320000x1_0 : (⟨S320000, .i32⟩ : BufTy).Contents (Elt F) → (⟨S320000x1, .i32⟩ : BufTy).Contents (Elt F)),
    binary main_v10 main_v170 main_v171 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v164 main_v171 main_v172 (mulf : (⟨S320000, .f32⟩ : BufTy).Contents (Elt F) → (⟨S320000, .f32⟩ : BufTy).Contents (Elt F) → (⟨S320000, .f32⟩ : BufTy).Contents (Elt F)),
    unary main_v172 main_v173 (broadcastInDim S320000x1 ![0] bcast_S320000_S320000x1_0 : (⟨S320000, .f32⟩ : BufTy).Contents (Elt F) → (⟨S320000x1, .f32⟩ : BufTy).Contents (Elt F)),
    nullary main_c_29 (constantI S_ 32 0#32),
    unary main_c_29 main_v174 (broadcastInDim S320000 ![] bcast_S_S320000 : (⟨S_, .i32⟩ : BufTy).Contents (Elt F) → (⟨S320000, .i32⟩ : BufTy).Contents (Elt F)),
    binary main_v1 main_v174 main_v175 (cmpi .slt : (⟨S320000, .i32⟩ : BufTy).Contents (Elt F) → (⟨S320000, .i32⟩ : BufTy).Contents (Elt F) → (⟨S320000, .i1⟩ : BufTy).Contents (Elt F)),
    nullary main_c_30 (constantI S_ 32 20000#32),
    unary main_c_30 main_v176 (broadcastInDim S320000 ![] bcast_S_S320000 : (⟨S_, .i32⟩ : BufTy).Contents (Elt F) → (⟨S320000, .i32⟩ : BufTy).Contents (Elt F)),
    binary main_v1 main_v176 main_v177 (addi : (⟨S320000, .i32⟩ : BufTy).Contents (Elt F) → (⟨S320000, .i32⟩ : BufTy).Contents (Elt F) → (⟨S320000, .i32⟩ : BufTy).Contents (Elt F)),
    ternary main_v175 main_v177 main_v1 main_v178 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v178 main_v179 (broadcastInDim S320000x1 ![0] bcast_S320000_S320000x1_0 : (⟨S320000, .i32⟩ : BufTy).Contents (Elt F) → (⟨S320000x1, .i32⟩ : BufTy).Contents (Elt F)),
    binary main_v157 main_v179 main_v180 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v173 main_v181 (broadcastInDim S320000x256 ![0, 1] bcast_S320000x1_S320000x256_0_1 : (⟨S320000x1, .f32⟩ : BufTy).Contents (Elt F) → (⟨S320000x256, .f32⟩ : BufTy).Contents (Elt F)),
    binary main_v180 main_v181 main_v182 (mulf : (⟨S320000x256, .f32⟩ : BufTy).Contents (Elt F) → (⟨S320000x256, .f32⟩ : BufTy).Contents (Elt F) → (⟨S320000x256, .f32⟩ : BufTy).Contents (Elt F)),
    nullary main_cst_31 (constant S_ .f32 0x00000000#32),
    unary main_cst_31 main_v183 (broadcastInDim S20000x256 ![] bcast_S_S20000x256 : (⟨S_, .f32⟩ : BufTy).Contents (Elt F) → (⟨S20000x256, .f32⟩ : BufTy).Contents (Elt F)),
    unary main_v3 main_v184 (broadcastInDim S320000x1 ![0] bcast_S320000_S320000x1_0 : (⟨S320000, .i32⟩ : BufTy).Contents (Elt F) → (⟨S320000x1, .i32⟩ : BufTy).Contents (Elt F)),
    ternary main_v183 main_v184 main_v182 main_v185 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    binary main_v10 main_v10 main_v186 (mulf : (⟨S20000, .f32⟩ : BufTy).Contents (Elt F) → (⟨S20000, .f32⟩ : BufTy).Contents (Elt F) → (⟨S20000, .f32⟩ : BufTy).Contents (Elt F)),
    unary main_v186 main_v187 (broadcastInDim S20000x1 ![0] bcast_S20000_S20000x1_0 : (⟨S20000, .f32⟩ : BufTy).Contents (Elt F) → (⟨S20000x1, .f32⟩ : BufTy).Contents (Elt F)),
    unary main_v187 main_v188 (broadcastInDim S20000x256 ![0, 1] bcast_S20000x1_S20000x256_0_1 : (⟨S20000x1, .f32⟩ : BufTy).Contents (Elt F) → (⟨S20000x256, .f32⟩ : BufTy).Contents (Elt F)),
    binary main_v157 main_v188 main_v189 (mulf : (⟨S20000x256, .f32⟩ : BufTy).Contents (Elt F) → (⟨S20000x256, .f32⟩ : BufTy).Contents (Elt F) → (⟨S20000x256, .f32⟩ : BufTy).Contents (Elt F)),
    binary main_v185 main_v189 main_v190 (addf : (⟨S20000x256, .f32⟩ : BufTy).Contents (Elt F) → (⟨S20000x256, .f32⟩ : BufTy).Contents (Elt F) → (⟨S20000x256, .f32⟩ : BufTy).Contents (Elt F)),
    unary main_v156 main_v191 (broadcastInDim S1x256 ![1] bcast_S256_S1x256_1 : (⟨S256, .f32⟩ : BufTy).Contents (Elt F) → (⟨S1x256, .f32⟩ : BufTy).Contents (Elt F)),
    unary main_v191 main_v192 (broadcastInDim S20000x256 ![0, 1] bcast_S1x256_S20000x256_0_1 : (⟨S1x256, .f32⟩ : BufTy).Contents (Elt F) → (⟨S20000x256, .f32⟩ : BufTy).Contents (Elt F)),
    binary main_v190 main_v192 main_v193 (addf : (⟨S20000x256, .f32⟩ : BufTy).Contents (Elt F) → (⟨S20000x256, .f32⟩ : BufTy).Contents (Elt F) → (⟨S20000x256, .f32⟩ : BufTy).Contents (Elt F)),
    unary main_arg5 main_v194 ((extractStridedSlice S1x256 ![2, 0] · slices_S3x256_S1x256_2_0) : (⟨S3x256, .f32⟩ : BufTy).Contents (Elt F) → (⟨S1x256, .f32⟩ : BufTy).Contents (Elt F)),
    reshape main_v194 main_v195 rfl shapeCasts_S1x256_S256,
    unary main_arg6 main_v196 ((extractStridedSlice S1x256 ![2, 0] · slices_S3x256_S1x256_2_0) : (⟨S3x256, .f32⟩ : BufTy).Contents (Elt F) → (⟨S1x256, .f32⟩ : BufTy).Contents (Elt F)),
    reshape main_v196 main_v197 rfl shapeCasts_S1x256_S256,
    nullary main_cst_32 (constant S_ .f32 0x00000000#32),
    binary main_v193 main_cst_32 main_v198 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_33 (constant S_ .f32 0x469C4000#32),
    unary main_cst_33 main_v199 (broadcastInDim S256 ![] bcast_S_S256 : (⟨S_, .f32⟩ : BufTy).Contents (Elt F) → (⟨S256, .f32⟩ : BufTy).Contents (Elt F)),
    binary main_v198 main_v199 main_v200 (Host.divf : (⟨S256, .f32⟩ : BufTy).Contents (Elt F) → (⟨S256, .f32⟩ : BufTy).Contents (Elt F) → (⟨S256, .f32⟩ : BufTy).Contents (Elt F)),
    unary main_v200 main_v201 (broadcastInDim S1x256 ![1] bcast_S256_S1x256_1 : (⟨S256, .f32⟩ : BufTy).Contents (Elt F) → (⟨S1x256, .f32⟩ : BufTy).Contents (Elt F)),
    unary main_v201 main_v202 (broadcastInDim S20000x256 ![0, 1] bcast_S1x256_S20000x256_0_1 : (⟨S1x256, .f32⟩ : BufTy).Contents (Elt F) → (⟨S20000x256, .f32⟩ : BufTy).Contents (Elt F)),
    binary main_v193 main_v202 main_v203 (subf : (⟨S20000x256, .f32⟩ : BufTy).Contents (Elt F) → (⟨S20000x256, .f32⟩ : BufTy).Contents (Elt F) → (⟨S20000x256, .f32⟩ : BufTy).Contents (Elt F)),
    binary main_v203 main_v203 main_v204 (mulf : (⟨S20000x256, .f32⟩ : BufTy).Contents (Elt F) → (⟨S20000x256, .f32⟩ : BufTy).Contents (Elt F) → (⟨S20000x256, .f32⟩ : BufTy).Contents (Elt F)),
    nullary main_cst_34 (constant S_ .f32 0x00000000#32),
    binary main_v204 main_cst_34 main_v205 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_35 (constant S_ .f32 0x469C4000#32),
    unary main_cst_35 main_v206 (broadcastInDim S256 ![] bcast_S_S256 : (⟨S_, .f32⟩ : BufTy).Contents (Elt F) → (⟨S256, .f32⟩ : BufTy).Contents (Elt F)),
    binary main_v205 main_v206 main_v207 (Host.divf : (⟨S256, .f32⟩ : BufTy).Contents (Elt F) → (⟨S256, .f32⟩ : BufTy).Contents (Elt F) → (⟨S256, .f32⟩ : BufTy).Contents (Elt F)),
    unary main_v200 main_v208 (broadcastInDim S1x256 ![1] bcast_S256_S1x256_1 : (⟨S256, .f32⟩ : BufTy).Contents (Elt F) → (⟨S1x256, .f32⟩ : BufTy).Contents (Elt F)),
    unary main_v208 main_v209 (broadcastInDim S20000x256 ![0, 1] bcast_S1x256_S20000x256_0_1 : (⟨S1x256, .f32⟩ : BufTy).Contents (Elt F) → (⟨S20000x256, .f32⟩ : BufTy).Contents (Elt F)),
    binary main_v193 main_v209 main_v210 (subf : (⟨S20000x256, .f32⟩ : BufTy).Contents (Elt F) → (⟨S20000x256, .f32⟩ : BufTy).Contents (Elt F) → (⟨S20000x256, .f32⟩ : BufTy).Contents (Elt F)),
    unary main_v195 main_v211 (broadcastInDim S1x256 ![1] bcast_S256_S1x256_1 : (⟨S256, .f32⟩ : BufTy).Contents (Elt F) → (⟨S1x256, .f32⟩ : BufTy).Contents (Elt F)),
    unary main_v211 main_v212 (broadcastInDim S20000x256 ![0, 1] bcast_S1x256_S20000x256_0_1 : (⟨S1x256, .f32⟩ : BufTy).Contents (Elt F) → (⟨S20000x256, .f32⟩ : BufTy).Contents (Elt F)),
    binary main_v212 main_v210 main_v213 (mulf : (⟨S20000x256, .f32⟩ : BufTy).Contents (Elt F) → (⟨S20000x256, .f32⟩ : BufTy).Contents (Elt F) → (⟨S20000x256, .f32⟩ : BufTy).Contents (Elt F)),
    nullary main_cst_36 (constant S_ .f32 0x3727C5AC#32),
    unary main_cst_36 main_v214 (broadcastInDim S256 ![] bcast_S_S256 : (⟨S_, .f32⟩ : BufTy).Contents (Elt F) → (⟨S256, .f32⟩ : BufTy).Contents (Elt F)),
    binary main_v207 main_v214 main_v215 (addf : (⟨S256, .f32⟩ : BufTy).Contents (Elt F) → (⟨S256, .f32⟩ : BufTy).Contents (Elt F) → (⟨S256, .f32⟩ : BufTy).Contents (Elt F)),
    unary main_v215 main_v216 (Host.rsqrt : (⟨S256, .f32⟩ : BufTy).Contents (Elt F) → (⟨S256, .f32⟩ : BufTy).Contents (Elt F)),
    unary main_v216 main_v217 (broadcastInDim S1x256 ![1] bcast_S256_S1x256_1 : (⟨S256, .f32⟩ : BufTy).Contents (Elt F) → (⟨S1x256, .f32⟩ : BufTy).Contents (Elt F)),
    unary main_v217 main_v218 (broadcastInDim S20000x256 ![0, 1] bcast_S1x256_S20000x256_0_1 : (⟨S1x256, .f32⟩ : BufTy).Contents (Elt F) → (⟨S20000x256, .f32⟩ : BufTy).Contents (Elt F)),
    binary main_v213 main_v218 main_v219 (mulf : (⟨S20000x256, .f32⟩ : BufTy).Contents (Elt F) → (⟨S20000x256, .f32⟩ : BufTy).Contents (Elt F) → (⟨S20000x256, .f32⟩ : BufTy).Contents (Elt F)),
    unary main_v197 main_v220 (broadcastInDim S1x256 ![1] bcast_S256_S1x256_1 : (⟨S256, .f32⟩ : BufTy).Contents (Elt F) → (⟨S1x256, .f32⟩ : BufTy).Contents (Elt F)),
    unary main_v220 main_v221 (broadcastInDim S20000x256 ![0, 1] bcast_S1x256_S20000x256_0_1 : (⟨S1x256, .f32⟩ : BufTy).Contents (Elt F) → (⟨S20000x256, .f32⟩ : BufTy).Contents (Elt F)),
    binary main_v219 main_v221 main_v222 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x256, .f32⟩) main_call2_v0) (broadcastInDim S20000x256 ![] bcast_S_S20000x256),
    TRef.binary (TRef.of (T := ⟨S20000x256, .f32⟩) main_v222) (TRef.of (T := ⟨S20000x256, .f32⟩) main_call2_v0) (TRef.of (T := ⟨S20000x256, .f32⟩) main_v223) maximumf,
    nullary main_cst_37 (constant S_ .f32 0x00000000#32),
    unary main_cst_37 main_v224 (broadcastInDim S64x256 ![] bcast_S_S64x256 : (⟨S_, .f32⟩ : BufTy).Contents (Elt F) → (⟨S64x256, .f32⟩ : BufTy).Contents (Elt F)),
    unary main_arg2 main_v225 (broadcastInDim S20000x1 ![0] bcast_S20000_S20000x1_0 : (⟨S20000, .i32⟩ : BufTy).Contents (Elt F) → (⟨S20000x1, .i32⟩ : BufTy).Contents (Elt F)),
    ternary main_v224 main_v225 main_v223 main_v226 ((fun x i u => Host.scatterAdd scatter_S64x256_S20000x1_S20000x256_1_0_0_1 x i u) : (⟨S64x256, .f32⟩ : BufTy).Contents (Elt F) → (⟨S20000x1, .i32⟩ : BufTy).Contents (Elt F) → (⟨S20000x256, .f32⟩ : BufTy).Contents (Elt F) → (⟨S64x256, .f32⟩ : BufTy).Contents (Elt F)),
    nullary main_cst_38 (constant S_ .f32 0x3F800000#32),
    unary main_cst_38 main_v227 (broadcastInDim S20000 ![] bcast_S_S20000 : (⟨S_, .f32⟩ : BufTy).Contents (Elt F) → (⟨S20000, .f32⟩ : BufTy).Contents (Elt F)),
    nullary main_cst_39 (constant S_ .f32 0x00000000#32),
    unary main_cst_39 main_v228 (broadcastInDim S64 ![] bcast_S_S64 : (⟨S_, .f32⟩ : BufTy).Contents (Elt F) → (⟨S64, .f32⟩ : BufTy).Contents (Elt F)),
    unary main_arg2 main_v229 (broadcastInDim S20000x1 ![0] bcast_S20000_S20000x1_0 : (⟨S20000, .i32⟩ : BufTy).Contents (Elt F) → (⟨S20000x1, .i32⟩ : BufTy).Contents (Elt F)),
    ternary main_v228 main_v229 main_v227 main_v230 ((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)),
    nullary main_cst_40 (constant S_ .f32 0x3F800000#32),
    unary main_cst_40 main_v231 (broadcastInDim S64 ![] bcast_S_S64 : (⟨S_, .f32⟩ : BufTy).Contents (Elt F) → (⟨S64, .f32⟩ : BufTy).Contents (Elt F)),
    binary main_v230 main_v231 main_v232 (maximumf : (⟨S64, .f32⟩ : BufTy).Contents (Elt F) → (⟨S64, .f32⟩ : BufTy).Contents (Elt F) → (⟨S64, .f32⟩ : BufTy).Contents (Elt F)),
    unary main_v232 main_v233 (broadcastInDim S64x1 ![0] bcast_S64_S64x1_0 : (⟨S64, .f32⟩ : BufTy).Contents (Elt F) → (⟨S64x1, .f32⟩ : BufTy).Contents (Elt F)),
    unary main_v233 main_v234 (broadcastInDim S64x256 ![0, 1] bcast_S64x1_S64x256_0_1 : (⟨S64x1, .f32⟩ : BufTy).Contents (Elt F) → (⟨S64x256, .f32⟩ : BufTy).Contents (Elt F)),
    binary main_v226 main_v234 main_v235 (Host.divf : (⟨S64x256, .f32⟩ : BufTy).Contents (Elt F) → (⟨S64x256, .f32⟩ : BufTy).Contents (Elt F) → (⟨S64x256, .f32⟩ : BufTy).Contents (Elt F)),
    binary main_v235 main_arg7 main_v236 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg8 main_v237 (broadcastInDim S1x128 ![1] bcast_S128_S1x128_1 : (⟨S128, .f32⟩ : BufTy).Contents (Elt F) → (⟨S1x128, .f32⟩ : BufTy).Contents (Elt F)),
    unary main_v237 main_v238 (broadcastInDim S64x128 ![0, 1] bcast_S1x128_S64x128_0_1 : (⟨S1x128, .f32⟩ : BufTy).Contents (Elt F) → (⟨S64x128, .f32⟩ : BufTy).Contents (Elt F)),
    binary main_v236 main_v238 main_v239 (addf : (⟨S64x128, .f32⟩ : BufTy).Contents (Elt F) → (⟨S64x128, .f32⟩ : BufTy).Contents (Elt F) → (⟨S64x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x128, .f32⟩) main_call3_v0) (broadcastInDim S64x128 ![] bcast_S_S64x128),
    TRef.binary (TRef.of (T := ⟨S64x128, .f32⟩) main_v239) (TRef.of (T := ⟨S64x128, .f32⟩) main_call3_v0) (TRef.of (T := ⟨S64x128, .f32⟩) main_v240) maximumf,
    binary main_v240 main_arg9 main_v241 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    unary main_arg10 main_v242 (broadcastInDim S1x10 ![1] bcast_S10_S1x10_1 : (⟨S10, .f32⟩ : BufTy).Contents (Elt F) → (⟨S1x10, .f32⟩ : BufTy).Contents (Elt F)),
    unary main_v242 main_v243 (broadcastInDim S64x10 ![0, 1] bcast_S1x10_S64x10_0_1 : (⟨S1x10, .f32⟩ : BufTy).Contents (Elt F) → (⟨S64x10, .f32⟩ : BufTy).Contents (Elt F)),
    binary main_v241 main_v243 main_v244 (addf : (⟨S64x10, .f32⟩ : BufTy).Contents (Elt F) → (⟨S64x10, .f32⟩ : BufTy).Contents (Elt F) → (⟨S64x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Stage 0 of @main's operations. -/
abbrev seg0 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_cst (constant S_ .f32 0x3F800000#32),
    unary main_cst main_v4 (broadcastInDim S320000 ![] bcast_S_S320000 : (⟨S_, .f32⟩ : BufTy).Contents (Elt F) → (⟨S320000, .f32⟩ : BufTy).Contents (Elt F)),
    nullary main_cst_0 (constant S_ .f32 0x00000000#32),
    unary main_cst_0 main_v5 (broadcastInDim S20000 ![] bcast_S_S20000 : (⟨S_, .f32⟩ : BufTy).Contents (Elt F) → (⟨S20000, .f32⟩ : BufTy).Contents (Elt F)),
    unary main_v3 main_v6 (broadcastInDim S320000x1 ![0] bcast_S320000_S320000x1_0 : (⟨S320000, .i32⟩ : BufTy).Contents (Elt F) → (⟨S320000x1, .i32⟩ : BufTy).Contents (Elt F)),
    ternary main_v5 main_v6 main_v4 main_v7 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    nullary main_cst_1 (constant S_ .f32 0x3F800000#32),
    unary main_cst_1 main_v8 (broadcastInDim S20000 ![] bcast_S_S20000 : (⟨S_, .f32⟩ : BufTy).Contents (Elt F) → (⟨S20000, .f32⟩ : BufTy).Contents (Elt F)),
    binary main_v7 main_v8 main_v9 (addf : (⟨S20000, .f32⟩ : BufTy).Contents (Elt F) → (⟨S20000, .f32⟩ : BufTy).Contents (Elt F) → (⟨S20000, .f32⟩ : BufTy).Contents (Elt F)),
    unary main_v9 main_v10 (Host.rsqrt : (⟨S20000, .f32⟩ : BufTy).Contents (Elt F) → (⟨S20000, .f32⟩ : BufTy).Contents (Elt F)),
    unary main_arg3 main_v11 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v11 main_v12 rfl shapeCasts_S1x256x256_S256x256,
    unary main_arg4 main_v13 ((extractStridedSlice S1x256 ![0, 0] · slices_S3x256_S1x256_0_0) : (⟨S3x256, .f32⟩ : BufTy).Contents (Elt F) → (⟨S1x256, .f32⟩ : BufTy).Contents (Elt F)),
    reshape main_v13 main_v14 rfl shapeCasts_S1x256_S256,
    binary main_arg0 main_v12 main_v15 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

/-- Stage 1 of @main's operations. -/
abbrev seg1 : List (HloOp τ sig (Elt F)) :=
  [ nullary main_c (constantI S_ 32 0#32),
    unary main_c main_v16 (broadcastInDim S320000 ![] bcast_S_S320000 : (⟨S_, .i32⟩ : BufTy).Contents (Elt F) → (⟨S320000, .i32⟩ : BufTy).Contents (Elt F)),
    binary main_v1 main_v16 main_v17 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v18 (broadcastInDim S320000 ![] bcast_S_S320000 : (⟨S_, .i32⟩ : BufTy).Contents (Elt F) → (⟨S320000, .i32⟩ : BufTy).Contents (Elt F)),
    binary main_v1 main_v18 main_v19 (addi : (⟨S320000, .i32⟩ : BufTy).Contents (Elt F) → (⟨S320000, .i32⟩ : BufTy).Contents (Elt F) → (⟨S320000, .i32⟩ : BufTy).Contents (Elt F)),
    ternary main_v17 main_v19 main_v1 main_v20 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v20 main_v21 (broadcastInDim S320000x1 ![0] bcast_S320000_S320000x1_0 : (⟨S320000, .i32⟩ : BufTy).Contents (Elt F) → (⟨S320000x1, .i32⟩ : BufTy).Contents (Elt F)),
    binary main_v10 main_v21 main_v22 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_3 (constantI S_ 32 0#32),
    unary main_c_3 main_v23 (broadcastInDim S320000 ![] bcast_S_S320000 : (⟨S_, .i32⟩ : BufTy).Contents (Elt F) → (⟨S320000, .i32⟩ : BufTy).Contents (Elt F)),
    binary main_v3 main_v23 main_v24 (cmpi .slt : (⟨S320000, .i32⟩ : BufTy).Contents (Elt F) → (⟨S320000, .i32⟩ : BufTy).Contents (Elt F) → (⟨S320000, .i1⟩ : BufTy).Contents (Elt F)),
    nullary main_c_4 (constantI S_ 32 20000#32),
    unary main_c_4 main_v25 (broadcastInDim S320000 ![] bcast_S_S320000 : (⟨S_, .i32⟩ : BufTy).Contents (Elt F) → (⟨S320000, .i32⟩ : BufTy).Contents (Elt F)),
    binary main_v3 main_v25 main_v26 (addi : (⟨S320000, .i32⟩ : BufTy).Contents (Elt F) → (⟨S320000, .i32⟩ : BufTy).Contents (Elt F) → (⟨S320000, .i32⟩ : BufTy).Contents (Elt F)),
    ternary main_v24 main_v26 main_v3 main_v27 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v27 main_v28 (broadcastInDim S320000x1 ![0] bcast_S320000_S320000x1_0 : (⟨S320000, .i32⟩ : BufTy).Contents (Elt F) → (⟨S320000x1, .i32⟩ : BufTy).Contents (Elt F)),
    binary main_v10 main_v28 main_v29 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v22 main_v29 main_v30 (mulf : (⟨S320000, .f32⟩ : BufTy).Contents (Elt F) → (⟨S320000, .f32⟩ : BufTy).Contents (Elt F) → (⟨S320000, .f32⟩ : BufTy).Contents (Elt F)),
    unary main_v30 main_v31 (broadcastInDim S320000x1 ![0] bcast_S320000_S320000x1_0 : (⟨S320000, .f32⟩ : BufTy).Contents (Elt F) → (⟨S320000x1, .f32⟩ : BufTy).Contents (Elt F)),
    nullary main_c_5 (constantI S_ 32 0#32),
    unary main_c_5 main_v32 (broadcastInDim S320000 ![] bcast_S_S320000 : (⟨S_, .i32⟩ : BufTy).Contents (Elt F) → (⟨S320000, .i32⟩ : BufTy).Contents (Elt F)),
    binary main_v1 main_v32 main_v33 (cmpi .slt : (⟨S320000, .i32⟩ : BufTy).Contents (Elt F) → (⟨S320000, .i32⟩ : BufTy).Contents (Elt F) → (⟨S320000, .i1⟩ : BufTy).Contents (Elt F)),
    nullary main_c_6 (constantI S_ 32 20000#32),
    unary main_c_6 main_v34 (broadcastInDim S320000 ![] bcast_S_S320000 : (⟨S_, .i32⟩ : BufTy).Contents (Elt F) → (⟨S320000, .i32⟩ : BufTy).Contents (Elt F)),
    binary main_v1 main_v34 main_v35 (addi : (⟨S320000, .i32⟩ : BufTy).Contents (Elt F) → (⟨S320000, .i32⟩ : BufTy).Contents (Elt F) → (⟨S320000, .i32⟩ : BufTy).Contents (Elt F)),
    ternary main_v33 main_v35 main_v1 main_v36 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v36 main_v37 (broadcastInDim S320000x1 ![0] bcast_S320000_S320000x1_0 : (⟨S320000, .i32⟩ : BufTy).Contents (Elt F) → (⟨S320000x1, .i32⟩ : BufTy).Contents (Elt F)),
    binary main_v15 main_v37 main_v38 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v31 main_v39 (broadcastInDim S320000x256 ![0, 1] bcast_S320000x1_S320000x256_0_1 : (⟨S320000x1, .f32⟩ : BufTy).Contents (Elt F) → (⟨S320000x256, .f32⟩ : BufTy).Contents (Elt F)),
    binary main_v38 main_v39 main_v40 (mulf : (⟨S320000x256, .f32⟩ : BufTy).Contents (Elt F) → (⟨S320000x256, .f32⟩ : BufTy).Contents (Elt F) → (⟨S320000x256, .f32⟩ : BufTy).Contents (Elt F)),
    nullary main_cst_7 (constant S_ .f32 0x00000000#32),
    unary main_cst_7 main_v41 (broadcastInDim S20000x256 ![] bcast_S_S20000x256 : (⟨S_, .f32⟩ : BufTy).Contents (Elt F) → (⟨S20000x256, .f32⟩ : BufTy).Contents (Elt F)),
    unary main_v3 main_v42 (broadcastInDim S320000x1 ![0] bcast_S320000_S320000x1_0 : (⟨S320000, .i32⟩ : BufTy).Contents (Elt F) → (⟨S320000x1, .i32⟩ : BufTy).Contents (Elt F)),
    ternary main_v41 main_v42 main_v40 main_v43 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    binary main_v10 main_v10 main_v44 (mulf : (⟨S20000, .f32⟩ : BufTy).Contents (Elt F) → (⟨S20000, .f32⟩ : BufTy).Contents (Elt F) → (⟨S20000, .f32⟩ : BufTy).Contents (Elt F)),
    unary main_v44 main_v45 (broadcastInDim S20000x1 ![0] bcast_S20000_S20000x1_0 : (⟨S20000, .f32⟩ : BufTy).Contents (Elt F) → (⟨S20000x1, .f32⟩ : BufTy).Contents (Elt F)),
    unary main_v45 main_v46 (broadcastInDim S20000x256 ![0, 1] bcast_S20000x1_S20000x256_0_1 : (⟨S20000x1, .f32⟩ : BufTy).Contents (Elt F) → (⟨S20000x256, .f32⟩ : BufTy).Contents (Elt F)),
    binary main_v15 main_v46 main_v47 (mulf : (⟨S20000x256, .f32⟩ : BufTy).Contents (Elt F) → (⟨S20000x256, .f32⟩ : BufTy).Contents (Elt F) → (⟨S20000x256, .f32⟩ : BufTy).Contents (Elt F)),
    binary main_v43 main_v47 main_v48 (addf : (⟨S20000x256, .f32⟩ : BufTy).Contents (Elt F) → (⟨S20000x256, .f32⟩ : BufTy).Contents (Elt F) → (⟨S20000x256, .f32⟩ : BufTy).Contents (Elt F)),
    unary main_v14 main_v49 (broadcastInDim S1x256 ![1] bcast_S256_S1x256_1 : (⟨S256, .f32⟩ : BufTy).Contents (Elt F) → (⟨S1x256, .f32⟩ : BufTy).Contents (Elt F)),
    unary main_v49 main_v50 (broadcastInDim S20000x256 ![0, 1] bcast_S1x256_S20000x256_0_1 : (⟨S1x256, .f32⟩ : BufTy).Contents (Elt F) → (⟨S20000x256, .f32⟩ : BufTy).Contents (Elt F)),
    binary main_v48 main_v50 main_v51 (addf : (⟨S20000x256, .f32⟩ : BufTy).Contents (Elt F) → (⟨S20000x256, .f32⟩ : BufTy).Contents (Elt F) → (⟨S20000x256, .f32⟩ : BufTy).Contents (Elt F)) ]

/-- Stage 2 of @main's operations. -/
abbrev seg2 : List (HloOp τ sig (Elt F)) :=
  [ unary main_arg5 main_v52 ((extractStridedSlice S1x256 ![0, 0] · slices_S3x256_S1x256_0_0) : (⟨S3x256, .f32⟩ : BufTy).Contents (Elt F) → (⟨S1x256, .f32⟩ : BufTy).Contents (Elt F)),
    reshape main_v52 main_v53 rfl shapeCasts_S1x256_S256,
    unary main_arg6 main_v54 ((extractStridedSlice S1x256 ![0, 0] · slices_S3x256_S1x256_0_0) : (⟨S3x256, .f32⟩ : BufTy).Contents (Elt F) → (⟨S1x256, .f32⟩ : BufTy).Contents (Elt F)),
    reshape main_v54 main_v55 rfl shapeCasts_S1x256_S256,
    nullary main_cst_8 (constant S_ .f32 0x00000000#32),
    binary main_v51 main_cst_8 main_v56 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_9 (constant S_ .f32 0x469C4000#32),
    unary main_cst_9 main_v57 (broadcastInDim S256 ![] bcast_S_S256 : (⟨S_, .f32⟩ : BufTy).Contents (Elt F) → (⟨S256, .f32⟩ : BufTy).Contents (Elt F)),
    binary main_v56 main_v57 main_v58 (Host.divf : (⟨S256, .f32⟩ : BufTy).Contents (Elt F) → (⟨S256, .f32⟩ : BufTy).Contents (Elt F) → (⟨S256, .f32⟩ : BufTy).Contents (Elt F)),
    unary main_v58 main_v59 (broadcastInDim S1x256 ![1] bcast_S256_S1x256_1 : (⟨S256, .f32⟩ : BufTy).Contents (Elt F) → (⟨S1x256, .f32⟩ : BufTy).Contents (Elt F)),
    unary main_v59 main_v60 (broadcastInDim S20000x256 ![0, 1] bcast_S1x256_S20000x256_0_1 : (⟨S1x256, .f32⟩ : BufTy).Contents (Elt F) → (⟨S20000x256, .f32⟩ : BufTy).Contents (Elt F)),
    binary main_v51 main_v60 main_v61 (subf : (⟨S20000x256, .f32⟩ : BufTy).Contents (Elt F) → (⟨S20000x256, .f32⟩ : BufTy).Contents (Elt F) → (⟨S20000x256, .f32⟩ : BufTy).Contents (Elt F)),
    binary main_v61 main_v61 main_v62 (mulf : (⟨S20000x256, .f32⟩ : BufTy).Contents (Elt F) → (⟨S20000x256, .f32⟩ : BufTy).Contents (Elt F) → (⟨S20000x256, .f32⟩ : BufTy).Contents (Elt F)),
    nullary main_cst_10 (constant S_ .f32 0x00000000#32),
    binary main_v62 main_cst_10 main_v63 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_11 (constant S_ .f32 0x469C4000#32),
    unary main_cst_11 main_v64 (broadcastInDim S256 ![] bcast_S_S256 : (⟨S_, .f32⟩ : BufTy).Contents (Elt F) → (⟨S256, .f32⟩ : BufTy).Contents (Elt F)),
    binary main_v63 main_v64 main_v65 (Host.divf : (⟨S256, .f32⟩ : BufTy).Contents (Elt F) → (⟨S256, .f32⟩ : BufTy).Contents (Elt F) → (⟨S256, .f32⟩ : BufTy).Contents (Elt F)),
    unary main_v58 main_v66 (broadcastInDim S1x256 ![1] bcast_S256_S1x256_1 : (⟨S256, .f32⟩ : BufTy).Contents (Elt F) → (⟨S1x256, .f32⟩ : BufTy).Contents (Elt F)),
    unary main_v66 main_v67 (broadcastInDim S20000x256 ![0, 1] bcast_S1x256_S20000x256_0_1 : (⟨S1x256, .f32⟩ : BufTy).Contents (Elt F) → (⟨S20000x256, .f32⟩ : BufTy).Contents (Elt F)),
    binary main_v51 main_v67 main_v68 (subf : (⟨S20000x256, .f32⟩ : BufTy).Contents (Elt F) → (⟨S20000x256, .f32⟩ : BufTy).Contents (Elt F) → (⟨S20000x256, .f32⟩ : BufTy).Contents (Elt F)),
    unary main_v53 main_v69 (broadcastInDim S1x256 ![1] bcast_S256_S1x256_1 : (⟨S256, .f32⟩ : BufTy).Contents (Elt F) → (⟨S1x256, .f32⟩ : BufTy).Contents (Elt F)),
    unary main_v69 main_v70 (broadcastInDim S20000x256 ![0, 1] bcast_S1x256_S20000x256_0_1 : (⟨S1x256, .f32⟩ : BufTy).Contents (Elt F) → (⟨S20000x256, .f32⟩ : BufTy).Contents (Elt F)),
    binary main_v70 main_v68 main_v71 (mulf : (⟨S20000x256, .f32⟩ : BufTy).Contents (Elt F) → (⟨S20000x256, .f32⟩ : BufTy).Contents (Elt F) → (⟨S20000x256, .f32⟩ : BufTy).Contents (Elt F)),
    nullary main_cst_12 (constant S_ .f32 0x3727C5AC#32),
    unary main_cst_12 main_v72 (broadcastInDim S256 ![] bcast_S_S256 : (⟨S_, .f32⟩ : BufTy).Contents (Elt F) → (⟨S256, .f32⟩ : BufTy).Contents (Elt F)),
    binary main_v65 main_v72 main_v73 (addf : (⟨S256, .f32⟩ : BufTy).Contents (Elt F) → (⟨S256, .f32⟩ : BufTy).Contents (Elt F) → (⟨S256, .f32⟩ : BufTy).Contents (Elt F)),
    unary main_v73 main_v74 (Host.rsqrt : (⟨S256, .f32⟩ : BufTy).Contents (Elt F) → (⟨S256, .f32⟩ : BufTy).Contents (Elt F)),
    unary main_v74 main_v75 (broadcastInDim S1x256 ![1] bcast_S256_S1x256_1 : (⟨S256, .f32⟩ : BufTy).Contents (Elt F) → (⟨S1x256, .f32⟩ : BufTy).Contents (Elt F)),
    unary main_v75 main_v76 (broadcastInDim S20000x256 ![0, 1] bcast_S1x256_S20000x256_0_1 : (⟨S1x256, .f32⟩ : BufTy).Contents (Elt F) → (⟨S20000x256, .f32⟩ : BufTy).Contents (Elt F)),
    binary main_v71 main_v76 main_v77 (mulf : (⟨S20000x256, .f32⟩ : BufTy).Contents (Elt F) → (⟨S20000x256, .f32⟩ : BufTy).Contents (Elt F) → (⟨S20000x256, .f32⟩ : BufTy).Contents (Elt F)),
    unary main_v55 main_v78 (broadcastInDim S1x256 ![1] bcast_S256_S1x256_1 : (⟨S256, .f32⟩ : BufTy).Contents (Elt F) → (⟨S1x256, .f32⟩ : BufTy).Contents (Elt F)),
    unary main_v78 main_v79 (broadcastInDim S20000x256 ![0, 1] bcast_S1x256_S20000x256_0_1 : (⟨S1x256, .f32⟩ : BufTy).Contents (Elt F) → (⟨S20000x256, .f32⟩ : BufTy).Contents (Elt F)),
    binary main_v77 main_v79 main_v80 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x256, .f32⟩) main_call0_v0) (broadcastInDim S20000x256 ![] bcast_S_S20000x256),
    TRef.binary (TRef.of (T := ⟨S20000x256, .f32⟩) main_v80) (TRef.of (T := ⟨S20000x256, .f32⟩) main_call0_v0) (TRef.of (T := ⟨S20000x256, .f32⟩) main_v81) maximumf ]

/-- Stage 3 of @main's operations. -/
abbrev seg3 : List (HloOp τ sig (Elt F)) :=
  [ unary main_arg3 main_v82 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v82 main_v83 rfl shapeCasts_S1x256x256_S256x256,
    unary main_arg4 main_v84 ((extractStridedSlice S1x256 ![1, 0] · slices_S3x256_S1x256_1_0) : (⟨S3x256, .f32⟩ : BufTy).Contents (Elt F) → (⟨S1x256, .f32⟩ : BufTy).Contents (Elt F)),
    reshape main_v84 main_v85 rfl shapeCasts_S1x256_S256,
    binary main_v81 main_v83 main_v86 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

/-- Stage 4 of @main's operations. -/
abbrev seg4 : List (HloOp τ sig (Elt F)) :=
  [ nullary main_c_13 (constantI S_ 32 0#32),
    unary main_c_13 main_v87 (broadcastInDim S320000 ![] bcast_S_S320000 : (⟨S_, .i32⟩ : BufTy).Contents (Elt F) → (⟨S320000, .i32⟩ : BufTy).Contents (Elt F)),
    binary main_v1 main_v87 main_v88 (cmpi .slt : (⟨S320000, .i32⟩ : BufTy).Contents (Elt F) → (⟨S320000, .i32⟩ : BufTy).Contents (Elt F) → (⟨S320000, .i1⟩ : BufTy).Contents (Elt F)),
    nullary main_c_14 (constantI S_ 32 20000#32),
    unary main_c_14 main_v89 (broadcastInDim S320000 ![] bcast_S_S320000 : (⟨S_, .i32⟩ : BufTy).Contents (Elt F) → (⟨S320000, .i32⟩ : BufTy).Contents (Elt F)),
    binary main_v1 main_v89 main_v90 (addi : (⟨S320000, .i32⟩ : BufTy).Contents (Elt F) → (⟨S320000, .i32⟩ : BufTy).Contents (Elt F) → (⟨S320000, .i32⟩ : BufTy).Contents (Elt F)),
    ternary main_v88 main_v90 main_v1 main_v91 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v91 main_v92 (broadcastInDim S320000x1 ![0] bcast_S320000_S320000x1_0 : (⟨S320000, .i32⟩ : BufTy).Contents (Elt F) → (⟨S320000x1, .i32⟩ : BufTy).Contents (Elt F)),
    binary main_v10 main_v92 main_v93 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_15 (constantI S_ 32 0#32),
    unary main_c_15 main_v94 (broadcastInDim S320000 ![] bcast_S_S320000 : (⟨S_, .i32⟩ : BufTy).Contents (Elt F) → (⟨S320000, .i32⟩ : BufTy).Contents (Elt F)),
    binary main_v3 main_v94 main_v95 (cmpi .slt : (⟨S320000, .i32⟩ : BufTy).Contents (Elt F) → (⟨S320000, .i32⟩ : BufTy).Contents (Elt F) → (⟨S320000, .i1⟩ : BufTy).Contents (Elt F)),
    nullary main_c_16 (constantI S_ 32 20000#32),
    unary main_c_16 main_v96 (broadcastInDim S320000 ![] bcast_S_S320000 : (⟨S_, .i32⟩ : BufTy).Contents (Elt F) → (⟨S320000, .i32⟩ : BufTy).Contents (Elt F)),
    binary main_v3 main_v96 main_v97 (addi : (⟨S320000, .i32⟩ : BufTy).Contents (Elt F) → (⟨S320000, .i32⟩ : BufTy).Contents (Elt F) → (⟨S320000, .i32⟩ : BufTy).Contents (Elt F)),
    ternary main_v95 main_v97 main_v3 main_v98 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v98 main_v99 (broadcastInDim S320000x1 ![0] bcast_S320000_S320000x1_0 : (⟨S320000, .i32⟩ : BufTy).Contents (Elt F) → (⟨S320000x1, .i32⟩ : BufTy).Contents (Elt F)),
    binary main_v10 main_v99 main_v100 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v93 main_v100 main_v101 (mulf : (⟨S320000, .f32⟩ : BufTy).Contents (Elt F) → (⟨S320000, .f32⟩ : BufTy).Contents (Elt F) → (⟨S320000, .f32⟩ : BufTy).Contents (Elt F)),
    unary main_v101 main_v102 (broadcastInDim S320000x1 ![0] bcast_S320000_S320000x1_0 : (⟨S320000, .f32⟩ : BufTy).Contents (Elt F) → (⟨S320000x1, .f32⟩ : BufTy).Contents (Elt F)),
    nullary main_c_17 (constantI S_ 32 0#32),
    unary main_c_17 main_v103 (broadcastInDim S320000 ![] bcast_S_S320000 : (⟨S_, .i32⟩ : BufTy).Contents (Elt F) → (⟨S320000, .i32⟩ : BufTy).Contents (Elt F)),
    binary main_v1 main_v103 main_v104 (cmpi .slt : (⟨S320000, .i32⟩ : BufTy).Contents (Elt F) → (⟨S320000, .i32⟩ : BufTy).Contents (Elt F) → (⟨S320000, .i1⟩ : BufTy).Contents (Elt F)),
    nullary main_c_18 (constantI S_ 32 20000#32),
    unary main_c_18 main_v105 (broadcastInDim S320000 ![] bcast_S_S320000 : (⟨S_, .i32⟩ : BufTy).Contents (Elt F) → (⟨S320000, .i32⟩ : BufTy).Contents (Elt F)),
    binary main_v1 main_v105 main_v106 (addi : (⟨S320000, .i32⟩ : BufTy).Contents (Elt F) → (⟨S320000, .i32⟩ : BufTy).Contents (Elt F) → (⟨S320000, .i32⟩ : BufTy).Contents (Elt F)),
    ternary main_v104 main_v106 main_v1 main_v107 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v107 main_v108 (broadcastInDim S320000x1 ![0] bcast_S320000_S320000x1_0 : (⟨S320000, .i32⟩ : BufTy).Contents (Elt F) → (⟨S320000x1, .i32⟩ : BufTy).Contents (Elt F)),
    binary main_v86 main_v108 main_v109 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v102 main_v110 (broadcastInDim S320000x256 ![0, 1] bcast_S320000x1_S320000x256_0_1 : (⟨S320000x1, .f32⟩ : BufTy).Contents (Elt F) → (⟨S320000x256, .f32⟩ : BufTy).Contents (Elt F)),
    binary main_v109 main_v110 main_v111 (mulf : (⟨S320000x256, .f32⟩ : BufTy).Contents (Elt F) → (⟨S320000x256, .f32⟩ : BufTy).Contents (Elt F) → (⟨S320000x256, .f32⟩ : BufTy).Contents (Elt F)),
    nullary main_cst_19 (constant S_ .f32 0x00000000#32),
    unary main_cst_19 main_v112 (broadcastInDim S20000x256 ![] bcast_S_S20000x256 : (⟨S_, .f32⟩ : BufTy).Contents (Elt F) → (⟨S20000x256, .f32⟩ : BufTy).Contents (Elt F)),
    unary main_v3 main_v113 (broadcastInDim S320000x1 ![0] bcast_S320000_S320000x1_0 : (⟨S320000, .i32⟩ : BufTy).Contents (Elt F) → (⟨S320000x1, .i32⟩ : BufTy).Contents (Elt F)),
    ternary main_v112 main_v113 main_v111 main_v114 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    binary main_v10 main_v10 main_v115 (mulf : (⟨S20000, .f32⟩ : BufTy).Contents (Elt F) → (⟨S20000, .f32⟩ : BufTy).Contents (Elt F) → (⟨S20000, .f32⟩ : BufTy).Contents (Elt F)),
    unary main_v115 main_v116 (broadcastInDim S20000x1 ![0] bcast_S20000_S20000x1_0 : (⟨S20000, .f32⟩ : BufTy).Contents (Elt F) → (⟨S20000x1, .f32⟩ : BufTy).Contents (Elt F)),
    unary main_v116 main_v117 (broadcastInDim S20000x256 ![0, 1] bcast_S20000x1_S20000x256_0_1 : (⟨S20000x1, .f32⟩ : BufTy).Contents (Elt F) → (⟨S20000x256, .f32⟩ : BufTy).Contents (Elt F)),
    binary main_v86 main_v117 main_v118 (mulf : (⟨S20000x256, .f32⟩ : BufTy).Contents (Elt F) → (⟨S20000x256, .f32⟩ : BufTy).Contents (Elt F) → (⟨S20000x256, .f32⟩ : BufTy).Contents (Elt F)),
    binary main_v114 main_v118 main_v119 (addf : (⟨S20000x256, .f32⟩ : BufTy).Contents (Elt F) → (⟨S20000x256, .f32⟩ : BufTy).Contents (Elt F) → (⟨S20000x256, .f32⟩ : BufTy).Contents (Elt F)),
    unary main_v85 main_v120 (broadcastInDim S1x256 ![1] bcast_S256_S1x256_1 : (⟨S256, .f32⟩ : BufTy).Contents (Elt F) → (⟨S1x256, .f32⟩ : BufTy).Contents (Elt F)),
    unary main_v120 main_v121 (broadcastInDim S20000x256 ![0, 1] bcast_S1x256_S20000x256_0_1 : (⟨S1x256, .f32⟩ : BufTy).Contents (Elt F) → (⟨S20000x256, .f32⟩ : BufTy).Contents (Elt F)),
    binary main_v119 main_v121 main_v122 (addf : (⟨S20000x256, .f32⟩ : BufTy).Contents (Elt F) → (⟨S20000x256, .f32⟩ : BufTy).Contents (Elt F) → (⟨S20000x256, .f32⟩ : BufTy).Contents (Elt F)) ]

/-- Stage 5 of @main's operations. -/
abbrev seg5 : List (HloOp τ sig (Elt F)) :=
  [ unary main_arg5 main_v123 ((extractStridedSlice S1x256 ![1, 0] · slices_S3x256_S1x256_1_0) : (⟨S3x256, .f32⟩ : BufTy).Contents (Elt F) → (⟨S1x256, .f32⟩ : BufTy).Contents (Elt F)),
    reshape main_v123 main_v124 rfl shapeCasts_S1x256_S256,
    unary main_arg6 main_v125 ((extractStridedSlice S1x256 ![1, 0] · slices_S3x256_S1x256_1_0) : (⟨S3x256, .f32⟩ : BufTy).Contents (Elt F) → (⟨S1x256, .f32⟩ : BufTy).Contents (Elt F)),
    reshape main_v125 main_v126 rfl shapeCasts_S1x256_S256,
    nullary main_cst_20 (constant S_ .f32 0x00000000#32),
    binary main_v122 main_cst_20 main_v127 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_21 (constant S_ .f32 0x469C4000#32),
    unary main_cst_21 main_v128 (broadcastInDim S256 ![] bcast_S_S256 : (⟨S_, .f32⟩ : BufTy).Contents (Elt F) → (⟨S256, .f32⟩ : BufTy).Contents (Elt F)),
    binary main_v127 main_v128 main_v129 (Host.divf : (⟨S256, .f32⟩ : BufTy).Contents (Elt F) → (⟨S256, .f32⟩ : BufTy).Contents (Elt F) → (⟨S256, .f32⟩ : BufTy).Contents (Elt F)),
    unary main_v129 main_v130 (broadcastInDim S1x256 ![1] bcast_S256_S1x256_1 : (⟨S256, .f32⟩ : BufTy).Contents (Elt F) → (⟨S1x256, .f32⟩ : BufTy).Contents (Elt F)),
    unary main_v130 main_v131 (broadcastInDim S20000x256 ![0, 1] bcast_S1x256_S20000x256_0_1 : (⟨S1x256, .f32⟩ : BufTy).Contents (Elt F) → (⟨S20000x256, .f32⟩ : BufTy).Contents (Elt F)),
    binary main_v122 main_v131 main_v132 (subf : (⟨S20000x256, .f32⟩ : BufTy).Contents (Elt F) → (⟨S20000x256, .f32⟩ : BufTy).Contents (Elt F) → (⟨S20000x256, .f32⟩ : BufTy).Contents (Elt F)),
    binary main_v132 main_v132 main_v133 (mulf : (⟨S20000x256, .f32⟩ : BufTy).Contents (Elt F) → (⟨S20000x256, .f32⟩ : BufTy).Contents (Elt F) → (⟨S20000x256, .f32⟩ : BufTy).Contents (Elt F)),
    nullary main_cst_22 (constant S_ .f32 0x00000000#32),
    binary main_v133 main_cst_22 main_v134 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_23 (constant S_ .f32 0x469C4000#32),
    unary main_cst_23 main_v135 (broadcastInDim S256 ![] bcast_S_S256 : (⟨S_, .f32⟩ : BufTy).Contents (Elt F) → (⟨S256, .f32⟩ : BufTy).Contents (Elt F)),
    binary main_v134 main_v135 main_v136 (Host.divf : (⟨S256, .f32⟩ : BufTy).Contents (Elt F) → (⟨S256, .f32⟩ : BufTy).Contents (Elt F) → (⟨S256, .f32⟩ : BufTy).Contents (Elt F)),
    unary main_v129 main_v137 (broadcastInDim S1x256 ![1] bcast_S256_S1x256_1 : (⟨S256, .f32⟩ : BufTy).Contents (Elt F) → (⟨S1x256, .f32⟩ : BufTy).Contents (Elt F)),
    unary main_v137 main_v138 (broadcastInDim S20000x256 ![0, 1] bcast_S1x256_S20000x256_0_1 : (⟨S1x256, .f32⟩ : BufTy).Contents (Elt F) → (⟨S20000x256, .f32⟩ : BufTy).Contents (Elt F)),
    binary main_v122 main_v138 main_v139 (subf : (⟨S20000x256, .f32⟩ : BufTy).Contents (Elt F) → (⟨S20000x256, .f32⟩ : BufTy).Contents (Elt F) → (⟨S20000x256, .f32⟩ : BufTy).Contents (Elt F)),
    unary main_v124 main_v140 (broadcastInDim S1x256 ![1] bcast_S256_S1x256_1 : (⟨S256, .f32⟩ : BufTy).Contents (Elt F) → (⟨S1x256, .f32⟩ : BufTy).Contents (Elt F)),
    unary main_v140 main_v141 (broadcastInDim S20000x256 ![0, 1] bcast_S1x256_S20000x256_0_1 : (⟨S1x256, .f32⟩ : BufTy).Contents (Elt F) → (⟨S20000x256, .f32⟩ : BufTy).Contents (Elt F)),
    binary main_v141 main_v139 main_v142 (mulf : (⟨S20000x256, .f32⟩ : BufTy).Contents (Elt F) → (⟨S20000x256, .f32⟩ : BufTy).Contents (Elt F) → (⟨S20000x256, .f32⟩ : BufTy).Contents (Elt F)),
    nullary main_cst_24 (constant S_ .f32 0x3727C5AC#32),
    unary main_cst_24 main_v143 (broadcastInDim S256 ![] bcast_S_S256 : (⟨S_, .f32⟩ : BufTy).Contents (Elt F) → (⟨S256, .f32⟩ : BufTy).Contents (Elt F)),
    binary main_v136 main_v143 main_v144 (addf : (⟨S256, .f32⟩ : BufTy).Contents (Elt F) → (⟨S256, .f32⟩ : BufTy).Contents (Elt F) → (⟨S256, .f32⟩ : BufTy).Contents (Elt F)),
    unary main_v144 main_v145 (Host.rsqrt : (⟨S256, .f32⟩ : BufTy).Contents (Elt F) → (⟨S256, .f32⟩ : BufTy).Contents (Elt F)),
    unary main_v145 main_v146 (broadcastInDim S1x256 ![1] bcast_S256_S1x256_1 : (⟨S256, .f32⟩ : BufTy).Contents (Elt F) → (⟨S1x256, .f32⟩ : BufTy).Contents (Elt F)),
    unary main_v146 main_v147 (broadcastInDim S20000x256 ![0, 1] bcast_S1x256_S20000x256_0_1 : (⟨S1x256, .f32⟩ : BufTy).Contents (Elt F) → (⟨S20000x256, .f32⟩ : BufTy).Contents (Elt F)),
    binary main_v142 main_v147 main_v148 (mulf : (⟨S20000x256, .f32⟩ : BufTy).Contents (Elt F) → (⟨S20000x256, .f32⟩ : BufTy).Contents (Elt F) → (⟨S20000x256, .f32⟩ : BufTy).Contents (Elt F)),
    unary main_v126 main_v149 (broadcastInDim S1x256 ![1] bcast_S256_S1x256_1 : (⟨S256, .f32⟩ : BufTy).Contents (Elt F) → (⟨S1x256, .f32⟩ : BufTy).Contents (Elt F)),
    unary main_v149 main_v150 (broadcastInDim S20000x256 ![0, 1] bcast_S1x256_S20000x256_0_1 : (⟨S1x256, .f32⟩ : BufTy).Contents (Elt F) → (⟨S20000x256, .f32⟩ : BufTy).Contents (Elt F)),
    binary main_v148 main_v150 main_v151 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v151) (TRef.of (T := ⟨S20000x256, .f32⟩) main_call1_v0) (TRef.of (T := ⟨S20000x256, .f32⟩) main_v152) maximumf ]

/-- Stage 6 of @main's operations. -/
abbrev seg6 : List (HloOp τ sig (Elt F)) :=
  [ unary main_arg3 main_v153 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v153 main_v154 rfl shapeCasts_S1x256x256_S256x256,
    unary main_arg4 main_v155 ((extractStridedSlice S1x256 ![2, 0] · slices_S3x256_S1x256_2_0) : (⟨S3x256, .f32⟩ : BufTy).Contents (Elt F) → (⟨S1x256, .f32⟩ : BufTy).Contents (Elt F)),
    reshape main_v155 main_v156 rfl shapeCasts_S1x256_S256,
    binary main_v152 main_v154 main_v157 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

/-- Stage 7 of @main's operations. -/
abbrev seg7 : List (HloOp τ sig (Elt F)) :=
  [ nullary main_c_25 (constantI S_ 32 0#32),
    unary main_c_25 main_v158 (broadcastInDim S320000 ![] bcast_S_S320000 : (⟨S_, .i32⟩ : BufTy).Contents (Elt F) → (⟨S320000, .i32⟩ : BufTy).Contents (Elt F)),
    binary main_v1 main_v158 main_v159 (cmpi .slt : (⟨S320000, .i32⟩ : BufTy).Contents (Elt F) → (⟨S320000, .i32⟩ : BufTy).Contents (Elt F) → (⟨S320000, .i1⟩ : BufTy).Contents (Elt F)),
    nullary main_c_26 (constantI S_ 32 20000#32),
    unary main_c_26 main_v160 (broadcastInDim S320000 ![] bcast_S_S320000 : (⟨S_, .i32⟩ : BufTy).Contents (Elt F) → (⟨S320000, .i32⟩ : BufTy).Contents (Elt F)),
    binary main_v1 main_v160 main_v161 (addi : (⟨S320000, .i32⟩ : BufTy).Contents (Elt F) → (⟨S320000, .i32⟩ : BufTy).Contents (Elt F) → (⟨S320000, .i32⟩ : BufTy).Contents (Elt F)),
    ternary main_v159 main_v161 main_v1 main_v162 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v162 main_v163 (broadcastInDim S320000x1 ![0] bcast_S320000_S320000x1_0 : (⟨S320000, .i32⟩ : BufTy).Contents (Elt F) → (⟨S320000x1, .i32⟩ : BufTy).Contents (Elt F)),
    binary main_v10 main_v163 main_v164 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_27 (constantI S_ 32 0#32),
    unary main_c_27 main_v165 (broadcastInDim S320000 ![] bcast_S_S320000 : (⟨S_, .i32⟩ : BufTy).Contents (Elt F) → (⟨S320000, .i32⟩ : BufTy).Contents (Elt F)),
    binary main_v3 main_v165 main_v166 (cmpi .slt : (⟨S320000, .i32⟩ : BufTy).Contents (Elt F) → (⟨S320000, .i32⟩ : BufTy).Contents (Elt F) → (⟨S320000, .i1⟩ : BufTy).Contents (Elt F)),
    nullary main_c_28 (constantI S_ 32 20000#32),
    unary main_c_28 main_v167 (broadcastInDim S320000 ![] bcast_S_S320000 : (⟨S_, .i32⟩ : BufTy).Contents (Elt F) → (⟨S320000, .i32⟩ : BufTy).Contents (Elt F)),
    binary main_v3 main_v167 main_v168 (addi : (⟨S320000, .i32⟩ : BufTy).Contents (Elt F) → (⟨S320000, .i32⟩ : BufTy).Contents (Elt F) → (⟨S320000, .i32⟩ : BufTy).Contents (Elt F)),
    ternary main_v166 main_v168 main_v3 main_v169 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v169 main_v170 (broadcastInDim S320000x1 ![0] bcast_S320000_S320000x1_0 : (⟨S320000, .i32⟩ : BufTy).Contents (Elt F) → (⟨S320000x1, .i32⟩ : BufTy).Contents (Elt F)),
    binary main_v10 main_v170 main_v171 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v164 main_v171 main_v172 (mulf : (⟨S320000, .f32⟩ : BufTy).Contents (Elt F) → (⟨S320000, .f32⟩ : BufTy).Contents (Elt F) → (⟨S320000, .f32⟩ : BufTy).Contents (Elt F)),
    unary main_v172 main_v173 (broadcastInDim S320000x1 ![0] bcast_S320000_S320000x1_0 : (⟨S320000, .f32⟩ : BufTy).Contents (Elt F) → (⟨S320000x1, .f32⟩ : BufTy).Contents (Elt F)),
    nullary main_c_29 (constantI S_ 32 0#32),
    unary main_c_29 main_v174 (broadcastInDim S320000 ![] bcast_S_S320000 : (⟨S_, .i32⟩ : BufTy).Contents (Elt F) → (⟨S320000, .i32⟩ : BufTy).Contents (Elt F)),
    binary main_v1 main_v174 main_v175 (cmpi .slt : (⟨S320000, .i32⟩ : BufTy).Contents (Elt F) → (⟨S320000, .i32⟩ : BufTy).Contents (Elt F) → (⟨S320000, .i1⟩ : BufTy).Contents (Elt F)),
    nullary main_c_30 (constantI S_ 32 20000#32),
    unary main_c_30 main_v176 (broadcastInDim S320000 ![] bcast_S_S320000 : (⟨S_, .i32⟩ : BufTy).Contents (Elt F) → (⟨S320000, .i32⟩ : BufTy).Contents (Elt F)),
    binary main_v1 main_v176 main_v177 (addi : (⟨S320000, .i32⟩ : BufTy).Contents (Elt F) → (⟨S320000, .i32⟩ : BufTy).Contents (Elt F) → (⟨S320000, .i32⟩ : BufTy).Contents (Elt F)),
    ternary main_v175 main_v177 main_v1 main_v178 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v178 main_v179 (broadcastInDim S320000x1 ![0] bcast_S320000_S320000x1_0 : (⟨S320000, .i32⟩ : BufTy).Contents (Elt F) → (⟨S320000x1, .i32⟩ : BufTy).Contents (Elt F)),
    binary main_v157 main_v179 main_v180 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v173 main_v181 (broadcastInDim S320000x256 ![0, 1] bcast_S320000x1_S320000x256_0_1 : (⟨S320000x1, .f32⟩ : BufTy).Contents (Elt F) → (⟨S320000x256, .f32⟩ : BufTy).Contents (Elt F)),
    binary main_v180 main_v181 main_v182 (mulf : (⟨S320000x256, .f32⟩ : BufTy).Contents (Elt F) → (⟨S320000x256, .f32⟩ : BufTy).Contents (Elt F) → (⟨S320000x256, .f32⟩ : BufTy).Contents (Elt F)),
    nullary main_cst_31 (constant S_ .f32 0x00000000#32),
    unary main_cst_31 main_v183 (broadcastInDim S20000x256 ![] bcast_S_S20000x256 : (⟨S_, .f32⟩ : BufTy).Contents (Elt F) → (⟨S20000x256, .f32⟩ : BufTy).Contents (Elt F)),
    unary main_v3 main_v184 (broadcastInDim S320000x1 ![0] bcast_S320000_S320000x1_0 : (⟨S320000, .i32⟩ : BufTy).Contents (Elt F) → (⟨S320000x1, .i32⟩ : BufTy).Contents (Elt F)),
    ternary main_v183 main_v184 main_v182 main_v185 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    binary main_v10 main_v10 main_v186 (mulf : (⟨S20000, .f32⟩ : BufTy).Contents (Elt F) → (⟨S20000, .f32⟩ : BufTy).Contents (Elt F) → (⟨S20000, .f32⟩ : BufTy).Contents (Elt F)),
    unary main_v186 main_v187 (broadcastInDim S20000x1 ![0] bcast_S20000_S20000x1_0 : (⟨S20000, .f32⟩ : BufTy).Contents (Elt F) → (⟨S20000x1, .f32⟩ : BufTy).Contents (Elt F)),
    unary main_v187 main_v188 (broadcastInDim S20000x256 ![0, 1] bcast_S20000x1_S20000x256_0_1 : (⟨S20000x1, .f32⟩ : BufTy).Contents (Elt F) → (⟨S20000x256, .f32⟩ : BufTy).Contents (Elt F)),
    binary main_v157 main_v188 main_v189 (mulf : (⟨S20000x256, .f32⟩ : BufTy).Contents (Elt F) → (⟨S20000x256, .f32⟩ : BufTy).Contents (Elt F) → (⟨S20000x256, .f32⟩ : BufTy).Contents (Elt F)),
    binary main_v185 main_v189 main_v190 (addf : (⟨S20000x256, .f32⟩ : BufTy).Contents (Elt F) → (⟨S20000x256, .f32⟩ : BufTy).Contents (Elt F) → (⟨S20000x256, .f32⟩ : BufTy).Contents (Elt F)),
    unary main_v156 main_v191 (broadcastInDim S1x256 ![1] bcast_S256_S1x256_1 : (⟨S256, .f32⟩ : BufTy).Contents (Elt F) → (⟨S1x256, .f32⟩ : BufTy).Contents (Elt F)),
    unary main_v191 main_v192 (broadcastInDim S20000x256 ![0, 1] bcast_S1x256_S20000x256_0_1 : (⟨S1x256, .f32⟩ : BufTy).Contents (Elt F) → (⟨S20000x256, .f32⟩ : BufTy).Contents (Elt F)),
    binary main_v190 main_v192 main_v193 (addf : (⟨S20000x256, .f32⟩ : BufTy).Contents (Elt F) → (⟨S20000x256, .f32⟩ : BufTy).Contents (Elt F) → (⟨S20000x256, .f32⟩ : BufTy).Contents (Elt F)) ]

/-- Stage 8 of @main's operations. -/
abbrev seg8 : List (HloOp τ sig (Elt F)) :=
  [ unary main_arg5 main_v194 ((extractStridedSlice S1x256 ![2, 0] · slices_S3x256_S1x256_2_0) : (⟨S3x256, .f32⟩ : BufTy).Contents (Elt F) → (⟨S1x256, .f32⟩ : BufTy).Contents (Elt F)),
    reshape main_v194 main_v195 rfl shapeCasts_S1x256_S256,
    unary main_arg6 main_v196 ((extractStridedSlice S1x256 ![2, 0] · slices_S3x256_S1x256_2_0) : (⟨S3x256, .f32⟩ : BufTy).Contents (Elt F) → (⟨S1x256, .f32⟩ : BufTy).Contents (Elt F)),
    reshape main_v196 main_v197 rfl shapeCasts_S1x256_S256,
    nullary main_cst_32 (constant S_ .f32 0x00000000#32),
    binary main_v193 main_cst_32 main_v198 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_33 (constant S_ .f32 0x469C4000#32),
    unary main_cst_33 main_v199 (broadcastInDim S256 ![] bcast_S_S256 : (⟨S_, .f32⟩ : BufTy).Contents (Elt F) → (⟨S256, .f32⟩ : BufTy).Contents (Elt F)),
    binary main_v198 main_v199 main_v200 (Host.divf : (⟨S256, .f32⟩ : BufTy).Contents (Elt F) → (⟨S256, .f32⟩ : BufTy).Contents (Elt F) → (⟨S256, .f32⟩ : BufTy).Contents (Elt F)),
    unary main_v200 main_v201 (broadcastInDim S1x256 ![1] bcast_S256_S1x256_1 : (⟨S256, .f32⟩ : BufTy).Contents (Elt F) → (⟨S1x256, .f32⟩ : BufTy).Contents (Elt F)),
    unary main_v201 main_v202 (broadcastInDim S20000x256 ![0, 1] bcast_S1x256_S20000x256_0_1 : (⟨S1x256, .f32⟩ : BufTy).Contents (Elt F) → (⟨S20000x256, .f32⟩ : BufTy).Contents (Elt F)),
    binary main_v193 main_v202 main_v203 (subf : (⟨S20000x256, .f32⟩ : BufTy).Contents (Elt F) → (⟨S20000x256, .f32⟩ : BufTy).Contents (Elt F) → (⟨S20000x256, .f32⟩ : BufTy).Contents (Elt F)),
    binary main_v203 main_v203 main_v204 (mulf : (⟨S20000x256, .f32⟩ : BufTy).Contents (Elt F) → (⟨S20000x256, .f32⟩ : BufTy).Contents (Elt F) → (⟨S20000x256, .f32⟩ : BufTy).Contents (Elt F)),
    nullary main_cst_34 (constant S_ .f32 0x00000000#32),
    binary main_v204 main_cst_34 main_v205 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_35 (constant S_ .f32 0x469C4000#32),
    unary main_cst_35 main_v206 (broadcastInDim S256 ![] bcast_S_S256 : (⟨S_, .f32⟩ : BufTy).Contents (Elt F) → (⟨S256, .f32⟩ : BufTy).Contents (Elt F)),
    binary main_v205 main_v206 main_v207 (Host.divf : (⟨S256, .f32⟩ : BufTy).Contents (Elt F) → (⟨S256, .f32⟩ : BufTy).Contents (Elt F) → (⟨S256, .f32⟩ : BufTy).Contents (Elt F)),
    unary main_v200 main_v208 (broadcastInDim S1x256 ![1] bcast_S256_S1x256_1 : (⟨S256, .f32⟩ : BufTy).Contents (Elt F) → (⟨S1x256, .f32⟩ : BufTy).Contents (Elt F)),
    unary main_v208 main_v209 (broadcastInDim S20000x256 ![0, 1] bcast_S1x256_S20000x256_0_1 : (⟨S1x256, .f32⟩ : BufTy).Contents (Elt F) → (⟨S20000x256, .f32⟩ : BufTy).Contents (Elt F)),
    binary main_v193 main_v209 main_v210 (subf : (⟨S20000x256, .f32⟩ : BufTy).Contents (Elt F) → (⟨S20000x256, .f32⟩ : BufTy).Contents (Elt F) → (⟨S20000x256, .f32⟩ : BufTy).Contents (Elt F)),
    unary main_v195 main_v211 (broadcastInDim S1x256 ![1] bcast_S256_S1x256_1 : (⟨S256, .f32⟩ : BufTy).Contents (Elt F) → (⟨S1x256, .f32⟩ : BufTy).Contents (Elt F)),
    unary main_v211 main_v212 (broadcastInDim S20000x256 ![0, 1] bcast_S1x256_S20000x256_0_1 : (⟨S1x256, .f32⟩ : BufTy).Contents (Elt F) → (⟨S20000x256, .f32⟩ : BufTy).Contents (Elt F)),
    binary main_v212 main_v210 main_v213 (mulf : (⟨S20000x256, .f32⟩ : BufTy).Contents (Elt F) → (⟨S20000x256, .f32⟩ : BufTy).Contents (Elt F) → (⟨S20000x256, .f32⟩ : BufTy).Contents (Elt F)),
    nullary main_cst_36 (constant S_ .f32 0x3727C5AC#32),
    unary main_cst_36 main_v214 (broadcastInDim S256 ![] bcast_S_S256 : (⟨S_, .f32⟩ : BufTy).Contents (Elt F) → (⟨S256, .f32⟩ : BufTy).Contents (Elt F)),
    binary main_v207 main_v214 main_v215 (addf : (⟨S256, .f32⟩ : BufTy).Contents (Elt F) → (⟨S256, .f32⟩ : BufTy).Contents (Elt F) → (⟨S256, .f32⟩ : BufTy).Contents (Elt F)),
    unary main_v215 main_v216 (Host.rsqrt : (⟨S256, .f32⟩ : BufTy).Contents (Elt F) → (⟨S256, .f32⟩ : BufTy).Contents (Elt F)),
    unary main_v216 main_v217 (broadcastInDim S1x256 ![1] bcast_S256_S1x256_1 : (⟨S256, .f32⟩ : BufTy).Contents (Elt F) → (⟨S1x256, .f32⟩ : BufTy).Contents (Elt F)),
    unary main_v217 main_v218 (broadcastInDim S20000x256 ![0, 1] bcast_S1x256_S20000x256_0_1 : (⟨S1x256, .f32⟩ : BufTy).Contents (Elt F) → (⟨S20000x256, .f32⟩ : BufTy).Contents (Elt F)),
    binary main_v213 main_v218 main_v219 (mulf : (⟨S20000x256, .f32⟩ : BufTy).Contents (Elt F) → (⟨S20000x256, .f32⟩ : BufTy).Contents (Elt F) → (⟨S20000x256, .f32⟩ : BufTy).Contents (Elt F)),
    unary main_v197 main_v220 (broadcastInDim S1x256 ![1] bcast_S256_S1x256_1 : (⟨S256, .f32⟩ : BufTy).Contents (Elt F) → (⟨S1x256, .f32⟩ : BufTy).Contents (Elt F)),
    unary main_v220 main_v221 (broadcastInDim S20000x256 ![0, 1] bcast_S1x256_S20000x256_0_1 : (⟨S1x256, .f32⟩ : BufTy).Contents (Elt F) → (⟨S20000x256, .f32⟩ : BufTy).Contents (Elt F)),
    binary main_v219 main_v221 main_v222 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x256, .f32⟩) main_call2_v0) (broadcastInDim S20000x256 ![] bcast_S_S20000x256),
    TRef.binary (TRef.of (T := ⟨S20000x256, .f32⟩) main_v222) (TRef.of (T := ⟨S20000x256, .f32⟩) main_call2_v0) (TRef.of (T := ⟨S20000x256, .f32⟩) main_v223) maximumf ]

/-- Stage 9 of @main's operations. -/
abbrev seg9 : List (HloOp τ sig (Elt F)) :=
  [ nullary main_cst_37 (constant S_ .f32 0x00000000#32),
    unary main_cst_37 main_v224 (broadcastInDim S64x256 ![] bcast_S_S64x256 : (⟨S_, .f32⟩ : BufTy).Contents (Elt F) → (⟨S64x256, .f32⟩ : BufTy).Contents (Elt F)),
    unary main_arg2 main_v225 (broadcastInDim S20000x1 ![0] bcast_S20000_S20000x1_0 : (⟨S20000, .i32⟩ : BufTy).Contents (Elt F) → (⟨S20000x1, .i32⟩ : BufTy).Contents (Elt F)),
    ternary main_v224 main_v225 main_v223 main_v226 ((fun x i u => Host.scatterAdd scatter_S64x256_S20000x1_S20000x256_1_0_0_1 x i u) : (⟨S64x256, .f32⟩ : BufTy).Contents (Elt F) → (⟨S20000x1, .i32⟩ : BufTy).Contents (Elt F) → (⟨S20000x256, .f32⟩ : BufTy).Contents (Elt F) → (⟨S64x256, .f32⟩ : BufTy).Contents (Elt F)),
    nullary main_cst_38 (constant S_ .f32 0x3F800000#32),
    unary main_cst_38 main_v227 (broadcastInDim S20000 ![] bcast_S_S20000 : (⟨S_, .f32⟩ : BufTy).Contents (Elt F) → (⟨S20000, .f32⟩ : BufTy).Contents (Elt F)),
    nullary main_cst_39 (constant S_ .f32 0x00000000#32),
    unary main_cst_39 main_v228 (broadcastInDim S64 ![] bcast_S_S64 : (⟨S_, .f32⟩ : BufTy).Contents (Elt F) → (⟨S64, .f32⟩ : BufTy).Contents (Elt F)),
    unary main_arg2 main_v229 (broadcastInDim S20000x1 ![0] bcast_S20000_S20000x1_0 : (⟨S20000, .i32⟩ : BufTy).Contents (Elt F) → (⟨S20000x1, .i32⟩ : BufTy).Contents (Elt F)),
    ternary main_v228 main_v229 main_v227 main_v230 ((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)),
    nullary main_cst_40 (constant S_ .f32 0x3F800000#32),
    unary main_cst_40 main_v231 (broadcastInDim S64 ![] bcast_S_S64 : (⟨S_, .f32⟩ : BufTy).Contents (Elt F) → (⟨S64, .f32⟩ : BufTy).Contents (Elt F)),
    binary main_v230 main_v231 main_v232 (maximumf : (⟨S64, .f32⟩ : BufTy).Contents (Elt F) → (⟨S64, .f32⟩ : BufTy).Contents (Elt F) → (⟨S64, .f32⟩ : BufTy).Contents (Elt F)),
    unary main_v232 main_v233 (broadcastInDim S64x1 ![0] bcast_S64_S64x1_0 : (⟨S64, .f32⟩ : BufTy).Contents (Elt F) → (⟨S64x1, .f32⟩ : BufTy).Contents (Elt F)),
    unary main_v233 main_v234 (broadcastInDim S64x256 ![0, 1] bcast_S64x1_S64x256_0_1 : (⟨S64x1, .f32⟩ : BufTy).Contents (Elt F) → (⟨S64x256, .f32⟩ : BufTy).Contents (Elt F)),
    binary main_v226 main_v234 main_v235 (Host.divf : (⟨S64x256, .f32⟩ : BufTy).Contents (Elt F) → (⟨S64x256, .f32⟩ : BufTy).Contents (Elt F) → (⟨S64x256, .f32⟩ : BufTy).Contents (Elt F)),
    binary main_v235 main_arg7 main_v236 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg8 main_v237 (broadcastInDim S1x128 ![1] bcast_S128_S1x128_1 : (⟨S128, .f32⟩ : BufTy).Contents (Elt F) → (⟨S1x128, .f32⟩ : BufTy).Contents (Elt F)),
    unary main_v237 main_v238 (broadcastInDim S64x128 ![0, 1] bcast_S1x128_S64x128_0_1 : (⟨S1x128, .f32⟩ : BufTy).Contents (Elt F) → (⟨S64x128, .f32⟩ : BufTy).Contents (Elt F)),
    binary main_v236 main_v238 main_v239 (addf : (⟨S64x128, .f32⟩ : BufTy).Contents (Elt F) → (⟨S64x128, .f32⟩ : BufTy).Contents (Elt F) → (⟨S64x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x128, .f32⟩) main_call3_v0) (broadcastInDim S64x128 ![] bcast_S_S64x128),
    TRef.binary (TRef.of (T := ⟨S64x128, .f32⟩) main_v239) (TRef.of (T := ⟨S64x128, .f32⟩) main_call3_v0) (TRef.of (T := ⟨S64x128, .f32⟩) main_v240) maximumf,
    binary main_v240 main_arg9 main_v241 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    unary main_arg10 main_v242 (broadcastInDim S1x10 ![1] bcast_S10_S1x10_1 : (⟨S10, .f32⟩ : BufTy).Contents (Elt F) → (⟨S1x10, .f32⟩ : BufTy).Contents (Elt F)),
    unary main_v242 main_v243 (broadcastInDim S64x10 ![0, 1] bcast_S1x10_S64x10_0_1 : (⟨S1x10, .f32⟩ : BufTy).Contents (Elt F) → (⟨S64x10, .f32⟩ : BufTy).Contents (Elt F)),
    binary main_v241 main_v243 main_v244 (addf : (⟨S64x10, .f32⟩ : BufTy).Contents (Elt F) → (⟨S64x10, .f32⟩ : BufTy).Contents (Elt F) → (⟨S64x10, .f32⟩ : BufTy).Contents (Elt F)) ]

/-- The whole line is its ten stages in order. -/
theorem ops_split : (ops : List (HloOp τ sig (Elt F))) = seg0 ++ (seg1 ++ (seg2 ++ (seg3 ++ (seg4 ++ (seg5 ++ (seg6 ++ (seg7 ++ (seg8 ++ seg9)))))))) := rfl

variable (m : (ℓ : Loc nD τ sig) → Buf (Elt F) ℓ) (c : Dev nD)

/-- The buffer contents at the launch and after each stage. -/
abbrev R0 : Valuation τ sig (Elt F) := launchContents m c
def R1 : Valuation τ sig (Elt F) := after seg0 (R0 m c)
def R2 : Valuation τ sig (Elt F) := after seg1 (R1 m c)
def R3 : Valuation τ sig (Elt F) := after seg2 (R2 m c)
def R4 : Valuation τ sig (Elt F) := after seg3 (R3 m c)
def R5 : Valuation τ sig (Elt F) := after seg4 (R4 m c)
def R6 : Valuation τ sig (Elt F) := after seg5 (R5 m c)
def R7 : Valuation τ sig (Elt F) := after seg6 (R6 m c)
def R8 : Valuation τ sig (Elt F) := after seg7 (R7 m c)
def R9 : Valuation τ sig (Elt F) := after seg8 (R8 m c)
def R10 : Valuation τ sig (Elt F) := after seg9 (R9 m c)

theorem after_ops : after ops (launchContents m c) = R10 m c := by
  rw [ops_split]
  simp only [after_append]
  rfl

/-! ## Buffers a stage does not write keep their contents -/

theorem rkeep_v1_2 : R2 m c (Proc.devRef .tc main_v1) = R1 m c (Proc.devRef .tc main_v1) :=
  after_of_forall_not_mem (b := (Proc.devRef .tc main_v1)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v1_3 : R3 m c (Proc.devRef .tc main_v1) = R2 m c (Proc.devRef .tc main_v1) :=
  after_of_forall_not_mem (b := (Proc.devRef .tc main_v1)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v1_4 : R4 m c (Proc.devRef .tc main_v1) = R3 m c (Proc.devRef .tc main_v1) :=
  after_of_forall_not_mem (b := (Proc.devRef .tc main_v1)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_v1_4 : R4 m c (Proc.devRef .tc main_v1) = R1 m c (Proc.devRef .tc main_v1) :=
  (rkeep_v1_4 m c).trans ((rkeep_v1_3 m c).trans (rkeep_v1_2 m c))

theorem rkeep_v1_5 : R5 m c (Proc.devRef .tc main_v1) = R4 m c (Proc.devRef .tc main_v1) :=
  after_of_forall_not_mem (b := (Proc.devRef .tc main_v1)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v1_6 : R6 m c (Proc.devRef .tc main_v1) = R5 m c (Proc.devRef .tc main_v1) :=
  after_of_forall_not_mem (b := (Proc.devRef .tc main_v1)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v1_7 : R7 m c (Proc.devRef .tc main_v1) = R6 m c (Proc.devRef .tc main_v1) :=
  after_of_forall_not_mem (b := (Proc.devRef .tc main_v1)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_v1_7 : R7 m c (Proc.devRef .tc main_v1) = R1 m c (Proc.devRef .tc main_v1) :=
  ((rkeep_v1_7 m c).trans ((rkeep_v1_6 m c).trans (rkeep_v1_5 m c))).trans (rat_v1_4 m c)

theorem rkeep_v3_2 : R2 m c (Proc.devRef .tc main_v3) = R1 m c (Proc.devRef .tc main_v3) :=
  after_of_forall_not_mem (b := (Proc.devRef .tc main_v3)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v3_3 : R3 m c (Proc.devRef .tc main_v3) = R2 m c (Proc.devRef .tc main_v3) :=
  after_of_forall_not_mem (b := (Proc.devRef .tc main_v3)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v3_4 : R4 m c (Proc.devRef .tc main_v3) = R3 m c (Proc.devRef .tc main_v3) :=
  after_of_forall_not_mem (b := (Proc.devRef .tc main_v3)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_v3_4 : R4 m c (Proc.devRef .tc main_v3) = R1 m c (Proc.devRef .tc main_v3) :=
  (rkeep_v3_4 m c).trans ((rkeep_v3_3 m c).trans (rkeep_v3_2 m c))

theorem rkeep_v3_5 : R5 m c (Proc.devRef .tc main_v3) = R4 m c (Proc.devRef .tc main_v3) :=
  after_of_forall_not_mem (b := (Proc.devRef .tc main_v3)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v3_6 : R6 m c (Proc.devRef .tc main_v3) = R5 m c (Proc.devRef .tc main_v3) :=
  after_of_forall_not_mem (b := (Proc.devRef .tc main_v3)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v3_7 : R7 m c (Proc.devRef .tc main_v3) = R6 m c (Proc.devRef .tc main_v3) :=
  after_of_forall_not_mem (b := (Proc.devRef .tc main_v3)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_v3_7 : R7 m c (Proc.devRef .tc main_v3) = R1 m c (Proc.devRef .tc main_v3) :=
  ((rkeep_v3_7 m c).trans ((rkeep_v3_6 m c).trans (rkeep_v3_5 m c))).trans (rat_v3_4 m c)

theorem rkeep_v10_2 : R2 m c (Proc.devRef .tc main_v10) = R1 m c (Proc.devRef .tc main_v10) :=
  after_of_forall_not_mem (b := (Proc.devRef .tc main_v10)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v10_3 : R3 m c (Proc.devRef .tc main_v10) = R2 m c (Proc.devRef .tc main_v10) :=
  after_of_forall_not_mem (b := (Proc.devRef .tc main_v10)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v10_4 : R4 m c (Proc.devRef .tc main_v10) = R3 m c (Proc.devRef .tc main_v10) :=
  after_of_forall_not_mem (b := (Proc.devRef .tc main_v10)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_v10_4 : R4 m c (Proc.devRef .tc main_v10) = R1 m c (Proc.devRef .tc main_v10) :=
  (rkeep_v10_4 m c).trans ((rkeep_v10_3 m c).trans (rkeep_v10_2 m c))

theorem rkeep_v10_5 : R5 m c (Proc.devRef .tc main_v10) = R4 m c (Proc.devRef .tc main_v10) :=
  after_of_forall_not_mem (b := (Proc.devRef .tc main_v10)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v10_6 : R6 m c (Proc.devRef .tc main_v10) = R5 m c (Proc.devRef .tc main_v10) :=
  after_of_forall_not_mem (b := (Proc.devRef .tc main_v10)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_v10_7 : R7 m c (Proc.devRef .tc main_v10) = R6 m c (Proc.devRef .tc main_v10) :=
  after_of_forall_not_mem (b := (Proc.devRef .tc main_v10)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_v10_7 : R7 m c (Proc.devRef .tc main_v10) = R1 m c (Proc.devRef .tc main_v10) :=
  ((rkeep_v10_7 m c).trans ((rkeep_v10_6 m c).trans (rkeep_v10_5 m c))).trans (rat_v10_4 m c)

theorem rkeep_arg3_1 : R1 m c (Proc.devRef .tc main_arg3) = R0 m c (Proc.devRef .tc main_arg3) :=
  after_of_forall_not_mem (b := (Proc.devRef .tc main_arg3)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg3_2 : R2 m c (Proc.devRef .tc main_arg3) = R1 m c (Proc.devRef .tc main_arg3) :=
  after_of_forall_not_mem (b := (Proc.devRef .tc main_arg3)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg3_3 : R3 m c (Proc.devRef .tc main_arg3) = R2 m c (Proc.devRef .tc main_arg3) :=
  after_of_forall_not_mem (b := (Proc.devRef .tc main_arg3)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg3_3 : R3 m c (Proc.devRef .tc main_arg3) = R0 m c (Proc.devRef .tc main_arg3) :=
  (rkeep_arg3_3 m c).trans ((rkeep_arg3_2 m c).trans (rkeep_arg3_1 m c))

theorem rkeep_arg3_4 : R4 m c (Proc.devRef .tc main_arg3) = R3 m c (Proc.devRef .tc main_arg3) :=
  after_of_forall_not_mem (b := (Proc.devRef .tc main_arg3)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg3_5 : R5 m c (Proc.devRef .tc main_arg3) = R4 m c (Proc.devRef .tc main_arg3) :=
  after_of_forall_not_mem (b := (Proc.devRef .tc main_arg3)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg3_6 : R6 m c (Proc.devRef .tc main_arg3) = R5 m c (Proc.devRef .tc main_arg3) :=
  after_of_forall_not_mem (b := (Proc.devRef .tc main_arg3)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg3_6 : R6 m c (Proc.devRef .tc main_arg3) = R0 m c (Proc.devRef .tc main_arg3) :=
  ((rkeep_arg3_6 m c).trans ((rkeep_arg3_5 m c).trans (rkeep_arg3_4 m c))).trans (rat_arg3_3 m c)

theorem rkeep_arg4_1 : R1 m c (Proc.devRef .tc main_arg4) = R0 m c (Proc.devRef .tc main_arg4) :=
  after_of_forall_not_mem (b := (Proc.devRef .tc main_arg4)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg4_2 : R2 m c (Proc.devRef .tc main_arg4) = R1 m c (Proc.devRef .tc main_arg4) :=
  after_of_forall_not_mem (b := (Proc.devRef .tc main_arg4)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg4_3 : R3 m c (Proc.devRef .tc main_arg4) = R2 m c (Proc.devRef .tc main_arg4) :=
  after_of_forall_not_mem (b := (Proc.devRef .tc main_arg4)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg4_3 : R3 m c (Proc.devRef .tc main_arg4) = R0 m c (Proc.devRef .tc main_arg4) :=
  (rkeep_arg4_3 m c).trans ((rkeep_arg4_2 m c).trans (rkeep_arg4_1 m c))

theorem rkeep_arg4_4 : R4 m c (Proc.devRef .tc main_arg4) = R3 m c (Proc.devRef .tc main_arg4) :=
  after_of_forall_not_mem (b := (Proc.devRef .tc main_arg4)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg4_5 : R5 m c (Proc.devRef .tc main_arg4) = R4 m c (Proc.devRef .tc main_arg4) :=
  after_of_forall_not_mem (b := (Proc.devRef .tc main_arg4)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg4_6 : R6 m c (Proc.devRef .tc main_arg4) = R5 m c (Proc.devRef .tc main_arg4) :=
  after_of_forall_not_mem (b := (Proc.devRef .tc main_arg4)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg4_6 : R6 m c (Proc.devRef .tc main_arg4) = R0 m c (Proc.devRef .tc main_arg4) :=
  ((rkeep_arg4_6 m c).trans ((rkeep_arg4_5 m c).trans (rkeep_arg4_4 m c))).trans (rat_arg4_3 m c)

theorem rkeep_arg5_1 : R1 m c (Proc.devRef .tc main_arg5) = R0 m c (Proc.devRef .tc main_arg5) :=
  after_of_forall_not_mem (b := (Proc.devRef .tc main_arg5)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg5_2 : R2 m c (Proc.devRef .tc main_arg5) = R1 m c (Proc.devRef .tc main_arg5) :=
  after_of_forall_not_mem (b := (Proc.devRef .tc main_arg5)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg5_2 : R2 m c (Proc.devRef .tc main_arg5) = R0 m c (Proc.devRef .tc main_arg5) :=
  (rkeep_arg5_2 m c).trans (rkeep_arg5_1 m c)

theorem rkeep_arg5_3 : R3 m c (Proc.devRef .tc main_arg5) = R2 m c (Proc.devRef .tc main_arg5) :=
  after_of_forall_not_mem (b := (Proc.devRef .tc main_arg5)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg5_4 : R4 m c (Proc.devRef .tc main_arg5) = R3 m c (Proc.devRef .tc main_arg5) :=
  after_of_forall_not_mem (b := (Proc.devRef .tc main_arg5)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg5_5 : R5 m c (Proc.devRef .tc main_arg5) = R4 m c (Proc.devRef .tc main_arg5) :=
  after_of_forall_not_mem (b := (Proc.devRef .tc main_arg5)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg5_5 : R5 m c (Proc.devRef .tc main_arg5) = R0 m c (Proc.devRef .tc main_arg5) :=
  ((rkeep_arg5_5 m c).trans ((rkeep_arg5_4 m c).trans (rkeep_arg5_3 m c))).trans (rat_arg5_2 m c)

theorem rkeep_arg5_6 : R6 m c (Proc.devRef .tc main_arg5) = R5 m c (Proc.devRef .tc main_arg5) :=
  after_of_forall_not_mem (b := (Proc.devRef .tc main_arg5)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg5_7 : R7 m c (Proc.devRef .tc main_arg5) = R6 m c (Proc.devRef .tc main_arg5) :=
  after_of_forall_not_mem (b := (Proc.devRef .tc main_arg5)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg5_8 : R8 m c (Proc.devRef .tc main_arg5) = R7 m c (Proc.devRef .tc main_arg5) :=
  after_of_forall_not_mem (b := (Proc.devRef .tc main_arg5)) _ _ (List.forall_iff_forall_mem.mp (by
    simp only [seg7, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg5_8 : R8 m c (Proc.devRef .tc main_arg5) = R0 m c (Proc.devRef .tc main_arg5) :=
  ((rkeep_arg5_8 m c).trans ((rkeep_arg5_7 m c).trans (rkeep_arg5_6 m c))).trans (rat_arg5_5 m c)

theorem rkeep_arg6_1 : R1 m c (Proc.devRef .tc main_arg6) = R0 m c (Proc.devRef .tc main_arg6) :=
  after_of_forall_not_mem (b := (Proc.devRef .tc main_arg6)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg6_2 : R2 m c (Proc.devRef .tc main_arg6) = R1 m c (Proc.devRef .tc main_arg6) :=
  after_of_forall_not_mem (b := (Proc.devRef .tc main_arg6)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg6_2 : R2 m c (Proc.devRef .tc main_arg6) = R0 m c (Proc.devRef .tc main_arg6) :=
  (rkeep_arg6_2 m c).trans (rkeep_arg6_1 m c)

theorem rkeep_arg6_3 : R3 m c (Proc.devRef .tc main_arg6) = R2 m c (Proc.devRef .tc main_arg6) :=
  after_of_forall_not_mem (b := (Proc.devRef .tc main_arg6)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg6_4 : R4 m c (Proc.devRef .tc main_arg6) = R3 m c (Proc.devRef .tc main_arg6) :=
  after_of_forall_not_mem (b := (Proc.devRef .tc main_arg6)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg6_5 : R5 m c (Proc.devRef .tc main_arg6) = R4 m c (Proc.devRef .tc main_arg6) :=
  after_of_forall_not_mem (b := (Proc.devRef .tc main_arg6)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg6_5 : R5 m c (Proc.devRef .tc main_arg6) = R0 m c (Proc.devRef .tc main_arg6) :=
  ((rkeep_arg6_5 m c).trans ((rkeep_arg6_4 m c).trans (rkeep_arg6_3 m c))).trans (rat_arg6_2 m c)

theorem rkeep_arg6_6 : R6 m c (Proc.devRef .tc main_arg6) = R5 m c (Proc.devRef .tc main_arg6) :=
  after_of_forall_not_mem (b := (Proc.devRef .tc main_arg6)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg6_7 : R7 m c (Proc.devRef .tc main_arg6) = R6 m c (Proc.devRef .tc main_arg6) :=
  after_of_forall_not_mem (b := (Proc.devRef .tc main_arg6)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg6_8 : R8 m c (Proc.devRef .tc main_arg6) = R7 m c (Proc.devRef .tc main_arg6) :=
  after_of_forall_not_mem (b := (Proc.devRef .tc main_arg6)) _ _ (List.forall_iff_forall_mem.mp (by
    simp only [seg7, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg6_8 : R8 m c (Proc.devRef .tc main_arg6) = R0 m c (Proc.devRef .tc main_arg6) :=
  ((rkeep_arg6_8 m c).trans ((rkeep_arg6_7 m c).trans (rkeep_arg6_6 m c))).trans (rat_arg6_5 m c)

theorem rkeep_arg2_1 : R1 m c (Proc.devRef .tc main_arg2) = R0 m c (Proc.devRef .tc main_arg2) :=
  after_of_forall_not_mem (b := (Proc.devRef .tc main_arg2)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_2 : R2 m c (Proc.devRef .tc main_arg2) = R1 m c (Proc.devRef .tc main_arg2) :=
  after_of_forall_not_mem (b := (Proc.devRef .tc main_arg2)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_3 : R3 m c (Proc.devRef .tc main_arg2) = R2 m c (Proc.devRef .tc main_arg2) :=
  after_of_forall_not_mem (b := (Proc.devRef .tc main_arg2)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_4 : R4 m c (Proc.devRef .tc main_arg2) = R3 m c (Proc.devRef .tc main_arg2) :=
  after_of_forall_not_mem (b := (Proc.devRef .tc main_arg2)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_5 : R5 m c (Proc.devRef .tc main_arg2) = R4 m c (Proc.devRef .tc main_arg2) :=
  after_of_forall_not_mem (b := (Proc.devRef .tc main_arg2)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_6 : R6 m c (Proc.devRef .tc main_arg2) = R5 m c (Proc.devRef .tc main_arg2) :=
  after_of_forall_not_mem (b := (Proc.devRef .tc main_arg2)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_7 : R7 m c (Proc.devRef .tc main_arg2) = R6 m c (Proc.devRef .tc main_arg2) :=
  after_of_forall_not_mem (b := (Proc.devRef .tc main_arg2)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_8 : R8 m c (Proc.devRef .tc main_arg2) = R7 m c (Proc.devRef .tc main_arg2) :=
  after_of_forall_not_mem (b := (Proc.devRef .tc main_arg2)) _ _ (List.forall_iff_forall_mem.mp (by
    simp only [seg7, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg2_9 : R9 m c (Proc.devRef .tc main_arg2) = R8 m c (Proc.devRef .tc main_arg2) :=
  after_of_forall_not_mem (b := (Proc.devRef .tc main_arg2)) _ _ (List.forall_iff_forall_mem.mp (by
    simp only [seg8, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg2_9 : R9 m c (Proc.devRef .tc main_arg2) = R0 m c (Proc.devRef .tc main_arg2) :=
  (rkeep_arg2_9 m c).trans ((rkeep_arg2_8 m c).trans ((rkeep_arg2_7 m c).trans ((rkeep_arg2_6 m c).trans ((rkeep_arg2_5 m c).trans ((rkeep_arg2_4 m c).trans ((rkeep_arg2_3 m c).trans ((rkeep_arg2_2 m c).trans (rkeep_arg2_1 m c))))))))

theorem rkeep_arg7_1 : R1 m c (Proc.devRef .tc main_arg7) = R0 m c (Proc.devRef .tc main_arg7) :=
  after_of_forall_not_mem (b := (Proc.devRef .tc main_arg7)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_2 : R2 m c (Proc.devRef .tc main_arg7) = R1 m c (Proc.devRef .tc main_arg7) :=
  after_of_forall_not_mem (b := (Proc.devRef .tc main_arg7)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_3 : R3 m c (Proc.devRef .tc main_arg7) = R2 m c (Proc.devRef .tc main_arg7) :=
  after_of_forall_not_mem (b := (Proc.devRef .tc main_arg7)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_4 : R4 m c (Proc.devRef .tc main_arg7) = R3 m c (Proc.devRef .tc main_arg7) :=
  after_of_forall_not_mem (b := (Proc.devRef .tc main_arg7)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_5 : R5 m c (Proc.devRef .tc main_arg7) = R4 m c (Proc.devRef .tc main_arg7) :=
  after_of_forall_not_mem (b := (Proc.devRef .tc main_arg7)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_6 : R6 m c (Proc.devRef .tc main_arg7) = R5 m c (Proc.devRef .tc main_arg7) :=
  after_of_forall_not_mem (b := (Proc.devRef .tc main_arg7)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_7 : R7 m c (Proc.devRef .tc main_arg7) = R6 m c (Proc.devRef .tc main_arg7) :=
  after_of_forall_not_mem (b := (Proc.devRef .tc main_arg7)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_8 : R8 m c (Proc.devRef .tc main_arg7) = R7 m c (Proc.devRef .tc main_arg7) :=
  after_of_forall_not_mem (b := (Proc.devRef .tc main_arg7)) _ _ (List.forall_iff_forall_mem.mp (by
    simp only [seg7, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg7_9 : R9 m c (Proc.devRef .tc main_arg7) = R8 m c (Proc.devRef .tc main_arg7) :=
  after_of_forall_not_mem (b := (Proc.devRef .tc main_arg7)) _ _ (List.forall_iff_forall_mem.mp (by
    simp only [seg8, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg7_9 : R9 m c (Proc.devRef .tc main_arg7) = R0 m c (Proc.devRef .tc main_arg7) :=
  (rkeep_arg7_9 m c).trans ((rkeep_arg7_8 m c).trans ((rkeep_arg7_7 m c).trans ((rkeep_arg7_6 m c).trans ((rkeep_arg7_5 m c).trans ((rkeep_arg7_4 m c).trans ((rkeep_arg7_3 m c).trans ((rkeep_arg7_2 m c).trans (rkeep_arg7_1 m c))))))))

theorem rkeep_arg8_1 : R1 m c (Proc.devRef .tc main_arg8) = R0 m c (Proc.devRef .tc main_arg8) :=
  after_of_forall_not_mem (b := (Proc.devRef .tc main_arg8)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_2 : R2 m c (Proc.devRef .tc main_arg8) = R1 m c (Proc.devRef .tc main_arg8) :=
  after_of_forall_not_mem (b := (Proc.devRef .tc main_arg8)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_3 : R3 m c (Proc.devRef .tc main_arg8) = R2 m c (Proc.devRef .tc main_arg8) :=
  after_of_forall_not_mem (b := (Proc.devRef .tc main_arg8)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_4 : R4 m c (Proc.devRef .tc main_arg8) = R3 m c (Proc.devRef .tc main_arg8) :=
  after_of_forall_not_mem (b := (Proc.devRef .tc main_arg8)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_5 : R5 m c (Proc.devRef .tc main_arg8) = R4 m c (Proc.devRef .tc main_arg8) :=
  after_of_forall_not_mem (b := (Proc.devRef .tc main_arg8)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_6 : R6 m c (Proc.devRef .tc main_arg8) = R5 m c (Proc.devRef .tc main_arg8) :=
  after_of_forall_not_mem (b := (Proc.devRef .tc main_arg8)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_7 : R7 m c (Proc.devRef .tc main_arg8) = R6 m c (Proc.devRef .tc main_arg8) :=
  after_of_forall_not_mem (b := (Proc.devRef .tc main_arg8)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_8 : R8 m c (Proc.devRef .tc main_arg8) = R7 m c (Proc.devRef .tc main_arg8) :=
  after_of_forall_not_mem (b := (Proc.devRef .tc main_arg8)) _ _ (List.forall_iff_forall_mem.mp (by
    simp only [seg7, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg8_9 : R9 m c (Proc.devRef .tc main_arg8) = R8 m c (Proc.devRef .tc main_arg8) :=
  after_of_forall_not_mem (b := (Proc.devRef .tc main_arg8)) _ _ (List.forall_iff_forall_mem.mp (by
    simp only [seg8, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg8_9 : R9 m c (Proc.devRef .tc main_arg8) = R0 m c (Proc.devRef .tc main_arg8) :=
  (rkeep_arg8_9 m c).trans ((rkeep_arg8_8 m c).trans ((rkeep_arg8_7 m c).trans ((rkeep_arg8_6 m c).trans ((rkeep_arg8_5 m c).trans ((rkeep_arg8_4 m c).trans ((rkeep_arg8_3 m c).trans ((rkeep_arg8_2 m c).trans (rkeep_arg8_1 m c))))))))

theorem rkeep_arg9_1 : R1 m c (Proc.devRef .tc main_arg9) = R0 m c (Proc.devRef .tc main_arg9) :=
  after_of_forall_not_mem (b := (Proc.devRef .tc main_arg9)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_2 : R2 m c (Proc.devRef .tc main_arg9) = R1 m c (Proc.devRef .tc main_arg9) :=
  after_of_forall_not_mem (b := (Proc.devRef .tc main_arg9)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_3 : R3 m c (Proc.devRef .tc main_arg9) = R2 m c (Proc.devRef .tc main_arg9) :=
  after_of_forall_not_mem (b := (Proc.devRef .tc main_arg9)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_4 : R4 m c (Proc.devRef .tc main_arg9) = R3 m c (Proc.devRef .tc main_arg9) :=
  after_of_forall_not_mem (b := (Proc.devRef .tc main_arg9)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_5 : R5 m c (Proc.devRef .tc main_arg9) = R4 m c (Proc.devRef .tc main_arg9) :=
  after_of_forall_not_mem (b := (Proc.devRef .tc main_arg9)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_6 : R6 m c (Proc.devRef .tc main_arg9) = R5 m c (Proc.devRef .tc main_arg9) :=
  after_of_forall_not_mem (b := (Proc.devRef .tc main_arg9)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_7 : R7 m c (Proc.devRef .tc main_arg9) = R6 m c (Proc.devRef .tc main_arg9) :=
  after_of_forall_not_mem (b := (Proc.devRef .tc main_arg9)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_8 : R8 m c (Proc.devRef .tc main_arg9) = R7 m c (Proc.devRef .tc main_arg9) :=
  after_of_forall_not_mem (b := (Proc.devRef .tc main_arg9)) _ _ (List.forall_iff_forall_mem.mp (by
    simp only [seg7, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg9_9 : R9 m c (Proc.devRef .tc main_arg9) = R8 m c (Proc.devRef .tc main_arg9) :=
  after_of_forall_not_mem (b := (Proc.devRef .tc main_arg9)) _ _ (List.forall_iff_forall_mem.mp (by
    simp only [seg8, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg9_9 : R9 m c (Proc.devRef .tc main_arg9) = R0 m c (Proc.devRef .tc main_arg9) :=
  (rkeep_arg9_9 m c).trans ((rkeep_arg9_8 m c).trans ((rkeep_arg9_7 m c).trans ((rkeep_arg9_6 m c).trans ((rkeep_arg9_5 m c).trans ((rkeep_arg9_4 m c).trans ((rkeep_arg9_3 m c).trans ((rkeep_arg9_2 m c).trans (rkeep_arg9_1 m c))))))))

theorem rkeep_arg10_1 : R1 m c (Proc.devRef .tc main_arg10) = R0 m c (Proc.devRef .tc main_arg10) :=
  after_of_forall_not_mem (b := (Proc.devRef .tc main_arg10)) _ _ (List.forall_iff_forall_mem.mp (by
    simp only [seg0, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_2 : R2 m c (Proc.devRef .tc main_arg10) = R1 m c (Proc.devRef .tc main_arg10) :=
  after_of_forall_not_mem (b := (Proc.devRef .tc main_arg10)) _ _ (List.forall_iff_forall_mem.mp (by
    simp only [seg1, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_3 : R3 m c (Proc.devRef .tc main_arg10) = R2 m c (Proc.devRef .tc main_arg10) :=
  after_of_forall_not_mem (b := (Proc.devRef .tc main_arg10)) _ _ (List.forall_iff_forall_mem.mp (by
    simp only [seg2, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_4 : R4 m c (Proc.devRef .tc main_arg10) = R3 m c (Proc.devRef .tc main_arg10) :=
  after_of_forall_not_mem (b := (Proc.devRef .tc main_arg10)) _ _ (List.forall_iff_forall_mem.mp (by
    simp only [seg3, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_5 : R5 m c (Proc.devRef .tc main_arg10) = R4 m c (Proc.devRef .tc main_arg10) :=
  after_of_forall_not_mem (b := (Proc.devRef .tc main_arg10)) _ _ (List.forall_iff_forall_mem.mp (by
    simp only [seg4, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_6 : R6 m c (Proc.devRef .tc main_arg10) = R5 m c (Proc.devRef .tc main_arg10) :=
  after_of_forall_not_mem (b := (Proc.devRef .tc main_arg10)) _ _ (List.forall_iff_forall_mem.mp (by
    simp only [seg5, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_7 : R7 m c (Proc.devRef .tc main_arg10) = R6 m c (Proc.devRef .tc main_arg10) :=
  after_of_forall_not_mem (b := (Proc.devRef .tc main_arg10)) _ _ (List.forall_iff_forall_mem.mp (by
    simp only [seg6, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_8 : R8 m c (Proc.devRef .tc main_arg10) = R7 m c (Proc.devRef .tc main_arg10) :=
  after_of_forall_not_mem (b := (Proc.devRef .tc main_arg10)) _ _ (List.forall_iff_forall_mem.mp (by
    simp only [seg7, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rkeep_arg10_9 : R9 m c (Proc.devRef .tc main_arg10) = R8 m c (Proc.devRef .tc main_arg10) :=
  after_of_forall_not_mem (b := (Proc.devRef .tc main_arg10)) _ _ (List.forall_iff_forall_mem.mp (by
    simp only [seg8, List.Forall, TRef.nullary, TRef.unary, TRef.binary, nullary_writes, unary_writes, binary_writes, ternary_writes, quaternary_writes, reshape_writes, binaryIndexed_writes, Finset.mem_singleton]
    repeat' apply And.intro
    all_goals exact devRef_ne_of_ne (by decide)))

theorem rat_arg10_9 : R9 m c (Proc.devRef .tc main_arg10) = R0 m c (Proc.devRef .tc main_arg10) :=
  (rkeep_arg10_9 m c).trans ((rkeep_arg10_8 m c).trans ((rkeep_arg10_7 m c).trans ((rkeep_arg10_6 m c).trans ((rkeep_arg10_5 m c).trans ((rkeep_arg10_4 m c).trans ((rkeep_arg10_3 m c).trans ((rkeep_arg10_2 m c).trans (rkeep_arg10_1 m c))))))))

/-! ## Each stage's buffers as the stage functions of the arguments -/

set_option maxHeartbeats 4000000 in
theorem r_v1 : R1 m c (Proc.devRef .tc main_v1) = val_main_v1 (F := F) (m ((c.tc : Thread nD τ).loc main_arg1)) := by
  show after seg0 (R0 m c) (Proc.devRef .tc main_v1) = _
  after_results_simp
  rfl

set_option maxHeartbeats 4000000 in
theorem r_v3 : R1 m c (Proc.devRef .tc main_v3) = val_main_v3 (F := F) (m ((c.tc : Thread nD τ).loc main_arg1)) := by
  show after seg0 (R0 m c) (Proc.devRef .tc main_v3) = _
  after_results_simp
  rfl

set_option maxHeartbeats 4000000 in
theorem r_v10 : R1 m c (Proc.devRef .tc main_v10) = val_main_v10 (F := F) (m ((c.tc : Thread nD τ).loc main_arg1)) := by
  show after seg0 (R0 m c) (Proc.devRef .tc main_v10) = _
  after_results_simp
  rfl

set_option maxHeartbeats 4000000 in
theorem r_v14 : R1 m c (Proc.devRef .tc main_v14) = val_main_v14 (F := F) (m ((c.tc : Thread nD τ).loc main_arg4)) := by
  show after seg0 (R0 m c) (Proc.devRef .tc main_v14) = _
  after_results_simp
  rfl

set_option maxHeartbeats 4000000 in
theorem r_v15 : R1 m c (Proc.devRef .tc main_v15) = val_main_v15 (F := F) (m ((c.tc : Thread nD τ).loc main_arg0)) (m ((c.tc : Thread nD τ).loc main_arg3)) := by
  show after seg0 (R0 m c) (Proc.devRef .tc main_v15) = _
  after_results_simp
  rfl

set_option maxHeartbeats 4000000 in
theorem r_v51 : R2 m c (Proc.devRef .tc main_v51) = val_main_v51 (F := F) (m ((c.tc : Thread nD τ).loc main_arg0)) (m ((c.tc : Thread nD τ).loc main_arg1)) (m ((c.tc : Thread nD τ).loc main_arg3)) (m ((c.tc : Thread nD τ).loc main_arg4)) := by
  show after seg1 (R1 m c) (Proc.devRef .tc main_v51) = _
  after_results_simp
  rw [r_v1 m c, r_v3 m c, r_v10 m c, r_v14 m c, r_v15 m c]
  rfl

set_option maxHeartbeats 4000000 in
theorem r_v81 : R3 m c (Proc.devRef .tc main_v81) = val_main_v81 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after seg2 (R2 m c) (Proc.devRef .tc main_v81) = _
  after_results_simp
  rw [r_v51 m c, rat_arg5_2 m c, rat_arg6_2 m c]
  rfl

set_option maxHeartbeats 4000000 in
theorem r_v85 : R4 m c (Proc.devRef .tc main_v85) = val_main_v85 (F := F) (m ((c.tc : Thread nD τ).loc main_arg4)) := by
  show after seg3 (R3 m c) (Proc.devRef .tc main_v85) = _
  after_results_simp
  rw [rat_arg4_3 m c]
  rfl

set_option maxHeartbeats 4000000 in
theorem r_v86 : R4 m c (Proc.devRef .tc main_v86) = val_main_v86 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after seg3 (R3 m c) (Proc.devRef .tc main_v86) = _
  after_results_simp
  rw [r_v81 m c, rat_arg3_3 m c]
  rfl

set_option maxHeartbeats 4000000 in
theorem r_v122 : R5 m c (Proc.devRef .tc main_v122) = val_main_v122 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after seg4 (R4 m c) (Proc.devRef .tc main_v122) = _
  after_results_simp
  rw [r_v86 m c, r_v85 m c, rat_v1_4 m c, rat_v3_4 m c, rat_v10_4 m c, r_v1 m c, r_v3 m c, r_v10 m c]
  rfl

set_option maxHeartbeats 4000000 in
theorem r_v152 : R6 m c (Proc.devRef .tc main_v152) = val_main_v152 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after seg5 (R5 m c) (Proc.devRef .tc main_v152) = _
  after_results_simp
  rw [r_v122 m c, rat_arg5_5 m c, rat_arg6_5 m c]
  rfl

set_option maxHeartbeats 4000000 in
theorem r_v156 : R7 m c (Proc.devRef .tc main_v156) = val_main_v156 (F := F) (m ((c.tc : Thread nD τ).loc main_arg4)) := by
  show after seg6 (R6 m c) (Proc.devRef .tc main_v156) = _
  after_results_simp
  rw [rat_arg4_6 m c]
  rfl

set_option maxHeartbeats 4000000 in
theorem r_v157 : R7 m c (Proc.devRef .tc main_v157) = val_main_v157 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after seg6 (R6 m c) (Proc.devRef .tc main_v157) = _
  after_results_simp
  rw [r_v152 m c, rat_arg3_6 m c]
  rfl

set_option maxHeartbeats 4000000 in
theorem r_v193 : R8 m c (Proc.devRef .tc main_v193) = val_main_v193 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after seg7 (R7 m c) (Proc.devRef .tc main_v193) = _
  after_results_simp
  rw [r_v157 m c, r_v156 m c, rat_v1_7 m c, rat_v3_7 m c, rat_v10_7 m c, r_v1 m c, r_v3 m c, r_v10 m c]
  rfl

set_option maxHeartbeats 4000000 in
theorem r_v223 : R9 m c (Proc.devRef .tc main_v223) = val_main_v223 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after seg8 (R8 m c) (Proc.devRef .tc main_v223) = _
  after_results_simp
  rw [r_v193 m c, rat_arg5_8 m c, rat_arg6_8 m c]
  rfl

set_option maxHeartbeats 4000000 in
theorem r_v244 : R10 m c (Proc.devRef .tc main_v244) = val_main_v244 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after seg9 (R9 m c) (Proc.devRef .tc main_v244) = _
  after_results_simp
  rw [r_v223 m c, rat_arg2_9 m c, rat_arg7_9 m c, rat_arg8_9 m c, rat_arg9_9 m c, rat_arg10_9 m c]
  rfl

set_option maxHeartbeats 4000000 in
/-- Every weakly fair execution of the reference terminates with its result the last stage function of the arguments
    and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v244) = val_main_v244 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v244).trans ((congrFun (after_ops m c) _).trans (r_v244 m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.Staged

end
-- ==== Proof.RefReal.lean ====
/-
  Realness through the reference's edge aggregation.

  The node degrees are counts plus one, so their inverse square roots are real; a gather re-reads entries, a
  scatter-add sums entries, and the rest is entrywise arithmetic: if the product rows (F := Ideal) and the bias are real, so is
  every entry of the aggregated array. Slices of real arrays are real.
-/
import proofs.«111193_j89515708383972_1_alg».proof.Proof.RefLayer
import proofs.«111193_j89515708383972_1_alg».proof.Proof.RealLaws

noncomputable section

namespace Cert.ReferenceIdeal.Layer

open Idealize.ShloMosaic Cert.ReferenceIdeal Cert.ReferenceIdeal.ReadP Cert.ReferenceIdeal.Facts₀ Cert.ReferenceIdeal.Facts Cert.Gcn

/-- A real 256-vector spread over the rows is real. -/
theorem allReal_rows {v : FVec Ideal S256 .f32} (hv : AllReal v) : AllReal (rows (F := Ideal) v) := by
  unfold rows
  exact AllReal.broadcastInDim (AllReal.broadcastInDim hv _ _ _) _ _ _

/-- The inverse square roots of the degrees are real: a degree is a count plus one. -/
theorem allReal_dis (x1 : IVec S2x320000 32) : AllReal (val_main_v10 (F := Ideal) x1) := by
  unfold val_main_v10 val_main_v9 val_main_v7
  refine allReal_rsqrt_degree _ _ _ _ _ (fun i => ?_) (fun j => ?_) (fun i => ?_)
  · show Ideal.ofBits .f32 0x00000000#32 = 0
    exact Ideal.ofBits_zero_f32
  · show Ideal.ofBits .f32 0x3F800000#32 = 1
    rw [ofBits_one]; rfl
  · show Ideal.ofBits .f32 0x3F800000#32 = 1
    rw [ofBits_one]; rfl

/-- The aggregation of real product rows with a real bias is real. -/
theorem allReal_agg {hl : FVec Ideal S20000x256 .f32} (x1 : IVec S2x320000 32) {bias : FVec Ideal S256 .f32}
    (hhl : AllReal hl) (hb : AllReal bias) : AllReal (agg (F := Ideal) hl x1 bias) := by
  have hd := allReal_dis x1
  unfold agg
  refine AllReal.addf (AllReal.addf (AllReal.scatterAdd _ _ ?_ (AllReal.mulf (AllReal.gather hhl _ _) ?_)) (AllReal.mulf hhl ?_)) (allReal_rows hb)
  · unfold val_main_v41 val_main_cst_7
    exact AllReal.broadcastInDim (AllReal.constant_zero _) _ _ _
  · unfold val_main_v39 val_main_v31 val_main_v30 val_main_v22 val_main_v29
    exact AllReal.broadcastInDim (AllReal.broadcastInDim (AllReal.mulf (AllReal.gather hd _ _) (AllReal.gather hd _ _)) _ _ _) _ _ _
  · unfold val_main_v46 val_main_v45 val_main_v44
    exact AllReal.broadcastInDim (AllReal.broadcastInDim (AllReal.mulf hd hd) _ _ _) _ _ _

variable {x3 : FVec Ideal S3x256x256 .f32} {x4 x5 x6 : FVec Ideal S3x256 .f32}

/-- Each layer's weight matrix, a slice of the real weights, is real. -/
theorem allReal_w1 (h : AllReal x3) : AllReal (val_main_v12 (F := Ideal) x3) := by
  unfold val_main_v12 val_main_v11; exact AllReal.shapeCast (AllReal.extractStridedSlice h _ _ _) _ _
theorem allReal_w2 (h : AllReal x3) : AllReal (val_main_v83 (F := Ideal) x3) := by
  unfold val_main_v83 val_main_v82; exact AllReal.shapeCast (AllReal.extractStridedSlice h _ _ _) _ _
theorem allReal_w3 (h : AllReal x3) : AllReal (val_main_v154 (F := Ideal) x3) := by
  unfold val_main_v154 val_main_v153; exact AllReal.shapeCast (AllReal.extractStridedSlice h _ _ _) _ _
/-- Each layer's bias, scale and shift vector, a slice of a real array, is real. -/
theorem allReal_b1 (h : AllReal x4) : AllReal (val_main_v14 (F := Ideal) x4) := by
  unfold val_main_v14 val_main_v13; exact AllReal.shapeCast (AllReal.extractStridedSlice h _ _ _) _ _
theorem allReal_b2 (h : AllReal x4) : AllReal (val_main_v85 (F := Ideal) x4) := by
  unfold val_main_v85 val_main_v84; exact AllReal.shapeCast (AllReal.extractStridedSlice h _ _ _) _ _
theorem allReal_b3 (h : AllReal x4) : AllReal (val_main_v156 (F := Ideal) x4) := by
  unfold val_main_v156 val_main_v155; exact AllReal.shapeCast (AllReal.extractStridedSlice h _ _ _) _ _
theorem allReal_g1 (h : AllReal x5) : AllReal (val_main_v53 (F := Ideal) x5) := by
  unfold val_main_v53 val_main_v52; exact AllReal.shapeCast (AllReal.extractStridedSlice h _ _ _) _ _
theorem allReal_g2 (h : AllReal x5) : AllReal (val_main_v124 (F := Ideal) x5) := by
  unfold val_main_v124 val_main_v123; exact AllReal.shapeCast (AllReal.extractStridedSlice h _ _ _) _ _
theorem allReal_g3 (h : AllReal x5) : AllReal (val_main_v195 (F := Ideal) x5) := by
  unfold val_main_v195 val_main_v194; exact AllReal.shapeCast (AllReal.extractStridedSlice h _ _ _) _ _
theorem allReal_be1 (h : AllReal x6) : AllReal (val_main_v55 (F := Ideal) x6) := by
  unfold val_main_v55 val_main_v54; exact AllReal.shapeCast (AllReal.extractStridedSlice h _ _ _) _ _
theorem allReal_be2 (h : AllReal x6) : AllReal (val_main_v126 (F := Ideal) x6) := by
  unfold val_main_v126 val_main_v125; exact AllReal.shapeCast (AllReal.extractStridedSlice h _ _ _) _ _
theorem allReal_be3 (h : AllReal x6) : AllReal (val_main_v197 (F := Ideal) x6) := by
  unfold val_main_v197 val_main_v196; exact AllReal.shapeCast (AllReal.extractStridedSlice h _ _ _) _ _

end Cert.ReferenceIdeal.Layer

end
-- ==== Proof.RefRealChain.lean ====
/-
  Every aggregated array of the reference is real when the float arguments are.

  Layer by layer: a dense product of real arrays is real, the edge aggregation keeps realness, and the
  normalisation of a real array with real scale and shift is real (its variance is a nonnegative real).
-/
import proofs.«111193_j89515708383972_1_alg».proof.Proof.RefReal
import proofs.«111193_j89515708383972_1_alg».proof.Proof.RefDot
import proofs.«111193_j89515708383972_1_alg».proof.Proof.LayerLaw

noncomputable section

namespace Cert.ReferenceIdeal.Layer

open Idealize.ShloMosaic Cert.ReferenceIdeal Cert.ReferenceIdeal.ReadP Cert.Gcn

variable (x0 : FVec Ideal S20000x256 .f32) (x1 : IVec S2x320000 32)
  (x3 : FVec Ideal S3x256x256 .f32) (x4 x5 x6 : FVec Ideal S3x256 .f32)

/-- The three aggregated arrays are real. -/
theorem allReal_aggs (h0 : AllReal x0) (h3 : AllReal x3) (h4 : AllReal x4) (h5 : AllReal x5) (h6 : AllReal x6) :
    AllReal (val_main_v51 (F := Ideal) x0 x1 x3 x4) ∧ AllReal (val_main_v122 (F := Ideal) x0 x1 x3 x4 x5 x6)
      ∧ AllReal (val_main_v193 (F := Ideal) x0 x1 x3 x4 x5 x6) := by
  have l1 : AllReal (val_main_v15 (F := Ideal) x0 x3) := by
    show AllReal (Host.dotGeneral dot_S20000x256_S256x256_S20000x256_1_0_0_1_n_n none x0 (val_main_v12 (F := Ideal) x3))
    rw [dot_eq_lin]; exact allReal_lin h0 (allReal_w1 h3)
  have a1 : AllReal (val_main_v51 (F := Ideal) x0 x1 x3 x4) := by
    rw [agg1]; exact allReal_agg x1 l1 (allReal_b1 h4)
  have o1 : AllReal (val_main_v81 (F := Ideal) x0 x1 x3 x4 x5 x6) := by
    rw [out1]; exact Cert.Bridge.allReal_norm _ _ _ a1 (allReal_g1 h5) (allReal_be1 h6)
  have l2 : AllReal (val_main_v86 (F := Ideal) x0 x1 x3 x4 x5 x6) := by
    rw [lin2, dot_eq_lin]; exact allReal_lin o1 (allReal_w2 h3)
  have a2 : AllReal (val_main_v122 (F := Ideal) x0 x1 x3 x4 x5 x6) := by
    rw [agg2]; exact allReal_agg x1 l2 (allReal_b2 h4)
  have o2 : AllReal (val_main_v152 (F := Ideal) x0 x1 x3 x4 x5 x6) := by
    rw [out2]; exact Cert.Bridge.allReal_norm _ _ _ a2 (allReal_g2 h5) (allReal_be2 h6)
  have l3 : AllReal (val_main_v157 (F := Ideal) x0 x1 x3 x4 x5 x6) := by
    rw [lin3, dot_eq_lin]; exact allReal_lin o2 (allReal_w3 h3)
  have a3 : AllReal (val_main_v193 (F := Ideal) x0 x1 x3 x4 x5 x6) := by
    rw [agg3]; exact allReal_agg x1 l3 (allReal_b3 h4)
  exact ⟨a1, a2, a3⟩

end Cert.ReferenceIdeal.Layer

end
-- ==== Proof.PreReal.lean ====
/-
  The precondition read back: the printed predicate is a conjunction of nine tests "every entry x of the
  array has |x| < +inf", one per float argument. On the extended reals |x| = max x (-x) and the pattern
  0x7F800000 denotes the top element, so max x (-x) < top holds exactly when x is neither infinity, that is,
  when x is a real number. A conjunction of single-bit words that is 1 has every conjunct 1, and a reduction by
  "and" over all axes that is 1 met a 1 at every index.
-/
import proofs.«111193_j89515708383972_1_alg».proof.Defs
import proofs.«111193_j89515708383972_1_alg».proof.Proof.Gen.Pre_finite_inputs
import proofs.«111193_j89515708383972_1_alg».proof.Proof.Spec
import Idealize.ShloMosaic.Lib.ReduceAll

noncomputable section

namespace Cert.Gcn

open Idealize.ShloMosaic Idealize.ShloMosaic.ValueIdx Cert.Pre_finite_inputs

/-- The rank-0 shape has one index. -/
instance subsingleton_scalar_idx : Subsingleton S_.Idx := ⟨fun a b => funext fun d => d.elim0⟩

/-- An extended real whose absolute value max x (-x) is below the top element is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The element test of the predicate: the comparison word of |x| < +inf is 1 only at a real number. -/
theorem isReal_of_cmp (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine isReal_of_abs_lt_top x ?_
  by_contra hn
  simp [Ideal.cmp, hn] at h

/-- One conjunct of the predicate: all(|x| < +inf) being 1 makes every entry of the array a real number. -/
theorem allReal_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
      (cmpf .olt (Host.absf x) (broadcastInDim s ![] bc (constant (F := Ideal) S_ .f32 0x7F800000#32)))
      (constantI S_ 1 1#1) hr hu ix0 = 1#1) : AllReal x := by
  intro i
  have hi := Host.reduce_andi_all _ _ hr hu ix0 e i
  exact isReal_of_cmp (x i) hi

/-- The precondition gives: the node features, the three weight matrices and the three rows of biases,
    scales and shifts are arrays of real numbers. -/
theorem real_of_pre [Cert.Pre_finite_inputs.Facts]
    (x0 : FVec Ideal S20000x256 .f32) (x1 : IVec S2x320000 32) (x2 : IVec S20000 32)
    (x3 : FVec Ideal S3x256x256 .f32) (x4 : FVec Ideal S3x256 .f32) (x5 : FVec Ideal S3x256 .f32)
    (x6 : FVec Ideal S3x256 .f32) (x7 : FVec Ideal S256x128 .f32) (x8 : FVec Ideal S128 .f32)
    (x9 : FVec Ideal S128x10 .f32) (x10 : FVec Ideal S10 .f32)
    (h : Cert.Pre_finite_inputs.fn (F := Ideal) x0 x1 x2 x3 x4 x5 x6 x7 x8 x9 x10 = fun _ => 1#1) :
    AllReal x0 ∧ AllReal x3 ∧ AllReal x4 ∧ AllReal x5 ∧ AllReal x6 := by
  have h43 := congrFun h ix0
  dsimp only [Cert.Pre_finite_inputs.fn, Cert.Pre_finite_inputs.fn_part1, Cert.Pre_finite_inputs.fn_part2,
    Idealize.ShloMosaic.andi] at h43
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allReal_of_all x0 _ _ _ h3, allReal_of_all x3 _ _ _ h7, allReal_of_all x4 _ _ _ h12,
    allReal_of_all x5 _ _ _ h17, allReal_of_all x6 _ _ _ h22⟩

open Idealize.SL.Sem in
/-- The same at the ideal kernel's argument arrays on a device, from the claim's precondition. -/
theorem real_of_pre_kernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (s := S20000x256) (m ((c.tc : Thread Cert.KernelIdeal.nD Cert.KernelIdeal.τ).loc Cert.KernelIdeal.main_arg0))
    ∧ AllReal (s := S3x256x256) (m ((c.tc : Thread Cert.KernelIdeal.nD Cert.KernelIdeal.τ).loc Cert.KernelIdeal.main_arg3))
    ∧ AllReal (s := S3x256) (m ((c.tc : Thread Cert.KernelIdeal.nD Cert.KernelIdeal.τ).loc Cert.KernelIdeal.main_arg4))
    ∧ AllReal (s := S3x256) (m ((c.tc : Thread Cert.KernelIdeal.nD Cert.KernelIdeal.τ).loc Cert.KernelIdeal.main_arg5))
    ∧ AllReal (s := S3x256) (m ((c.tc : Thread Cert.KernelIdeal.nD Cert.KernelIdeal.τ).loc Cert.KernelIdeal.main_arg6)) :=
  real_of_pre _ _ _ _ _ _ _ _ _ _ _ (hpre c)

end Cert.Gcn

end
-- ==== Proof.lean ====
/-
  The certificate: a three-layer graph-convolution network with batch normalisation, a mean pooling by graph and a
  two-layer head, as ten TensorCore regions among host operations, against its plain reference.

  On the extended reals the two programs compute the same function of the arguments. The dense products are the same
  sums (a change of float format is the identity, and the kernel's row blocks tile the array); the edge aggregation
  and the pooling are the same host operations on both sides; a column's sum accumulated block by block is its sum;
  and the kernel's variance, the mean of squares minus the squared mean, is the reference's mean of squared centred
  entries because every entry is a real number — which holds layer after layer since the float arguments are finite,
  the degrees are at least one, and each variance is nonnegative, so that every inverse square root is real.
  The three frames are the generated frame proofs of the two kernel programs and the reference's straight-line run;
  the idealization rewrote nothing, so its claim is trivial.
-/
import proofs.«111193_j89515708383972_1_alg».proof.Defs
import proofs.«111193_j89515708383972_1_alg».proof.Proof.Gen.Kernel
import proofs.«111193_j89515708383972_1_alg».proof.Proof.Gen.Kernel.Frame
import proofs.«111193_j89515708383972_1_alg».proof.Proof.Gen.KernelIdeal
import proofs.«111193_j89515708383972_1_alg».proof.Proof.Gen.KernelIdeal.Frame
import proofs.«111193_j89515708383972_1_alg».proof.Proof.Gen.ReferenceIdeal
import proofs.«111193_j89515708383972_1_alg».proof.Proof.Gen.Pre_finite_inputs
import proofs.«111193_j89515708383972_1_alg».proof.Proof.KernelRun
import proofs.«111193_j89515708383972_1_alg».proof.Proof.KernelChain
import proofs.«111193_j89515708383972_1_alg».proof.Proof.RefRun
import proofs.«111193_j89515708383972_1_alg».proof.Proof.RefRealChain
import proofs.«111193_j89515708383972_1_alg».proof.Proof.PreReal
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- Both idealized programs end at the reference's last stage function of the (agreeing) arguments. -/
theorem algebraic : Cert.algebraic_KernelIdeal_ReferenceIdeal := by
  intro m ρ m' ρ' hpre hagree
  refine ⟨fun c => Cert.ReferenceIdeal.ReadP.val_main_v244 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩) (Cert.KernelIdeal.Stages.run_result m ρ)
    obtain ⟨h0, h3, h4, h5, h6⟩ := Cert.Gcn.real_of_pre_kernelIdeal m hpre c
    obtain ⟨a1, a2, a3⟩ := Cert.ReferenceIdeal.Layer.allReal_aggs _ (m ((c.tc : Thread Cert.KernelIdeal.nD Cert.KernelIdeal.τ).loc Cert.KernelIdeal.main_arg1)) _ _ _ _ h0 h3 h4 h5 h6
    exact Cert.KernelIdeal.Stages.result_stage m ρ c a1 a2 a3
  · refine (θ_run Cert.ReferenceIdeal.defs _ _).mono (fun r h c => ⟨(h c).1.trans ?_, (h c).2⟩) (Cert.ReferenceIdeal.Staged.run (F := Ideal) m' ρ')
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
